-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v344_1)) (v1 : (c : Dev Cert.KernelIdeal.nD) → Buf (Elt Ideal) ((c.tc : Thread Cert.KernelIdeal.nD Cert.KernelIdeal.τ).loc Cert.KernelIdeal.main_v345_1)) (v2 : (c : Dev Cert.KernelIdeal.nD) → Buf (Elt Ideal) ((c.tc : Thread Cert.KernelIdeal.nD Cert.KernelIdeal.τ).loc Cert.KernelIdeal.main_v346_1)) (v3 : (c : Dev Cert.KernelIdeal.nD) → Buf (Elt Ideal) ((c.tc : Thread Cert.KernelIdeal.nD Cert.KernelIdeal.τ).loc Cert.KernelIdeal.main_v347_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v344_1) = v0 c
          ∧ r.2.mem ((c.tc : Thread Cert.KernelIdeal.nD Cert.KernelIdeal.τ).loc Cert.KernelIdeal.main_v345_1) = v1 c
          ∧ r.2.mem ((c.tc : Thread Cert.KernelIdeal.nD Cert.KernelIdeal.τ).loc Cert.KernelIdeal.main_v346_1) = v2 c
          ∧ r.2.mem ((c.tc : Thread Cert.KernelIdeal.nD Cert.KernelIdeal.τ).loc Cert.KernelIdeal.main_v347_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v518) = v0 c
          ∧ r.2.mem ((c.tc : Thread Cert.ReferenceIdeal.nD Cert.ReferenceIdeal.τ).loc Cert.ReferenceIdeal.main_v521) = v1 c
          ∧ r.2.mem ((c.tc : Thread Cert.ReferenceIdeal.nD Cert.ReferenceIdeal.τ).loc Cert.ReferenceIdeal.main_v524) = v2 c
          ∧ r.2.mem ((c.tc : Thread Cert.ReferenceIdeal.nD Cert.ReferenceIdeal.τ).loc Cert.ReferenceIdeal.main_v527) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S20000x128 : Shape := ⟨2, ![20000, 128]⟩
abbrev S5000x128 : Shape := ⟨2, ![5000, 128]⟩
abbrev S1500000 : Shape := ⟨1, ![1500000]⟩
abbrev S800000 : Shape := ⟨1, ![800000]⟩
abbrev S400000 : Shape := ⟨1, ![400000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S20000x128 : S_.BroadcastsInDim S20000x128 (![] : Fin 0 → Fin S20000x128.rank)
  reducesTo_S20000x128_S_d0_1 : S20000x128.ReducesTo [0, 1] S_
  bcast_S_S5000x128 : S_.BroadcastsInDim S5000x128 (![] : Fin 0 → Fin S5000x128.rank)
  reducesTo_S5000x128_S_d0_1 : S5000x128.ReducesTo [0, 1] S_

variable [Facts]

def fn_part1 {F : FTy → Type} [FloatOps F] (main_v13 : IVec S_ 1) (main_v16 : IVec S5000x128 1) : IVec S_ 1 :=
  let main_c_5 : IVec S_ 1 := constantI S_ 1 1#1
  let main_v17 : IVec S_ 1 := (fun x v => Host.reduce IntOp.andi x v reducesTo_S5000x128_S_d0_1 h_S_) main_v16 main_c_5
  let main_v18 : IVec S_ 1 := andi main_v13 main_v17
  main_v18

def fn {F : FTy → Type} [FloatOps F] (main_arg0 : FVec F S200000x128 .f32) (main_arg1 : FVec F S100000x128 .f32) (main_arg2 : FVec F S20000x128 .f32) (main_arg3 : FVec F S5000x128 .f32) (main_arg4 : IVec S1500000 32) (main_arg5 : IVec S1500000 32) (main_arg6 : IVec S1500000 32) (main_arg7 : IVec S1500000 32) (main_arg8 : IVec S800000 32) (main_arg9 : IVec S800000 32) (main_arg10 : IVec S800000 32) (main_arg11 : IVec S800000 32) (main_arg12 : IVec S800000 32) (main_arg13 : IVec S800000 32) (main_arg14 : IVec S800000 32) (main_arg15 : IVec S800000 32) (main_arg16 : IVec S400000 32) (main_arg17 : IVec S400000 32) (main_arg18 : IVec S400000 32) (main_arg19 : IVec S400000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S20000x128 .f32 := Host.absf main_arg2
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S5000x128 .f32 := Host.absf main_arg3
  let main_cst_4 : FVec F S_ .f32 := constant S_ .f32 0x7F800000#32
  let main_v15 : FVec F S5000x128 .f32 := broadcastInDim S5000x128 ![] bcast_S_S5000x128 main_cst_4
  let main_v16 : IVec S5000x128 1 := cmpf .olt main_v14 main_v15
  fn_part1 (F := F) main_v13 main_v16
-- ==== Kernel.lean ====
abbrev S200000x128 : Shape := ⟨2, ![200000, 128]⟩
abbrev S100000x128 : Shape := ⟨2, ![100000, 128]⟩
abbrev S20000x128 : Shape := ⟨2, ![20000, 128]⟩
abbrev S5000x128 : Shape := ⟨2, ![5000, 128]⟩
abbrev S1500000 : Shape := ⟨1, ![1500000]⟩
abbrev S800000 : Shape := ⟨1, ![800000]⟩
abbrev S400000 : Shape := ⟨1, ![400000]⟩
abbrev S_ : Shape := ⟨0, ![]⟩
abbrev S200000 : Shape := ⟨1, ![200000]⟩
abbrev S1500000x1 : Shape := ⟨2, ![1500000, 1]⟩
abbrev S200000x1 : Shape := ⟨2, ![200000, 1]⟩
abbrev S800000x1 : Shape := ⟨2, ![800000, 1]⟩
abbrev S100000 : Shape := ⟨1, ![100000]⟩
abbrev S100000x1 : Shape := ⟨2, ![100000, 1]⟩
abbrev S20000 : Shape := ⟨1, ![20000]⟩
abbrev S20000x1 : Shape := ⟨2, ![20000, 1]⟩
abbrev S400000x1 : Shape := ⟨2, ![400000, 1]⟩
abbrev S5000 : Shape := ⟨1, ![5000]⟩
abbrev S5000x1 : Shape := ⟨2, ![5000, 1]⟩
abbrev S100000x64 : Shape := ⟨2, ![100000, 64]⟩
abbrev S1500000x64 : Shape := ⟨2, ![1500000, 64]⟩
abbrev S200000x64 : Shape := ⟨2, ![200000, 64]⟩
abbrev S20000x64 : Shape := ⟨2, ![20000, 64]⟩
abbrev S800000x64 : Shape := ⟨2, ![800000, 64]⟩
abbrev S5000x64 : Shape := ⟨2, ![5000, 64]⟩
abbrev S400000x64 : Shape := ⟨2, ![400000, 64]⟩
abbrev S4000x64 : Shape := ⟨2, ![4000, 64]⟩
abbrev S4000x1 : Shape := ⟨2, ![4000, 1]⟩
abbrev S4000x128 : Shape := ⟨2, ![4000, 128]⟩
abbrev S1000x64 : Shape := ⟨2, ![1000, 64]⟩
abbrev S1000x1 : Shape := ⟨2, ![1000, 1]⟩
abbrev S1000x128 : Shape := ⟨2, ![1000, 128]⟩

abbrev nBuf : Space → Nat
  | .hbm => 484
  | .vmem => 168
  | .smem => 0
  | _ => 0

abbrev hbmTy0_0 (i : Nat) : BufTy := match i % 128 with
  | 0 => ⟨S200000x128, .f32⟩
  | 1 => ⟨S100000x128, .f32⟩
  | 2 => ⟨S20000x128, .f32⟩
  | 3 => ⟨S5000x128, .f32⟩
  | 4 => ⟨S1500000, .i32⟩
  | 5 => ⟨S1500000, .i32⟩
  | 6 => ⟨S1500000, .i32⟩
  | 7 => ⟨S1500000, .i32⟩
  | 8 => ⟨S800000, .i32⟩
  | 9 => ⟨S800000, .i32⟩
  | 10 => ⟨S800000, .i32⟩
  | 11 => ⟨S800000, .i32⟩
  | 12 => ⟨S800000, .i32⟩
  | 13 => ⟨S800000, .i32⟩
  | 14 => ⟨S800000, .i32⟩
  | 15 => ⟨S800000, .i32⟩
  | 16 => ⟨S400000, .i32⟩
  | 17 => ⟨S400000, .i32⟩
  | 18 => ⟨S400000, .i32⟩
  | 19 => ⟨S400000, .i32⟩
  | 20 => ⟨S_, .f32⟩
  | 21 => ⟨S1500000, .f32⟩
  | 22 => ⟨S_, .f32⟩
  | 23 => ⟨S200000, .f32⟩
  | 24 => ⟨S1500000x1, .i32⟩
  | 25 => ⟨S200000, .f32⟩
  | 26 => ⟨S_, .f32⟩
  | 27 => ⟨S200000, .f32⟩
  | 28 => ⟨S200000, .f32⟩
  | 29 => ⟨S_, .f32⟩
  | 30 => ⟨S200000, .f32⟩
  | 31 => ⟨S200000, .f32⟩
  | 32 => ⟨S200000x1, .f32⟩
  | 33 => ⟨S_, .f32⟩
  | 34 => ⟨S800000, .f32⟩
  | 35 => ⟨S_, .f32⟩
  | 36 => ⟨S200000, .f32⟩
  | 37 => ⟨S800000x1, .i32⟩
  | 38 => ⟨S200000, .f32⟩
  | 39 => ⟨S_, .f32⟩
  | 40 => ⟨S200000, .f32⟩
  | 41 => ⟨S200000, .f32⟩
  | 42 => ⟨S_, .f32⟩
  | 43 => ⟨S200000, .f32⟩
  | 44 => ⟨S200000, .f32⟩
  | 45 => ⟨S200000x1, .f32⟩
  | 46 => ⟨S_, .f32⟩
  | 47 => ⟨S1500000, .f32⟩
  | 48 => ⟨S_, .f32⟩
  | 49 => ⟨S100000, .f32⟩
  | 50 => ⟨S1500000x1, .i32⟩
  | 51 => ⟨S100000, .f32⟩
  | 52 => ⟨S_, .f32⟩
  | 53 => ⟨S100000, .f32⟩
  | 54 => ⟨S100000, .f32⟩
  | 55 => ⟨S_, .f32⟩
  | 56 => ⟨S100000, .f32⟩
  | 57 => ⟨S100000, .f32⟩
  | 58 => ⟨S100000x1, .f32⟩
  | 59 => ⟨S_, .f32⟩
  | 60 => ⟨S800000, .f32⟩
  | 61 => ⟨S_, .f32⟩
  | 62 => ⟨S100000, .f32⟩
  | 63 => ⟨S800000x1, .i32⟩
  | 64 => ⟨S100000, .f32⟩
  | 65 => ⟨S_, .f32⟩
  | 66 => ⟨S100000, .f32⟩
  | 67 => ⟨S100000, .f32⟩
  | 68 => ⟨S_, .f32⟩
  | 69 => ⟨S100000, .f32⟩
  | 70 => ⟨S100000, .f32⟩
  | 71 => ⟨S100000x1, .f32⟩
  | 72 => ⟨S_, .f32⟩
  | 73 => ⟨S800000, .f32⟩
  | 74 => ⟨S_, .f32⟩
  | 75 => ⟨S20000, .f32⟩
  | 76 => ⟨S800000x1, .i32⟩
  | 77 => ⟨S20000, .f32⟩
  | 78 => ⟨S_, .f32⟩
  | 79 => ⟨S20000, .f32⟩
  | 80 => ⟨S20000, .f32⟩
  | 81 => ⟨S_, .f32⟩
  | 82 => ⟨S20000, .f32⟩
  | 83 => ⟨S20000, .f32⟩
  | 84 => ⟨S20000x1, .f32⟩
  | 85 => ⟨S_, .f32⟩
  | 86 => ⟨S400000, .f32⟩
  | 87 => ⟨S_, .f32⟩
  | 88 => ⟨S20000, .f32⟩
  | 89 => ⟨S400000x1, .i32⟩
  | 90 => ⟨S20000, .f32⟩
  | 91 => ⟨S_, .f32⟩
  | 92 => ⟨S20000, .f32⟩
  | 93 => ⟨S20000, .f32⟩
  | 94 => ⟨S_, .f32⟩
  | 95 => ⟨S20000, .f32⟩
  | 96 => ⟨S20000, .f32⟩
  | 97 => ⟨S20000x1, .f32⟩
  | 98 => ⟨S_, .f32⟩
  | 99 => ⟨S800000, .f32⟩
  | 100 => ⟨S_, .f32⟩
  | 101 => ⟨S5000, .f32⟩
  | 102 => ⟨S800000x1, .i32⟩
  | 103 => ⟨S5000, .f32⟩
  | 104 => ⟨S_, .f32⟩
  | 105 => ⟨S5000, .f32⟩
  | 106 => ⟨S5000, .f32⟩
  | 107 => ⟨S_, .f32⟩
  | 108 => ⟨S5000, .f32⟩
  | 109 => ⟨S5000, .f32⟩
  | 110 => ⟨S5000x1, .f32⟩
  | 111 => ⟨S_, .f32⟩
  | 112 => ⟨S400000, .f32⟩
  | 113 => ⟨S_, .f32⟩
  | 114 => ⟨S5000, .f32⟩
  | 115 => ⟨S400000x1, .i32⟩
  | 116 => ⟨S5000, .f32⟩
  | 117 => ⟨S_, .f32⟩
  | 118 => ⟨S5000, .f32⟩
  | 119 => ⟨S5000, .f32⟩
  | 120 => ⟨S_, .f32⟩
  | 121 => ⟨S5000, .f32⟩
  | 122 => ⟨S5000, .f32⟩
  | 123 => ⟨S5000x1, .f32⟩
  | 124 => ⟨S100000x64, .f32⟩
  | 125 => ⟨S_, .i32⟩
  | 126 => ⟨S1500000, .i32⟩
  | 127 => ⟨S1500000, .i1⟩
  | _ => ⟨S200000x128, .f32⟩

abbrev hbmTy0_1 (i : Nat) : BufTy := match i % 128 with
  | 0 => ⟨S_, .i32⟩
  | 1 => ⟨S1500000, .i32⟩
  | 2 => ⟨S1500000, .i32⟩
  | 3 => ⟨S1500000, .i32⟩
  | 4 => ⟨S1500000x1, .i32⟩
  | 5 => ⟨S1500000x64, .f32⟩
  | 6 => ⟨S_, .f32⟩
  | 7 => ⟨S200000x64, .f32⟩
  | 8 => ⟨S1500000x1, .i32⟩
  | 9 => ⟨S200000x64, .f32⟩
  | 10 => ⟨S20000x64, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S_, .f32⟩
  | 21 => ⟨S200000x64, .f32⟩
  | 22 => ⟨S800000x1, .i32⟩
  | 23 => ⟨S200000x64, .f32⟩
  | 24 => ⟨S200000x64, .f32⟩
  | 25 => ⟨S_, .i32⟩
  | 26 => ⟨S1500000, .i32⟩
  | 27 => ⟨S1500000, .i1⟩
  | 28 => ⟨S_, .i32⟩
  | 29 => ⟨S1500000, .i32⟩
  | 30 => ⟨S1500000, .i32⟩
  | 31 => ⟨S1500000, .i32⟩
  | 32 => ⟨S1500000x1, .i32⟩
  | 33 => ⟨S1500000x64, .f32⟩
  | 34 => ⟨S_, .f32⟩
  | 35 => ⟨S100000x64, .f32⟩
  | 36 => ⟨S1500000x1, .i32⟩
  | 37 => ⟨S100000x64, .f32⟩
  | 38 => ⟨S5000x64, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S_, .f32⟩
  | 49 => ⟨S100000x64, .f32⟩
  | 50 => ⟨S800000x1, .i32⟩
  | 51 => ⟨S100000x64, .f32⟩
  | 52 => ⟨S200000x64, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S_, .f32⟩
  | 63 => ⟨S20000x64, .f32⟩
  | 64 => ⟨S800000x1, .i32⟩
  | 65 => ⟨S20000x64, .f32⟩
  | 66 => ⟨S5000x64, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x64, .f32⟩
  | 76 => ⟨S_, .f32⟩
  | 77 => ⟨S20000x64, .f32⟩
  | 78 => ⟨S400000x1, .i32⟩
  | 79 => ⟨S20000x64, .f32⟩
  | 80 => ⟨S100000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x64, .f32⟩
  | 90 => ⟨S_, .f32⟩
  | 91 => ⟨S5000x64, .f32⟩
  | 92 => ⟨S800000x1, .i32⟩
  | 93 => ⟨S5000x64, .f32⟩
  | 94 => ⟨S20000x64, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000x64, .f32⟩
  | 104 => ⟨S_, .f32⟩
  | 105 => ⟨S5000x64, .f32⟩
  | 106 => ⟨S400000x1, .i32⟩
  | 107 => ⟨S5000x64, .f32⟩
  | 108 => ⟨S200000x128, .f32⟩
  | 109 => ⟨S200000x128, .f32⟩
  | 110 => ⟨S100000x128, .f32⟩
  | 111 => ⟨S100000x128, .f32⟩
  | 112 => ⟨S20000x128, .f32⟩
  | 113 => ⟨S20000x128, .f32⟩
  | 114 => ⟨S5000x128, .f32⟩
  | 115 => ⟨S5000x128, .f32⟩
  | 116 => ⟨S100000x64, .f32⟩
  | 117 => ⟨S_, .i32⟩
  | 118 => ⟨S1500000, .i32⟩
  | 119 => ⟨S1500000, .i1⟩
  | 120 => ⟨S_, .i32⟩
  | 121 => ⟨S1500000, .i32⟩
  | 122 => ⟨S1500000, .i32⟩
  | 123 => ⟨S1500000, .i32⟩
  | 124 => ⟨S1500000x1, .i32⟩
  | 125 => ⟨S1500000x64, .f32⟩
  | 126 => ⟨S_, .f32⟩
  | 127 => ⟨S200000x64, .f32⟩
  | _ => ⟨S200000x128, .f32⟩

abbrev hbmTy0_2 (i : Nat) : BufTy := match i % 128 with
  | 0 => ⟨S1500000x1, .i32⟩
  | 1 => ⟨S200000x64, .f32⟩
  | 2 => ⟨S20000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x64, .f32⟩
  | 12 => ⟨S_, .f32⟩
  | 13 => ⟨S200000x64, .f32⟩
  | 14 => ⟨S800000x1, .i32⟩
  | 15 => ⟨S200000x64, .f32⟩
  | 16 => ⟨S200000x64, .f32⟩
  | 17 => ⟨S_, .i32⟩
  | 18 => ⟨S1500000, .i32⟩
  | 19 => ⟨S1500000, .i1⟩
  | 20 => ⟨S_, .i32⟩
  | 21 => ⟨S1500000, .i32⟩
  | 22 => ⟨S1500000, .i32⟩
  | 23 => ⟨S1500000, .i32⟩
  | 24 => ⟨S1500000x1, .i32⟩
  | 25 => ⟨S1500000x64, .f32⟩
  | 26 => ⟨S_, .f32⟩
  | 27 => ⟨S100000x64, .f32⟩
  | 28 => ⟨S1500000x1, .i32⟩
  | 29 => ⟨S100000x64, .f32⟩
  | 30 => ⟨S5000x64, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S_, .f32⟩
  | 41 => ⟨S100000x64, .f32⟩
  | 42 => ⟨S800000x1, .i32⟩
  | 43 => ⟨S100000x64, .f32⟩
  | 44 => ⟨S200000x64, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S_, .f32⟩
  | 55 => ⟨S20000x64, .f32⟩
  | 56 => ⟨S800000x1, .i32⟩
  | 57 => ⟨S20000x64, .f32⟩
  | 58 => ⟨S5000x64, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x64, .f32⟩
  | 68 => ⟨S_, .f32⟩
  | 69 => ⟨S20000x64, .f32⟩
  | 70 => ⟨S400000x1, .i32⟩
  | 71 => ⟨S20000x64, .f32⟩
  | 72 => ⟨S100000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S_, .f32⟩
  | 83 => ⟨S5000x64, .f32⟩
  | 84 => ⟨S800000x1, .i32⟩
  | 85 => ⟨S5000x64, .f32⟩
  | 86 => ⟨S20000x64, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x64, .f32⟩
  | 96 => ⟨S_, .f32⟩
  | 97 => ⟨S5000x64, .f32⟩
  | 98 => ⟨S400000x1, .i32⟩
  | 99 => ⟨S5000x64, .f32⟩
  | 100 => ⟨S200000x128, .f32⟩
  | 101 => ⟨S200000x128, .f32⟩
  | 102 => ⟨S100000x128, .f32⟩
  | 103 => ⟨S100000x128, .f32⟩
  | 104 => ⟨S20000x128, .f32⟩
  | 105 => ⟨S20000x128, .f32⟩
  | 106 => ⟨S5000x128, .f32⟩
  | 107 => ⟨S5000x128, .f32⟩
  | 108 => ⟨S100000x64, .f32⟩
  | 109 => ⟨S_, .i32⟩
  | 110 => ⟨S1500000, .i32⟩
  | 111 => ⟨S1500000, .i1⟩
  | 112 => ⟨S_, .i32⟩
  | 113 => ⟨S1500000, .i32⟩
  | 114 => ⟨S1500000, .i32⟩
  | 115 => ⟨S1500000, .i32⟩
  | 116 => ⟨S1500000x1, .i32⟩
  | 117 => ⟨S1500000x64, .f32⟩
  | 118 => ⟨S_, .f32⟩
  | 119 => ⟨S200000x64, .f32⟩
  | 120 => ⟨S1500000x1, .i32⟩
  | 121 => ⟨S200000x64, .f32⟩
  | 122 => ⟨S20000x64, .f32⟩
  | 123 => ⟨S_, .i32⟩
  | 124 => ⟨S800000, .i32⟩
  | 125 => ⟨S800000, .i1⟩
  | 126 => ⟨S_, .i32⟩
  | 127 => ⟨S800000, .i32⟩
  | _ => ⟨S200000x128, .f32⟩

abbrev hbmTy0_3 (i : Nat) : BufTy := match i % 128 with
  | 0 => ⟨S800000, .i32⟩
  | 1 => ⟨S800000, .i32⟩
  | 2 => ⟨S800000x1, .i32⟩
  | 3 => ⟨S800000x64, .f32⟩
  | 4 => ⟨S_, .f32⟩
  | 5 => ⟨S200000x64, .f32⟩
  | 6 => ⟨S800000x1, .i32⟩
  | 7 => ⟨S200000x64, .f32⟩
  | 8 => ⟨S200000x64, .f32⟩
  | 9 => ⟨S_, .i32⟩
  | 10 => ⟨S1500000, .i32⟩
  | 11 => ⟨S1500000, .i1⟩
  | 12 => ⟨S_, .i32⟩
  | 13 => ⟨S1500000, .i32⟩
  | 14 => ⟨S1500000, .i32⟩
  | 15 => ⟨S1500000, .i32⟩
  | 16 => ⟨S1500000x1, .i32⟩
  | 17 => ⟨S1500000x64, .f32⟩
  | 18 => ⟨S_, .f32⟩
  | 19 => ⟨S100000x64, .f32⟩
  | 20 => ⟨S1500000x1, .i32⟩
  | 21 => ⟨S100000x64, .f32⟩
  | 22 => ⟨S5000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S_, .f32⟩
  | 33 => ⟨S100000x64, .f32⟩
  | 34 => ⟨S800000x1, .i32⟩
  | 35 => ⟨S100000x64, .f32⟩
  | 36 => ⟨S200000x64, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x64, .f32⟩
  | 46 => ⟨S_, .f32⟩
  | 47 => ⟨S20000x64, .f32⟩
  | 48 => ⟨S800000x1, .i32⟩
  | 49 => ⟨S20000x64, .f32⟩
  | 50 => ⟨S5000x64, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x64, .f32⟩
  | 60 => ⟨S_, .f32⟩
  | 61 => ⟨S20000x64, .f32⟩
  | 62 => ⟨S400000x1, .i32⟩
  | 63 => ⟨S20000x64, .f32⟩
  | 64 => ⟨S100000x64, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x64, .f32⟩
  | 74 => ⟨S_, .f32⟩
  | 75 => ⟨S5000x64, .f32⟩
  | 76 => ⟨S800000x1, .i32⟩
  | 77 => ⟨S5000x64, .f32⟩
  | 78 => ⟨S20000x64, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000x64, .f32⟩
  | 88 => ⟨S_, .f32⟩
  | 89 => ⟨S5000x64, .f32⟩
  | 90 => ⟨S400000x1, .i32⟩
  | 91 => ⟨S5000x64, .f32⟩
  | 92 => ⟨S200000x128, .f32⟩
  | 93 => ⟨S200000x128, .f32⟩
  | 94 => ⟨S100000x128, .f32⟩
  | 95 => ⟨S100000x128, .f32⟩
  | 96 => ⟨S20000x128, .f32⟩
  | 97 => ⟨S20000x128, .f32⟩
  | 98 => ⟨S5000x128, .f32⟩
  | 99 => ⟨S5000x128, .f32⟩
  | _ => ⟨S200000x128, .f32⟩

abbrev hbmTy (i : Nat) : BufTy := match i / 128 with
  | 0 => hbmTy0_0 i
  | 1 => hbmTy0_1 i
  | 2 => hbmTy0_2 i
  | 3 => hbmTy0_3 i
  | _ => ⟨S200000x128, .f32⟩

abbrev vmemTy0_0 (i : Nat) : BufTy := match i % 128 with
  | 0 => ⟨S4000x64, .f32⟩
  | 1 => ⟨S4000x64, .f32⟩
  | 2 => ⟨S4000x1, .f32⟩
  | 3 => ⟨S4000x1, .f32⟩
  | 4 => ⟨S4000x64, .f32⟩
  | 5 => ⟨S4000x64, .f32⟩
  | 6 => ⟨S4000x1, .f32⟩
  | 7 => ⟨S4000x1, .f32⟩
  | 8 => ⟨S4000x128, .f32⟩
  | 9 => ⟨S4000x128, .f32⟩
  | 10 => ⟨S4000x128, .f32⟩
  | 11 => ⟨S4000x128, .f32⟩
  | 12 => ⟨S4000x128, .f32⟩
  | 13 => ⟨S4000x128, .f32⟩
  | 14 => ⟨S4000x64, .f32⟩
  | 15 => ⟨S4000x64, .f32⟩
  | 16 => ⟨S4000x1, .f32⟩
  | 17 => ⟨S4000x1, .f32⟩
  | 18 => ⟨S4000x64, .f32⟩
  | 19 => ⟨S4000x64, .f32⟩
  | 20 => ⟨S4000x1, .f32⟩
  | 21 => ⟨S4000x1, .f32⟩
  | 22 => ⟨S4000x128, .f32⟩
  | 23 => ⟨S4000x128, .f32⟩
  | 24 => ⟨S4000x128, .f32⟩
  | 25 => ⟨S4000x128, .f32⟩
  | 26 => ⟨S4000x128, .f32⟩
  | 27 => ⟨S4000x128, .f32⟩
  | 28 => ⟨S4000x64, .f32⟩
  | 29 => ⟨S4000x64, .f32⟩
  | 30 => ⟨S4000x1, .f32⟩
  | 31 => ⟨S4000x1, .f32⟩
  | 32 => ⟨S4000x64, .f32⟩
  | 33 => ⟨S4000x64, .f32⟩
  | 34 => ⟨S4000x1, .f32⟩
  | 35 => ⟨S4000x1, .f32⟩
  | 36 => ⟨S4000x128, .f32⟩
  | 37 => ⟨S4000x128, .f32⟩
  | 38 => ⟨S4000x128, .f32⟩
  | 39 => ⟨S4000x128, .f32⟩
  | 40 => ⟨S4000x128, .f32⟩
  | 41 => ⟨S4000x128, .f32⟩
  | 42 => ⟨S1000x64, .f32⟩
  | 43 => ⟨S1000x64, .f32⟩
  | 44 => ⟨S1000x1, .f32⟩
  | 45 => ⟨S1000x1, .f32⟩
  | 46 => ⟨S1000x64, .f32⟩
  | 47 => ⟨S1000x64, .f32⟩
  | 48 => ⟨S1000x1, .f32⟩
  | 49 => ⟨S1000x1, .f32⟩
  | 50 => ⟨S1000x128, .f32⟩
  | 51 => ⟨S1000x128, .f32⟩
  | 52 => ⟨S1000x128, .f32⟩
  | 53 => ⟨S1000x128, .f32⟩
  | 54 => ⟨S1000x128, .f32⟩
  | 55 => ⟨S1000x128, .f32⟩
  | 56 => ⟨S4000x64, .f32⟩
  | 57 => ⟨S4000x64, .f32⟩
  | 58 => ⟨S4000x1, .f32⟩
  | 59 => ⟨S4000x1, .f32⟩
  | 60 => ⟨S4000x64, .f32⟩
  | 61 => ⟨S4000x64, .f32⟩
  | 62 => ⟨S4000x1, .f32⟩
  | 63 => ⟨S4000x1, .f32⟩
  | 64 => ⟨S4000x128, .f32⟩
  | 65 => ⟨S4000x128, .f32⟩
  | 66 => ⟨S4000x128, .f32⟩
  | 67 => ⟨S4000x128, .f32⟩
  | 68 => ⟨S4000x128, .f32⟩
  | 69 => ⟨S4000x128, .f32⟩
  | 70 => ⟨S4000x64, .f32⟩
  | 71 => ⟨S4000x64, .f32⟩
  | 72 => ⟨S4000x1, .f32⟩
  | 73 => ⟨S4000x1, .f32⟩
  | 74 => ⟨S4000x64, .f32⟩
  | 75 => ⟨S4000x64, .f32⟩
  | 76 => ⟨S4000x1, .f32⟩
  | 77 => ⟨S4000x1, .f32⟩
  | 78 => ⟨S4000x128, .f32⟩
  | 79 => ⟨S4000x128, .f32⟩
  | 80 => ⟨S4000x128, .f32⟩
  | 81 => ⟨S4000x128, .f32⟩
  | 82 => ⟨S4000x128, .f32⟩
  | 83 => ⟨S4000x128, .f32⟩
  | 84 => ⟨S4000x64, .f32⟩
  | 85 => ⟨S4000x64, .f32⟩
  | 86 => ⟨S4000x1, .f32⟩
  | 87 => ⟨S4000x1, .f32⟩
  | 88 => ⟨S4000x64, .f32⟩
  | 89 => ⟨S4000x64, .f32⟩
  | 90 => ⟨S4000x1, .f32⟩
  | 91 => ⟨S4000x1, .f32⟩
  | 92 => ⟨S4000x128, .f32⟩
  | 93 => ⟨S4000x128, .f32⟩
  | 94 => ⟨S4000x128, .f32⟩
  | 95 => ⟨S4000x128, .f32⟩
  | 96 => ⟨S4000x128, .f32⟩
  | 97 => ⟨S4000x128, .f32⟩
  | 98 => ⟨S1000x64, .f32⟩
  | 99 => ⟨S1000x64, .f32⟩
  | 100 => ⟨S1000x1, .f32⟩
  | 101 => ⟨S1000x1, .f32⟩
  | 102 => ⟨S1000x64, .f32⟩
  | 103 => ⟨S1000x64, .f32⟩
  | 104 => ⟨S1000x1, .f32⟩
  | 105 => ⟨S1000x1, .f32⟩
  | 106 => ⟨S1000x128, .f32⟩
  | 107 => ⟨S1000x128, .f32⟩
  | 108 => ⟨S1000x128, .f32⟩
  | 109 => ⟨S1000x128, .f32⟩
  | 110 => ⟨S1000x128, .f32⟩
  | 111 => ⟨S1000x128, .f32⟩
  | 112 => ⟨S4000x64, .f32⟩
  | 113 => ⟨S4000x64, .f32⟩
  | 114 => ⟨S4000x1, .f32⟩
  | 115 => ⟨S4000x1, .f32⟩
  | 116 => ⟨S4000x64, .f32⟩
  | 117 => ⟨S4000x64, .f32⟩
  | 118 => ⟨S4000x1, .f32⟩
  | 119 => ⟨S4000x1, .f32⟩
  | 120 => ⟨S4000x128, .f32⟩
  | 121 => ⟨S4000x128, .f32⟩
  | 122 => ⟨S4000x128, .f32⟩
  | 123 => ⟨S4000x128, .f32⟩
  | 124 => ⟨S4000x128, .f32⟩
  | 125 => ⟨S4000x128, .f32⟩
  | 126 => ⟨S4000x64, .f32⟩
  | 127 => ⟨S4000x64, .f32⟩
  | _ => ⟨S200000x128, .f32⟩

abbrev vmemTy0_1 (i : Nat) : BufTy := match i % 128 with
  | 0 => ⟨S4000x1, .f32⟩
  | 1 => ⟨S4000x1, .f32⟩
  | 2 => ⟨S4000x64, .f32⟩
  | 3 => ⟨S4000x64, .f32⟩
  | 4 => ⟨S4000x1, .f32⟩
  | 5 => ⟨S4000x1, .f32⟩
  | 6 => ⟨S4000x128, .f32⟩
  | 7 => ⟨S4000x128, .f32⟩
  | 8 => ⟨S4000x128, .f32⟩
  | 9 => ⟨S4000x128, .f32⟩
  | 10 => ⟨S4000x128, .f32⟩
  | 11 => ⟨S4000x128, .f32⟩
  | 12 => ⟨S4000x64, .f32⟩
  | 13 => ⟨S4000x64, .f32⟩
  | 14 => ⟨S4000x1, .f32⟩
  | 15 => ⟨S4000x1, .f32⟩
  | 16 => ⟨S4000x64, .f32⟩
  | 17 => ⟨S4000x64, .f32⟩
  | 18 => ⟨S4000x1, .f32⟩
  | 19 => ⟨S4000x1, .f32⟩
  | 20 => ⟨S4000x128, .f32⟩
  | 21 => ⟨S4000x128, .f32⟩
  | 22 => ⟨S4000x128, .f32⟩
  | 23 => ⟨S4000x128, .f32⟩
  | 24 => ⟨S4000x128, .f32⟩
  | 25 => ⟨S4000x128, .f32⟩
  | 26 => ⟨S1000x64, .f32⟩
  | 27 => ⟨S1000x64, .f32⟩
  | 28 => ⟨S1000x1, .f32⟩
  | 29 => ⟨S1000x1, .f32⟩
  | 30 => ⟨S1000x64, .f32⟩
  | 31 => ⟨S1000x64, .f32⟩
  | 32 => ⟨S1000x1, .f32⟩
  | 33 => ⟨S1000x1, .f32⟩
  | 34 => ⟨S1000x128, .f32⟩
  | 35 => ⟨S1000x128, .f32⟩
  | 36 => ⟨S1000x128, .f32⟩
  | 37 => ⟨S1000x128, .f32⟩
  | 38 => ⟨S1000x128, .f32⟩
  | 39 => ⟨S1000x128, .f32⟩
  | _ => ⟨S200000x128, .f32⟩

abbrev vmemTy (i : Nat) : BufTy := match i / 128 with
  | 0 => vmemTy0_0 i
  | 1 => vmemTy0_1 i
  | _ => ⟨S200000x128, .f32⟩

abbrev bufTy : (tb : Table) → Fin (tcTables nBuf tb) → BufTy
  | .hbm, ⟨i, _⟩ => hbmTy i
  | .local _ .vmem, ⟨i, _⟩ => vmemTy i
  | _, _ => ⟨S200000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 168 → Bool
  | ⟨i, _⟩ => dmaSemScopedAt i

abbrev sig : RefSig :=
  ofTc nBuf bufTy 0 168 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_3 : Ref sig .tc := ⟨.hbm, 33, rfl⟩
abbrev main_v9 : Ref sig .tc := ⟨.hbm, 34, rfl⟩
abbrev main_cst_4 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_5 : Ref sig .tc := ⟨.hbm, 39, rfl⟩
abbrev main_v13 : Ref sig .tc := ⟨.hbm, 40, rfl⟩
abbrev main_v14 : Ref sig .tc := ⟨.hbm, 41, rfl⟩
abbrev main_cst_6 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_7 : Ref sig .tc := ⟨.hbm, 46, rfl⟩
abbrev main_v18 : Ref sig .tc := ⟨.hbm, 47, rfl⟩
abbrev main_cst_8 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_9 : Ref sig .tc := ⟨.hbm, 52, rfl⟩
abbrev main_v22 : Ref sig .tc := ⟨.hbm, 53, rfl⟩
abbrev main_v23 : Ref sig .tc := ⟨.hbm, 54, rfl⟩
abbrev main_cst_10 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_11 : Ref sig .tc := ⟨.hbm, 59, rfl⟩
abbrev main_v27 : Ref sig .tc := ⟨.hbm, 60, rfl⟩
abbrev main_cst_12 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_13 : Ref sig .tc := ⟨.hbm, 65, rfl⟩
abbrev main_v31 : Ref sig .tc := ⟨.hbm, 66, rfl⟩
abbrev main_v32 : Ref sig .tc := ⟨.hbm, 67, rfl⟩
abbrev main_cst_14 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_15 : Ref sig .tc := ⟨.hbm, 72, rfl⟩
abbrev main_v36 : Ref sig .tc := ⟨.hbm, 73, rfl⟩
abbrev main_cst_16 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_17 : Ref sig .tc := ⟨.hbm, 78, rfl⟩
abbrev main_v40 : Ref sig .tc := ⟨.hbm, 79, rfl⟩
abbrev main_v41 : Ref sig .tc := ⟨.hbm, 80, rfl⟩
abbrev main_cst_18 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_19 : Ref sig .tc := ⟨.hbm, 85, rfl⟩
abbrev main_v45 : Ref sig .tc := ⟨.hbm, 86, rfl⟩
abbrev main_cst_20 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_21 : Ref sig .tc := ⟨.hbm, 91, rfl⟩
abbrev main_v49 : Ref sig .tc := ⟨.hbm, 92, rfl⟩
abbrev main_v50 : Ref sig .tc := ⟨.hbm, 93, rfl⟩
abbrev main_cst_22 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_23 : Ref sig .tc := ⟨.hbm, 98, rfl⟩
abbrev main_v54 : Ref sig .tc := ⟨.hbm, 99, rfl⟩
abbrev main_cst_24 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_25 : Ref sig .tc := ⟨.hbm, 104, rfl⟩
abbrev main_v58 : Ref sig .tc := ⟨.hbm, 105, rfl⟩
abbrev main_v59 : Ref sig .tc := ⟨.hbm, 106, rfl⟩
abbrev main_cst_26 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_27 : Ref sig .tc := ⟨.hbm, 111, rfl⟩
abbrev main_v63 : Ref sig .tc := ⟨.hbm, 112, rfl⟩
abbrev main_cst_28 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_29 : Ref sig .tc := ⟨.hbm, 117, rfl⟩
abbrev main_v67 : Ref sig .tc := ⟨.hbm, 118, rfl⟩
abbrev main_v68 : Ref sig .tc := ⟨.hbm, 119, rfl⟩
abbrev main_cst_30 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_c : Ref sig .tc := ⟨.hbm, 125, rfl⟩
abbrev main_v73 : Ref sig .tc := ⟨.hbm, 126, rfl⟩
abbrev main_v74 : Ref sig .tc := ⟨.hbm, 127, rfl⟩
abbrev main_c_31 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_32 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_c_33 : Ref sig .tc := ⟨.hbm, 139, rfl⟩
abbrev main_v84 : Ref sig .tc := ⟨.hbm, 140, rfl⟩
abbrev main_v85 : Ref sig .tc := ⟨.hbm, 141, rfl⟩
abbrev main_c_34 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_35 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_c_36 : Ref sig .tc := ⟨.hbm, 153, rfl⟩
abbrev main_v95 : Ref sig .tc := ⟨.hbm, 154, rfl⟩
abbrev main_v96 : Ref sig .tc := ⟨.hbm, 155, rfl⟩
abbrev main_c_37 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_38 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_c_39 : Ref sig .tc := ⟨.hbm, 167, rfl⟩
abbrev main_v106 : Ref sig .tc := ⟨.hbm, 168, rfl⟩
abbrev main_v107 : Ref sig .tc := ⟨.hbm, 169, rfl⟩
abbrev main_c_40 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_41 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_c_42 : Ref sig .tc := ⟨.hbm, 181, rfl⟩
abbrev main_v117 : Ref sig .tc := ⟨.hbm, 182, rfl⟩
abbrev main_v118 : Ref sig .tc := ⟨.hbm, 183, rfl⟩
abbrev main_c_43 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_cst_44 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_c_45 : Ref sig .tc := ⟨.hbm, 195, rfl⟩
abbrev main_v128 : Ref sig .tc := ⟨.hbm, 196, rfl⟩
abbrev main_v129 : Ref sig .tc := ⟨.hbm, 197, rfl⟩
abbrev main_c_46 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_cst_47 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_c_48 : Ref sig .tc := ⟨.hbm, 209, rfl⟩
abbrev main_v139 : Ref sig .tc := ⟨.hbm, 210, rfl⟩
abbrev main_v140 : Ref sig .tc := ⟨.hbm, 211, rfl⟩
abbrev main_c_49 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_cst_50 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_c_51 : Ref sig .tc := ⟨.hbm, 223, rfl⟩
abbrev main_v150 : Ref sig .tc := ⟨.hbm, 224, rfl⟩
abbrev main_v151 : Ref sig .tc := ⟨.hbm, 225, rfl⟩
abbrev main_c_52 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_cst_53 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160_0 : Ref sig .tc := ⟨.hbm, 236, rfl⟩
abbrev main_v160_1 : Ref sig .tc := ⟨.hbm, 237, rfl⟩
abbrev main_v161_0 : Ref sig .tc := ⟨.hbm, 238, rfl⟩
abbrev main_v161_1 : Ref sig .tc := ⟨.hbm, 239, rfl⟩
abbrev main_v162_0 : Ref sig .tc := ⟨.hbm, 240, rfl⟩
abbrev main_v162_1 : Ref sig .tc := ⟨.hbm, 241, rfl⟩
abbrev main_v163_0 : Ref sig .tc := ⟨.hbm, 242, rfl⟩
abbrev main_v163_1 : Ref sig .tc := ⟨.hbm, 243, rfl⟩
abbrev main_v164 : Ref sig .tc := ⟨.hbm, 244, rfl⟩
abbrev main_c_54 : Ref sig .tc := ⟨.hbm, 245, rfl⟩
abbrev main_v165 : Ref sig .tc := ⟨.hbm, 246, rfl⟩
abbrev main_v166 : Ref sig .tc := ⟨.hbm, 247, rfl⟩
abbrev main_c_55 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_cst_56 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_c_57 : Ref sig .tc := ⟨.hbm, 259, rfl⟩
abbrev main_v176 : Ref sig .tc := ⟨.hbm, 260, rfl⟩
abbrev main_v177 : Ref sig .tc := ⟨.hbm, 261, rfl⟩
abbrev main_c_58 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_cst_59 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_c_60 : Ref sig .tc := ⟨.hbm, 273, rfl⟩
abbrev main_v187 : Ref sig .tc := ⟨.hbm, 274, rfl⟩
abbrev main_v188 : Ref sig .tc := ⟨.hbm, 275, rfl⟩
abbrev main_c_61 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_cst_62 : Ref sig .tc := ⟨.hbm, 282, rfl⟩
abbrev main_v194 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_c_63 : Ref sig .tc := ⟨.hbm, 287, rfl⟩
abbrev main_v198 : Ref sig .tc := ⟨.hbm, 288, rfl⟩
abbrev main_v199 : Ref sig .tc := ⟨.hbm, 289, rfl⟩
abbrev main_c_64 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_cst_65 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_c_66 : Ref sig .tc := ⟨.hbm, 301, rfl⟩
abbrev main_v209 : Ref sig .tc := ⟨.hbm, 302, rfl⟩
abbrev main_v210 : Ref sig .tc := ⟨.hbm, 303, rfl⟩
abbrev main_c_67 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_cst_68 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_c_69 : Ref sig .tc := ⟨.hbm, 315, rfl⟩
abbrev main_v220 : Ref sig .tc := ⟨.hbm, 316, rfl⟩
abbrev main_v221 : Ref sig .tc := ⟨.hbm, 317, rfl⟩
abbrev main_c_70 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_cst_71 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_c_72 : Ref sig .tc := ⟨.hbm, 329, rfl⟩
abbrev main_v231 : Ref sig .tc := ⟨.hbm, 330, rfl⟩
abbrev main_v232 : Ref sig .tc := ⟨.hbm, 331, rfl⟩
abbrev main_c_73 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_cst_74 : Ref sig .tc := ⟨.hbm, 338, rfl⟩
abbrev main_v238 : Ref sig .tc := ⟨.hbm, 339, rfl⟩
abbrev main_v239 : Ref sig .tc := ⟨.hbm, 340, rfl⟩
abbrev main_v240 : Ref sig .tc := ⟨.hbm, 341, rfl⟩
abbrev main_v241 : Ref sig .tc := ⟨.hbm, 342, rfl⟩
abbrev main_c_75 : Ref sig .tc := ⟨.hbm, 343, rfl⟩
abbrev main_v242 : Ref sig .tc := ⟨.hbm, 344, rfl⟩
abbrev main_v243 : Ref sig .tc := ⟨.hbm, 345, rfl⟩
abbrev main_c_76 : Ref sig .tc := ⟨.hbm, 346, rfl⟩
abbrev main_v244 : Ref sig .tc := ⟨.hbm, 347, rfl⟩
abbrev main_v245 : Ref sig .tc := ⟨.hbm, 348, rfl⟩
abbrev main_v246 : Ref sig .tc := ⟨.hbm, 349, rfl⟩
abbrev main_v247 : Ref sig .tc := ⟨.hbm, 350, rfl⟩
abbrev main_v248 : Ref sig .tc := ⟨.hbm, 351, rfl⟩
abbrev main_cst_77 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_v252_0 : Ref sig .tc := ⟨.hbm, 356, rfl⟩
abbrev main_v252_1 : Ref sig .tc := ⟨.hbm, 357, rfl⟩
abbrev main_v253_0 : Ref sig .tc := ⟨.hbm, 358, rfl⟩
abbrev main_v253_1 : Ref sig .tc := ⟨.hbm, 359, rfl⟩
abbrev main_v254_0 : Ref sig .tc := ⟨.hbm, 360, rfl⟩
abbrev main_v254_1 : Ref sig .tc := ⟨.hbm, 361, rfl⟩
abbrev main_v255_0 : Ref sig .tc := ⟨.hbm, 362, rfl⟩
abbrev main_v255_1 : Ref sig .tc := ⟨.hbm, 363, rfl⟩
abbrev main_v256 : Ref sig .tc := ⟨.hbm, 364, rfl⟩
abbrev main_c_78 : Ref sig .tc := ⟨.hbm, 365, rfl⟩
abbrev main_v257 : Ref sig .tc := ⟨.hbm, 366, rfl⟩
abbrev main_v258 : Ref sig .tc := ⟨.hbm, 367, rfl⟩
abbrev main_c_79 : Ref sig .tc := ⟨.hbm, 368, rfl⟩
abbrev main_v259 : Ref sig .tc := ⟨.hbm, 369, rfl⟩
abbrev main_v260 : Ref sig .tc := ⟨.hbm, 370, rfl⟩
abbrev main_v261 : Ref sig .tc := ⟨.hbm, 371, rfl⟩
abbrev main_v262 : Ref sig .tc := ⟨.hbm, 372, rfl⟩
abbrev main_v263 : Ref sig .tc := ⟨.hbm, 373, rfl⟩
abbrev main_cst_80 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_v267 : Ref sig .tc := ⟨.hbm, 378, rfl⟩
abbrev main_c_81 : Ref sig .tc := ⟨.hbm, 379, rfl⟩
abbrev main_v268 : Ref sig .tc := ⟨.hbm, 380, rfl⟩
abbrev main_v269 : Ref sig .tc := ⟨.hbm, 381, rfl⟩
abbrev main_c_82 : Ref sig .tc := ⟨.hbm, 382, rfl⟩
abbrev main_v270 : Ref sig .tc := ⟨.hbm, 383, rfl⟩
abbrev main_v271 : Ref sig .tc := ⟨.hbm, 384, rfl⟩
abbrev main_v272 : Ref sig .tc := ⟨.hbm, 385, rfl⟩
abbrev main_v273 : Ref sig .tc := ⟨.hbm, 386, rfl⟩
abbrev main_v274 : Ref sig .tc := ⟨.hbm, 387, rfl⟩
abbrev main_cst_83 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_c_84 : Ref sig .tc := ⟨.hbm, 393, rfl⟩
abbrev main_v279 : Ref sig .tc := ⟨.hbm, 394, rfl⟩
abbrev main_v280 : Ref sig .tc := ⟨.hbm, 395, rfl⟩
abbrev main_c_85 : Ref sig .tc := ⟨.hbm, 396, rfl⟩
abbrev main_v281 : Ref sig .tc := ⟨.hbm, 397, rfl⟩
abbrev main_v282 : Ref sig .tc := ⟨.hbm, 398, rfl⟩
abbrev main_v283 : Ref sig .tc := ⟨.hbm, 399, rfl⟩
abbrev main_v284 : Ref sig .tc := ⟨.hbm, 400, rfl⟩
abbrev main_v285 : Ref sig .tc := ⟨.hbm, 401, rfl⟩
abbrev main_cst_86 : Ref sig .tc := ⟨.hbm, 402, rfl⟩
abbrev main_v286 : Ref sig .tc := ⟨.hbm, 403, rfl⟩
abbrev main_v287 : Ref sig .tc := ⟨.hbm, 404, rfl⟩
abbrev main_v288 : Ref sig .tc := ⟨.hbm, 405, rfl⟩
abbrev main_v289 : Ref sig .tc := ⟨.hbm, 406, rfl⟩
abbrev main_c_87 : Ref sig .tc := ⟨.hbm, 407, rfl⟩
abbrev main_v290 : Ref sig .tc := ⟨.hbm, 408, rfl⟩
abbrev main_v291 : Ref sig .tc := ⟨.hbm, 409, rfl⟩
abbrev main_c_88 : Ref sig .tc := ⟨.hbm, 410, rfl⟩
abbrev main_v292 : Ref sig .tc := ⟨.hbm, 411, rfl⟩
abbrev main_v293 : Ref sig .tc := ⟨.hbm, 412, rfl⟩
abbrev main_v294 : Ref sig .tc := ⟨.hbm, 413, rfl⟩
abbrev main_v295 : Ref sig .tc := ⟨.hbm, 414, rfl⟩
abbrev main_v296 : Ref sig .tc := ⟨.hbm, 415, rfl⟩
abbrev main_cst_89 : Ref sig .tc := ⟨.hbm, 416, rfl⟩
abbrev main_v297 : Ref sig .tc := ⟨.hbm, 417, rfl⟩
abbrev main_v298 : Ref sig .tc := ⟨.hbm, 418, rfl⟩
abbrev main_v299 : Ref sig .tc := ⟨.hbm, 419, rfl⟩
abbrev main_v300 : Ref sig .tc := ⟨.hbm, 420, rfl⟩
abbrev main_c_90 : Ref sig .tc := ⟨.hbm, 421, rfl⟩
abbrev main_v301 : Ref sig .tc := ⟨.hbm, 422, rfl⟩
abbrev main_v302 : Ref sig .tc := ⟨.hbm, 423, rfl⟩
abbrev main_c_91 : Ref sig .tc := ⟨.hbm, 424, rfl⟩
abbrev main_v303 : Ref sig .tc := ⟨.hbm, 425, rfl⟩
abbrev main_v304 : Ref sig .tc := ⟨.hbm, 426, rfl⟩
abbrev main_v305 : Ref sig .tc := ⟨.hbm, 427, rfl⟩
abbrev main_v306 : Ref sig .tc := ⟨.hbm, 428, rfl⟩
abbrev main_v307 : Ref sig .tc := ⟨.hbm, 429, rfl⟩
abbrev main_cst_92 : Ref sig .tc := ⟨.hbm, 430, rfl⟩
abbrev main_v308 : Ref sig .tc := ⟨.hbm, 431, rfl⟩
abbrev main_v309 : Ref sig .tc := ⟨.hbm, 432, rfl⟩
abbrev main_v310 : Ref sig .tc := ⟨.hbm, 433, rfl⟩
abbrev main_v311 : Ref sig .tc := ⟨.hbm, 434, rfl⟩
abbrev main_c_93 : Ref sig .tc := ⟨.hbm, 435, rfl⟩
abbrev main_v312 : Ref sig .tc := ⟨.hbm, 436, rfl⟩
abbrev main_v313 : Ref sig .tc := ⟨.hbm, 437, rfl⟩
abbrev main_c_94 : Ref sig .tc := ⟨.hbm, 438, rfl⟩
abbrev main_v314 : Ref sig .tc := ⟨.hbm, 439, rfl⟩
abbrev main_v315 : Ref sig .tc := ⟨.hbm, 440, rfl⟩
abbrev main_v316 : Ref sig .tc := ⟨.hbm, 441, rfl⟩
abbrev main_v317 : Ref sig .tc := ⟨.hbm, 442, rfl⟩
abbrev main_v318 : Ref sig .tc := ⟨.hbm, 443, rfl⟩
abbrev main_cst_95 : Ref sig .tc := ⟨.hbm, 444, rfl⟩
abbrev main_v319 : Ref sig .tc := ⟨.hbm, 445, rfl⟩
abbrev main_v320 : Ref sig .tc := ⟨.hbm, 446, rfl⟩
abbrev main_v321 : Ref sig .tc := ⟨.hbm, 447, rfl⟩
abbrev main_v322 : Ref sig .tc := ⟨.hbm, 448, rfl⟩
abbrev main_c_96 : Ref sig .tc := ⟨.hbm, 449, rfl⟩
abbrev main_v323 : Ref sig .tc := ⟨.hbm, 450, rfl⟩
abbrev main_v324 : Ref sig .tc := ⟨.hbm, 451, rfl⟩
abbrev main_c_97 : Ref sig .tc := ⟨.hbm, 452, rfl⟩
abbrev main_v325 : Ref sig .tc := ⟨.hbm, 453, rfl⟩
abbrev main_v326 : Ref sig .tc := ⟨.hbm, 454, rfl⟩
abbrev main_v327 : Ref sig .tc := ⟨.hbm, 455, rfl⟩
abbrev main_v328 : Ref sig .tc := ⟨.hbm, 456, rfl⟩
abbrev main_v329 : Ref sig .tc := ⟨.hbm, 457, rfl⟩
abbrev main_cst_98 : Ref sig .tc := ⟨.hbm, 458, rfl⟩
abbrev main_v330 : Ref sig .tc := ⟨.hbm, 459, rfl⟩
abbrev main_v331 : Ref sig .tc := ⟨.hbm, 460, rfl⟩
abbrev main_v332 : Ref sig .tc := ⟨.hbm, 461, rfl⟩
abbrev main_v333 : Ref sig .tc := ⟨.hbm, 462, rfl⟩
abbrev main_c_99 : Ref sig .tc := ⟨.hbm, 463, rfl⟩
abbrev main_v334 : Ref sig .tc := ⟨.hbm, 464, rfl⟩
abbrev main_v335 : Ref sig .tc := ⟨.hbm, 465, rfl⟩
abbrev main_c_100 : Ref sig .tc := ⟨.hbm, 466, rfl⟩
abbrev main_v336 : Ref sig .tc := ⟨.hbm, 467, rfl⟩
abbrev main_v337 : Ref sig .tc := ⟨.hbm, 468, rfl⟩
abbrev main_v338 : Ref sig .tc := ⟨.hbm, 469, rfl⟩
abbrev main_v339 : Ref sig .tc := ⟨.hbm, 470, rfl⟩
abbrev main_v340 : Ref sig .tc := ⟨.hbm, 471, rfl⟩
abbrev main_cst_101 : Ref sig .tc := ⟨.hbm, 472, rfl⟩
abbrev main_v341 : Ref sig .tc := ⟨.hbm, 473, rfl⟩
abbrev main_v342 : Ref sig .tc := ⟨.hbm, 474, rfl⟩
abbrev main_v343 : Ref sig .tc := ⟨.hbm, 475, rfl⟩
abbrev main_v344_0 : Ref sig .tc := ⟨.hbm, 476, rfl⟩
abbrev main_v344_1 : Ref sig .tc := ⟨.hbm, 477, rfl⟩
abbrev main_v345_0 : Ref sig .tc := ⟨.hbm, 478, rfl⟩
abbrev main_v345_1 : Ref sig .tc := ⟨.hbm, 479, rfl⟩
abbrev main_v346_0 : Ref sig .tc := ⟨.hbm, 480, rfl⟩
abbrev main_v346_1 : Ref sig .tc := ⟨.hbm, 481, rfl⟩
abbrev main_v347_0 : Ref sig .tc := ⟨.hbm, 482, rfl⟩
abbrev main_v347_1 : Ref sig .tc := ⟨.hbm, 483, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg5_1 : Ref sig .tc := ⟨.vmem, 53, rfl⟩
abbrev cc3_stg6_0 : Ref sig .tc := ⟨.vmem, 54, rfl⟩
abbrev cc3_stg6_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg4_1 : Ref sig .tc := ⟨.vmem, 65, rfl⟩
abbrev cc4_stg5_0 : Ref sig .tc := ⟨.vmem, 66, rfl⟩
abbrev cc4_stg5_1 : Ref sig .tc := ⟨.vmem, 67, rfl⟩
abbrev cc4_stg6_0 : Ref sig .tc := ⟨.vmem, 68, rfl⟩
abbrev cc4_stg6_1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg1_1 : Ref sig .tc := ⟨.vmem, 73, rfl⟩
abbrev cc5_stg2_0 : Ref sig .tc := ⟨.vmem, 74, rfl⟩
abbrev cc5_stg2_1 : Ref sig .tc := ⟨.vmem, 75, rfl⟩
abbrev cc5_stg3_0 : Ref sig .tc := ⟨.vmem, 76, rfl⟩
abbrev cc5_stg3_1 : Ref sig .tc := ⟨.vmem, 77, rfl⟩
abbrev cc5_stg4_0 : Ref sig .tc := ⟨.vmem, 78, rfl⟩
abbrev cc5_stg4_1 : Ref sig .tc := ⟨.vmem, 79, rfl⟩
abbrev cc5_stg5_0 : Ref sig .tc := ⟨.vmem, 80, rfl⟩
abbrev cc5_stg5_1 : Ref sig .tc := ⟨.vmem, 81, rfl⟩
abbrev cc5_stg6_0 : Ref sig .tc := ⟨.vmem, 82, rfl⟩
abbrev cc5_stg6_1 : Ref sig .tc := ⟨.vmem, 83, rfl⟩
abbrev cc6_stg0_0 : Ref sig .tc := ⟨.vmem, 84, rfl⟩
abbrev cc6_stg0_1 : Ref sig .tc := ⟨.vmem, 85, rfl⟩
abbrev cc6_stg1_0 : Ref sig .tc := ⟨.vmem, 86, rfl⟩
abbrev cc6_stg1_1 : Ref sig .tc := ⟨.vmem, 87, rfl⟩
abbrev cc6_stg2_0 : Ref sig .tc := ⟨.vmem, 88, rfl⟩
abbrev cc6_stg2_1 : Ref sig .tc := ⟨.vmem, 89, rfl⟩
abbrev cc6_stg3_0 : Ref sig .tc := ⟨.vmem, 90, rfl⟩
abbrev cc6_stg3_1 : Ref sig .tc := ⟨.vmem, 91, rfl⟩
abbrev cc6_stg4_0 : Ref sig .tc := ⟨.vmem, 92, rfl⟩
abbrev cc6_stg4_1 : Ref sig .tc := ⟨.vmem, 93, rfl⟩
abbrev cc6_stg5_0 : Ref sig .tc := ⟨.vmem, 94, rfl⟩
abbrev cc6_stg5_1 : Ref sig .tc := ⟨.vmem, 95, rfl⟩
abbrev cc6_stg6_0 : Ref sig .tc := ⟨.vmem, 96, rfl⟩
abbrev cc6_stg6_1 : Ref sig .tc := ⟨.vmem, 97, rfl⟩
abbrev cc7_stg0_0 : Ref sig .tc := ⟨.vmem, 98, rfl⟩
abbrev cc7_stg0_1 : Ref sig .tc := ⟨.vmem, 99, rfl⟩
abbrev cc7_stg1_0 : Ref sig .tc := ⟨.vmem, 100, rfl⟩
abbrev cc7_stg1_1 : Ref sig .tc := ⟨.vmem, 101, rfl⟩
abbrev cc7_stg2_0 : Ref sig .tc := ⟨.vmem, 102, rfl⟩
abbrev cc7_stg2_1 : Ref sig .tc := ⟨.vmem, 103, rfl⟩
abbrev cc7_stg3_0 : Ref sig .tc := ⟨.vmem, 104, rfl⟩
abbrev cc7_stg3_1 : Ref sig .tc := ⟨.vmem, 105, rfl⟩
abbrev cc7_stg4_0 : Ref sig .tc := ⟨.vmem, 106, rfl⟩
abbrev cc7_stg4_1 : Ref sig .tc := ⟨.vmem, 107, rfl⟩
abbrev cc7_stg5_0 : Ref sig .tc := ⟨.vmem, 108, rfl⟩
abbrev cc7_stg5_1 : Ref sig .tc := ⟨.vmem, 109, rfl⟩
abbrev cc7_stg6_0 : Ref sig .tc := ⟨.vmem, 110, rfl⟩
abbrev cc7_stg6_1 : Ref sig .tc := ⟨.vmem, 111, rfl⟩
abbrev cc8_stg0_0 : Ref sig .tc := ⟨.vmem, 112, rfl⟩
abbrev cc8_stg0_1 : Ref sig .tc := ⟨.vmem, 113, rfl⟩
abbrev cc8_stg1_0 : Ref sig .tc := ⟨.vmem, 114, rfl⟩
abbrev cc8_stg1_1 : Ref sig .tc := ⟨.vmem, 115, rfl⟩
abbrev cc8_stg2_0 : Ref sig .tc := ⟨.vmem, 116, rfl⟩
abbrev cc8_stg2_1 : Ref sig .tc := ⟨.vmem, 117, rfl⟩
abbrev cc8_stg3_0 : Ref sig .tc := ⟨.vmem, 118, rfl⟩
abbrev cc8_stg3_1 : Ref sig .tc := ⟨.vmem, 119, rfl⟩
abbrev cc8_stg4_0 : Ref sig .tc := ⟨.vmem, 120, rfl⟩
abbrev cc8_stg4_1 : Ref sig .tc := ⟨.vmem, 121, rfl⟩
abbrev cc8_stg5_0 : Ref sig .tc := ⟨.vmem, 122, rfl⟩
abbrev cc8_stg5_1 : Ref sig .tc := ⟨.vmem, 123, rfl⟩
abbrev cc8_stg6_0 : Ref sig .tc := ⟨.vmem, 124, rfl⟩
abbrev cc8_stg6_1 : Ref sig .tc := ⟨.vmem, 125, rfl⟩
abbrev cc9_stg0_0 : Ref sig .tc := ⟨.vmem, 126, rfl⟩
abbrev cc9_stg0_1 : Ref sig .tc := ⟨.vmem, 127, rfl⟩
abbrev cc9_stg1_0 : Ref sig .tc := ⟨.vmem, 128, rfl⟩
abbrev cc9_stg1_1 : Ref sig .tc := ⟨.vmem, 129, rfl⟩
abbrev cc9_stg2_0 : Ref sig .tc := ⟨.vmem, 130, rfl⟩
abbrev cc9_stg2_1 : Ref sig .tc := ⟨.vmem, 131, rfl⟩
abbrev cc9_stg3_0 : Ref sig .tc := ⟨.vmem, 132, rfl⟩
abbrev cc9_stg3_1 : Ref sig .tc := ⟨.vmem, 133, rfl⟩
abbrev cc9_stg4_0 : Ref sig .tc := ⟨.vmem, 134, rfl⟩
abbrev cc9_stg4_1 : Ref sig .tc := ⟨.vmem, 135, rfl⟩
abbrev cc9_stg5_0 : Ref sig .tc := ⟨.vmem, 136, rfl⟩
abbrev cc9_stg5_1 : Ref sig .tc := ⟨.vmem, 137, rfl⟩
abbrev cc9_stg6_0 : Ref sig .tc := ⟨.vmem, 138, rfl⟩
abbrev cc9_stg6_1 : Ref sig .tc := ⟨.vmem, 139, rfl⟩
abbrev cc10_stg0_0 : Ref sig .tc := ⟨.vmem, 140, rfl⟩
abbrev cc10_stg0_1 : Ref sig .tc := ⟨.vmem, 141, rfl⟩
abbrev cc10_stg1_0 : Ref sig .tc := ⟨.vmem, 142, rfl⟩
abbrev cc10_stg1_1 : Ref sig .tc := ⟨.vmem, 143, rfl⟩
abbrev cc10_stg2_0 : Ref sig .tc := ⟨.vmem, 144, rfl⟩
abbrev cc10_stg2_1 : Ref sig .tc := ⟨.vmem, 145, rfl⟩
abbrev cc10_stg3_0 : Ref sig .tc := ⟨.vmem, 146, rfl⟩
abbrev cc10_stg3_1 : Ref sig .tc := ⟨.vmem, 147, rfl⟩
abbrev cc10_stg4_0 : Ref sig .tc := ⟨.vmem, 148, rfl⟩
abbrev cc10_stg4_1 : Ref sig .tc := ⟨.vmem, 149, rfl⟩
abbrev cc10_stg5_0 : Ref sig .tc := ⟨.vmem, 150, rfl⟩
abbrev cc10_stg5_1 : Ref sig .tc := ⟨.vmem, 151, rfl⟩
abbrev cc10_stg6_0 : Ref sig .tc := ⟨.vmem, 152, rfl⟩
abbrev cc10_stg6_1 : Ref sig .tc := ⟨.vmem, 153, rfl⟩
abbrev cc11_stg0_0 : Ref sig .tc := ⟨.vmem, 154, rfl⟩
abbrev cc11_stg0_1 : Ref sig .tc := ⟨.vmem, 155, rfl⟩
abbrev cc11_stg1_0 : Ref sig .tc := ⟨.vmem, 156, rfl⟩
abbrev cc11_stg1_1 : Ref sig .tc := ⟨.vmem, 157, rfl⟩
abbrev cc11_stg2_0 : Ref sig .tc := ⟨.vmem, 158, rfl⟩
abbrev cc11_stg2_1 : Ref sig .tc := ⟨.vmem, 159, rfl⟩
abbrev cc11_stg3_0 : Ref sig .tc := ⟨.vmem, 160, rfl⟩
abbrev cc11_stg3_1 : Ref sig .tc := ⟨.vmem, 161, rfl⟩
abbrev cc11_stg4_0 : Ref sig .tc := ⟨.vmem, 162, rfl⟩
abbrev cc11_stg4_1 : Ref sig .tc := ⟨.vmem, 163, rfl⟩
abbrev cc11_stg5_0 : Ref sig .tc := ⟨.vmem, 164, rfl⟩
abbrev cc11_stg5_1 : Ref sig .tc := ⟨.vmem, 165, rfl⟩
abbrev cc11_stg6_0 : Ref sig .tc := ⟨.vmem, 166, rfl⟩
abbrev cc11_stg6_1 : Ref sig .tc := ⟨.vmem, 167, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem3_1 : DmaSem sig := 63
abbrev cc4_sem4_0 : DmaSem sig := 64
abbrev cc4_sem4_1 : DmaSem sig := 65
abbrev cc4_sem5_0 : DmaSem sig := 66
abbrev cc4_sem5_1 : DmaSem sig := 67
abbrev cc4_sem6_0 : DmaSem sig := 68
abbrev cc4_sem6_1 : DmaSem sig := 69
abbrev cc5_sem0_0 : DmaSem sig := 70
abbrev cc5_sem0_1 : DmaSem sig := 71
abbrev cc5_sem1_0 : DmaSem sig := 72
abbrev cc5_sem1_1 : DmaSem sig := 73
abbrev cc5_sem2_0 : DmaSem sig := 74
abbrev cc5_sem2_1 : DmaSem sig := 75
abbrev cc5_sem3_0 : DmaSem sig := 76
abbrev cc5_sem3_1 : DmaSem sig := 77
abbrev cc5_sem4_0 : DmaSem sig := 78
abbrev cc5_sem4_1 : DmaSem sig := 79
abbrev cc5_sem5_0 : DmaSem sig := 80
abbrev cc5_sem5_1 : DmaSem sig := 81
abbrev cc5_sem6_0 : DmaSem sig := 82
abbrev cc5_sem6_1 : DmaSem sig := 83
abbrev cc6_sem0_0 : DmaSem sig := 84
abbrev cc6_sem0_1 : DmaSem sig := 85
abbrev cc6_sem1_0 : DmaSem sig := 86
abbrev cc6_sem1_1 : DmaSem sig := 87
abbrev cc6_sem2_0 : DmaSem sig := 88
abbrev cc6_sem2_1 : DmaSem sig := 89
abbrev cc6_sem3_0 : DmaSem sig := 90
abbrev cc6_sem3_1 : DmaSem sig := 91
abbrev cc6_sem4_0 : DmaSem sig := 92
abbrev cc6_sem4_1 : DmaSem sig := 93
abbrev cc6_sem5_0 : DmaSem sig := 94
abbrev cc6_sem5_1 : DmaSem sig := 95
abbrev cc6_sem6_0 : DmaSem sig := 96
abbrev cc6_sem6_1 : DmaSem sig := 97
abbrev cc7_sem0_0 : DmaSem sig := 98
abbrev cc7_sem0_1 : DmaSem sig := 99
abbrev cc7_sem1_0 : DmaSem sig := 100
abbrev cc7_sem1_1 : DmaSem sig := 101
abbrev cc7_sem2_0 : DmaSem sig := 102
abbrev cc7_sem2_1 : DmaSem sig := 103
abbrev cc7_sem3_0 : DmaSem sig := 104
abbrev cc7_sem3_1 : DmaSem sig := 105
abbrev cc7_sem4_0 : DmaSem sig := 106
abbrev cc7_sem4_1 : DmaSem sig := 107
abbrev cc7_sem5_0 : DmaSem sig := 108
abbrev cc7_sem5_1 : DmaSem sig := 109
abbrev cc7_sem6_0 : DmaSem sig := 110
abbrev cc7_sem6_1 : DmaSem sig := 111
abbrev cc8_sem0_0 : DmaSem sig := 112
abbrev cc8_sem0_1 : DmaSem sig := 113
abbrev cc8_sem1_0 : DmaSem sig := 114
abbrev cc8_sem1_1 : DmaSem sig := 115
abbrev cc8_sem2_0 : DmaSem sig := 116
abbrev cc8_sem2_1 : DmaSem sig := 117
abbrev cc8_sem3_0 : DmaSem sig := 118
abbrev cc8_sem3_1 : DmaSem sig := 119
abbrev cc8_sem4_0 : DmaSem sig := 120
abbrev cc8_sem4_1 : DmaSem sig := 121
abbrev cc8_sem5_0 : DmaSem sig := 122
abbrev cc8_sem5_1 : DmaSem sig := 123
abbrev cc8_sem6_0 : DmaSem sig := 124
abbrev cc8_sem6_1 : DmaSem sig := 125
abbrev cc9_sem0_0 : DmaSem sig := 126
abbrev cc9_sem0_1 : DmaSem sig := 127
abbrev cc9_sem1_0 : DmaSem sig := 128
abbrev cc9_sem1_1 : DmaSem sig := 129
abbrev cc9_sem2_0 : DmaSem sig := 130
abbrev cc9_sem2_1 : DmaSem sig := 131
abbrev cc9_sem3_0 : DmaSem sig := 132
abbrev cc9_sem3_1 : DmaSem sig := 133
abbrev cc9_sem4_0 : DmaSem sig := 134
abbrev cc9_sem4_1 : DmaSem sig := 135
abbrev cc9_sem5_0 : DmaSem sig := 136
abbrev cc9_sem5_1 : DmaSem sig := 137
abbrev cc9_sem6_0 : DmaSem sig := 138
abbrev cc9_sem6_1 : DmaSem sig := 139
abbrev cc10_sem0_0 : DmaSem sig := 140
abbrev cc10_sem0_1 : DmaSem sig := 141
abbrev cc10_sem1_0 : DmaSem sig := 142
abbrev cc10_sem1_1 : DmaSem sig := 143
abbrev cc10_sem2_0 : DmaSem sig := 144
abbrev cc10_sem2_1 : DmaSem sig := 145
abbrev cc10_sem3_0 : DmaSem sig := 146
abbrev cc10_sem3_1 : DmaSem sig := 147
abbrev cc10_sem4_0 : DmaSem sig := 148
abbrev cc10_sem4_1 : DmaSem sig := 149
abbrev cc10_sem5_0 : DmaSem sig := 150
abbrev cc10_sem5_1 : DmaSem sig := 151
abbrev cc10_sem6_0 : DmaSem sig := 152
abbrev cc10_sem6_1 : DmaSem sig := 153
abbrev cc11_sem0_0 : DmaSem sig := 154
abbrev cc11_sem0_1 : DmaSem sig := 155
abbrev cc11_sem1_0 : DmaSem sig := 156
abbrev cc11_sem1_1 : DmaSem sig := 157
abbrev cc11_sem2_0 : DmaSem sig := 158
abbrev cc11_sem2_1 : DmaSem sig := 159
abbrev cc11_sem3_0 : DmaSem sig := 160
abbrev cc11_sem3_1 : DmaSem sig := 161
abbrev cc11_sem4_0 : DmaSem sig := 162
abbrev cc11_sem4_1 : DmaSem sig := 163
abbrev cc11_sem5_0 : DmaSem sig := 164
abbrev cc11_sem5_1 : DmaSem sig := 165
abbrev cc11_sem6_0 : DmaSem sig := 166
abbrev cc11_sem6_1 : DmaSem sig := 167

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S4000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S4000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S4000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S4000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S4000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S4000x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S4000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S4000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S4000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S4000x1 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S4000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S4000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S4000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S4000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S4000x1 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S4000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S4000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S4000x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S1000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S1000x1 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S1000x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S1000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S1000x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

class Facts₀ : Prop where
  bcast_S_S1500000 : S_.BroadcastsInDim S1500000 (![] : Fin 0 → Fin S1500000.rank)
  bcast_S_S200000 : S_.BroadcastsInDim S200000 (![] : Fin 0 → Fin S200000.rank)
  bcast_S1500000_S1500000x1_0 : S1500000.BroadcastsInDim S1500000x1 (![0] : Fin 1 → Fin S1500000x1.rank)
  bcast_S200000_S200000x1_0 : S200000.BroadcastsInDim S200000x1 (![0] : Fin 1 → Fin S200000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S5000 : S_.BroadcastsInDim S5000 (![] : Fin 0 → Fin S5000.rank)
  bcast_S5000_S5000x1_0 : S5000.BroadcastsInDim S5000x1 (![0] : Fin 1 → Fin S5000x1.rank)
  slices_S100000x128_S100000x64_0_0 : S100000x128.Slices ![0, 0] S100000x64
  bcast_S_S200000x64 : S_.BroadcastsInDim S200000x64 (![] : Fin 0 → Fin S200000x64.rank)
  slices_S20000x128_S20000x64_0_0 : S20000x128.Slices ![0, 0] S20000x64
  slices_S200000x128_S200000x64_0_0 : S200000x128.Slices ![0, 0] S200000x64
  bcast_S_S100000x64 : S_.BroadcastsInDim S100000x64 (![] : Fin 0 → Fin S100000x64.rank)
  slices_S5000x128_S5000x64_0_0 : S5000x128.Slices ![0, 0] S5000x64
  slices_S200000x128_S200000x64_0_64 : S200000x128.Slices ![0, 64] S200000x64
  bcast_S_S20000x64 : S_.BroadcastsInDim S20000x64 (![] : Fin 0 → Fin S20000x64.rank)
  slices_S5000x128_S5000x64_0_64 : S5000x128.Slices ![0, 64] S5000x64
  slices_S100000x128_S100000x64_0_64 : S100000x128.Slices ![0, 64] S100000x64
  bcast_S_S5000x64 : S_.BroadcastsInDim S5000x64 (![] : Fin 0 → Fin S5000x64.rank)
  slices_S20000x128_S20000x64_0_64 : S20000x128.Slices ![0, 64] S20000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  concatenates_S4000x64_S4000x64_S4000x128_d1 : Shape.Concatenates [S4000x64, S4000x64] S4000x128 1
  inb_S4000x128_S4000x128_0_0 : ∀ a, (![0, 0] : Fin 2 → Nat) a + S4000x128.size a ≤ S4000x128.size a
  h_S4000x128 : 0 < S4000x128.numel
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x64 : S1000x1.Broadcasts S1000x64
  concatenates_S1000x64_S1000x64_S1000x128_d1 : Shape.Concatenates [S1000x64, S1000x64] S1000x128 1
  inb_S1000x128_S1000x128_0_0 : ∀ a, (![0, 0] : Fin 2 → Nat) a + S1000x128.size a ≤ S1000x128.size a
  h_S1000x128 : 0 < S1000x128.numel
  shapeCasts_S4000x128_S4000x128 : S4000x128.ShapeCasts S4000x128
  shapeCasts_S1000x128_S1000x128 : S1000x128.ShapeCasts S1000x128
  scatter_S200000_S1500000x1_S1500000_n_0_0_1_wf : ScatterDims.WF S200000 S1500000x1 S1500000 [] [0] [0] 1
  scatter_S200000_S800000x1_S800000_n_0_0_1_wf : ScatterDims.WF S200000 S800000x1 S800000 [] [0] [0] 1
  scatter_S100000_S1500000x1_S1500000_n_0_0_1_wf : ScatterDims.WF S100000 S1500000x1 S1500000 [] [0] [0] 1
  scatter_S100000_S800000x1_S800000_n_0_0_1_wf : ScatterDims.WF S100000 S800000x1 S800000 [] [0] [0] 1
  scatter_S20000_S800000x1_S800000_n_0_0_1_wf : ScatterDims.WF S20000 S800000x1 S800000 [] [0] [0] 1
  scatter_S20000_S400000x1_S400000_n_0_0_1_wf : ScatterDims.WF S20000 S400000x1 S400000 [] [0] [0] 1
  scatter_S5000_S800000x1_S800000_n_0_0_1_wf : ScatterDims.WF S5000 S800000x1 S800000 [] [0] [0] 1
  scatter_S5000_S400000x1_S400000_n_0_0_1_wf : ScatterDims.WF S5000 S400000x1 S400000 [] [0] [0] 1
  gather_S100000x64_S1500000x1_S1500000x64_1_0_n_n_0_1_164_wf : GatherDims.WF S100000x64 S1500000x1 S1500000x64 [1] [0] [] [0] [] 1 ![1, 64]
  scatter_S200000x64_S1500000x1_S1500000x64_1_0_0_1_wf : ScatterDims.WF S200000x64 S1500000x1 S1500000x64 [1] [0] [0] 1
  gather_S20000x64_S800000x1_S800000x64_1_0_n_n_0_1_164_wf : GatherDims.WF S20000x64 S800000x1 S800000x64 [1] [0] [] [0] [] 1 ![1, 64]
  scatter_S200000x64_S800000x1_S800000x64_1_0_0_1_wf : ScatterDims.WF S200000x64 S800000x1 S800000x64 [1] [0] [0] 1
  gather_S200000x64_S1500000x1_S1500000x64_1_0_n_n_0_1_164_wf : GatherDims.WF S200000x64 S1500000x1 S1500000x64 [1] [0] [] [0] [] 1 ![1, 64]
  scatter_S100000x64_S1500000x1_S1500000x64_1_0_0_1_wf : ScatterDims.WF S100000x64 S1500000x1 S1500000x64 [1] [0] [0] 1
  gather_S5000x64_S800000x1_S800000x64_1_0_n_n_0_1_164_wf : GatherDims.WF S5000x64 S800000x1 S800000x64 [1] [0] [] [0] [] 1 ![1, 64]
  scatter_S100000x64_S800000x1_S800000x64_1_0_0_1_wf : ScatterDims.WF S100000x64 S800000x1 S800000x64 [1] [0] [0] 1
  gather_S200000x64_S800000x1_S800000x64_1_0_n_n_0_1_164_wf : GatherDims.WF S200000x64 S800000x1 S800000x64 [1] [0] [] [0] [] 1 ![1, 64]
  scatter_S20000x64_S800000x1_S800000x64_1_0_0_1_wf : ScatterDims.WF S20000x64 S800000x1 S800000x64 [1] [0] [0] 1
  gather_S5000x64_S400000x1_S400000x64_1_0_n_n_0_1_164_wf : GatherDims.WF S5000x64 S400000x1 S400000x64 [1] [0] [] [0] [] 1 ![1, 64]
  scatter_S20000x64_S400000x1_S400000x64_1_0_0_1_wf : ScatterDims.WF S20000x64 S400000x1 S400000x64 [1] [0] [0] 1
  gather_S100000x64_S800000x1_S800000x64_1_0_n_n_0_1_164_wf : GatherDims.WF S100000x64 S800000x1 S800000x64 [1] [0] [] [0] [] 1 ![1, 64]
  scatter_S5000x64_S800000x1_S800000x64_1_0_0_1_wf : ScatterDims.WF S5000x64 S800000x1 S800000x64 [1] [0] [0] 1
  gather_S20000x64_S400000x1_S400000x64_1_0_n_n_0_1_164_wf : GatherDims.WF S20000x64 S400000x1 S400000x64 [1] [0] [] [0] [] 1 ![1, 64]
  scatter_S5000x64_S400000x1_S400000x64_1_0_0_1_wf : ScatterDims.WF S5000x64 S400000x1 S400000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S200000x1.size a
  hwx0_1 : ∀ i : grid0.Coords, EltTy.bits .f32 = 32 ∨ (Rect.block (s := S200000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S200000x64.size a
  hwx0_2 : ∀ i : grid0.Coords, EltTy.bits .f32 = 32 ∨ (Rect.block (s := S200000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S200000x1.size a
  hwx0_3 : ∀ i : grid0.Coords, EltTy.bits .f32 = 32 ∨ (Rect.block (s := S200000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S200000x128.size a
  hwx0_4 : ∀ i : grid0.Coords, EltTy.bits .f32 = 32 ∨ (Rect.block (s := S200000x128) S4000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S200000x128.size a
  hwx0_5 : ∀ i : grid0.Coords, EltTy.bits .f32 = 32 ∨ (Rect.block (s := S200000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S200000x128.size a
  hwx0_6 : ∀ i : grid0.Coords, EltTy.bits .f32 = 32 ∨ (Rect.block (s := S200000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S20000x64.size a
  hwx2_0 : ∀ i : grid2.Coords, EltTy.bits .f32 = 32 ∨ (Rect.block (s := S20000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S20000x1.size a
  hwx2_1 : ∀ i : grid2.Coords, EltTy.bits .f32 = 32 ∨ (Rect.block (s := S20000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S20000x64.size a
  hwx2_2 : ∀ i : grid2.Coords, EltTy.bits .f32 = 32 ∨ (Rect.block (s := S20000x64) S4000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S20000x1.size a
  hwx2_3 : ∀ i : grid2.Coords, EltTy.bits .f32 = 32 ∨ (Rect.block (s := S20000x1) S4000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S20000x128.size a
  hwx2_4 : ∀ i : grid2.Coords, EltTy.bits .f32 = 32 ∨ (Rect.block (s := S20000x128) S4000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S20000x128.size a
  hwx2_5 : ∀ i : grid2.Coords, EltTy.bits .f32 = 32 ∨ (Rect.block (s := S20000x128) S4000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S20000x128.size a
  hwx2_6 : ∀ i : grid2.Coords, EltTy.bits .f32 = 32 ∨ (Rect.block (s := S20000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S5000x64.size a
  hwx3_0 : ∀ i : grid3.Coords, EltTy.bits .f32 = 32 ∨ (Rect.block (s := S5000x64) S1000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S5000x1.size a
  hwx3_1 : ∀ i : grid3.Coords, EltTy.bits .f32 = 32 ∨ (Rect.block (s := S5000x1) S1000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x64.size a ≤ S5000x64.size a
  hwx3_2 : ∀ i : grid3.Coords, EltTy.bits .f32 = 32 ∨ (Rect.block (s := S5000x64) S1000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x1.size a ≤ S5000x1.size a
  hwx3_3 : ∀ i : grid3.Coords, EltTy.bits .f32 = 32 ∨ (Rect.block (s := S5000x1) S1000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x128.size a ≤ S5000x128.size a
  hwx3_4 : ∀ i : grid3.Coords, EltTy.bits .f32 = 32 ∨ (Rect.block (s := S5000x128) S1000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S5000x128.size a
  hwx3_5 : ∀ i : grid3.Coords, EltTy.bits .f32 = 32 ∨ (Rect.block (s := S5000x128) S1000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S5000x128.size a
  hwx3_6 : ∀ i : grid3.Coords, EltTy.bits .f32 = 32 ∨ (Rect.block (s := S5000x128) S1000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S200000x64.size a
  hwx4_0 : ∀ i : grid4.Coords, EltTy.bits .f32 = 32 ∨ (Rect.block (s := S200000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S200000x1.size a
  hwx4_1 : ∀ i : grid4.Coords, EltTy.bits .f32 = 32 ∨ (Rect.block (s := S200000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S200000x64.size a
  hwx4_2 : ∀ i : grid4.Coords, EltTy.bits .f32 = 32 ∨ (Rect.block (s := S200000x64) S4000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x1.size a ≤ S200000x1.size a
  hwx4_3 : ∀ i : grid4.Coords, EltTy.bits .f32 = 32 ∨ (Rect.block (s := S200000x1) S4000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S200000x128.size a
  hwx4_4 : ∀ i : grid4.Coords, EltTy.bits .f32 = 32 ∨ (Rect.block (s := S200000x128) S4000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S200000x128.size a
  hwx4_5 : ∀ i : grid4.Coords, EltTy.bits .f32 = 32 ∨ (Rect.block (s := S200000x128) S4000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S200000x128.size a
  hwx4_6 : ∀ i : grid4.Coords, EltTy.bits .f32 = 32 ∨ (Rect.block (s := S200000x128) S4000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S100000x64.size a
  hwx5_2 : ∀ i : grid5.Coords, EltTy.bits .f32 = 32 ∨ (Rect.block (s := S100000x64) S4000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x1.size a ≤ S100000x1.size a
  hwx5_3 : ∀ i : grid5.Coords, EltTy.bits .f32 = 32 ∨ (Rect.block (s := S100000x1) S4000x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x128.size a ≤ S100000x128.size a
  hwx5_4 : ∀ i : grid5.Coords, EltTy.bits .f32 = 32 ∨ (Rect.block (s := S100000x128) S4000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x128.size a ≤ S100000x128.size a
  hwx5_5 : ∀ i : grid5.Coords, EltTy.bits .f32 = 32 ∨ (Rect.block (s := S100000x128) S4000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S100000x128.size a
  hwx5_6 : ∀ i : grid5.Coords, EltTy.bits .f32 = 32 ∨ (Rect.block (s := S100000x128) S4000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S20000x64.size a
  hwx6_0 : ∀ i : grid6.Coords, EltTy.bits .f32 = 32 ∨ (Rect.block (s := S20000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x1.size a ≤ S20000x1.size a
  hwx6_1 : ∀ i : grid6.Coords, EltTy.bits .f32 = 32 ∨ (Rect.block (s := S20000x1) S4000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x64.size a ≤ S20000x64.size a
  hwx6_2 : ∀ i : grid6.Coords, EltTy.bits .f32 = 32 ∨ (Rect.block (s := S20000x64) S4000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x1.size a ≤ S20000x1.size a
  hwx6_3 : ∀ i : grid6.Coords, EltTy.bits .f32 = 32 ∨ (Rect.block (s := S20000x1) S4000x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x128.size a ≤ S20000x128.size a
  hwx6_4 : ∀ i : grid6.Coords, EltTy.bits .f32 = 32 ∨ (Rect.block (s := S20000x128) S4000x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x128.size a ≤ S20000x128.size a
  hwx6_5 : ∀ i : grid6.Coords, EltTy.bits .f32 = 32 ∨ (Rect.block (s := S20000x128) S4000x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4000x128.size a ≤ S20000x128.size a
  hwx6_6 : ∀ i : grid6.Coords, EltTy.bits .f32 = 32 ∨ (Rect.block (s := S20000x128) S4000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x64.size a ≤ S5000x64.size a
  hwx7_0 : ∀ i : grid7.Coords, EltTy.bits .f32 = 32 ∨ (Rect.block (s := S5000x64) S1000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x1.size a ≤ S5000x1.size a
  hwx7_1 : ∀ i : grid7.Coords, EltTy.bits .f32 = 32 ∨ (Rect.block (s := S5000x1) S1000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1000x64.size a ≤ S5000x64.size a
  hwx7_2 : ∀ i : grid7.Coords, EltTy.bits .f32 = 32 ∨ (Rect.block (s := S5000x64) S1000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x1.size a ≤ S5000x1.size a
  hwx7_3 : ∀ i : grid7.Coords, EltTy.bits .f32 = 32 ∨ (Rect.block (s := S5000x1) S1000x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1000x128.size a ≤ S5000x128.size a
  hwx7_4 : ∀ i : grid7.Coords, EltTy.bits .f32 = 32 ∨ (Rect.block (s := S5000x128) S1000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1000x128.size a ≤ S5000x128.size a
  hwx7_5 : ∀ i : grid7.Coords, EltTy.bits .f32 = 32 ∨ (Rect.block (s := S5000x128) S1000x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1000x128.size a ≤ S5000x128.size a
  hwx7_6 : ∀ i : grid7.Coords, EltTy.bits .f32 = 32 ∨ (Rect.block (s := S5000x128) S1000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S200000x64.size a
  hwx8_0 : ∀ i : grid8.Coords, EltTy.bits .f32 = 32 ∨ (Rect.block (s := S200000x64) S4000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x1.size a ≤ S200000x1.size a
  hwx8_1 : ∀ i : grid8.Coords, EltTy.bits .f32 = 32 ∨ (Rect.block (s := S200000x1) S4000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x64.size a ≤ S200000x64.size a
  hwx8_2 : ∀ i : grid8.Coords, EltTy.bits .f32 = 32 ∨ (Rect.block (s := S200000x64) S4000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x1.size a ≤ S200000x1.size a
  hwx8_3 : ∀ i : grid8.Coords, EltTy.bits .f32 = 32 ∨ (Rect.block (s := S200000x1) S4000x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S4000x128.size a ≤ S200000x128.size a
  hwx8_4 : ∀ i : grid8.Coords, EltTy.bits .f32 = 32 ∨ (Rect.block (s := S200000x128) S4000x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S4000x128.size a ≤ S200000x128.size a
  hwx8_5 : ∀ i : grid8.Coords, EltTy.bits .f32 = 32 ∨ (Rect.block (s := S200000x128) S4000x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S4000x128.size a ≤ S200000x128.size a
  hwx8_6 : ∀ i : grid8.Coords, EltTy.bits .f32 = 32 ∨ (Rect.block (s := S200000x128) S4000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x64.size a ≤ S100000x64.size a
  hwx9_0 : ∀ i : grid9.Coords, EltTy.bits .f32 = 32 ∨ (Rect.block (s := S100000x64) S4000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x1.size a ≤ S100000x1.size a
  hwx9_1 : ∀ i : grid9.Coords, EltTy.bits .f32 = 32 ∨ (Rect.block (s := S100000x1) S4000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4000x64.size a ≤ S100000x64.size a
  hwx9_2 : ∀ i : grid9.Coords, EltTy.bits .f32 = 32 ∨ (Rect.block (s := S100000x64) S4000x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x1.size a ≤ S100000x1.size a
  hwx9_3 : ∀ i : grid9.Coords, EltTy.bits .f32 = 32 ∨ (Rect.block (s := S100000x1) S4000x1.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4000x128.size a ≤ S100000x128.size a
  hwx9_4 : ∀ i : grid9.Coords, EltTy.bits .f32 = 32 ∨ (Rect.block (s := S100000x128) S4000x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S4000x128.size a ≤ S100000x128.size a
  hwx9_5 : ∀ i : grid9.Coords, EltTy.bits .f32 = 32 ∨ (Rect.block (s := S100000x128) S4000x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S4000x128.size a ≤ S100000x128.size a
  hwx9_6 : ∀ i : grid9.Coords, EltTy.bits .f32 = 32 ∨ (Rect.block (s := S100000x128) S4000x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x64.size a ≤ S20000x64.size a
  hwx10_0 : ∀ i : grid10.Coords, EltTy.bits .f32 = 32 ∨ (Rect.block (s := S20000x64) S4000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4000x1.size a ≤ S20000x1.size a
  hwx10_1 : ∀ i : grid10.Coords, EltTy.bits .f32 = 32 ∨ (Rect.block (s := S20000x1) S4000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4000x64.size a ≤ S20000x64.size a
  hwx10_2 : ∀ i : grid10.Coords, EltTy.bits .f32 = 32 ∨ (Rect.block (s := S20000x64) S4000x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S4000x1.size a ≤ S20000x1.size a
  hwx10_3 : ∀ i : grid10.Coords, EltTy.bits .f32 = 32 ∨ (Rect.block (s := S20000x1) S4000x1.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S4000x128.size a ≤ S20000x128.size a
  hwx10_4 : ∀ i : grid10.Coords, EltTy.bits .f32 = 32 ∨ (Rect.block (s := S20000x128) S4000x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S4000x128.size a ≤ S20000x128.size a
  hwx10_5 : ∀ i : grid10.Coords, EltTy.bits .f32 = 32 ∨ (Rect.block (s := S20000x128) S4000x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S4000x128.size a ≤ S20000x128.size a
  hwx10_6 : ∀ i : grid10.Coords, EltTy.bits .f32 = 32 ∨ (Rect.block (s := S20000x128) S4000x128.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1000x64.size a ≤ S5000x64.size a
  hwx11_0 : ∀ i : grid11.Coords, EltTy.bits .f32 = 32 ∨ (Rect.block (s := S5000x64) S1000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1000x1.size a ≤ S5000x1.size a
  hwx11_1 : ∀ i : grid11.Coords, EltTy.bits .f32 = 32 ∨ (Rect.block (s := S5000x1) S1000x1.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1000x64.size a ≤ S5000x64.size a
  hwx11_2 : ∀ i : grid11.Coords, EltTy.bits .f32 = 32 ∨ (Rect.block (s := S5000x64) S1000x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1000x1.size a ≤ S5000x1.size a
  hwx11_3 : ∀ i : grid11.Coords, EltTy.bits .f32 = 32 ∨ (Rect.block (s := S5000x1) S1000x1.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S1000x128.size a ≤ S5000x128.size a
  hwx11_4 : ∀ i : grid11.Coords, EltTy.bits .f32 = 32 ∨ (Rect.block (s := S5000x128) S1000x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S1000x128.size a ≤ S5000x128.size a
  hwx11_5 : ∀ i : grid11.Coords, EltTy.bits .f32 = 32 ∨ (Rect.block (s := S5000x128) S1000x128.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S1000x128.size a ≤ S5000x128.size a
  hwx11_6 : ∀ i : grid11.Coords, EltTy.bits .f32 = 32 ∨ (Rect.block (s := S5000x128) S1000x128.size (cc11_transform_6 i) (hinb11_6 i)).WholeWords (EltTy.packing .f32)

variable [Facts₀]

def scatter_S200000_S1500000x1_S1500000_n_0_0_1 : ScatterDims S200000 S1500000x1 S1500000 where
  updateWindowDims := []
  insertedWindowDims := [0]
  scatterDimsToOperandDims := [0]
  indexVectorDim := 1
  wf := scatter_S200000_S1500000x1_S1500000_n_0_0_1_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def scatter_S100000_S1500000x1_S1500000_n_0_0_1 : ScatterDims S100000 S1500000x1 S1500000 where
  updateWindowDims := []
  insertedWindowDims := [0]
  scatterDimsToOperandDims := [0]
  indexVectorDim := 1
  wf := scatter_S100000_S1500000x1_S1500000_n_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def scatter_S5000_S800000x1_S800000_n_0_0_1 : ScatterDims S5000 S800000x1 S800000 where
  updateWindowDims := []
  insertedWindowDims := [0]
  scatterDimsToOperandDims := [0]
  indexVectorDim := 1
  wf := scatter_S5000_S800000x1_S800000_n_0_0_1_wf
def scatter_S5000_S400000x1_S400000_n_0_0_1 : ScatterDims S5000 S400000x1 S400000 where
  updateWindowDims := []
  insertedWindowDims := [0]
  scatterDimsToOperandDims := [0]
  indexVectorDim := 1
  wf := scatter_S5000_S400000x1_S400000_n_0_0_1_wf
def gather_S100000x64_S1500000x1_S1500000x64_1_0_n_n_0_1_164 : GatherDims S100000x64 S1500000x1 S1500000x64 where
  offsetDims := [1]
  collapsedSliceDims := [0]
  operandBatchingDims := []
  startIndicesBatchingDims := []
  startIndexMap := [0]
  indexVectorDim := 1
  sliceSizes := ![1, 64]
  wf := gather_S100000x64_S1500000x1_S1500000x64_1_0_n_n_0_1_164_wf
def scatter_S200000x64_S1500000x1_S1500000x64_1_0_0_1 : ScatterDims S200000x64 S1500000x1 S1500000x64 where
  updateWindowDims := [1]
  insertedWindowDims := [0]
  scatterDimsToOperandDims := [0]
  indexVectorDim := 1
  wf := scatter_S200000x64_S1500000x1_S1500000x64_1_0_0_1_wf
def gather_S20000x64_S800000x1_S800000x64_1_0_n_n_0_1_164 : GatherDims S20000x64 S800000x1 S800000x64 where
  offsetDims := [1]
  collapsedSliceDims := [0]
  operandBatchingDims := []
  startIndicesBatchingDims := []
  startIndexMap := [0]
  indexVectorDim := 1
  sliceSizes := ![1, 64]
  wf := gather_S20000x64_S800000x1_S800000x64_1_0_n_n_0_1_164_wf
def scatter_S200000x64_S800000x1_S800000x64_1_0_0_1 : ScatterDims S200000x64 S800000x1 S800000x64 where
  updateWindowDims := [1]
  insertedWindowDims := [0]
  scatterDimsToOperandDims := [0]
  indexVectorDim := 1
  wf := scatter_S200000x64_S800000x1_S800000x64_1_0_0_1_wf
def gather_S200000x64_S1500000x1_S1500000x64_1_0_n_n_0_1_164 : GatherDims S200000x64 S1500000x1 S1500000x64 where
  offsetDims := [1]
  collapsedSliceDims := [0]
  operandBatchingDims := []
  startIndicesBatchingDims := []
  startIndexMap := [0]
  indexVectorDim := 1
  sliceSizes := ![1, 64]
  wf := gather_S200000x64_S1500000x1_S1500000x64_1_0_n_n_0_1_164_wf
def scatter_S100000x64_S1500000x1_S1500000x64_1_0_0_1 : ScatterDims S100000x64 S1500000x1 S1500000x64 where
  updateWindowDims := [1]
  insertedWindowDims := [0]
  scatterDimsToOperandDims := [0]
  indexVectorDim := 1
  wf := scatter_S100000x64_S1500000x1_S1500000x64_1_0_0_1_wf
def gather_S5000x64_S800000x1_S800000x64_1_0_n_n_0_1_164 : GatherDims S5000x64 S800000x1 S800000x64 where
  offsetDims := [1]
  collapsedSliceDims := [0]
  operandBatchingDims := []
  startIndicesBatchingDims := []
  startIndexMap := [0]
  indexVectorDim := 1
  sliceSizes := ![1, 64]
  wf := gather_S5000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def gather_S200000x64_S800000x1_S800000x64_1_0_n_n_0_1_164 : GatherDims S200000x64 S800000x1 S800000x64 where
  offsetDims := [1]
  collapsedSliceDims := [0]
  operandBatchingDims := []
  startIndicesBatchingDims := []
  startIndexMap := [0]
  indexVectorDim := 1
  sliceSizes := ![1, 64]
  wf := gather_S200000x64_S800000x1_S800000x64_1_0_n_n_0_1_164_wf
def scatter_S20000x64_S800000x1_S800000x64_1_0_0_1 : ScatterDims S20000x64 S800000x1 S800000x64 where
  updateWindowDims := [1]
  insertedWindowDims := [0]
  scatterDimsToOperandDims := [0]
  indexVectorDim := 1
  wf := scatter_S20000x64_S800000x1_S800000x64_1_0_0_1_wf
def gather_S5000x64_S400000x1_S400000x64_1_0_n_n_0_1_164 : GatherDims S5000x64 S400000x1 S400000x64 where
  offsetDims := [1]
  collapsedSliceDims := [0]
  operandBatchingDims := []
  startIndicesBatchingDims := []
  startIndexMap := [0]
  indexVectorDim := 1
  sliceSizes := ![1, 64]
  wf := gather_S5000x64_S400000x1_S400000x64_1_0_n_n_0_1_164_wf
def scatter_S20000x64_S400000x1_S400000x64_1_0_0_1 : ScatterDims S20000x64 S400000x1 S400000x64 where
  updateWindowDims := [1]
  insertedWindowDims := [0]
  scatterDimsToOperandDims := [0]
  indexVectorDim := 1
  wf := scatter_S20000x64_S400000x1_S400000x64_1_0_0_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S5000x64_S800000x1_S800000x64_1_0_0_1 : ScatterDims S5000x64 S800000x1 S800000x64 where
  updateWindowDims := [1]
  insertedWindowDims := [0]
  scatterDimsToOperandDims := [0]
  indexVectorDim := 1
  wf := scatter_S5000x64_S800000x1_S800000x64_1_0_0_1_wf
def gather_S20000x64_S400000x1_S400000x64_1_0_n_n_0_1_164 : GatherDims S20000x64 S400000x1 S400000x64 where
  offsetDims := [1]
  collapsedSliceDims := [0]
  operandBatchingDims := []
  startIndicesBatchingDims := []
  startIndexMap := [0]
  indexVectorDim := 1
  sliceSizes := ![1, 64]
  wf := gather_S20000x64_S400000x1_S400000x64_1_0_n_n_0_1_164_wf
def scatter_S5000x64_S400000x1_S400000x64_1_0_0_1 : ScatterDims S5000x64 S400000x1 S400000x64 where
  updateWindowDims := [1]
  insertedWindowDims := [0]
  scatterDimsToOperandDims := [0]
  indexVectorDim := 1
  wf := scatter_S5000x64_S400000x1_S400000x64_1_0_0_1_wf

abbrev win0_0 : Pipeline.Window sig grid0 :=
  Pipeline.Window.ofSpec (Memref.whole main_v82) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v93) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S4000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v160_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v160_1) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v104) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v115) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S4000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v161_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v161_1) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v126) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v137) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg2) S4000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v162_0) S4000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v162_1) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v148) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v159) S1000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg3) S1000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v163_0) S1000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v163_1) S1000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v174) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v185) S4000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v17) S4000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v160_1) S4000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v252_0) S4000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v252_1) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v196) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v207) S4000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v35) S4000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v161_1) S4000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v253_0) S4000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v253_1) S4000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v218) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v44) S4000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v229) S4000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v53) S4000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v162_1) S4000x128.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v254_0) S4000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v254_1) S4000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v240) S1000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v62) S1000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v251) S1000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v71) S1000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v163_1) S1000x128.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v255_0) S1000x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v255_1) S1000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v266) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v8) S4000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v277) S4000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v17) S4000x1.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v252_1) S4000x128.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v344_0) S4000x128.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v344_1) S4000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v288) S4000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v26) S4000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v299) S4000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v35) S4000x1.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v253_1) S4000x128.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v345_0) S4000x128.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v345_1) S4000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v310) S4000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v44) S4000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v321) S4000x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v53) S4000x1.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v254_1) S4000x128.size cc10_transform_4 reads10_4 false false 2 stage10_4 sem10_4
    hrank10 hreads10_4 hinb10_4 nbuf10_4 (Memref.isWhole_whole _) hwx10_4 hstage10_4

abbrev win10_5 : Pipeline.Window sig grid10 :=
  Pipeline.Window.ofSpec (Memref.whole main_v346_0) S4000x128.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v346_1) S4000x128.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v332) S1000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v62) S1000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v343) S1000x64.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v71) S1000x1.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v255_1) S1000x128.size cc11_transform_4 reads11_4 false false 2 stage11_4 sem11_4
    hrank11 hreads11_4 hinb11_4 nbuf11_4 (Memref.isWhole_whole _) hwx11_4 hstage11_4

abbrev win11_5 : Pipeline.Window sig grid11 :=
  Pipeline.Window.ofSpec (Memref.whole main_v347_0) S1000x128.size cc11_transform_5 reads11_5 true false 2 stage11_5 sem11_5
    hrank11 hreads11_5 hinb11_5 nbuf11_5 (Memref.isWhole_whole _) hwx11_5 hstage11_5

abbrev win11_6 : Pipeline.Window sig grid11 :=
  Pipeline.Window.ofSpec (Memref.whole main_v347_1) S1000x128.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S20000x128 : Shape := ⟨2, ![20000, 128]⟩
abbrev S5000x128 : Shape := ⟨2, ![5000, 128]⟩
abbrev S1500000 : Shape := ⟨1, ![1500000]⟩
abbrev S800000 : Shape := ⟨1, ![800000]⟩
abbrev S400000 : Shape := ⟨1, ![400000]⟩
abbrev S100000x64 : Shape := ⟨2, ![100000, 64]⟩
abbrev S_ : Shape := ⟨0, ![]⟩
abbrev S1500000x1 : Shape := ⟨2, ![1500000, 1]⟩
abbrev S1500000x64 : Shape := ⟨2, ![1500000, 64]⟩
abbrev S200000x64 : Shape := ⟨2, ![200000, 64]⟩
abbrev S200000 : Shape := ⟨1, ![200000]⟩
abbrev S200000x1 : Shape := ⟨2, ![200000, 1]⟩
abbrev S20000x64 : Shape := ⟨2, ![20000, 64]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S5000x64 : Shape := ⟨2, ![5000, 64]⟩
abbrev S20000 : Shape := ⟨1, ![20000]⟩
abbrev S20000x1 : Shape := ⟨2, ![20000, 1]⟩
abbrev S400000x1 : Shape := ⟨2, ![400000, 1]⟩
abbrev S400000x64 : Shape := ⟨2, ![400000, 64]⟩
abbrev S5000 : Shape := ⟨1, ![5000]⟩
abbrev S5000x1 : Shape := ⟨2, ![5000, 1]⟩

abbrev nBuf : Space → Nat
  | .hbm => 704
  | .vmem => 0
  | .smem => 0
  | _ => 0

abbrev hbmTy0_0 (i : Nat) : BufTy := match i % 128 with
  | 0 => ⟨S200000x128, .f32⟩
  | 1 => ⟨S100000x128, .f32⟩
  | 2 => ⟨S20000x128, .f32⟩
  | 3 => ⟨S5000x128, .f32⟩
  | 4 => ⟨S1500000, .i32⟩
  | 5 => ⟨S1500000, .i32⟩
  | 6 => ⟨S1500000, .i32⟩
  | 7 => ⟨S1500000, .i32⟩
  | 8 => ⟨S800000, .i32⟩
  | 9 => ⟨S800000, .i32⟩
  | 10 => ⟨S800000, .i32⟩
  | 11 => ⟨S800000, .i32⟩
  | 12 => ⟨S800000, .i32⟩
  | 13 => ⟨S800000, .i32⟩
  | 14 => ⟨S800000, .i32⟩
  | 15 => ⟨S800000, .i32⟩
  | 16 => ⟨S400000, .i32⟩
  | 17 => ⟨S400000, .i32⟩
  | 18 => ⟨S400000, .i32⟩
  | 19 => ⟨S400000, .i32⟩
  | 20 => ⟨S100000x64, .f32⟩
  | 21 => ⟨S_, .i32⟩
  | 22 => ⟨S1500000, .i32⟩
  | 23 => ⟨S1500000, .i1⟩
  | 24 => ⟨S_, .i32⟩
  | 25 => ⟨S1500000, .i32⟩
  | 26 => ⟨S1500000, .i32⟩
  | 27 => ⟨S1500000, .i32⟩
  | 28 => ⟨S1500000x1, .i32⟩
  | 29 => ⟨S1500000x64, .f32⟩
  | 30 => ⟨S_, .f32⟩
  | 31 => ⟨S200000x64, .f32⟩
  | 32 => ⟨S1500000x1, .i32⟩
  | 33 => ⟨S200000x64, .f32⟩
  | 34 => ⟨S_, .f32⟩
  | 35 => ⟨S1500000, .f32⟩
  | 36 => ⟨S_, .f32⟩
  | 37 => ⟨S200000, .f32⟩
  | 38 => ⟨S1500000x1, .i32⟩
  | 39 => ⟨S200000, .f32⟩
  | 40 => ⟨S_, .f32⟩
  | 41 => ⟨S200000, .f32⟩
  | 42 => ⟨S200000, .f32⟩
  | 43 => ⟨S200000x1, .f32⟩
  | 44 => ⟨S200000x64, .f32⟩
  | 45 => ⟨S200000x64, .f32⟩
  | 46 => ⟨S20000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S_, .f32⟩
  | 57 => ⟨S200000x64, .f32⟩
  | 58 => ⟨S800000x1, .i32⟩
  | 59 => ⟨S200000x64, .f32⟩
  | 60 => ⟨S_, .f32⟩
  | 61 => ⟨S800000, .f32⟩
  | 62 => ⟨S_, .f32⟩
  | 63 => ⟨S200000, .f32⟩
  | 64 => ⟨S800000x1, .i32⟩
  | 65 => ⟨S200000, .f32⟩
  | 66 => ⟨S_, .f32⟩
  | 67 => ⟨S200000, .f32⟩
  | 68 => ⟨S200000, .f32⟩
  | 69 => ⟨S200000x1, .f32⟩
  | 70 => ⟨S200000x64, .f32⟩
  | 71 => ⟨S200000x64, .f32⟩
  | 72 => ⟨S200000x64, .f32⟩
  | 73 => ⟨S_, .i32⟩
  | 74 => ⟨S1500000, .i32⟩
  | 75 => ⟨S1500000, .i1⟩
  | 76 => ⟨S_, .i32⟩
  | 77 => ⟨S1500000, .i32⟩
  | 78 => ⟨S1500000, .i32⟩
  | 79 => ⟨S1500000, .i32⟩
  | 80 => ⟨S1500000x1, .i32⟩
  | 81 => ⟨S1500000x64, .f32⟩
  | 82 => ⟨S_, .f32⟩
  | 83 => ⟨S100000x64, .f32⟩
  | 84 => ⟨S1500000x1, .i32⟩
  | 85 => ⟨S100000x64, .f32⟩
  | 86 => ⟨S_, .f32⟩
  | 87 => ⟨S1500000, .f32⟩
  | 88 => ⟨S_, .f32⟩
  | 89 => ⟨S100000, .f32⟩
  | 90 => ⟨S1500000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x64, .f32⟩
  | 97 => ⟨S100000x64, .f32⟩
  | 98 => ⟨S5000x64, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x64, .f32⟩
  | 108 => ⟨S_, .f32⟩
  | 109 => ⟨S100000x64, .f32⟩
  | 110 => ⟨S800000x1, .i32⟩
  | 111 => ⟨S100000x64, .f32⟩
  | 112 => ⟨S_, .f32⟩
  | 113 => ⟨S800000, .f32⟩
  | 114 => ⟨S_, .f32⟩
  | 115 => ⟨S100000, .f32⟩
  | 116 => ⟨S800000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x64, .f32⟩
  | 123 => ⟨S100000x64, .f32⟩
  | 124 => ⟨S200000x64, .f32⟩
  | 125 => ⟨S_, .i32⟩
  | 126 => ⟨S800000, .i32⟩
  | 127 => ⟨S800000, .i1⟩
  | _ => ⟨S200000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S_, .f32⟩
  | 7 => ⟨S20000x64, .f32⟩
  | 8 => ⟨S800000x1, .i32⟩
  | 9 => ⟨S20000x64, .f32⟩
  | 10 => ⟨S_, .f32⟩
  | 11 => ⟨S800000, .f32⟩
  | 12 => ⟨S_, .f32⟩
  | 13 => ⟨S20000, .f32⟩
  | 14 => ⟨S800000x1, .i32⟩
  | 15 => ⟨S20000, .f32⟩
  | 16 => ⟨S_, .f32⟩
  | 17 => ⟨S20000, .f32⟩
  | 18 => ⟨S20000, .f32⟩
  | 19 => ⟨S20000x1, .f32⟩
  | 20 => ⟨S20000x64, .f32⟩
  | 21 => ⟨S20000x64, .f32⟩
  | 22 => ⟨S5000x64, .f32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x64, .f32⟩
  | 32 => ⟨S_, .f32⟩
  | 33 => ⟨S20000x64, .f32⟩
  | 34 => ⟨S400000x1, .i32⟩
  | 35 => ⟨S20000x64, .f32⟩
  | 36 => ⟨S_, .f32⟩
  | 37 => ⟨S400000, .f32⟩
  | 38 => ⟨S_, .f32⟩
  | 39 => ⟨S20000, .f32⟩
  | 40 => ⟨S400000x1, .i32⟩
  | 41 => ⟨S20000, .f32⟩
  | 42 => ⟨S_, .f32⟩
  | 43 => ⟨S20000, .f32⟩
  | 44 => ⟨S20000, .f32⟩
  | 45 => ⟨S20000x1, .f32⟩
  | 46 => ⟨S20000x64, .f32⟩
  | 47 => ⟨S20000x64, .f32⟩
  | 48 => ⟨S100000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S_, .f32⟩
  | 59 => ⟨S5000x64, .f32⟩
  | 60 => ⟨S800000x1, .i32⟩
  | 61 => ⟨S5000x64, .f32⟩
  | 62 => ⟨S_, .f32⟩
  | 63 => ⟨S800000, .f32⟩
  | 64 => ⟨S_, .f32⟩
  | 65 => ⟨S5000, .f32⟩
  | 66 => ⟨S800000x1, .i32⟩
  | 67 => ⟨S5000, .f32⟩
  | 68 => ⟨S_, .f32⟩
  | 69 => ⟨S5000, .f32⟩
  | 70 => ⟨S5000, .f32⟩
  | 71 => ⟨S5000x1, .f32⟩
  | 72 => ⟨S5000x64, .f32⟩
  | 73 => ⟨S5000x64, .f32⟩
  | 74 => ⟨S20000x64, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x64, .f32⟩
  | 84 => ⟨S_, .f32⟩
  | 85 => ⟨S5000x64, .f32⟩
  | 86 => ⟨S400000x1, .i32⟩
  | 87 => ⟨S5000x64, .f32⟩
  | 88 => ⟨S_, .f32⟩
  | 89 => ⟨S400000, .f32⟩
  | 90 => ⟨S_, .f32⟩
  | 91 => ⟨S5000, .f32⟩
  | 92 => ⟨S400000x1, .i32⟩
  | 93 => ⟨S5000, .f32⟩
  | 94 => ⟨S_, .f32⟩
  | 95 => ⟨S5000, .f32⟩
  | 96 => ⟨S5000, .f32⟩
  | 97 => ⟨S5000x1, .f32⟩
  | 98 => ⟨S5000x64, .f32⟩
  | 99 => ⟨S5000x64, .f32⟩
  | 100 => ⟨S200000x128, .f32⟩
  | 101 => ⟨S100000x128, .f32⟩
  | 102 => ⟨S20000x128, .f32⟩
  | 103 => ⟨S5000x128, .f32⟩
  | 104 => ⟨S_, .f32⟩
  | 105 => ⟨S200000x128, .f32⟩
  | 106 => ⟨S200000x128, .f32⟩
  | 107 => ⟨S200000x128, .f32⟩
  | 108 => ⟨S_, .f32⟩
  | 109 => ⟨S100000x128, .f32⟩
  | 110 => ⟨S100000x128, .f32⟩
  | 111 => ⟨S100000x128, .f32⟩
  | 112 => ⟨S_, .f32⟩
  | 113 => ⟨S20000x128, .f32⟩
  | 114 => ⟨S20000x128, .f32⟩
  | 115 => ⟨S20000x128, .f32⟩
  | 116 => ⟨S_, .f32⟩
  | 117 => ⟨S5000x128, .f32⟩
  | 118 => ⟨S5000x128, .f32⟩
  | 119 => ⟨S5000x128, .f32⟩
  | 120 => ⟨S100000x64, .f32⟩
  | 121 => ⟨S_, .i32⟩
  | 122 => ⟨S1500000, .i32⟩
  | 123 => ⟨S1500000, .i1⟩
  | 124 => ⟨S_, .i32⟩
  | 125 => ⟨S1500000, .i32⟩
  | 126 => ⟨S1500000, .i32⟩
  | 127 => ⟨S1500000, .i32⟩
  | _ => ⟨S200000x128, .f32⟩

abbrev hbmTy0_2 (i : Nat) : BufTy := match i % 128 with
  | 0 => ⟨S1500000x1, .i32⟩
  | 1 => ⟨S1500000x64, .f32⟩
  | 2 => ⟨S_, .f32⟩
  | 3 => ⟨S200000x64, .f32⟩
  | 4 => ⟨S1500000x1, .i32⟩
  | 5 => ⟨S200000x64, .f32⟩
  | 6 => ⟨S_, .f32⟩
  | 7 => ⟨S1500000, .f32⟩
  | 8 => ⟨S_, .f32⟩
  | 9 => ⟨S200000, .f32⟩
  | 10 => ⟨S1500000x1, .i32⟩
  | 11 => ⟨S200000, .f32⟩
  | 12 => ⟨S_, .f32⟩
  | 13 => ⟨S200000, .f32⟩
  | 14 => ⟨S200000, .f32⟩
  | 15 => ⟨S200000x1, .f32⟩
  | 16 => ⟨S200000x64, .f32⟩
  | 17 => ⟨S200000x64, .f32⟩
  | 18 => ⟨S20000x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S_, .f32⟩
  | 29 => ⟨S200000x64, .f32⟩
  | 30 => ⟨S800000x1, .i32⟩
  | 31 => ⟨S200000x64, .f32⟩
  | 32 => ⟨S_, .f32⟩
  | 33 => ⟨S800000, .f32⟩
  | 34 => ⟨S_, .f32⟩
  | 35 => ⟨S200000, .f32⟩
  | 36 => ⟨S800000x1, .i32⟩
  | 37 => ⟨S200000, .f32⟩
  | 38 => ⟨S_, .f32⟩
  | 39 => ⟨S200000, .f32⟩
  | 40 => ⟨S200000, .f32⟩
  | 41 => ⟨S200000x1, .f32⟩
  | 42 => ⟨S200000x64, .f32⟩
  | 43 => ⟨S200000x64, .f32⟩
  | 44 => ⟨S200000x64, .f32⟩
  | 45 => ⟨S_, .i32⟩
  | 46 => ⟨S1500000, .i32⟩
  | 47 => ⟨S1500000, .i1⟩
  | 48 => ⟨S_, .i32⟩
  | 49 => ⟨S1500000, .i32⟩
  | 50 => ⟨S1500000, .i32⟩
  | 51 => ⟨S1500000, .i32⟩
  | 52 => ⟨S1500000x1, .i32⟩
  | 53 => ⟨S1500000x64, .f32⟩
  | 54 => ⟨S_, .f32⟩
  | 55 => ⟨S100000x64, .f32⟩
  | 56 => ⟨S1500000x1, .i32⟩
  | 57 => ⟨S100000x64, .f32⟩
  | 58 => ⟨S_, .f32⟩
  | 59 => ⟨S1500000, .f32⟩
  | 60 => ⟨S_, .f32⟩
  | 61 => ⟨S100000, .f32⟩
  | 62 => ⟨S1500000x1, .i32⟩
  | 63 => ⟨S100000, .f32⟩
  | 64 => ⟨S_, .f32⟩
  | 65 => ⟨S100000, .f32⟩
  | 66 => ⟨S100000, .f32⟩
  | 67 => ⟨S100000x1, .f32⟩
  | 68 => ⟨S100000x64, .f32⟩
  | 69 => ⟨S100000x64, .f32⟩
  | 70 => ⟨S5000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S_, .f32⟩
  | 81 => ⟨S100000x64, .f32⟩
  | 82 => ⟨S800000x1, .i32⟩
  | 83 => ⟨S100000x64, .f32⟩
  | 84 => ⟨S_, .f32⟩
  | 85 => ⟨S800000, .f32⟩
  | 86 => ⟨S_, .f32⟩
  | 87 => ⟨S100000, .f32⟩
  | 88 => ⟨S800000x1, .i32⟩
  | 89 => ⟨S100000, .f32⟩
  | 90 => ⟨S_, .f32⟩
  | 91 => ⟨S100000, .f32⟩
  | 92 => ⟨S100000, .f32⟩
  | 93 => ⟨S100000x1, .f32⟩
  | 94 => ⟨S100000x64, .f32⟩
  | 95 => ⟨S100000x64, .f32⟩
  | 96 => ⟨S200000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S_, .f32⟩
  | 107 => ⟨S20000x64, .f32⟩
  | 108 => ⟨S800000x1, .i32⟩
  | 109 => ⟨S20000x64, .f32⟩
  | 110 => ⟨S_, .f32⟩
  | 111 => ⟨S800000, .f32⟩
  | 112 => ⟨S_, .f32⟩
  | 113 => ⟨S20000, .f32⟩
  | 114 => ⟨S800000x1, .i32⟩
  | 115 => ⟨S20000, .f32⟩
  | 116 => ⟨S_, .f32⟩
  | 117 => ⟨S20000, .f32⟩
  | 118 => ⟨S20000, .f32⟩
  | 119 => ⟨S20000x1, .f32⟩
  | 120 => ⟨S20000x64, .f32⟩
  | 121 => ⟨S20000x64, .f32⟩
  | 122 => ⟨S5000x64, .f32⟩
  | 123 => ⟨S_, .i32⟩
  | 124 => ⟨S400000, .i32⟩
  | 125 => ⟨S400000, .i1⟩
  | 126 => ⟨S_, .i32⟩
  | 127 => ⟨S400000, .i32⟩
  | _ => ⟨S200000x128, .f32⟩

abbrev hbmTy0_3 (i : Nat) : BufTy := match i % 128 with
  | 0 => ⟨S400000, .i32⟩
  | 1 => ⟨S400000, .i32⟩
  | 2 => ⟨S400000x1, .i32⟩
  | 3 => ⟨S400000x64, .f32⟩
  | 4 => ⟨S_, .f32⟩
  | 5 => ⟨S20000x64, .f32⟩
  | 6 => ⟨S400000x1, .i32⟩
  | 7 => ⟨S20000x64, .f32⟩
  | 8 => ⟨S_, .f32⟩
  | 9 => ⟨S400000, .f32⟩
  | 10 => ⟨S_, .f32⟩
  | 11 => ⟨S20000, .f32⟩
  | 12 => ⟨S400000x1, .i32⟩
  | 13 => ⟨S20000, .f32⟩
  | 14 => ⟨S_, .f32⟩
  | 15 => ⟨S20000, .f32⟩
  | 16 => ⟨S20000, .f32⟩
  | 17 => ⟨S20000x1, .f32⟩
  | 18 => ⟨S20000x64, .f32⟩
  | 19 => ⟨S20000x64, .f32⟩
  | 20 => ⟨S100000x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S_, .f32⟩
  | 31 => ⟨S5000x64, .f32⟩
  | 32 => ⟨S800000x1, .i32⟩
  | 33 => ⟨S5000x64, .f32⟩
  | 34 => ⟨S_, .f32⟩
  | 35 => ⟨S800000, .f32⟩
  | 36 => ⟨S_, .f32⟩
  | 37 => ⟨S5000, .f32⟩
  | 38 => ⟨S800000x1, .i32⟩
  | 39 => ⟨S5000, .f32⟩
  | 40 => ⟨S_, .f32⟩
  | 41 => ⟨S5000, .f32⟩
  | 42 => ⟨S5000, .f32⟩
  | 43 => ⟨S5000x1, .f32⟩
  | 44 => ⟨S5000x64, .f32⟩
  | 45 => ⟨S5000x64, .f32⟩
  | 46 => ⟨S20000x64, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x64, .f32⟩
  | 56 => ⟨S_, .f32⟩
  | 57 => ⟨S5000x64, .f32⟩
  | 58 => ⟨S400000x1, .i32⟩
  | 59 => ⟨S5000x64, .f32⟩
  | 60 => ⟨S_, .f32⟩
  | 61 => ⟨S400000, .f32⟩
  | 62 => ⟨S_, .f32⟩
  | 63 => ⟨S5000, .f32⟩
  | 64 => ⟨S400000x1, .i32⟩
  | 65 => ⟨S5000, .f32⟩
  | 66 => ⟨S_, .f32⟩
  | 67 => ⟨S5000, .f32⟩
  | 68 => ⟨S5000, .f32⟩
  | 69 => ⟨S5000x1, .f32⟩
  | 70 => ⟨S5000x64, .f32⟩
  | 71 => ⟨S5000x64, .f32⟩
  | 72 => ⟨S200000x128, .f32⟩
  | 73 => ⟨S100000x128, .f32⟩
  | 74 => ⟨S20000x128, .f32⟩
  | 75 => ⟨S5000x128, .f32⟩
  | 76 => ⟨S_, .f32⟩
  | 77 => ⟨S200000x128, .f32⟩
  | 78 => ⟨S200000x128, .f32⟩
  | 79 => ⟨S200000x128, .f32⟩
  | 80 => ⟨S_, .f32⟩
  | 81 => ⟨S100000x128, .f32⟩
  | 82 => ⟨S100000x128, .f32⟩
  | 83 => ⟨S100000x128, .f32⟩
  | 84 => ⟨S_, .f32⟩
  | 85 => ⟨S20000x128, .f32⟩
  | 86 => ⟨S20000x128, .f32⟩
  | 87 => ⟨S20000x128, .f32⟩
  | 88 => ⟨S_, .f32⟩
  | 89 => ⟨S5000x128, .f32⟩
  | 90 => ⟨S5000x128, .f32⟩
  | 91 => ⟨S5000x128, .f32⟩
  | 92 => ⟨S100000x64, .f32⟩
  | 93 => ⟨S_, .i32⟩
  | 94 => ⟨S1500000, .i32⟩
  | 95 => ⟨S1500000, .i1⟩
  | 96 => ⟨S_, .i32⟩
  | 97 => ⟨S1500000, .i32⟩
  | 98 => ⟨S1500000, .i32⟩
  | 99 => ⟨S1500000, .i32⟩
  | 100 => ⟨S1500000x1, .i32⟩
  | 101 => ⟨S1500000x64, .f32⟩
  | 102 => ⟨S_, .f32⟩
  | 103 => ⟨S200000x64, .f32⟩
  | 104 => ⟨S1500000x1, .i32⟩
  | 105 => ⟨S200000x64, .f32⟩
  | 106 => ⟨S_, .f32⟩
  | 107 => ⟨S1500000, .f32⟩
  | 108 => ⟨S_, .f32⟩
  | 109 => ⟨S200000, .f32⟩
  | 110 => ⟨S1500000x1, .i32⟩
  | 111 => ⟨S200000, .f32⟩
  | 112 => ⟨S_, .f32⟩
  | 113 => ⟨S200000, .f32⟩
  | 114 => ⟨S200000, .f32⟩
  | 115 => ⟨S200000x1, .f32⟩
  | 116 => ⟨S200000x64, .f32⟩
  | 117 => ⟨S200000x64, .f32⟩
  | 118 => ⟨S20000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S200000x128, .f32⟩

abbrev hbmTy0_4 (i : Nat) : BufTy := match i % 128 with
  | 0 => ⟨S_, .f32⟩
  | 1 => ⟨S200000x64, .f32⟩
  | 2 => ⟨S800000x1, .i32⟩
  | 3 => ⟨S200000x64, .f32⟩
  | 4 => ⟨S_, .f32⟩
  | 5 => ⟨S800000, .f32⟩
  | 6 => ⟨S_, .f32⟩
  | 7 => ⟨S200000, .f32⟩
  | 8 => ⟨S800000x1, .i32⟩
  | 9 => ⟨S200000, .f32⟩
  | 10 => ⟨S_, .f32⟩
  | 11 => ⟨S200000, .f32⟩
  | 12 => ⟨S200000, .f32⟩
  | 13 => ⟨S200000x1, .f32⟩
  | 14 => ⟨S200000x64, .f32⟩
  | 15 => ⟨S200000x64, .f32⟩
  | 16 => ⟨S200000x64, .f32⟩
  | 17 => ⟨S_, .i32⟩
  | 18 => ⟨S1500000, .i32⟩
  | 19 => ⟨S1500000, .i1⟩
  | 20 => ⟨S_, .i32⟩
  | 21 => ⟨S1500000, .i32⟩
  | 22 => ⟨S1500000, .i32⟩
  | 23 => ⟨S1500000, .i32⟩
  | 24 => ⟨S1500000x1, .i32⟩
  | 25 => ⟨S1500000x64, .f32⟩
  | 26 => ⟨S_, .f32⟩
  | 27 => ⟨S100000x64, .f32⟩
  | 28 => ⟨S1500000x1, .i32⟩
  | 29 => ⟨S100000x64, .f32⟩
  | 30 => ⟨S_, .f32⟩
  | 31 => ⟨S1500000, .f32⟩
  | 32 => ⟨S_, .f32⟩
  | 33 => ⟨S100000, .f32⟩
  | 34 => ⟨S1500000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x64, .f32⟩
  | 41 => ⟨S100000x64, .f32⟩
  | 42 => ⟨S5000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S_, .f32⟩
  | 53 => ⟨S100000x64, .f32⟩
  | 54 => ⟨S800000x1, .i32⟩
  | 55 => ⟨S100000x64, .f32⟩
  | 56 => ⟨S_, .f32⟩
  | 57 => ⟨S800000, .f32⟩
  | 58 => ⟨S_, .f32⟩
  | 59 => ⟨S100000, .f32⟩
  | 60 => ⟨S800000x1, .i32⟩
  | 61 => ⟨S100000, .f32⟩
  | 62 => ⟨S_, .f32⟩
  | 63 => ⟨S100000, .f32⟩
  | 64 => ⟨S100000, .f32⟩
  | 65 => ⟨S100000x1, .f32⟩
  | 66 => ⟨S100000x64, .f32⟩
  | 67 => ⟨S100000x64, .f32⟩
  | 68 => ⟨S200000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S_, .f32⟩
  | 79 => ⟨S20000x64, .f32⟩
  | 80 => ⟨S800000x1, .i32⟩
  | 81 => ⟨S20000x64, .f32⟩
  | 82 => ⟨S_, .f32⟩
  | 83 => ⟨S800000, .f32⟩
  | 84 => ⟨S_, .f32⟩
  | 85 => ⟨S20000, .f32⟩
  | 86 => ⟨S800000x1, .i32⟩
  | 87 => ⟨S20000, .f32⟩
  | 88 => ⟨S_, .f32⟩
  | 89 => ⟨S20000, .f32⟩
  | 90 => ⟨S20000, .f32⟩
  | 91 => ⟨S20000x1, .f32⟩
  | 92 => ⟨S20000x64, .f32⟩
  | 93 => ⟨S20000x64, .f32⟩
  | 94 => ⟨S5000x64, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000x64, .f32⟩
  | 104 => ⟨S_, .f32⟩
  | 105 => ⟨S20000x64, .f32⟩
  | 106 => ⟨S400000x1, .i32⟩
  | 107 => ⟨S20000x64, .f32⟩
  | 108 => ⟨S_, .f32⟩
  | 109 => ⟨S400000, .f32⟩
  | 110 => ⟨S_, .f32⟩
  | 111 => ⟨S20000, .f32⟩
  | 112 => ⟨S400000x1, .i32⟩
  | 113 => ⟨S20000, .f32⟩
  | 114 => ⟨S_, .f32⟩
  | 115 => ⟨S20000, .f32⟩
  | 116 => ⟨S20000, .f32⟩
  | 117 => ⟨S20000x1, .f32⟩
  | 118 => ⟨S20000x64, .f32⟩
  | 119 => ⟨S20000x64, .f32⟩
  | 120 => ⟨S100000x64, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S200000x128, .f32⟩

abbrev hbmTy0_5 (i : Nat) : BufTy := match i % 128 with
  | 0 => ⟨S800000x1, .i32⟩
  | 1 => ⟨S800000x64, .f32⟩
  | 2 => ⟨S_, .f32⟩
  | 3 => ⟨S5000x64, .f32⟩
  | 4 => ⟨S800000x1, .i32⟩
  | 5 => ⟨S5000x64, .f32⟩
  | 6 => ⟨S_, .f32⟩
  | 7 => ⟨S800000, .f32⟩
  | 8 => ⟨S_, .f32⟩
  | 9 => ⟨S5000, .f32⟩
  | 10 => ⟨S800000x1, .i32⟩
  | 11 => ⟨S5000, .f32⟩
  | 12 => ⟨S_, .f32⟩
  | 13 => ⟨S5000, .f32⟩
  | 14 => ⟨S5000, .f32⟩
  | 15 => ⟨S5000x1, .f32⟩
  | 16 => ⟨S5000x64, .f32⟩
  | 17 => ⟨S5000x64, .f32⟩
  | 18 => ⟨S20000x64, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x64, .f32⟩
  | 28 => ⟨S_, .f32⟩
  | 29 => ⟨S5000x64, .f32⟩
  | 30 => ⟨S400000x1, .i32⟩
  | 31 => ⟨S5000x64, .f32⟩
  | 32 => ⟨S_, .f32⟩
  | 33 => ⟨S400000, .f32⟩
  | 34 => ⟨S_, .f32⟩
  | 35 => ⟨S5000, .f32⟩
  | 36 => ⟨S400000x1, .i32⟩
  | 37 => ⟨S5000, .f32⟩
  | 38 => ⟨S_, .f32⟩
  | 39 => ⟨S5000, .f32⟩
  | 40 => ⟨S5000, .f32⟩
  | 41 => ⟨S5000x1, .f32⟩
  | 42 => ⟨S5000x64, .f32⟩
  | 43 => ⟨S5000x64, .f32⟩
  | 44 => ⟨S200000x128, .f32⟩
  | 45 => ⟨S100000x128, .f32⟩
  | 46 => ⟨S20000x128, .f32⟩
  | 47 => ⟨S5000x128, .f32⟩
  | 48 => ⟨S_, .f32⟩
  | 49 => ⟨S200000x128, .f32⟩
  | 50 => ⟨S200000x128, .f32⟩
  | 51 => ⟨S200000x128, .f32⟩
  | 52 => ⟨S_, .f32⟩
  | 53 => ⟨S100000x128, .f32⟩
  | 54 => ⟨S100000x128, .f32⟩
  | 55 => ⟨S100000x128, .f32⟩
  | 56 => ⟨S_, .f32⟩
  | 57 => ⟨S20000x128, .f32⟩
  | 58 => ⟨S20000x128, .f32⟩
  | 59 => ⟨S20000x128, .f32⟩
  | 60 => ⟨S_, .f32⟩
  | 61 => ⟨S5000x128, .f32⟩
  | 62 => ⟨S5000x128, .f32⟩
  | 63 => ⟨S5000x128, .f32⟩
  | _ => ⟨S200000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_cst_2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_6 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_7 : Ref sig .tc := ⟨.hbm, 60, rfl⟩
abbrev main_v31 : Ref sig .tc := ⟨.hbm, 61, rfl⟩
abbrev main_cst_8 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_9 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_10 : Ref sig .tc := ⟨.hbm, 73, rfl⟩
abbrev main_v41 : Ref sig .tc := ⟨.hbm, 74, rfl⟩
abbrev main_v42 : Ref sig .tc := ⟨.hbm, 75, rfl⟩
abbrev main_c_11 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_12 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_13 : Ref sig .tc := ⟨.hbm, 86, rfl⟩
abbrev main_v51 : Ref sig .tc := ⟨.hbm, 87, rfl⟩
abbrev main_cst_14 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_15 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_16 : Ref sig .tc := ⟨.hbm, 99, rfl⟩
abbrev main_v61 : Ref sig .tc := ⟨.hbm, 100, rfl⟩
abbrev main_v62 : Ref sig .tc := ⟨.hbm, 101, rfl⟩
abbrev main_c_17 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_18 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_19 : Ref sig .tc := ⟨.hbm, 112, rfl⟩
abbrev main_v71 : Ref sig .tc := ⟨.hbm, 113, rfl⟩
abbrev main_cst_20 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_21 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_c_22 : Ref sig .tc := ⟨.hbm, 125, rfl⟩
abbrev main_v81 : Ref sig .tc := ⟨.hbm, 126, rfl⟩
abbrev main_v82 : Ref sig .tc := ⟨.hbm, 127, rfl⟩
abbrev main_c_23 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_24 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_25 : Ref sig .tc := ⟨.hbm, 138, rfl⟩
abbrev main_v91 : Ref sig .tc := ⟨.hbm, 139, rfl⟩
abbrev main_cst_26 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_27 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_c_28 : Ref sig .tc := ⟨.hbm, 151, rfl⟩
abbrev main_v101 : Ref sig .tc := ⟨.hbm, 152, rfl⟩
abbrev main_v102 : Ref sig .tc := ⟨.hbm, 153, rfl⟩
abbrev main_c_29 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_30 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_31 : Ref sig .tc := ⟨.hbm, 164, rfl⟩
abbrev main_v111 : Ref sig .tc := ⟨.hbm, 165, rfl⟩
abbrev main_cst_32 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_33 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_c_34 : Ref sig .tc := ⟨.hbm, 177, rfl⟩
abbrev main_v121 : Ref sig .tc := ⟨.hbm, 178, rfl⟩
abbrev main_v122 : Ref sig .tc := ⟨.hbm, 179, rfl⟩
abbrev main_c_35 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_cst_36 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_cst_37 : Ref sig .tc := ⟨.hbm, 190, rfl⟩
abbrev main_v131 : Ref sig .tc := ⟨.hbm, 191, rfl⟩
abbrev main_cst_38 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_39 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_c_40 : Ref sig .tc := ⟨.hbm, 203, rfl⟩
abbrev main_v141 : Ref sig .tc := ⟨.hbm, 204, rfl⟩
abbrev main_v142 : Ref sig .tc := ⟨.hbm, 205, rfl⟩
abbrev main_c_41 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_cst_42 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_cst_43 : Ref sig .tc := ⟨.hbm, 216, rfl⟩
abbrev main_v151 : Ref sig .tc := ⟨.hbm, 217, rfl⟩
abbrev main_cst_44 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_cst_45 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_cst_46 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_cst_47 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_cst_48 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_cst_49 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_c_50 : Ref sig .tc := ⟨.hbm, 249, rfl⟩
abbrev main_v177 : Ref sig .tc := ⟨.hbm, 250, rfl⟩
abbrev main_v178 : Ref sig .tc := ⟨.hbm, 251, rfl⟩
abbrev main_c_51 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_cst_52 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_cst_53 : Ref sig .tc := ⟨.hbm, 262, rfl⟩
abbrev main_v187 : Ref sig .tc := ⟨.hbm, 263, rfl⟩
abbrev main_cst_54 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_cst_55 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_c_56 : Ref sig .tc := ⟨.hbm, 275, rfl⟩
abbrev main_v197 : Ref sig .tc := ⟨.hbm, 276, rfl⟩
abbrev main_v198 : Ref sig .tc := ⟨.hbm, 277, rfl⟩
abbrev main_c_57 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_cst_58 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_cst_59 : Ref sig .tc := ⟨.hbm, 288, rfl⟩
abbrev main_v207 : Ref sig .tc := ⟨.hbm, 289, rfl⟩
abbrev main_cst_60 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_cst_61 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_c_62 : Ref sig .tc := ⟨.hbm, 301, rfl⟩
abbrev main_v217 : Ref sig .tc := ⟨.hbm, 302, rfl⟩
abbrev main_v218 : Ref sig .tc := ⟨.hbm, 303, rfl⟩
abbrev main_c_63 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_cst_64 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_cst_65 : Ref sig .tc := ⟨.hbm, 314, rfl⟩
abbrev main_v227 : Ref sig .tc := ⟨.hbm, 315, rfl⟩
abbrev main_cst_66 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_cst_67 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_c_68 : Ref sig .tc := ⟨.hbm, 327, rfl⟩
abbrev main_v237 : Ref sig .tc := ⟨.hbm, 328, rfl⟩
abbrev main_v238 : Ref sig .tc := ⟨.hbm, 329, rfl⟩
abbrev main_c_69 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_cst_70 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_cst_71 : Ref sig .tc := ⟨.hbm, 340, rfl⟩
abbrev main_v247 : Ref sig .tc := ⟨.hbm, 341, rfl⟩
abbrev main_cst_72 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_cst_73 : Ref sig .tc := ⟨.hbm, 346, rfl⟩
abbrev main_v251 : Ref sig .tc := ⟨.hbm, 347, rfl⟩
abbrev main_v252 : Ref sig .tc := ⟨.hbm, 348, rfl⟩
abbrev main_v253 : Ref sig .tc := ⟨.hbm, 349, rfl⟩
abbrev main_v254 : Ref sig .tc := ⟨.hbm, 350, rfl⟩
abbrev main_v255 : Ref sig .tc := ⟨.hbm, 351, rfl⟩
abbrev main_v256 : Ref sig .tc := ⟨.hbm, 352, rfl⟩
abbrev main_c_74 : Ref sig .tc := ⟨.hbm, 353, rfl⟩
abbrev main_v257 : Ref sig .tc := ⟨.hbm, 354, rfl⟩
abbrev main_v258 : Ref sig .tc := ⟨.hbm, 355, rfl⟩
abbrev main_c_75 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_cst_76 : Ref sig .tc := ⟨.hbm, 362, rfl⟩
abbrev main_v264 : Ref sig .tc := ⟨.hbm, 363, rfl⟩
abbrev main_v265 : Ref sig .tc := ⟨.hbm, 364, rfl⟩
abbrev main_v266 : Ref sig .tc := ⟨.hbm, 365, rfl⟩
abbrev main_cst_77 : Ref sig .tc := ⟨.hbm, 366, rfl⟩
abbrev main_v267 : Ref sig .tc := ⟨.hbm, 367, rfl⟩
abbrev main_cst_78 : Ref sig .tc := ⟨.hbm, 368, rfl⟩
abbrev main_v268 : Ref sig .tc := ⟨.hbm, 369, rfl⟩
abbrev main_v269 : Ref sig .tc := ⟨.hbm, 370, rfl⟩
abbrev main_v270 : Ref sig .tc := ⟨.hbm, 371, rfl⟩
abbrev main_cst_79 : Ref sig .tc := ⟨.hbm, 372, rfl⟩
abbrev main_v271 : Ref sig .tc := ⟨.hbm, 373, rfl⟩
abbrev main_v272 : Ref sig .tc := ⟨.hbm, 374, rfl⟩
abbrev main_v273 : Ref sig .tc := ⟨.hbm, 375, rfl⟩
abbrev main_v274 : Ref sig .tc := ⟨.hbm, 376, rfl⟩
abbrev main_v275 : Ref sig .tc := ⟨.hbm, 377, rfl⟩
abbrev main_v276 : Ref sig .tc := ⟨.hbm, 378, rfl⟩
abbrev main_c_80 : Ref sig .tc := ⟨.hbm, 379, rfl⟩
abbrev main_v277 : Ref sig .tc := ⟨.hbm, 380, rfl⟩
abbrev main_v278 : Ref sig .tc := ⟨.hbm, 381, rfl⟩
abbrev main_c_81 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_v283 : Ref sig .tc := ⟨.hbm, 387, rfl⟩
abbrev main_cst_82 : Ref sig .tc := ⟨.hbm, 388, rfl⟩
abbrev main_v284 : Ref sig .tc := ⟨.hbm, 389, rfl⟩
abbrev main_v285 : Ref sig .tc := ⟨.hbm, 390, rfl⟩
abbrev main_v286 : Ref sig .tc := ⟨.hbm, 391, rfl⟩
abbrev main_cst_83 : Ref sig .tc := ⟨.hbm, 392, rfl⟩
abbrev main_v287 : Ref sig .tc := ⟨.hbm, 393, rfl⟩
abbrev main_cst_84 : Ref sig .tc := ⟨.hbm, 394, rfl⟩
abbrev main_v288 : Ref sig .tc := ⟨.hbm, 395, rfl⟩
abbrev main_v289 : Ref sig .tc := ⟨.hbm, 396, rfl⟩
abbrev main_v290 : Ref sig .tc := ⟨.hbm, 397, rfl⟩
abbrev main_cst_85 : Ref sig .tc := ⟨.hbm, 398, rfl⟩
abbrev main_v291 : Ref sig .tc := ⟨.hbm, 399, rfl⟩
abbrev main_v292 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_v296 : Ref sig .tc := ⟨.hbm, 404, rfl⟩
abbrev main_c_86 : Ref sig .tc := ⟨.hbm, 405, rfl⟩
abbrev main_v297 : Ref sig .tc := ⟨.hbm, 406, rfl⟩
abbrev main_v298 : Ref sig .tc := ⟨.hbm, 407, rfl⟩
abbrev main_c_87 : Ref sig .tc := ⟨.hbm, 408, rfl⟩
abbrev main_v299 : Ref sig .tc := ⟨.hbm, 409, rfl⟩
abbrev main_v300 : Ref sig .tc := ⟨.hbm, 410, rfl⟩
abbrev main_v301 : Ref sig .tc := ⟨.hbm, 411, rfl⟩
abbrev main_v302 : Ref sig .tc := ⟨.hbm, 412, rfl⟩
abbrev main_v303 : Ref sig .tc := ⟨.hbm, 413, rfl⟩
abbrev main_cst_88 : Ref sig .tc := ⟨.hbm, 414, rfl⟩
abbrev main_v304 : Ref sig .tc := ⟨.hbm, 415, rfl⟩
abbrev main_v305 : Ref sig .tc := ⟨.hbm, 416, rfl⟩
abbrev main_v306 : Ref sig .tc := ⟨.hbm, 417, rfl⟩
abbrev main_cst_89 : Ref sig .tc := ⟨.hbm, 418, rfl⟩
abbrev main_v307 : Ref sig .tc := ⟨.hbm, 419, rfl⟩
abbrev main_cst_90 : Ref sig .tc := ⟨.hbm, 420, rfl⟩
abbrev main_v308 : Ref sig .tc := ⟨.hbm, 421, rfl⟩
abbrev main_v309 : Ref sig .tc := ⟨.hbm, 422, rfl⟩
abbrev main_v310 : Ref sig .tc := ⟨.hbm, 423, rfl⟩
abbrev main_cst_91 : Ref sig .tc := ⟨.hbm, 424, rfl⟩
abbrev main_v311 : Ref sig .tc := ⟨.hbm, 425, rfl⟩
abbrev main_v312 : Ref sig .tc := ⟨.hbm, 426, rfl⟩
abbrev main_v313 : Ref sig .tc := ⟨.hbm, 427, rfl⟩
abbrev main_v314 : Ref sig .tc := ⟨.hbm, 428, rfl⟩
abbrev main_v315 : Ref sig .tc := ⟨.hbm, 429, rfl⟩
abbrev main_v316 : Ref sig .tc := ⟨.hbm, 430, rfl⟩
abbrev main_c_92 : Ref sig .tc := ⟨.hbm, 431, rfl⟩
abbrev main_v317 : Ref sig .tc := ⟨.hbm, 432, rfl⟩
abbrev main_v318 : Ref sig .tc := ⟨.hbm, 433, rfl⟩
abbrev main_c_93 : Ref sig .tc := ⟨.hbm, 434, rfl⟩
abbrev main_v319 : Ref sig .tc := ⟨.hbm, 435, rfl⟩
abbrev main_v320 : Ref sig .tc := ⟨.hbm, 436, rfl⟩
abbrev main_v321 : Ref sig .tc := ⟨.hbm, 437, rfl⟩
abbrev main_v322 : Ref sig .tc := ⟨.hbm, 438, rfl⟩
abbrev main_v323 : Ref sig .tc := ⟨.hbm, 439, rfl⟩
abbrev main_cst_94 : Ref sig .tc := ⟨.hbm, 440, rfl⟩
abbrev main_v324 : Ref sig .tc := ⟨.hbm, 441, rfl⟩
abbrev main_v325 : Ref sig .tc := ⟨.hbm, 442, rfl⟩
abbrev main_v326 : Ref sig .tc := ⟨.hbm, 443, rfl⟩
abbrev main_cst_95 : Ref sig .tc := ⟨.hbm, 444, rfl⟩
abbrev main_v327 : Ref sig .tc := ⟨.hbm, 445, rfl⟩
abbrev main_cst_96 : Ref sig .tc := ⟨.hbm, 446, rfl⟩
abbrev main_v328 : Ref sig .tc := ⟨.hbm, 447, rfl⟩
abbrev main_v329 : Ref sig .tc := ⟨.hbm, 448, rfl⟩
abbrev main_v330 : Ref sig .tc := ⟨.hbm, 449, rfl⟩
abbrev main_cst_97 : Ref sig .tc := ⟨.hbm, 450, rfl⟩
abbrev main_v331 : Ref sig .tc := ⟨.hbm, 451, rfl⟩
abbrev main_v332 : Ref sig .tc := ⟨.hbm, 452, rfl⟩
abbrev main_v333 : Ref sig .tc := ⟨.hbm, 453, rfl⟩
abbrev main_v334 : Ref sig .tc := ⟨.hbm, 454, rfl⟩
abbrev main_v335 : Ref sig .tc := ⟨.hbm, 455, rfl⟩
abbrev main_v336 : Ref sig .tc := ⟨.hbm, 456, rfl⟩
abbrev main_v337 : Ref sig .tc := ⟨.hbm, 457, rfl⟩
abbrev main_v338 : Ref sig .tc := ⟨.hbm, 458, rfl⟩
abbrev main_v339 : Ref sig .tc := ⟨.hbm, 459, rfl⟩
abbrev main_cst_98 : Ref sig .tc := ⟨.hbm, 460, rfl⟩
abbrev main_v340 : Ref sig .tc := ⟨.hbm, 461, rfl⟩
abbrev main_v341 : Ref sig .tc := ⟨.hbm, 462, rfl⟩
abbrev main_v342 : Ref sig .tc := ⟨.hbm, 463, rfl⟩
abbrev main_cst_99 : Ref sig .tc := ⟨.hbm, 464, rfl⟩
abbrev main_v343 : Ref sig .tc := ⟨.hbm, 465, rfl⟩
abbrev main_v344 : Ref sig .tc := ⟨.hbm, 466, rfl⟩
abbrev main_v345 : Ref sig .tc := ⟨.hbm, 467, rfl⟩
abbrev main_cst_100 : Ref sig .tc := ⟨.hbm, 468, rfl⟩
abbrev main_v346 : Ref sig .tc := ⟨.hbm, 469, rfl⟩
abbrev main_v347 : Ref sig .tc := ⟨.hbm, 470, rfl⟩
abbrev main_v348 : Ref sig .tc := ⟨.hbm, 471, rfl⟩
abbrev main_cst_101 : Ref sig .tc := ⟨.hbm, 472, rfl⟩
abbrev main_v349 : Ref sig .tc := ⟨.hbm, 473, rfl⟩
abbrev main_v350 : Ref sig .tc := ⟨.hbm, 474, rfl⟩
abbrev main_v351 : Ref sig .tc := ⟨.hbm, 475, rfl⟩
abbrev main_v352 : Ref sig .tc := ⟨.hbm, 476, rfl⟩
abbrev main_c_102 : Ref sig .tc := ⟨.hbm, 477, rfl⟩
abbrev main_v353 : Ref sig .tc := ⟨.hbm, 478, rfl⟩
abbrev main_v354 : Ref sig .tc := ⟨.hbm, 479, rfl⟩
abbrev main_c_103 : Ref sig .tc := ⟨.hbm, 480, rfl⟩
abbrev main_v355 : Ref sig .tc := ⟨.hbm, 481, rfl⟩
abbrev main_v356 : Ref sig .tc := ⟨.hbm, 482, rfl⟩
abbrev main_v357 : Ref sig .tc := ⟨.hbm, 483, rfl⟩
abbrev main_v358 : Ref sig .tc := ⟨.hbm, 484, rfl⟩
abbrev main_v359 : Ref sig .tc := ⟨.hbm, 485, rfl⟩
abbrev main_cst_104 : Ref sig .tc := ⟨.hbm, 486, rfl⟩
abbrev main_v360 : Ref sig .tc := ⟨.hbm, 487, rfl⟩
abbrev main_v361 : Ref sig .tc := ⟨.hbm, 488, rfl⟩
abbrev main_v362 : Ref sig .tc := ⟨.hbm, 489, rfl⟩
abbrev main_cst_105 : Ref sig .tc := ⟨.hbm, 490, rfl⟩
abbrev main_v363 : Ref sig .tc := ⟨.hbm, 491, rfl⟩
abbrev main_cst_106 : Ref sig .tc := ⟨.hbm, 492, rfl⟩
abbrev main_v364 : Ref sig .tc := ⟨.hbm, 493, rfl⟩
abbrev main_v365 : Ref sig .tc := ⟨.hbm, 494, rfl⟩
abbrev main_v366 : Ref sig .tc := ⟨.hbm, 495, rfl⟩
abbrev main_cst_107 : Ref sig .tc := ⟨.hbm, 496, rfl⟩
abbrev main_v367 : Ref sig .tc := ⟨.hbm, 497, rfl⟩
abbrev main_v368 : Ref sig .tc := ⟨.hbm, 498, rfl⟩
abbrev main_v369 : Ref sig .tc := ⟨.hbm, 499, rfl⟩
abbrev main_v370 : Ref sig .tc := ⟨.hbm, 500, rfl⟩
abbrev main_v371 : Ref sig .tc := ⟨.hbm, 501, rfl⟩
abbrev main_v372 : Ref sig .tc := ⟨.hbm, 502, rfl⟩
abbrev main_c_108 : Ref sig .tc := ⟨.hbm, 503, rfl⟩
abbrev main_v373 : Ref sig .tc := ⟨.hbm, 504, rfl⟩
abbrev main_v374 : Ref sig .tc := ⟨.hbm, 505, rfl⟩
abbrev main_c_109 : Ref sig .tc := ⟨.hbm, 506, rfl⟩
abbrev main_v375 : Ref sig .tc := ⟨.hbm, 507, rfl⟩
abbrev main_v376 : Ref sig .tc := ⟨.hbm, 508, rfl⟩
abbrev main_v377 : Ref sig .tc := ⟨.hbm, 509, rfl⟩
abbrev main_v378 : Ref sig .tc := ⟨.hbm, 510, rfl⟩
abbrev main_v379 : Ref sig .tc := ⟨.hbm, 511, rfl⟩
abbrev main_cst_110 : Ref sig .tc := ⟨.hbm, 512, rfl⟩
abbrev main_v380 : Ref sig .tc := ⟨.hbm, 513, rfl⟩
abbrev main_v381 : Ref sig .tc := ⟨.hbm, 514, rfl⟩
abbrev main_v382 : Ref sig .tc := ⟨.hbm, 515, rfl⟩
abbrev main_cst_111 : Ref sig .tc := ⟨.hbm, 516, rfl⟩
abbrev main_v383 : Ref sig .tc := ⟨.hbm, 517, rfl⟩
abbrev main_cst_112 : Ref sig .tc := ⟨.hbm, 518, rfl⟩
abbrev main_v384 : Ref sig .tc := ⟨.hbm, 519, rfl⟩
abbrev main_v385 : Ref sig .tc := ⟨.hbm, 520, rfl⟩
abbrev main_v386 : Ref sig .tc := ⟨.hbm, 521, rfl⟩
abbrev main_cst_113 : Ref sig .tc := ⟨.hbm, 522, rfl⟩
abbrev main_v387 : Ref sig .tc := ⟨.hbm, 523, rfl⟩
abbrev main_v388 : Ref sig .tc := ⟨.hbm, 524, rfl⟩
abbrev main_v389 : Ref sig .tc := ⟨.hbm, 525, rfl⟩
abbrev main_v390 : Ref sig .tc := ⟨.hbm, 526, rfl⟩
abbrev main_v391 : Ref sig .tc := ⟨.hbm, 527, rfl⟩
abbrev main_v392 : Ref sig .tc := ⟨.hbm, 528, rfl⟩
abbrev main_c_114 : Ref sig .tc := ⟨.hbm, 529, rfl⟩
abbrev main_v393 : Ref sig .tc := ⟨.hbm, 530, rfl⟩
abbrev main_v394 : Ref sig .tc := ⟨.hbm, 531, rfl⟩
abbrev main_c_115 : Ref sig .tc := ⟨.hbm, 532, rfl⟩
abbrev main_v395 : Ref sig .tc := ⟨.hbm, 533, rfl⟩
abbrev main_v396 : Ref sig .tc := ⟨.hbm, 534, rfl⟩
abbrev main_v397 : Ref sig .tc := ⟨.hbm, 535, rfl⟩
abbrev main_v398 : Ref sig .tc := ⟨.hbm, 536, rfl⟩
abbrev main_v399 : Ref sig .tc := ⟨.hbm, 537, rfl⟩
abbrev main_cst_116 : Ref sig .tc := ⟨.hbm, 538, rfl⟩
abbrev main_v400 : Ref sig .tc := ⟨.hbm, 539, rfl⟩
abbrev main_v401 : Ref sig .tc := ⟨.hbm, 540, rfl⟩
abbrev main_v402 : Ref sig .tc := ⟨.hbm, 541, rfl⟩
abbrev main_cst_117 : Ref sig .tc := ⟨.hbm, 542, rfl⟩
abbrev main_v403 : Ref sig .tc := ⟨.hbm, 543, rfl⟩
abbrev main_cst_118 : Ref sig .tc := ⟨.hbm, 544, rfl⟩
abbrev main_v404 : Ref sig .tc := ⟨.hbm, 545, rfl⟩
abbrev main_v405 : Ref sig .tc := ⟨.hbm, 546, rfl⟩
abbrev main_v406 : Ref sig .tc := ⟨.hbm, 547, rfl⟩
abbrev main_cst_119 : Ref sig .tc := ⟨.hbm, 548, rfl⟩
abbrev main_v407 : Ref sig .tc := ⟨.hbm, 549, rfl⟩
abbrev main_v408 : Ref sig .tc := ⟨.hbm, 550, rfl⟩
abbrev main_v409 : Ref sig .tc := ⟨.hbm, 551, rfl⟩
abbrev main_v410 : Ref sig .tc := ⟨.hbm, 552, rfl⟩
abbrev main_v411 : Ref sig .tc := ⟨.hbm, 553, rfl⟩
abbrev main_v412 : Ref sig .tc := ⟨.hbm, 554, rfl⟩
abbrev main_c_120 : Ref sig .tc := ⟨.hbm, 555, rfl⟩
abbrev main_v413 : Ref sig .tc := ⟨.hbm, 556, rfl⟩
abbrev main_v414 : Ref sig .tc := ⟨.hbm, 557, rfl⟩
abbrev main_c_121 : Ref sig .tc := ⟨.hbm, 558, rfl⟩
abbrev main_v415 : Ref sig .tc := ⟨.hbm, 559, rfl⟩
abbrev main_v416 : Ref sig .tc := ⟨.hbm, 560, rfl⟩
abbrev main_v417 : Ref sig .tc := ⟨.hbm, 561, rfl⟩
abbrev main_v418 : Ref sig .tc := ⟨.hbm, 562, rfl⟩
abbrev main_v419 : Ref sig .tc := ⟨.hbm, 563, rfl⟩
abbrev main_cst_122 : Ref sig .tc := ⟨.hbm, 564, rfl⟩
abbrev main_v420 : Ref sig .tc := ⟨.hbm, 565, rfl⟩
abbrev main_v421 : Ref sig .tc := ⟨.hbm, 566, rfl⟩
abbrev main_v422 : Ref sig .tc := ⟨.hbm, 567, rfl⟩
abbrev main_cst_123 : Ref sig .tc := ⟨.hbm, 568, rfl⟩
abbrev main_v423 : Ref sig .tc := ⟨.hbm, 569, rfl⟩
abbrev main_cst_124 : Ref sig .tc := ⟨.hbm, 570, rfl⟩
abbrev main_v424 : Ref sig .tc := ⟨.hbm, 571, rfl⟩
abbrev main_v425 : Ref sig .tc := ⟨.hbm, 572, rfl⟩
abbrev main_v426 : Ref sig .tc := ⟨.hbm, 573, rfl⟩
abbrev main_cst_125 : Ref sig .tc := ⟨.hbm, 574, rfl⟩
abbrev main_v427 : Ref sig .tc := ⟨.hbm, 575, rfl⟩
abbrev main_v428 : Ref sig .tc := ⟨.hbm, 576, rfl⟩
abbrev main_v429 : Ref sig .tc := ⟨.hbm, 577, rfl⟩
abbrev main_v430 : Ref sig .tc := ⟨.hbm, 578, rfl⟩
abbrev main_v431 : Ref sig .tc := ⟨.hbm, 579, rfl⟩
abbrev main_v432 : Ref sig .tc := ⟨.hbm, 580, rfl⟩
abbrev main_c_126 : Ref sig .tc := ⟨.hbm, 581, rfl⟩
abbrev main_v433 : Ref sig .tc := ⟨.hbm, 582, rfl⟩
abbrev main_v434 : Ref sig .tc := ⟨.hbm, 583, rfl⟩
abbrev main_c_127 : Ref sig .tc := ⟨.hbm, 584, rfl⟩
abbrev main_v435 : Ref sig .tc := ⟨.hbm, 585, rfl⟩
abbrev main_v436 : Ref sig .tc := ⟨.hbm, 586, rfl⟩
abbrev main_v437 : Ref sig .tc := ⟨.hbm, 587, rfl⟩
abbrev main_v438 : Ref sig .tc := ⟨.hbm, 588, rfl⟩
abbrev main_v439 : Ref sig .tc := ⟨.hbm, 589, rfl⟩
abbrev main_cst_128 : Ref sig .tc := ⟨.hbm, 590, rfl⟩
abbrev main_v440 : Ref sig .tc := ⟨.hbm, 591, rfl⟩
abbrev main_v441 : Ref sig .tc := ⟨.hbm, 592, rfl⟩
abbrev main_v442 : Ref sig .tc := ⟨.hbm, 593, rfl⟩
abbrev main_cst_129 : Ref sig .tc := ⟨.hbm, 594, rfl⟩
abbrev main_v443 : Ref sig .tc := ⟨.hbm, 595, rfl⟩
abbrev main_cst_130 : Ref sig .tc := ⟨.hbm, 596, rfl⟩
abbrev main_v444 : Ref sig .tc := ⟨.hbm, 597, rfl⟩
abbrev main_v445 : Ref sig .tc := ⟨.hbm, 598, rfl⟩
abbrev main_v446 : Ref sig .tc := ⟨.hbm, 599, rfl⟩
abbrev main_cst_131 : Ref sig .tc := ⟨.hbm, 600, rfl⟩
abbrev main_v447 : Ref sig .tc := ⟨.hbm, 601, rfl⟩
abbrev main_v448 : Ref sig .tc := ⟨.hbm, 602, rfl⟩
abbrev main_v449 : Ref sig .tc := ⟨.hbm, 603, rfl⟩
abbrev main_v450 : Ref sig .tc := ⟨.hbm, 604, rfl⟩
abbrev main_v451 : Ref sig .tc := ⟨.hbm, 605, rfl⟩
abbrev main_v452 : Ref sig .tc := ⟨.hbm, 606, rfl⟩
abbrev main_c_132 : Ref sig .tc := ⟨.hbm, 607, rfl⟩
abbrev main_v453 : Ref sig .tc := ⟨.hbm, 608, rfl⟩
abbrev main_v454 : Ref sig .tc := ⟨.hbm, 609, rfl⟩
abbrev main_c_133 : Ref sig .tc := ⟨.hbm, 610, rfl⟩
abbrev main_v455 : Ref sig .tc := ⟨.hbm, 611, rfl⟩
abbrev main_v456 : Ref sig .tc := ⟨.hbm, 612, rfl⟩
abbrev main_v457 : Ref sig .tc := ⟨.hbm, 613, rfl⟩
abbrev main_v458 : Ref sig .tc := ⟨.hbm, 614, rfl⟩
abbrev main_v459 : Ref sig .tc := ⟨.hbm, 615, rfl⟩
abbrev main_cst_134 : Ref sig .tc := ⟨.hbm, 616, rfl⟩
abbrev main_v460 : Ref sig .tc := ⟨.hbm, 617, rfl⟩
abbrev main_v461 : Ref sig .tc := ⟨.hbm, 618, rfl⟩
abbrev main_v462 : Ref sig .tc := ⟨.hbm, 619, rfl⟩
abbrev main_cst_135 : Ref sig .tc := ⟨.hbm, 620, rfl⟩
abbrev main_v463 : Ref sig .tc := ⟨.hbm, 621, rfl⟩
abbrev main_cst_136 : Ref sig .tc := ⟨.hbm, 622, rfl⟩
abbrev main_v464 : Ref sig .tc := ⟨.hbm, 623, rfl⟩
abbrev main_v465 : Ref sig .tc := ⟨.hbm, 624, rfl⟩
abbrev main_v466 : Ref sig .tc := ⟨.hbm, 625, rfl⟩
abbrev main_cst_137 : Ref sig .tc := ⟨.hbm, 626, rfl⟩
abbrev main_v467 : Ref sig .tc := ⟨.hbm, 627, rfl⟩
abbrev main_v468 : Ref sig .tc := ⟨.hbm, 628, rfl⟩
abbrev main_v469 : Ref sig .tc := ⟨.hbm, 629, rfl⟩
abbrev main_v470 : Ref sig .tc := ⟨.hbm, 630, rfl⟩
abbrev main_v471 : Ref sig .tc := ⟨.hbm, 631, rfl⟩
abbrev main_v472 : Ref sig .tc := ⟨.hbm, 632, rfl⟩
abbrev main_c_138 : Ref sig .tc := ⟨.hbm, 633, rfl⟩
abbrev main_v473 : Ref sig .tc := ⟨.hbm, 634, rfl⟩
abbrev main_v474 : Ref sig .tc := ⟨.hbm, 635, rfl⟩
abbrev main_c_139 : Ref sig .tc := ⟨.hbm, 636, rfl⟩
abbrev main_v475 : Ref sig .tc := ⟨.hbm, 637, rfl⟩
abbrev main_v476 : Ref sig .tc := ⟨.hbm, 638, rfl⟩
abbrev main_v477 : Ref sig .tc := ⟨.hbm, 639, rfl⟩
abbrev main_v478 : Ref sig .tc := ⟨.hbm, 640, rfl⟩
abbrev main_v479 : Ref sig .tc := ⟨.hbm, 641, rfl⟩
abbrev main_cst_140 : Ref sig .tc := ⟨.hbm, 642, rfl⟩
abbrev main_v480 : Ref sig .tc := ⟨.hbm, 643, rfl⟩
abbrev main_v481 : Ref sig .tc := ⟨.hbm, 644, rfl⟩
abbrev main_v482 : Ref sig .tc := ⟨.hbm, 645, rfl⟩
abbrev main_cst_141 : Ref sig .tc := ⟨.hbm, 646, rfl⟩
abbrev main_v483 : Ref sig .tc := ⟨.hbm, 647, rfl⟩
abbrev main_cst_142 : Ref sig .tc := ⟨.hbm, 648, rfl⟩
abbrev main_v484 : Ref sig .tc := ⟨.hbm, 649, rfl⟩
abbrev main_v485 : Ref sig .tc := ⟨.hbm, 650, rfl⟩
abbrev main_v486 : Ref sig .tc := ⟨.hbm, 651, rfl⟩
abbrev main_cst_143 : Ref sig .tc := ⟨.hbm, 652, rfl⟩
abbrev main_v487 : Ref sig .tc := ⟨.hbm, 653, rfl⟩
abbrev main_v488 : Ref sig .tc := ⟨.hbm, 654, rfl⟩
abbrev main_v489 : Ref sig .tc := ⟨.hbm, 655, rfl⟩
abbrev main_v490 : Ref sig .tc := ⟨.hbm, 656, rfl⟩
abbrev main_v491 : Ref sig .tc := ⟨.hbm, 657, rfl⟩
abbrev main_v492 : Ref sig .tc := ⟨.hbm, 658, rfl⟩
abbrev main_c_144 : Ref sig .tc := ⟨.hbm, 659, rfl⟩
abbrev main_v493 : Ref sig .tc := ⟨.hbm, 660, rfl⟩
abbrev main_v494 : Ref sig .tc := ⟨.hbm, 661, rfl⟩
abbrev main_c_145 : Ref sig .tc := ⟨.hbm, 662, rfl⟩
abbrev main_v495 : Ref sig .tc := ⟨.hbm, 663, rfl⟩
abbrev main_v496 : Ref sig .tc := ⟨.hbm, 664, rfl⟩
abbrev main_v497 : Ref sig .tc := ⟨.hbm, 665, rfl⟩
abbrev main_v498 : Ref sig .tc := ⟨.hbm, 666, rfl⟩
abbrev main_v499 : Ref sig .tc := ⟨.hbm, 667, rfl⟩
abbrev main_cst_146 : Ref sig .tc := ⟨.hbm, 668, rfl⟩
abbrev main_v500 : Ref sig .tc := ⟨.hbm, 669, rfl⟩
abbrev main_v501 : Ref sig .tc := ⟨.hbm, 670, rfl⟩
abbrev main_v502 : Ref sig .tc := ⟨.hbm, 671, rfl⟩
abbrev main_cst_147 : Ref sig .tc := ⟨.hbm, 672, rfl⟩
abbrev main_v503 : Ref sig .tc := ⟨.hbm, 673, rfl⟩
abbrev main_cst_148 : Ref sig .tc := ⟨.hbm, 674, rfl⟩
abbrev main_v504 : Ref sig .tc := ⟨.hbm, 675, rfl⟩
abbrev main_v505 : Ref sig .tc := ⟨.hbm, 676, rfl⟩
abbrev main_v506 : Ref sig .tc := ⟨.hbm, 677, rfl⟩
abbrev main_cst_149 : Ref sig .tc := ⟨.hbm, 678, rfl⟩
abbrev main_v507 : Ref sig .tc := ⟨.hbm, 679, rfl⟩
abbrev main_v508 : Ref sig .tc := ⟨.hbm, 680, rfl⟩
abbrev main_v509 : Ref sig .tc := ⟨.hbm, 681, rfl⟩
abbrev main_v510 : Ref sig .tc := ⟨.hbm, 682, rfl⟩
abbrev main_v511 : Ref sig .tc := ⟨.hbm, 683, rfl⟩
abbrev main_v512 : Ref sig .tc := ⟨.hbm, 684, rfl⟩
abbrev main_v513 : Ref sig .tc := ⟨.hbm, 685, rfl⟩
abbrev main_v514 : Ref sig .tc := ⟨.hbm, 686, rfl⟩
abbrev main_v515 : Ref sig .tc := ⟨.hbm, 687, rfl⟩
abbrev main_cst_150 : Ref sig .tc := ⟨.hbm, 688, rfl⟩
abbrev main_v516 : Ref sig .tc := ⟨.hbm, 689, rfl⟩
abbrev main_v517 : Ref sig .tc := ⟨.hbm, 690, rfl⟩
abbrev main_v518 : Ref sig .tc := ⟨.hbm, 691, rfl⟩
abbrev main_cst_151 : Ref sig .tc := ⟨.hbm, 692, rfl⟩
abbrev main_v519 : Ref sig .tc := ⟨.hbm, 693, rfl⟩
abbrev main_v520 : Ref sig .tc := ⟨.hbm, 694, rfl⟩
abbrev main_v521 : Ref sig .tc := ⟨.hbm, 695, rfl⟩
abbrev main_cst_152 : Ref sig .tc := ⟨.hbm, 696, rfl⟩
abbrev main_v522 : Ref sig .tc := ⟨.hbm, 697, rfl⟩
abbrev main_v523 : Ref sig .tc := ⟨.hbm, 698, rfl⟩
abbrev main_v524 : Ref sig .tc := ⟨.hbm, 699, rfl⟩
abbrev main_cst_153 : Ref sig .tc := ⟨.hbm, 700, rfl⟩
abbrev main_v525 : Ref sig .tc := ⟨.hbm, 701, rfl⟩
abbrev main_v526 : Ref sig .tc := ⟨.hbm, 702, rfl⟩
abbrev main_v527 : Ref sig .tc := ⟨.hbm, 703, rfl⟩

abbrev nD : Nat := 1
abbrev τ : Topo := Topo.v7x

variable {F : FTy → Type} [FloatOps F]

class Facts₀ : Prop where
  slices_S100000x128_S100000x64_0_0 : S100000x128.Slices ![0, 0] S100000x64
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  slices_S20000x128_S20000x64_0_0 : S20000x128.Slices ![0, 0] S20000x64
  bcast_S_S800000 : S_.BroadcastsInDim S800000 (![] : Fin 0 → Fin S800000.rank)
  bcast_S800000_S800000x1_0 : S800000.BroadcastsInDim S800000x1 (![0] : Fin 1 → Fin S800000x1.rank)
  slices_S200000x128_S200000x64_0_0 : S200000x128.Slices ![0, 0] S200000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S5000x128_S5000x64_0_0 : S5000x128.Slices ![0, 0] S5000x64
  slices_S200000x128_S200000x64_0_64 : S200000x128.Slices ![0, 64] S200000x64
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  slices_S5000x128_S5000x64_0_64 : S5000x128.Slices ![0, 64] S5000x64
  bcast_S_S400000 : S_.BroadcastsInDim S400000 (![] : Fin 0 → Fin S400000.rank)
  bcast_S400000_S400000x1_0 : S400000.BroadcastsInDim S400000x1 (![0] : Fin 1 → Fin S400000x1.rank)
  slices_S100000x128_S100000x64_0_64 : S100000x128.Slices ![0, 64] S100000x64
  bcast_S_S5000x64 : S_.BroadcastsInDim S5000x64 (![] : Fin 0 → Fin S5000x64.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  slices_S20000x128_S20000x64_0_64 : S20000x128.Slices ![0, 64] S20000x64
  concatenates_S200000x64_S200000x64_S200000x128_d1 : Shape.Concatenates [S200000x64, S200000x64] S200000x128 1
  concatenates_S100000x64_S100000x64_S100000x128_d1 : Shape.Concatenates [S100000x64, S100000x64] S100000x128 1
  concatenates_S20000x64_S20000x64_S20000x128_d1 : Shape.Concatenates [S20000x64, S20000x64] S20000x128 1
  concatenates_S5000x64_S5000x64_S5000x128_d1 : Shape.Concatenates [S5000x64, S5000x64] S5000x128 1
  bcast_S_S200000x128 : S_.BroadcastsInDim S200000x128 (![] : Fin 0 → Fin S200000x128.rank)
  bcast_S_S100000x128 : S_.BroadcastsInDim S100000x128 (![] : Fin 0 → Fin S100000x128.rank)
  bcast_S_S20000x128 : S_.BroadcastsInDim S20000x128 (![] : Fin 0 → Fin S20000x128.rank)
  bcast_S_S5000x128 : S_.BroadcastsInDim S5000x128 (![] : Fin 0 → Fin S5000x128.rank)
  gather_S100000x64_S1500000x1_S1500000x64_1_0_n_n_0_1_164_wf : GatherDims.WF S100000x64 S1500000x1 S1500000x64 [1] [0] [] [0] [] 1 ![1, 64]
  scatter_S200000x64_S1500000x1_S1500000x64_1_0_0_1_wf : ScatterDims.WF S200000x64 S1500000x1 S1500000x64 [1] [0] [0] 1
  scatter_S200000_S1500000x1_S1500000_n_0_0_1_wf : ScatterDims.WF S200000 S1500000x1 S1500000 [] [0] [0] 1
  gather_S20000x64_S800000x1_S800000x64_1_0_n_n_0_1_164_wf : GatherDims.WF S20000x64 S800000x1 S800000x64 [1] [0] [] [0] [] 1 ![1, 64]
  scatter_S200000x64_S800000x1_S800000x64_1_0_0_1_wf : ScatterDims.WF S200000x64 S800000x1 S800000x64 [1] [0] [0] 1
  scatter_S200000_S800000x1_S800000_n_0_0_1_wf : ScatterDims.WF S200000 S800000x1 S800000 [] [0] [0] 1
  gather_S200000x64_S1500000x1_S1500000x64_1_0_n_n_0_1_164_wf : GatherDims.WF S200000x64 S1500000x1 S1500000x64 [1] [0] [] [0] [] 1 ![1, 64]
  scatter_S100000x64_S1500000x1_S1500000x64_1_0_0_1_wf : ScatterDims.WF S100000x64 S1500000x1 S1500000x64 [1] [0] [0] 1
  scatter_S100000_S1500000x1_S1500000_n_0_0_1_wf : ScatterDims.WF S100000 S1500000x1 S1500000 [] [0] [0] 1
  gather_S5000x64_S800000x1_S800000x64_1_0_n_n_0_1_164_wf : GatherDims.WF S5000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  gather_S200000x64_S800000x1_S800000x64_1_0_n_n_0_1_164_wf : GatherDims.WF S200000x64 S800000x1 S800000x64 [1] [0] [] [0] [] 1 ![1, 64]
  scatter_S20000x64_S800000x1_S800000x64_1_0_0_1_wf : ScatterDims.WF S20000x64 S800000x1 S800000x64 [1] [0] [0] 1
  scatter_S20000_S800000x1_S800000_n_0_0_1_wf : ScatterDims.WF S20000 S800000x1 S800000 [] [0] [0] 1
  gather_S5000x64_S400000x1_S400000x64_1_0_n_n_0_1_164_wf : GatherDims.WF S5000x64 S400000x1 S400000x64 [1] [0] [] [0] [] 1 ![1, 64]
  scatter_S20000x64_S400000x1_S400000x64_1_0_0_1_wf : ScatterDims.WF S20000x64 S400000x1 S400000x64 [1] [0] [0] 1
  scatter_S20000_S400000x1_S400000_n_0_0_1_wf : ScatterDims.WF S20000 S400000x1 S400000 [] [0] [0] 1
  gather_S100000x64_S800000x1_S800000x64_1_0_n_n_0_1_164_wf : GatherDims.WF S100000x64 S800000x1 S800000x64 [1] [0] [] [0] [] 1 ![1, 64]
  scatter_S5000x64_S800000x1_S800000x64_1_0_0_1_wf : ScatterDims.WF S5000x64 S800000x1 S800000x64 [1] [0] [0] 1
  scatter_S5000_S800000x1_S800000_n_0_0_1_wf : ScatterDims.WF S5000 S800000x1 S800000 [] [0] [0] 1
  gather_S20000x64_S400000x1_S400000x64_1_0_n_n_0_1_164_wf : GatherDims.WF S20000x64 S400000x1 S400000x64 [1] [0] [] [0] [] 1 ![1, 64]
  scatter_S5000x64_S400000x1_S400000x64_1_0_0_1_wf : ScatterDims.WF S5000x64 S400000x1 S400000x64 [1] [0] [0] 1
  scatter_S5000_S400000x1_S400000_n_0_0_1_wf : ScatterDims.WF S5000 S400000x1 S400000 [] [0] [0] 1

variable [Facts₀]

def gather_S100000x64_S1500000x1_S1500000x64_1_0_n_n_0_1_164 : GatherDims S100000x64 S1500000x1 S1500000x64 where
  offsetDims := [1]
  collapsedSliceDims := [0]
  operandBatchingDims := []
  startIndicesBatchingDims := []
  startIndexMap := [0]
  indexVectorDim := 1
  sliceSizes := ![1, 64]
  wf := gather_S100000x64_S1500000x1_S1500000x64_1_0_n_n_0_1_164_wf
def scatter_S200000x64_S1500000x1_S1500000x64_1_0_0_1 : ScatterDims S200000x64 S1500000x1 S1500000x64 where
  updateWindowDims := [1]
  insertedWindowDims := [0]
  scatterDimsToOperandDims := [0]
  indexVectorDim := 1
  wf := scatter_S200000x64_S1500000x1_S1500000x64_1_0_0_1_wf
def scatter_S200000_S1500000x1_S1500000_n_0_0_1 : ScatterDims S200000 S1500000x1 S1500000 where
  updateWindowDims := []
  insertedWindowDims := [0]
  scatterDimsToOperandDims := [0]
  indexVectorDim := 1
  wf := scatter_S200000_S1500000x1_S1500000_n_0_0_1_wf
def gather_S20000x64_S800000x1_S800000x64_1_0_n_n_0_1_164 : GatherDims S20000x64 S800000x1 S800000x64 where
  offsetDims := [1]
  collapsedSliceDims := [0]
  operandBatchingDims := []
  startIndicesBatchingDims := []
  startIndexMap := [0]
  indexVectorDim := 1
  sliceSizes := ![1, 64]
  wf := gather_S20000x64_S800000x1_S800000x64_1_0_n_n_0_1_164_wf
def scatter_S200000x64_S800000x1_S800000x64_1_0_0_1 : ScatterDims S200000x64 S800000x1 S800000x64 where
  updateWindowDims := [1]
  insertedWindowDims := [0]
  scatterDimsToOperandDims := [0]
  indexVectorDim := 1
  wf := scatter_S200000x64_S800000x1_S800000x64_1_0_0_1_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000x64_S1500000x1_S1500000x64_1_0_n_n_0_1_164 : GatherDims S200000x64 S1500000x1 S1500000x64 where
  offsetDims := [1]
  collapsedSliceDims := [0]
  operandBatchingDims := []
  startIndicesBatchingDims := []
  startIndexMap := [0]
  indexVectorDim := 1
  sliceSizes := ![1, 64]
  wf := gather_S200000x64_S1500000x1_S1500000x64_1_0_n_n_0_1_164_wf
def scatter_S100000x64_S1500000x1_S1500000x64_1_0_0_1 : ScatterDims S100000x64 S1500000x1 S1500000x64 where
  updateWindowDims := [1]
  insertedWindowDims := [0]
  scatterDimsToOperandDims := [0]
  indexVectorDim := 1
  wf := scatter_S100000x64_S1500000x1_S1500000x64_1_0_0_1_wf
def scatter_S100000_S1500000x1_S1500000_n_0_0_1 : ScatterDims S100000 S1500000x1 S1500000 where
  updateWindowDims := []
  insertedWindowDims := [0]
  scatterDimsToOperandDims := [0]
  indexVectorDim := 1
  wf := scatter_S100000_S1500000x1_S1500000_n_0_0_1_wf
def gather_S5000x64_S800000x1_S800000x64_1_0_n_n_0_1_164 : GatherDims S5000x64 S800000x1 S800000x64 where
  offsetDims := [1]
  collapsedSliceDims := [0]
  operandBatchingDims := []
  startIndicesBatchingDims := []
  startIndexMap := [0]
  indexVectorDim := 1
  sliceSizes := ![1, 64]
  wf := gather_S5000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S200000x64_S800000x1_S800000x64_1_0_n_n_0_1_164 : GatherDims S200000x64 S800000x1 S800000x64 where
  offsetDims := [1]
  collapsedSliceDims := [0]
  operandBatchingDims := []
  startIndicesBatchingDims := []
  startIndexMap := [0]
  indexVectorDim := 1
  sliceSizes := ![1, 64]
  wf := gather_S200000x64_S800000x1_S800000x64_1_0_n_n_0_1_164_wf
def scatter_S20000x64_S800000x1_S800000x64_1_0_0_1 : ScatterDims S20000x64 S800000x1 S800000x64 where
  updateWindowDims := [1]
  insertedWindowDims := [0]
  scatterDimsToOperandDims := [0]
  indexVectorDim := 1
  wf := scatter_S20000x64_S800000x1_S800000x64_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def gather_S5000x64_S400000x1_S400000x64_1_0_n_n_0_1_164 : GatherDims S5000x64 S400000x1 S400000x64 where
  offsetDims := [1]
  collapsedSliceDims := [0]
  operandBatchingDims := []
  startIndicesBatchingDims := []
  startIndexMap := [0]
  indexVectorDim := 1
  sliceSizes := ![1, 64]
  wf := gather_S5000x64_S400000x1_S400000x64_1_0_n_n_0_1_164_wf
def scatter_S20000x64_S400000x1_S400000x64_1_0_0_1 : ScatterDims S20000x64 S400000x1 S400000x64 where
  updateWindowDims := [1]
  insertedWindowDims := [0]
  scatterDimsToOperandDims := [0]
  indexVectorDim := 1
  wf := scatter_S20000x64_S400000x1_S400000x64_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S5000x64_S800000x1_S800000x64_1_0_0_1 : ScatterDims S5000x64 S800000x1 S800000x64 where
  updateWindowDims := [1]
  insertedWindowDims := [0]
  scatterDimsToOperandDims := [0]
  indexVectorDim := 1
  wf := scatter_S5000x64_S800000x1_S800000x64_1_0_0_1_wf
def scatter_S5000_S800000x1_S800000_n_0_0_1 : ScatterDims S5000 S800000x1 S800000 where
  updateWindowDims := []
  insertedWindowDims := [0]
  scatterDimsToOperandDims := [0]
  indexVectorDim := 1
  wf := scatter_S5000_S800000x1_S800000_n_0_0_1_wf
def gather_S20000x64_S400000x1_S400000x64_1_0_n_n_0_1_164 : GatherDims S20000x64 S400000x1 S400000x64 where
  offsetDims := [1]
  collapsedSliceDims := [0]
  operandBatchingDims := []
  startIndicesBatchingDims := []
  startIndexMap := [0]
  indexVectorDim := 1
  sliceSizes := ![1, 64]
  wf := gather_S20000x64_S400000x1_S400000x64_1_0_n_n_0_1_164_wf
def scatter_S5000x64_S400000x1_S400000x64_1_0_0_1 : ScatterDims S5000x64 S400000x1 S400000x64 where
  updateWindowDims := [1]
  insertedWindowDims := [0]
  scatterDimsToOperandDims := [0]
  indexVectorDim := 1
  wf := scatter_S5000x64_S400000x1_S400000x64_1_0_0_1_wf
def scatter_S5000_S400000x1_S400000_n_0_0_1 : ScatterDims S5000 S400000x1 S400000 where
  updateWindowDims := []
  insertedWindowDims := [0]
  scatterDimsToOperandDims := [0]
  indexVectorDim := 1
  wf := scatter_S5000_S400000x1_S400000_n_0_0_1_wf

class Facts : Prop extends Facts₀ where

variable [Facts]
-- ==== Proof.KRun.lean ====
/-
  The kernel program's run, with its results named.

  The program is fifteen segments: a stretch of host operations, four combine calls, a stretch, four calls, a
  stretch, four calls. The launch theorem for such a program runs the segments in order over the fold of buffer
  contents `W0 … W15` (a host stretch applies its operations; a call replaces its output arrays by what its
  blocks wrote back) and ends with every unscoped buffer at `W15`. Reading the final state at the four result
  buffers as well as at the twenty arguments gives: every weakly fair execution terminates, nothing faults, each
  result buffer holds `W15` at that buffer, and the arguments are as launched.
-/
import proofs.«179549_j31344671326263_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, each result buffer at the last
    boundary's contents `W15`, the arguments unchanged. -/
theorem value_run : θ_run defs (onTc (τ := τ) (main (F := F))) ⟨m, fun _ => 0, ρ⟩ (fun r => ∀ c : Dev nD,
      r.2.mem ((c.tc : Thread nD τ).loc main_v344_1) = W15 m ρ c (Proc.devRef .tc main_v344_1)
      ∧       r.2.mem ((c.tc : Thread nD τ).loc main_v345_1) = W15 m ρ c (Proc.devRef .tc main_v345_1)
      ∧       r.2.mem ((c.tc : Thread nD τ).loc main_v346_1) = W15 m ρ c (Proc.devRef .tc main_v346_1)
      ∧       r.2.mem ((c.tc : Thread nD τ).loc main_v347_1) = W15 m ρ c (Proc.devRef .tc main_v347_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨(h c _ (mem_uc main_v344_1 (by decide))),
       (h c _ (mem_uc main_v345_1 (by decide))),
       (h c _ (mem_uc main_v346_1 (by decide))),
       (h c _ (mem_uc main_v347_1 (by decide))),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c)⟩)

end Cert.KernelIdeal.KRun

end
-- ==== Proof.LibSegMean.lean ====
/-
  Row-scaled halves joined along the feature axis, and a weighted running sum, read index by index on the
  extended reals. Two spellings of one array meet here:

  * the quotient spelling: each half `s` divided, row by row, by `max d 1` (a per-row count `d` broadcast to a
    column and then across the 64 features), the two quotients joined end to end into 128 features;
  * the product spelling: each half multiplied, row by row, by the column `1 / max d 1`.

  On the extended reals `x / y = x * y⁻¹` whenever `y ≠ 0`, and `max d 1 ≥ 1 > 0`, so
  `s / max d 1 = s * (max d 1)⁻¹ = s * (1 * (max d 1)⁻¹) = s * (1 / max d 1)` for EVERY extended real `s`
  and `d`: no finiteness is needed. Every row count `n` is generic.
-/
import Idealize.ShloMosaic.PureOps.Ideal.Laws
import Idealize.ShloMosaic.Lib.ValueIdx
import Idealize.ShloMosaic.Lib.Pipeline.Value
import Idealize.ShloMosaic.Lib.IdealHost

noncomputable section

namespace Cert.SegMean

open Idealize.ShloMosaic Idealize.ShloMosaic.ValueIdx

/-- The array `[n, 128]` whose entry `(r, f)` is `sa (r, f) * ia (r, 0)` for `f < 64` and
    `sb (r, f - 64) * ib (r, 0)` for `f ≥ 64`: two half-width blocks, each scaled row by row by a column,
    laid side by side. -/
def meanCat {n : Nat} (sa : (⟨2, ![n, 64]⟩ : Shape).Idx → EReal) (ia : (⟨2, ![n, 1]⟩ : Shape).Idx → EReal)
    (sb : (⟨2, ![n, 64]⟩ : Shape).Idx → EReal) (ib : (⟨2, ![n, 1]⟩ : Shape).Idx → EReal) :
    (⟨2, ![n, 128]⟩ : Shape).Idx → EReal :=
  fun j =>
    if h : (j 1).val < 64 then
      sa (ix2 (n0 := n) (n1 := 64) (j 0) ⟨(j 1).val, h⟩) * ia (ix2 (n0 := n) (n1 := 1) (j 0) ⟨0, Nat.one_pos⟩)
    else
      sb (ix2 (n0 := n) (n1 := 64) (j 0) ⟨(j 1).val - 64, by have := idx2_lt1 j; omega⟩)
        * ib (ix2 (n0 := n) (n1 := 1) (j 0) ⟨0, Nat.one_pos⟩)

/-- The running sum `acc + x * w`, entry by entry. -/
def accum {s : Shape} (acc x : s.Idx → EReal) (w : EReal) : s.Idx → EReal := fun j => acc j + x j * w

/-- `meanCat` in the first half of the features. -/
theorem meanCat_left {n : Nat} (sa : (⟨2, ![n, 64]⟩ : Shape).Idx → EReal) (ia : (⟨2, ![n, 1]⟩ : Shape).Idx → EReal)
    (sb : (⟨2, ![n, 64]⟩ : Shape).Idx → EReal) (ib : (⟨2, ![n, 1]⟩ : Shape).Idx → EReal)
    (r : Fin n) (f : Fin 128) (h : f.val < 64) :
    meanCat sa ia sb ib (ix2 (n0 := n) (n1 := 128) r f)
      = sa (ix2 (n0 := n) (n1 := 64) r ⟨f.val, h⟩) * ia (ix2 (n0 := n) (n1 := 1) r ⟨0, Nat.one_pos⟩) := by
  unfold meanCat
  exact dif_pos h

/-- `meanCat` in the second half of the features. -/
theorem meanCat_right {n : Nat} (sa : (⟨2, ![n, 64]⟩ : Shape).Idx → EReal) (ia : (⟨2, ![n, 1]⟩ : Shape).Idx → EReal)
    (sb : (⟨2, ![n, 64]⟩ : Shape).Idx → EReal) (ib : (⟨2, ![n, 1]⟩ : Shape).Idx → EReal)
    (r : Fin n) (f : Fin 128) (h : ¬ f.val < 64) :
    meanCat sa ia sb ib (ix2 (n0 := n) (n1 := 128) r f)
      = sb (ix2 (n0 := n) (n1 := 64) r ⟨f.val - 64, by have := f.isLt; omega⟩)
          * ib (ix2 (n0 := n) (n1 := 1) r ⟨0, Nat.one_pos⟩) := by
  unfold meanCat
  exact dif_neg h

/-- On the extended reals, dividing by `max d 1` is multiplying by `1 / max d 1`. -/
theorem div_max_one (s d : EReal) : Ideal.div s (max d 1) = s * Ideal.div 1 (max d 1) := by
  have hm : max d 1 ≠ 0 := by
    have h1 : (1 : EReal) ≤ max d 1 := le_max_right d 1
    intro h0
    rw [h0] at h1
    exact absurd h1 (by norm_num)
  unfold Ideal.div
  rw [if_neg hm, if_neg hm, one_mul]

/-- A length-`n` vector laid out as a column `[n, 1]` reads, at `(r, u)`, the vector at `r`. -/
theorem bcast_col_apply {n : Nat}
    (hb1 : (⟨1, ![n]⟩ : Shape).BroadcastsInDim ⟨2, ![n, 1]⟩ (![0] : Fin 1 → Fin 2))
    (x : (⟨1, ![n]⟩ : Shape).Idx → EReal) (r : Fin n) (u : Fin 1) :
    broadcastInDim (⟨2, ![n, 1]⟩ : Shape) ![0] hb1 x (ix2 (n0 := n) (n1 := 1) r u) = x (ix1 r) := by
  refine broadcastInDim_apply ![0] hb1 x _ _ (fun a => ?_)
  match a with
  | ⟨0, _⟩ =>
    show r.val = if n = 1 then 0 else r.val
    split_ifs with h
    · have := r.isLt; omega
    · rfl

/-- A column `[n, 1]` spread across 64 features reads, at `(r, f)`, the column at `(r, 0)`. -/
theorem bcast_row_apply {n : Nat}
    (hb2 : (⟨2, ![n, 1]⟩ : Shape).BroadcastsInDim ⟨2, ![n, 64]⟩ (![0, 1] : Fin 2 → Fin 2))
    (x : (⟨2, ![n, 1]⟩ : Shape).Idx → EReal) (r : Fin n) (f : Fin 64) :
    broadcastInDim (⟨2, ![n, 64]⟩ : Shape) ![0, 1] hb2 x (ix2 (n0 := n) (n1 := 64) r f)
      = x (ix2 (n0 := n) (n1 := 1) r ⟨0, Nat.one_pos⟩) := by
  refine broadcastInDim_apply ![0, 1] hb2 x _ _ (fun a => ?_)
  match a with
  | ⟨0, _⟩ =>
    show r.val = if n = 1 then 0 else r.val
    split_ifs with h
    · have := r.isLt; omega
    · rfl
  | ⟨1, _⟩ =>
    show (0 : Nat) = if (1 : Nat) = 1 then 0 else f.val
    rw [if_pos rfl]

/-- The quotient spelling is the product spelling: the two halves, each divided row by row by `max d 1` spread
    over its features, joined along the feature axis, are `meanCat` of the halves and the columns `1 / max d 1`. -/
theorem concat_div_eq_meanCat {n : Nat}
    (hc : Shape.Concatenates [(⟨2, ![n, 64]⟩ : Shape), ⟨2, ![n, 64]⟩] ⟨2, ![n, 128]⟩ (1 : Fin 2))
    (hb1 : (⟨1, ![n]⟩ : Shape).BroadcastsInDim ⟨2, ![n, 1]⟩ (![0] : Fin 1 → Fin 2))
    (hb2 : (⟨2, ![n, 1]⟩ : Shape).BroadcastsInDim ⟨2, ![n, 64]⟩ (![0, 1] : Fin 2 → Fin 2))
    (sa sb : FVec Ideal ⟨2, ![n, 64]⟩ .f32) (da db one : FVec Ideal ⟨1, ![n]⟩ .f32) (hone : ∀ i, one i = 1) :
    concatenate (⟨2, ![n, 128]⟩ : Shape) 1
      [⟨⟨2, ![n, 64]⟩, Host.divf sa (broadcastInDim ⟨2, ![n, 64]⟩ ![0, 1] hb2
          (broadcastInDim ⟨2, ![n, 1]⟩ ![0] hb1 (maximumf da one)))⟩,
       ⟨⟨2, ![n, 64]⟩, Host.divf sb (broadcastInDim ⟨2, ![n, 64]⟩ ![0, 1] hb2
          (broadcastInDim ⟨2, ![n, 1]⟩ ![0] hb1 (maximumf db one)))⟩] hc
    = meanCat sa (broadcastInDim ⟨2, ![n, 1]⟩ ![0] hb1 (Host.divf one (maximumf da one)))
        sb (broadcastInDim ⟨2, ![n, 1]⟩ ![0] hb1 (Host.divf one (maximumf db one))) := by
  funext j
  obtain ⟨r, f, rfl⟩ : ∃ (r : Fin n) (f : Fin 128), j = ix2 r f := ⟨j 0, j 1, eq_ix2 j⟩
  by_cases h : f.val < 64
  · rw [meanCat_left _ _ _ _ r f h]
    rw [concatenate_pair_apply_left (t := ⟨2, ![n, 128]⟩) (s₁ := ⟨2, ![n, 64]⟩) (s₂ := ⟨2, ![n, 64]⟩) (1 : Fin 2) _ _ hc
      (ix2 r f) rfl (ix2 (n0 := n) (n1 := 64) r ⟨f.val, h⟩)
      (fun b => by match b with | ⟨0, _⟩ => rfl | ⟨1, _⟩ => rfl)]
    show Ideal.div (sa _) (broadcastInDim _ _ hb2 _ (ix2 r ⟨f.val, h⟩)) = _
    rw [bcast_row_apply hb2 _ r ⟨f.val, h⟩, bcast_col_apply hb1 _ r ⟨0, Nat.one_pos⟩,
      bcast_col_apply hb1 _ r ⟨0, Nat.one_pos⟩]
    show Ideal.div (sa _) (max (da _) (one _)) = sa _ * Ideal.div (one _) (max (da _) (one _))
    rw [hone, div_max_one]
  · rw [meanCat_right _ _ _ _ r f h]
    have h128 := f.isLt
    rw [concatenate_pair_apply_right (t := ⟨2, ![n, 128]⟩) (s₁ := ⟨2, ![n, 64]⟩) (s₂ := ⟨2, ![n, 64]⟩) (1 : Fin 2) _ _ hc
      (ix2 r f) rfl rfl (ix2 (n0 := n) (n1 := 64) r ⟨f.val - 64, by omega⟩)
      (fun b hb => by match b with | ⟨0, _⟩ => rfl | ⟨1, _⟩ => exact absurd rfl hb)
      (by show f.val - 64 + 64 = f.val; omega)]
    show Ideal.div (sb _) (broadcastInDim _ _ hb2 _ (ix2 r ⟨f.val - 64, _⟩)) = _
    rw [bcast_row_apply hb2 _ r ⟨f.val - 64, by omega⟩, bcast_col_apply hb1 _ r ⟨0, Nat.one_pos⟩,
      bcast_col_apply hb1 _ r ⟨0, Nat.one_pos⟩]
    show Ideal.div (sb _) (max (db _) (one _)) = sb _ * Ideal.div (one _) (max (db _) (one _))
    rw [hone, div_max_one]

/-- `meanCat` commutes with cutting a block of `T` rows out of the `n`: if every operand's block sits at row
    offset `base` (its embedding adds `base` to the row and keeps the feature), then `meanCat` of the operands'
    blocks, at `y`, is `meanCat` of the operands at the embedded `y`. -/
theorem meanCat_block {n T : Nat} (base : Nat)
    (A0 A2 : (⟨2, ![n, 64]⟩ : Shape).Idx → EReal) (A1 A3 : (⟨2, ![n, 1]⟩ : Shape).Idx → EReal)
    (e0 e2 : (⟨2, ![T, 64]⟩ : Shape).Idx → (⟨2, ![n, 64]⟩ : Shape).Idx)
    (e1 e3 : (⟨2, ![T, 1]⟩ : Shape).Idx → (⟨2, ![n, 1]⟩ : Shape).Idx)
    (e5 : (⟨2, ![T, 128]⟩ : Shape).Idx → (⟨2, ![n, 128]⟩ : Shape).Idx)
    (h0 : ∀ z, ((e0 z) 0).val = base + (z 0).val ∧ ((e0 z) 1).val = (z 1).val)
    (h1 : ∀ z, ((e1 z) 0).val = base + (z 0).val ∧ ((e1 z) 1).val = (z 1).val)
    (h2 : ∀ z, ((e2 z) 0).val = base + (z 0).val ∧ ((e2 z) 1).val = (z 1).val)
    (h3 : ∀ z, ((e3 z) 0).val = base + (z 0).val ∧ ((e3 z) 1).val = (z 1).val)
    (h5 : ∀ z, ((e5 z) 0).val = base + (z 0).val ∧ ((e5 z) 1).val = (z 1).val)
    (y : (⟨2, ![T, 128]⟩ : Shape).Idx) :
    meanCat (fun z => A0 (e0 z)) (fun z => A1 (e1 z)) (fun z => A2 (e2 z)) (fun z => A3 (e3 z)) y
      = meanCat A0 A1 A2 A3 (e5 y) := by
  obtain ⟨h50, h51⟩ := h5 y
  obtain ⟨r, f, rfl⟩ : ∃ (r : Fin T) (f : Fin 128), y = ix2 r f := ⟨y 0, y 1, eq_ix2 y⟩
  obtain ⟨R, g, hRg⟩ : ∃ (R : Fin n) (g : Fin 128), e5 (ix2 r f) = ix2 R g := ⟨e5 _ 0, e5 _ 1, eq_ix2 _⟩
  have hR : R.val = base + r.val := by have := congrArg (fun q => (q 0).val) hRg; exact this.symm.trans h50
  have hg : g.val = f.val := by have := congrArg (fun q => (q 1).val) hRg; exact this.symm.trans h51
  rw [hRg]
  by_cases h : f.val < 64
  · have h' : g.val < 64 := by omega
    rw [meanCat_left _ _ _ _ r f h, meanCat_left _ _ _ _ R g h']
    congr 1
    · refine congrArg A0 (funext fun a => Fin.ext ?_)
      match a with
      | ⟨0, _⟩ => exact ((h0 _).1).trans hR.symm
      | ⟨1, _⟩ => exact ((h0 _).2).trans hg.symm
    · refine congrArg A1 (funext fun a => Fin.ext ?_)
      match a with
      | ⟨0, _⟩ => exact ((h1 _).1).trans hR.symm
      | ⟨1, _⟩ => exact (h1 _).2
  · have h' : ¬ g.val < 64 := by omega
    rw [meanCat_right _ _ _ _ r f h, meanCat_right _ _ _ _ R g h']
    congr 1
    · refine congrArg A2 (funext fun a => Fin.ext ?_)
      match a with
      | ⟨0, _⟩ => exact ((h2 _).1).trans hR.symm
      | ⟨1, _⟩ => exact ((h2 _).2).trans (by show f.val - 64 = g.val - 64; omega)
    · refine congrArg A3 (funext fun a => Fin.ext ?_)
      match a with
      | ⟨0, _⟩ => exact ((h3 _).1).trans hR.symm
      | ⟨1, _⟩ => exact (h3 _).2

/-- The host's `acc + x * w` with `w` a splat constant is the running sum `accum`. -/
theorem host_accum {s : Shape} (hb : (⟨0, ![]⟩ : Shape).BroadcastsInDim s (![] : Fin 0 → Fin s.rank))
    (acc x : FVec Ideal s .f32) (w : BitVec 32) :
    addf acc (mulf x (broadcastInDim s ![] hb (constant (F := Ideal) ⟨0, ![]⟩ .f32 w)))
      = accum acc x (Ideal.ofBits .f32 w) := by
  funext j
  show acc j + x j * broadcastInDim s ![] hb (constant (F := Ideal) ⟨0, ![]⟩ .f32 w) j = _
  rw [broadcastInDim_apply ![] hb _ j ix0 (fun a => a.elim0)]
  rfl

end Cert.SegMean

end
-- ==== Proof.Spec.lean ====
/-
  What both programs compute, as one function of the argument arrays.

  A heterogeneous graph has four node tables (users, videos, publishers, tags; 128 features each) and eight edge
  relations. For a relation with source table `x`, edge endpoints `src`, `dst` and `N` destination rows:
  `s<REL> x src dst` gathers one 64-feature half of `x` at `src` (a negative index wrapped once) and adds the
  gathered rows into their `dst` rows — the segment sum —, and `i<REL> dst` is the column `1 / max (deg, 1)` of
  the destination rows' in-degrees. A layer replaces every table by the two relations' means that arrive at it,
  joined along the features (`meanCat`); three layers are run, and the result accumulates the tables with the
  weights 1/2, 1/3, 1/4 (as the f32 words the programs carry; they are never evaluated).
-/
import proofs.«179549_j31344671326263_2_alg».proof.Proof.Gen.KernelIdeal
import proofs.«179549_j31344671326263_2_alg».proof.Proof.LibSegMean

noncomputable section

namespace Cert.Spec

open Idealize.ShloMosaic Cert.KernelIdeal Cert.KernelIdeal.Gen Cert.SegMean

/-- Relation VU: the first 64 features of the 100000-row source table gathered along 1500000 edges and summed into 200000 destination rows. -/
def sVU (x : FVec Ideal S100000x128 .f32) (src dst : IVec S1500000 32) : FVec Ideal S200000x64 .f32 :=
  Host.scatterAdd scatter_S200000x64_S1500000x1_S1500000x64_1_0_0_1 (broadcastInDim S200000x64 ![] bcast_S_S200000x64 (constant S_ .f32 0x00000000#32)) (broadcastInDim S1500000x1 ![0] bcast_S1500000_S1500000x1_0 dst) (Host.gather gather_S100000x64_S1500000x1_S1500000x64_1_0_n_n_0_1_164 (extractStridedSlice S100000x64 ![0, 0] x slices_S100000x128_S100000x64_0_0) (broadcastInDim S1500000x1 ![0] bcast_S1500000_S1500000x1_0 (select (cmpi .slt src (broadcastInDim S1500000 ![] bcast_S_S1500000 (constantI S_ 32 0#32))) (addi src (broadcastInDim S1500000 ![] bcast_S_S1500000 (constantI S_ 32 100000#32))) src)))

/-- Relation VU: the in-degree of each of the 200000 destination rows, at least one. -/
def dVU (dst : IVec S1500000 32) : FVec Ideal S200000 .f32 :=
  maximumf (Host.scatterAdd scatter_S200000_S1500000x1_S1500000_n_0_0_1 (broadcastInDim S200000 ![] bcast_S_S200000 (constant S_ .f32 0x00000000#32)) (broadcastInDim S1500000x1 ![0] bcast_S1500000_S1500000x1_0 dst) (broadcastInDim S1500000 ![] bcast_S_S1500000 (constant S_ .f32 0x3F800000#32))) (broadcastInDim S200000 ![] bcast_S_S200000 (constant S_ .f32 0x3F800000#32))

/-- Relation VU: the column of inverse in-degrees, `1 / max (deg, 1)`. -/
def iVU (dst : IVec S1500000 32) : FVec Ideal S200000x1 .f32 :=
  broadcastInDim S200000x1 ![0] bcast_S200000_S200000x1_0 (Host.divf (broadcastInDim S200000 ![] bcast_S_S200000 (constant S_ .f32 0x3F800000#32)) (dVU dst))

/-- Relation PU: the first 64 features of the 20000-row source table gathered along 800000 edges and summed into 200000 destination rows. -/
def sPU (x : FVec Ideal S20000x128 .f32) (src dst : IVec S800000 32) : FVec Ideal S200000x64 .f32 :=
  Host.scatterAdd scatter_S200000x64_S800000x1_S800000x64_1_0_0_1 (broadcastInDim S200000x64 ![] bcast_S_S200000x64 (constant S_ .f32 0x00000000#32)) (broadcastInDim S800000x1 ![0] bcast_S800000_S800000x1_0 dst) (Host.gather gather_S20000x64_S800000x1_S800000x64_1_0_n_n_0_1_164 (extractStridedSlice S20000x64 ![0, 0] x slices_S20000x128_S20000x64_0_0) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 20000#32))) src)))

/-- Relation PU: the in-degree of each of the 200000 destination rows, at least one. -/
def dPU (dst : IVec S800000 32) : FVec Ideal S200000 .f32 :=
  maximumf (Host.scatterAdd scatter_S200000_S800000x1_S800000_n_0_0_1 (broadcastInDim S200000 ![] bcast_S_S200000 (constant S_ .f32 0x00000000#32)) (broadcastInDim S800000x1 ![0] bcast_S800000_S800000x1_0 dst) (broadcastInDim S800000 ![] bcast_S_S800000 (constant S_ .f32 0x3F800000#32))) (broadcastInDim S200000 ![] bcast_S_S200000 (constant S_ .f32 0x3F800000#32))

/-- Relation PU: the column of inverse in-degrees, `1 / max (deg, 1)`. -/
def iPU (dst : IVec S800000 32) : FVec Ideal S200000x1 .f32 :=
  broadcastInDim S200000x1 ![0] bcast_S200000_S200000x1_0 (Host.divf (broadcastInDim S200000 ![] bcast_S_S200000 (constant S_ .f32 0x3F800000#32)) (dPU dst))

/-- Relation UV: the first 64 features of the 200000-row source table gathered along 1500000 edges and summed into 100000 destination rows. -/
def sUV (x : FVec Ideal S200000x128 .f32) (src dst : IVec S1500000 32) : FVec Ideal S100000x64 .f32 :=
  Host.scatterAdd scatter_S100000x64_S1500000x1_S1500000x64_1_0_0_1 (broadcastInDim S100000x64 ![] bcast_S_S100000x64 (constant S_ .f32 0x00000000#32)) (broadcastInDim S1500000x1 ![0] bcast_S1500000_S1500000x1_0 dst) (Host.gather gather_S200000x64_S1500000x1_S1500000x64_1_0_n_n_0_1_164 (extractStridedSlice S200000x64 ![0, 0] x slices_S200000x128_S200000x64_0_0) (broadcastInDim S1500000x1 ![0] bcast_S1500000_S1500000x1_0 (select (cmpi .slt src (broadcastInDim S1500000 ![] bcast_S_S1500000 (constantI S_ 32 0#32))) (addi src (broadcastInDim S1500000 ![] bcast_S_S1500000 (constantI S_ 32 200000#32))) src)))

/-- Relation UV: the in-degree of each of the 100000 destination rows, at least one. -/
def dUV (dst : IVec S1500000 32) : FVec Ideal S100000 .f32 :=
  maximumf (Host.scatterAdd scatter_S100000_S1500000x1_S1500000_n_0_0_1 (broadcastInDim S100000 ![] bcast_S_S100000 (constant S_ .f32 0x00000000#32)) (broadcastInDim S1500000x1 ![0] bcast_S1500000_S1500000x1_0 dst) (broadcastInDim S1500000 ![] bcast_S_S1500000 (constant S_ .f32 0x3F800000#32))) (broadcastInDim S100000 ![] bcast_S_S100000 (constant S_ .f32 0x3F800000#32))

/-- Relation UV: the column of inverse in-degrees, `1 / max (deg, 1)`. -/
def iUV (dst : IVec S1500000 32) : FVec Ideal S100000x1 .f32 :=
  broadcastInDim S100000x1 ![0] bcast_S100000_S100000x1_0 (Host.divf (broadcastInDim S100000 ![] bcast_S_S100000 (constant S_ .f32 0x3F800000#32)) (dUV dst))

/-- Relation TV: the first 64 features of the 5000-row source table gathered along 800000 edges and summed into 100000 destination rows. -/
def sTV (x : FVec Ideal S5000x128 .f32) (src dst : IVec S800000 32) : FVec Ideal S100000x64 .f32 :=
  Host.scatterAdd scatter_S100000x64_S800000x1_S800000x64_1_0_0_1 (broadcastInDim S100000x64 ![] bcast_S_S100000x64 (constant S_ .f32 0x00000000#32)) (broadcastInDim S800000x1 ![0] bcast_S800000_S800000x1_0 dst) (Host.gather gather_S5000x64_S800000x1_S800000x64_1_0_n_n_0_1_164 (extractStridedSlice S5000x64 ![0, 0] x slices_S5000x128_S5000x64_0_0) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 5000#32))) src)))

/-- Relation TV: the in-degree of each of the 100000 destination rows, at least one. -/
def dTV (dst : IVec S800000 32) : FVec Ideal S100000 .f32 :=
  maximumf (Host.scatterAdd scatter_S100000_S800000x1_S800000_n_0_0_1 (broadcastInDim S100000 ![] bcast_S_S100000 (constant S_ .f32 0x00000000#32)) (broadcastInDim S800000x1 ![0] bcast_S800000_S800000x1_0 dst) (broadcastInDim S800000 ![] bcast_S_S800000 (constant S_ .f32 0x3F800000#32))) (broadcastInDim S100000 ![] bcast_S_S100000 (constant S_ .f32 0x3F800000#32))

/-- Relation TV: the column of inverse in-degrees, `1 / max (deg, 1)`. -/
def iTV (dst : IVec S800000 32) : FVec Ideal S100000x1 .f32 :=
  broadcastInDim S100000x1 ![0] bcast_S100000_S100000x1_0 (Host.divf (broadcastInDim S100000 ![] bcast_S_S100000 (constant S_ .f32 0x3F800000#32)) (dTV dst))

/-- Relation UP: the second 64 features of the 200000-row source table gathered along 800000 edges and summed into 20000 destination rows. -/
def sUP (x : FVec Ideal S200000x128 .f32) (src dst : IVec S800000 32) : FVec Ideal S20000x64 .f32 :=
  Host.scatterAdd scatter_S20000x64_S800000x1_S800000x64_1_0_0_1 (broadcastInDim S20000x64 ![] bcast_S_S20000x64 (constant S_ .f32 0x00000000#32)) (broadcastInDim S800000x1 ![0] bcast_S800000_S800000x1_0 dst) (Host.gather gather_S200000x64_S800000x1_S800000x64_1_0_n_n_0_1_164 (extractStridedSlice S200000x64 ![0, 64] x slices_S200000x128_S200000x64_0_64) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 200000#32))) src)))

/-- Relation UP: the in-degree of each of the 20000 destination rows, at least one. -/
def dUP (dst : IVec S800000 32) : FVec Ideal S20000 .f32 :=
  maximumf (Host.scatterAdd scatter_S20000_S800000x1_S800000_n_0_0_1 (broadcastInDim S20000 ![] bcast_S_S20000 (constant S_ .f32 0x00000000#32)) (broadcastInDim S800000x1 ![0] bcast_S800000_S800000x1_0 dst) (broadcastInDim S800000 ![] bcast_S_S800000 (constant S_ .f32 0x3F800000#32))) (broadcastInDim S20000 ![] bcast_S_S20000 (constant S_ .f32 0x3F800000#32))

/-- Relation UP: the column of inverse in-degrees, `1 / max (deg, 1)`. -/
def iUP (dst : IVec S800000 32) : FVec Ideal S20000x1 .f32 :=
  broadcastInDim S20000x1 ![0] bcast_S20000_S20000x1_0 (Host.divf (broadcastInDim S20000 ![] bcast_S_S20000 (constant S_ .f32 0x3F800000#32)) (dUP dst))

/-- Relation TP: the second 64 features of the 5000-row source table gathered along 400000 edges and summed into 20000 destination rows. -/
def sTP (x : FVec Ideal S5000x128 .f32) (src dst : IVec S400000 32) : FVec Ideal S20000x64 .f32 :=
  Host.scatterAdd scatter_S20000x64_S400000x1_S400000x64_1_0_0_1 (broadcastInDim S20000x64 ![] bcast_S_S20000x64 (constant S_ .f32 0x00000000#32)) (broadcastInDim S400000x1 ![0] bcast_S400000_S400000x1_0 dst) (Host.gather gather_S5000x64_S400000x1_S400000x64_1_0_n_n_0_1_164 (extractStridedSlice S5000x64 ![0, 64] x slices_S5000x128_S5000x64_0_64) (broadcastInDim S400000x1 ![0] bcast_S400000_S400000x1_0 (select (cmpi .slt src (broadcastInDim S400000 ![] bcast_S_S400000 (constantI S_ 32 0#32))) (addi src (broadcastInDim S400000 ![] bcast_S_S400000 (constantI S_ 32 5000#32))) src)))

/-- Relation TP: the in-degree of each of the 20000 destination rows, at least one. -/
def dTP (dst : IVec S400000 32) : FVec Ideal S20000 .f32 :=
  maximumf (Host.scatterAdd scatter_S20000_S400000x1_S400000_n_0_0_1 (broadcastInDim S20000 ![] bcast_S_S20000 (constant S_ .f32 0x00000000#32)) (broadcastInDim S400000x1 ![0] bcast_S400000_S400000x1_0 dst) (broadcastInDim S400000 ![] bcast_S_S400000 (constant S_ .f32 0x3F800000#32))) (broadcastInDim S20000 ![] bcast_S_S20000 (constant S_ .f32 0x3F800000#32))

/-- Relation TP: the column of inverse in-degrees, `1 / max (deg, 1)`. -/
def iTP (dst : IVec S400000 32) : FVec Ideal S20000x1 .f32 :=
  broadcastInDim S20000x1 ![0] bcast_S20000_S20000x1_0 (Host.divf (broadcastInDim S20000 ![] bcast_S_S20000 (constant S_ .f32 0x3F800000#32)) (dTP dst))

/-- Relation VT: the second 64 features of the 100000-row source table gathered along 800000 edges and summed into 5000 destination rows. -/
def sVT (x : FVec Ideal S100000x128 .f32) (src dst : IVec S800000 32) : FVec Ideal S5000x64 .f32 :=
  Host.scatterAdd scatter_S5000x64_S800000x1_S800000x64_1_0_0_1 (broadcastInDim S5000x64 ![] bcast_S_S5000x64 (constant S_ .f32 0x00000000#32)) (broadcastInDim S800000x1 ![0] bcast_S800000_S800000x1_0 dst) (Host.gather gather_S100000x64_S800000x1_S800000x64_1_0_n_n_0_1_164 (extractStridedSlice S100000x64 ![0, 64] x slices_S100000x128_S100000x64_0_64) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 100000#32))) src)))

/-- Relation VT: the in-degree of each of the 5000 destination rows, at least one. -/
def dVT (dst : IVec S800000 32) : FVec Ideal S5000 .f32 :=
  maximumf (Host.scatterAdd scatter_S5000_S800000x1_S800000_n_0_0_1 (broadcastInDim S5000 ![] bcast_S_S5000 (constant S_ .f32 0x00000000#32)) (broadcastInDim S800000x1 ![0] bcast_S800000_S800000x1_0 dst) (broadcastInDim S800000 ![] bcast_S_S800000 (constant S_ .f32 0x3F800000#32))) (broadcastInDim S5000 ![] bcast_S_S5000 (constant S_ .f32 0x3F800000#32))

/-- Relation VT: the column of inverse in-degrees, `1 / max (deg, 1)`. -/
def iVT (dst : IVec S800000 32) : FVec Ideal S5000x1 .f32 :=
  broadcastInDim S5000x1 ![0] bcast_S5000_S5000x1_0 (Host.divf (broadcastInDim S5000 ![] bcast_S_S5000 (constant S_ .f32 0x3F800000#32)) (dVT dst))

/-- Relation PT: the second 64 features of the 20000-row source table gathered along 400000 edges and summed into 5000 destination rows. -/
def sPT (x : FVec Ideal S20000x128 .f32) (src dst : IVec S400000 32) : FVec Ideal S5000x64 .f32 :=
  Host.scatterAdd scatter_S5000x64_S400000x1_S400000x64_1_0_0_1 (broadcastInDim S5000x64 ![] bcast_S_S5000x64 (constant S_ .f32 0x00000000#32)) (broadcastInDim S400000x1 ![0] bcast_S400000_S400000x1_0 dst) (Host.gather gather_S20000x64_S400000x1_S400000x64_1_0_n_n_0_1_164 (extractStridedSlice S20000x64 ![0, 64] x slices_S20000x128_S20000x64_0_64) (broadcastInDim S400000x1 ![0] bcast_S400000_S400000x1_0 (select (cmpi .slt src (broadcastInDim S400000 ![] bcast_S_S400000 (constantI S_ 32 0#32))) (addi src (broadcastInDim S400000 ![] bcast_S_S400000 (constantI S_ 32 20000#32))) src)))

/-- Relation PT: the in-degree of each of the 5000 destination rows, at least one. -/
def dPT (dst : IVec S400000 32) : FVec Ideal S5000 .f32 :=
  maximumf (Host.scatterAdd scatter_S5000_S400000x1_S400000_n_0_0_1 (broadcastInDim S5000 ![] bcast_S_S5000 (constant S_ .f32 0x00000000#32)) (broadcastInDim S400000x1 ![0] bcast_S400000_S400000x1_0 dst) (broadcastInDim S400000 ![] bcast_S_S400000 (constant S_ .f32 0x3F800000#32))) (broadcastInDim S5000 ![] bcast_S_S5000 (constant S_ .f32 0x3F800000#32))

/-- Relation PT: the column of inverse in-degrees, `1 / max (deg, 1)`. -/
def iPT (dst : IVec S400000 32) : FVec Ideal S5000x1 .f32 :=
  broadcastInDim S5000x1 ![0] bcast_S5000_S5000x1_0 (Host.divf (broadcastInDim S5000 ![] bcast_S_S5000 (constant S_ .f32 0x3F800000#32)) (dPT dst))

/-- The sixteen edge-endpoint vectors, in the programs' argument order. -/
structure Edges where
  uv_src : IVec S1500000 32
  uv_dst : IVec S1500000 32
  vu_src : IVec S1500000 32
  vu_dst : IVec S1500000 32
  up_src : IVec S800000 32
  up_dst : IVec S800000 32
  pu_src : IVec S800000 32
  pu_dst : IVec S800000 32
  vt_src : IVec S800000 32
  vt_dst : IVec S800000 32
  tv_src : IVec S800000 32
  tv_dst : IVec S800000 32
  pt_src : IVec S400000 32
  pt_dst : IVec S400000 32
  tp_src : IVec S400000 32
  tp_dst : IVec S400000 32

/-- The four node tables. -/
structure Tabs where
  u : FVec Ideal S200000x128 .f32
  v : FVec Ideal S100000x128 .f32
  p : FVec Ideal S20000x128 .f32
  t : FVec Ideal S5000x128 .f32

variable (E : Edges)

/-- Users receive the videos' and the publishers' first halves. -/
def newU (v : FVec Ideal S100000x128 .f32) (p : FVec Ideal S20000x128 .f32) : FVec Ideal S200000x128 .f32 :=
  meanCat (n := 200000) (sVU v E.vu_src E.vu_dst) (iVU E.vu_dst) (sPU p E.pu_src E.pu_dst) (iPU E.pu_dst)
/-- Videos receive the users' and the tags' first halves. -/
def newV (u : FVec Ideal S200000x128 .f32) (t : FVec Ideal S5000x128 .f32) : FVec Ideal S100000x128 .f32 :=
  meanCat (n := 100000) (sUV u E.uv_src E.uv_dst) (iUV E.uv_dst) (sTV t E.tv_src E.tv_dst) (iTV E.tv_dst)
/-- Publishers receive the users' and the tags' second halves. -/
def newP (u : FVec Ideal S200000x128 .f32) (t : FVec Ideal S5000x128 .f32) : FVec Ideal S20000x128 .f32 :=
  meanCat (n := 20000) (sUP u E.up_src E.up_dst) (iUP E.up_dst) (sTP t E.tp_src E.tp_dst) (iTP E.tp_dst)
/-- Tags receive the videos' and the publishers' second halves. -/
def newT (v : FVec Ideal S100000x128 .f32) (p : FVec Ideal S20000x128 .f32) : FVec Ideal S5000x128 .f32 :=
  meanCat (n := 5000) (sVT v E.vt_src E.vt_dst) (iVT E.vt_dst) (sPT p E.pt_src E.pt_dst) (iPT E.pt_dst)

/-- One layer: every table replaced by the joined means that arrive at it. -/
def layer (x : Tabs) : Tabs := ⟨newU E x.v x.p, newV E x.u x.t, newP E x.u x.t, newT E x.v x.p⟩

/-- The running sums `a + x * w`, table by table. -/
def acc (w : EReal) (a x : Tabs) : Tabs := ⟨accum a.u x.u w, accum a.v x.v w, accum a.p x.p w, accum a.t x.t w⟩

/-- The layer weights as the words the programs carry: f32(1/2), f32(1/3), f32(1/4). -/
def w2 : EReal := Ideal.ofBits .f32 0x3F000000#32
def w3 : EReal := Ideal.ofBits .f32 0x3EAAAAAB#32
def w4 : EReal := Ideal.ofBits .f32 0x3E800000#32

/-- The result: the tables plus the three layers' outputs weighted by 1/2, 1/3, 1/4. -/
def result (x : Tabs) : Tabs :=
  acc w4 (acc w3 (acc w2 x (layer E x)) (layer E (layer E x))) (layer E (layer E (layer E x)))

end Cert.Spec

end
-- ==== Proof.KFoldDefs.lean ====
/-
  The argument arrays as the specification's records, and the specification's intermediate tables named:
  `L1, L2, L3` the three layers' outputs and `A1, A2, A3` the running sums after each layer. The result is `A3`.
-/
import proofs.«179549_j31344671326263_2_alg».proof.Proof.Spec

set_option maxRecDepth 16384

noncomputable section

namespace Cert.KernelIdeal.KFold

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The sixteen edge-endpoint arguments, in the argument order. -/
def edges : Cert.Spec.Edges :=
  ⟨m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19)⟩

/-- The four node-table arguments. -/
def tabs : Cert.Spec.Tabs :=
  ⟨m ((c.tc : Thread nD τ).loc main_arg0), m ((c.tc : Thread nD τ).loc main_arg1), m ((c.tc : Thread nD τ).loc main_arg2), m ((c.tc : Thread nD τ).loc main_arg3)⟩

/-- The first layer's output tables. -/
abbrev L1 : Cert.Spec.Tabs := Cert.Spec.layer (edges m c) (tabs m c)
/-- The second layer's. -/
abbrev L2 : Cert.Spec.Tabs := Cert.Spec.layer (edges m c) (L1 m c)
/-- The third layer's. -/
abbrev L3 : Cert.Spec.Tabs := Cert.Spec.layer (edges m c) (L2 m c)
/-- The running sums after the first layer. -/
abbrev A1 : Cert.Spec.Tabs := Cert.Spec.acc Cert.Spec.w2 (tabs m c) (L1 m c)
/-- After the second. -/
abbrev A2 : Cert.Spec.Tabs := Cert.Spec.acc Cert.Spec.w3 (A1 m c) (L2 m c)
/-- After the third. -/
abbrev A3 : Cert.Spec.Tabs := Cert.Spec.acc Cert.Spec.w4 (A2 m c) (L3 m c)

/-- The specification's result is the running sums after the third layer. -/
theorem result_eq : Cert.Spec.result (edges m c) (tabs m c) = A3 m c := rfl

end Cert.KernelIdeal.KFold

end
-- ==== Proof.KFoldW0.lean ====
/-
  Host stretch `hostOps0` is 216 operations, each writing one buffer of its own. A buffer outside the list of
  those 216 buffers holds after the stretch what it held before.
-/
import proofs.«179549_j31344671326263_2_alg».proof.Proof.Gen.KernelIdeal.Launch

set_option maxRecDepth 16384

noncomputable section

namespace Cert.KernelIdeal.KFold

open Idealize.ShloMosaic Idealize.ShloMosaic.TcCoe Idealize.ShloMosaic.StableHlo
open Cert.KernelIdeal Cert.KernelIdeal.Gen

variable {F : FTy → Type} [FloatOps F]

/-- An operation whose one written buffer is in the list writes inside the list. -/
theorem sub_of_mem0 {Val : EltTy → Type} {op : HloOp τ sig Val} {W : List (Ref sig .tc)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers the stretch writes, in order. -/
abbrev H0W : List (Ref sig .tc) :=
  [main_cst, main_v0, main_cst_0, main_v1, main_v2, main_v3, main_cst_1, main_v4, main_v5, main_cst_2, main_v6, main_v7, main_v8, main_cst_3, main_v9, main_cst_4, main_v10, main_v11, main_v12, main_cst_5, main_v13, main_v14, main_cst_6, main_v15, main_v16, main_v17, main_cst_7, main_v18, main_cst_8, main_v19, main_v20, main_v21, main_cst_9, main_v22, main_v23, main_cst_10, main_v24, main_v25, main_v26, main_cst_11, main_v27, main_cst_12, main_v28, main_v29, main_v30, main_cst_13, main_v31, main_v32, main_cst_14, main_v33, main_v34, main_v35, main_cst_15, main_v36, main_cst_16, main_v37, main_v38, main_v39, main_cst_17, main_v40, main_v41, main_cst_18, main_v42, main_v43, main_v44, main_cst_19, main_v45, main_cst_20, main_v46, main_v47, main_v48, main_cst_21, main_v49, main_v50, main_cst_22, main_v51, main_v52, main_v53, main_cst_23, main_v54, main_cst_24, main_v55, main_v56, main_v57, main_cst_25, main_v58, main_v59, main_cst_26, main_v60, main_v61, main_v62, main_cst_27, main_v63, main_cst_28, main_v64, main_v65, main_v66, main_cst_29, main_v67, main_v68, main_cst_30, main_v69, main_v70, main_v71, main_v72, main_c, main_v73, main_v74, main_c_31, main_v75, main_v76, main_v77, main_v78, main_v79, main_cst_32, main_v80, main_v81, main_v82, main_v83, main_c_33, main_v84, main_v85, main_c_34, main_v86, main_v87, main_v88, main_v89, main_v90, main_cst_35, main_v91, main_v92, main_v93, main_v94, main_c_36, main_v95, main_v96, main_c_37, main_v97, main_v98, main_v99, main_v100, main_v101, main_cst_38, main_v102, main_v103, main_v104, main_v105, main_c_39, main_v106, main_v107, main_c_40, main_v108, main_v109, main_v110, main_v111, main_v112, main_cst_41, main_v113, main_v114, main_v115, main_v116, main_c_42, main_v117, main_v118, main_c_43, main_v119, main_v120, main_v121, main_v122, main_v123, main_cst_44, main_v124, main_v125, main_v126, main_v127, main_c_45, main_v128, main_v129, main_c_46, main_v130, main_v131, main_v132, main_v133, main_v134, main_cst_47, main_v135, main_v136, main_v137, main_v138, main_c_48, main_v139, main_v140, main_c_49, main_v141, main_v142, main_v143, main_v144, main_v145, main_cst_50, main_v146, main_v147, main_v148, main_v149, main_c_51, main_v150, main_v151, main_c_52, main_v152, main_v153, main_v154, main_v155, main_v156, main_cst_53, main_v157, main_v158, main_v159]

set_option maxHeartbeats 40000000 in
/-- Every operation of the stretch writes inside the list. -/
theorem H0W_writes : (hostOps0 : List (HloOp τ sig (Elt F))).Forall fun op => op.writes ⊆ (H0W.map (Proc.devRef (τ := τ) .tc)).toFinset :=
  ⟨sub_of_mem0 main_cst rfl (by decide),
   sub_of_mem0 main_v0 rfl (by decide),
   sub_of_mem0 main_cst_0 rfl (by decide),
   sub_of_mem0 main_v1 rfl (by decide),
   sub_of_mem0 main_v2 rfl (by decide),
   sub_of_mem0 main_v3 rfl (by decide),
   sub_of_mem0 main_cst_1 rfl (by decide),
   sub_of_mem0 main_v4 rfl (by decide),
   sub_of_mem0 main_v5 rfl (by decide),
   sub_of_mem0 main_cst_2 rfl (by decide),
   sub_of_mem0 main_v6 rfl (by decide),
   sub_of_mem0 main_v7 rfl (by decide),
   sub_of_mem0 main_v8 rfl (by decide),
   sub_of_mem0 main_cst_3 rfl (by decide),
   sub_of_mem0 main_v9 rfl (by decide),
   sub_of_mem0 main_cst_4 rfl (by decide),
   sub_of_mem0 main_v10 rfl (by decide),
   sub_of_mem0 main_v11 rfl (by decide),
   sub_of_mem0 main_v12 rfl (by decide),
   sub_of_mem0 main_cst_5 rfl (by decide),
   sub_of_mem0 main_v13 rfl (by decide),
   sub_of_mem0 main_v14 rfl (by decide),
   sub_of_mem0 main_cst_6 rfl (by decide),
   sub_of_mem0 main_v15 rfl (by decide),
   sub_of_mem0 main_v16 rfl (by decide),
   sub_of_mem0 main_v17 rfl (by decide),
   sub_of_mem0 main_cst_7 rfl (by decide),
   sub_of_mem0 main_v18 rfl (by decide),
   sub_of_mem0 main_cst_8 rfl (by decide),
   sub_of_mem0 main_v19 rfl (by decide),
   sub_of_mem0 main_v20 rfl (by decide),
   sub_of_mem0 main_v21 rfl (by decide),
   sub_of_mem0 main_cst_9 rfl (by decide),
   sub_of_mem0 main_v22 rfl (by decide),
   sub_of_mem0 main_v23 rfl (by decide),
   sub_of_mem0 main_cst_10 rfl (by decide),
   sub_of_mem0 main_v24 rfl (by decide),
   sub_of_mem0 main_v25 rfl (by decide),
   sub_of_mem0 main_v26 rfl (by decide),
   sub_of_mem0 main_cst_11 rfl (by decide),
   sub_of_mem0 main_v27 rfl (by decide),
   sub_of_mem0 main_cst_12 rfl (by decide),
   sub_of_mem0 main_v28 rfl (by decide),
   sub_of_mem0 main_v29 rfl (by decide),
   sub_of_mem0 main_v30 rfl (by decide),
   sub_of_mem0 main_cst_13 rfl (by decide),
   sub_of_mem0 main_v31 rfl (by decide),
   sub_of_mem0 main_v32 rfl (by decide),
   sub_of_mem0 main_cst_14 rfl (by decide),
   sub_of_mem0 main_v33 rfl (by decide),
   sub_of_mem0 main_v34 rfl (by decide),
   sub_of_mem0 main_v35 rfl (by decide),
   sub_of_mem0 main_cst_15 rfl (by decide),
   sub_of_mem0 main_v36 rfl (by decide),
   sub_of_mem0 main_cst_16 rfl (by decide),
   sub_of_mem0 main_v37 rfl (by decide),
   sub_of_mem0 main_v38 rfl (by decide),
   sub_of_mem0 main_v39 rfl (by decide),
   sub_of_mem0 main_cst_17 rfl (by decide),
   sub_of_mem0 main_v40 rfl (by decide),
   sub_of_mem0 main_v41 rfl (by decide),
   sub_of_mem0 main_cst_18 rfl (by decide),
   sub_of_mem0 main_v42 rfl (by decide),
   sub_of_mem0 main_v43 rfl (by decide),
   sub_of_mem0 main_v44 rfl (by decide),
   sub_of_mem0 main_cst_19 rfl (by decide),
   sub_of_mem0 main_v45 rfl (by decide),
   sub_of_mem0 main_cst_20 rfl (by decide),
   sub_of_mem0 main_v46 rfl (by decide),
   sub_of_mem0 main_v47 rfl (by decide),
   sub_of_mem0 main_v48 rfl (by decide),
   sub_of_mem0 main_cst_21 rfl (by decide),
   sub_of_mem0 main_v49 rfl (by decide),
   sub_of_mem0 main_v50 rfl (by decide),
   sub_of_mem0 main_cst_22 rfl (by decide),
   sub_of_mem0 main_v51 rfl (by decide),
   sub_of_mem0 main_v52 rfl (by decide),
   sub_of_mem0 main_v53 rfl (by decide),
   sub_of_mem0 main_cst_23 rfl (by decide),
   sub_of_mem0 main_v54 rfl (by decide),
   sub_of_mem0 main_cst_24 rfl (by decide),
   sub_of_mem0 main_v55 rfl (by decide),
   sub_of_mem0 main_v56 rfl (by decide),
   sub_of_mem0 main_v57 rfl (by decide),
   sub_of_mem0 main_cst_25 rfl (by decide),
   sub_of_mem0 main_v58 rfl (by decide),
   sub_of_mem0 main_v59 rfl (by decide),
   sub_of_mem0 main_cst_26 rfl (by decide),
   sub_of_mem0 main_v60 rfl (by decide),
   sub_of_mem0 main_v61 rfl (by decide),
   sub_of_mem0 main_v62 rfl (by decide),
   sub_of_mem0 main_cst_27 rfl (by decide),
   sub_of_mem0 main_v63 rfl (by decide),
   sub_of_mem0 main_cst_28 rfl (by decide),
   sub_of_mem0 main_v64 rfl (by decide),
   sub_of_mem0 main_v65 rfl (by decide),
   sub_of_mem0 main_v66 rfl (by decide),
   sub_of_mem0 main_cst_29 rfl (by decide),
   sub_of_mem0 main_v67 rfl (by decide),
   sub_of_mem0 main_v68 rfl (by decide),
   sub_of_mem0 main_cst_30 rfl (by decide),
   sub_of_mem0 main_v69 rfl (by decide),
   sub_of_mem0 main_v70 rfl (by decide),
   sub_of_mem0 main_v71 rfl (by decide),
   sub_of_mem0 main_v72 rfl (by decide),
   sub_of_mem0 main_c rfl (by decide),
   sub_of_mem0 main_v73 rfl (by decide),
   sub_of_mem0 main_v74 rfl (by decide),
   sub_of_mem0 main_c_31 rfl (by decide),
   sub_of_mem0 main_v75 rfl (by decide),
   sub_of_mem0 main_v76 rfl (by decide),
   sub_of_mem0 main_v77 rfl (by decide),
   sub_of_mem0 main_v78 rfl (by decide),
   sub_of_mem0 main_v79 rfl (by decide),
   sub_of_mem0 main_cst_32 rfl (by decide),
   sub_of_mem0 main_v80 rfl (by decide),
   sub_of_mem0 main_v81 rfl (by decide),
   sub_of_mem0 main_v82 rfl (by decide),
   sub_of_mem0 main_v83 rfl (by decide),
   sub_of_mem0 main_c_33 rfl (by decide),
   sub_of_mem0 main_v84 rfl (by decide),
   sub_of_mem0 main_v85 rfl (by decide),
   sub_of_mem0 main_c_34 rfl (by decide),
   sub_of_mem0 main_v86 rfl (by decide),
   sub_of_mem0 main_v87 rfl (by decide),
   sub_of_mem0 main_v88 rfl (by decide),
   sub_of_mem0 main_v89 rfl (by decide),
   sub_of_mem0 main_v90 rfl (by decide),
   sub_of_mem0 main_cst_35 rfl (by decide),
   sub_of_mem0 main_v91 rfl (by decide),
   sub_of_mem0 main_v92 rfl (by decide),
   sub_of_mem0 main_v93 rfl (by decide),
   sub_of_mem0 main_v94 rfl (by decide),
   sub_of_mem0 main_c_36 rfl (by decide),
   sub_of_mem0 main_v95 rfl (by decide),
   sub_of_mem0 main_v96 rfl (by decide),
   sub_of_mem0 main_c_37 rfl (by decide),
   sub_of_mem0 main_v97 rfl (by decide),
   sub_of_mem0 main_v98 rfl (by decide),
   sub_of_mem0 main_v99 rfl (by decide),
   sub_of_mem0 main_v100 rfl (by decide),
   sub_of_mem0 main_v101 rfl (by decide),
   sub_of_mem0 main_cst_38 rfl (by decide),
   sub_of_mem0 main_v102 rfl (by decide),
   sub_of_mem0 main_v103 rfl (by decide),
   sub_of_mem0 main_v104 rfl (by decide),
   sub_of_mem0 main_v105 rfl (by decide),
   sub_of_mem0 main_c_39 rfl (by decide),
   sub_of_mem0 main_v106 rfl (by decide),
   sub_of_mem0 main_v107 rfl (by decide),
   sub_of_mem0 main_c_40 rfl (by decide),
   sub_of_mem0 main_v108 rfl (by decide),
   sub_of_mem0 main_v109 rfl (by decide),
   sub_of_mem0 main_v110 rfl (by decide),
   sub_of_mem0 main_v111 rfl (by decide),
   sub_of_mem0 main_v112 rfl (by decide),
   sub_of_mem0 main_cst_41 rfl (by decide),
   sub_of_mem0 main_v113 rfl (by decide),
   sub_of_mem0 main_v114 rfl (by decide),
   sub_of_mem0 main_v115 rfl (by decide),
   sub_of_mem0 main_v116 rfl (by decide),
   sub_of_mem0 main_c_42 rfl (by decide),
   sub_of_mem0 main_v117 rfl (by decide),
   sub_of_mem0 main_v118 rfl (by decide),
   sub_of_mem0 main_c_43 rfl (by decide),
   sub_of_mem0 main_v119 rfl (by decide),
   sub_of_mem0 main_v120 rfl (by decide),
   sub_of_mem0 main_v121 rfl (by decide),
   sub_of_mem0 main_v122 rfl (by decide),
   sub_of_mem0 main_v123 rfl (by decide),
   sub_of_mem0 main_cst_44 rfl (by decide),
   sub_of_mem0 main_v124 rfl (by decide),
   sub_of_mem0 main_v125 rfl (by decide),
   sub_of_mem0 main_v126 rfl (by decide),
   sub_of_mem0 main_v127 rfl (by decide),
   sub_of_mem0 main_c_45 rfl (by decide),
   sub_of_mem0 main_v128 rfl (by decide),
   sub_of_mem0 main_v129 rfl (by decide),
   sub_of_mem0 main_c_46 rfl (by decide),
   sub_of_mem0 main_v130 rfl (by decide),
   sub_of_mem0 main_v131 rfl (by decide),
   sub_of_mem0 main_v132 rfl (by decide),
   sub_of_mem0 main_v133 rfl (by decide),
   sub_of_mem0 main_v134 rfl (by decide),
   sub_of_mem0 main_cst_47 rfl (by decide),
   sub_of_mem0 main_v135 rfl (by decide),
   sub_of_mem0 main_v136 rfl (by decide),
   sub_of_mem0 main_v137 rfl (by decide),
   sub_of_mem0 main_v138 rfl (by decide),
   sub_of_mem0 main_c_48 rfl (by decide),
   sub_of_mem0 main_v139 rfl (by decide),
   sub_of_mem0 main_v140 rfl (by decide),
   sub_of_mem0 main_c_49 rfl (by decide),
   sub_of_mem0 main_v141 rfl (by decide),
   sub_of_mem0 main_v142 rfl (by decide),
   sub_of_mem0 main_v143 rfl (by decide),
   sub_of_mem0 main_v144 rfl (by decide),
   sub_of_mem0 main_v145 rfl (by decide),
   sub_of_mem0 main_cst_50 rfl (by decide),
   sub_of_mem0 main_v146 rfl (by decide),
   sub_of_mem0 main_v147 rfl (by decide),
   sub_of_mem0 main_v148 rfl (by decide),
   sub_of_mem0 main_v149 rfl (by decide),
   sub_of_mem0 main_c_51 rfl (by decide),
   sub_of_mem0 main_v150 rfl (by decide),
   sub_of_mem0 main_v151 rfl (by decide),
   sub_of_mem0 main_c_52 rfl (by decide),
   sub_of_mem0 main_v152 rfl (by decide),
   sub_of_mem0 main_v153 rfl (by decide),
   sub_of_mem0 main_v154 rfl (by decide),
   sub_of_mem0 main_v155 rfl (by decide),
   sub_of_mem0 main_v156 rfl (by decide),
   sub_of_mem0 main_cst_53 rfl (by decide),
   sub_of_mem0 main_v157 rfl (by decide),
   sub_of_mem0 main_v158 rfl (by decide),
   sub_of_mem0 main_v159 rfl (by decide)⟩

/-- A buffer the stretch does not write keeps its contents through it. -/
theorem keepH0 (V : Valuation τ sig (Elt F)) (r : Ref sig .tc) (h : r ∉ H0W) :
    after hostOps0 V (Proc.devRef .tc r) = V (Proc.devRef .tc r) :=
  after_of_writes_sub hostOps0 V H0W_writes h

end Cert.KernelIdeal.KFold

end
-- ==== Proof.KFoldW4.lean ====
/-
  Host stretch `hostOps4` is 112 operations, each writing one buffer of its own. A buffer outside the list of
  those 112 buffers holds after the stretch what it held before.
-/
import proofs.«179549_j31344671326263_2_alg».proof.Proof.Gen.KernelIdeal.Launch

set_option maxRecDepth 16384

noncomputable section

namespace Cert.KernelIdeal.KFold

open Idealize.ShloMosaic Idealize.ShloMosaic.TcCoe Idealize.ShloMosaic.StableHlo
open Cert.KernelIdeal Cert.KernelIdeal.Gen

variable {F : FTy → Type} [FloatOps F]

/-- An operation whose one written buffer is in the list writes inside the list. -/
theorem sub_of_mem4 {Val : EltTy → Type} {op : HloOp τ sig Val} {W : List (Ref sig .tc)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers the stretch writes, in order. -/
abbrev H4W : List (Ref sig .tc) :=
  [main_v164, main_c_54, main_v165, main_v166, main_c_55, main_v167, main_v168, main_v169, main_v170, main_v171, main_cst_56, main_v172, main_v173, main_v174, main_v175, main_c_57, main_v176, main_v177, main_c_58, main_v178, main_v179, main_v180, main_v181, main_v182, main_cst_59, main_v183, main_v184, main_v185, main_v186, main_c_60, main_v187, main_v188, main_c_61, main_v189, main_v190, main_v191, main_v192, main_v193, main_cst_62, main_v194, main_v195, main_v196, main_v197, main_c_63, main_v198, main_v199, main_c_64, main_v200, main_v201, main_v202, main_v203, main_v204, main_cst_65, main_v205, main_v206, main_v207, main_v208, main_c_66, main_v209, main_v210, main_c_67, main_v211, main_v212, main_v213, main_v214, main_v215, main_cst_68, main_v216, main_v217, main_v218, main_v219, main_c_69, main_v220, main_v221, main_c_70, main_v222, main_v223, main_v224, main_v225, main_v226, main_cst_71, main_v227, main_v228, main_v229, main_v230, main_c_72, main_v231, main_v232, main_c_73, main_v233, main_v234, main_v235, main_v236, main_v237, main_cst_74, main_v238, main_v239, main_v240, main_v241, main_c_75, main_v242, main_v243, main_c_76, main_v244, main_v245, main_v246, main_v247, main_v248, main_cst_77, main_v249, main_v250, main_v251]

set_option maxHeartbeats 40000000 in
/-- Every operation of the stretch writes inside the list. -/
theorem H4W_writes : (hostOps4 : List (HloOp τ sig (Elt F))).Forall fun op => op.writes ⊆ (H4W.map (Proc.devRef (τ := τ) .tc)).toFinset :=
  ⟨sub_of_mem4 main_v164 rfl (by decide),
   sub_of_mem4 main_c_54 rfl (by decide),
   sub_of_mem4 main_v165 rfl (by decide),
   sub_of_mem4 main_v166 rfl (by decide),
   sub_of_mem4 main_c_55 rfl (by decide),
   sub_of_mem4 main_v167 rfl (by decide),
   sub_of_mem4 main_v168 rfl (by decide),
   sub_of_mem4 main_v169 rfl (by decide),
   sub_of_mem4 main_v170 rfl (by decide),
   sub_of_mem4 main_v171 rfl (by decide),
   sub_of_mem4 main_cst_56 rfl (by decide),
   sub_of_mem4 main_v172 rfl (by decide),
   sub_of_mem4 main_v173 rfl (by decide),
   sub_of_mem4 main_v174 rfl (by decide),
   sub_of_mem4 main_v175 rfl (by decide),
   sub_of_mem4 main_c_57 rfl (by decide),
   sub_of_mem4 main_v176 rfl (by decide),
   sub_of_mem4 main_v177 rfl (by decide),
   sub_of_mem4 main_c_58 rfl (by decide),
   sub_of_mem4 main_v178 rfl (by decide),
   sub_of_mem4 main_v179 rfl (by decide),
   sub_of_mem4 main_v180 rfl (by decide),
   sub_of_mem4 main_v181 rfl (by decide),
   sub_of_mem4 main_v182 rfl (by decide),
   sub_of_mem4 main_cst_59 rfl (by decide),
   sub_of_mem4 main_v183 rfl (by decide),
   sub_of_mem4 main_v184 rfl (by decide),
   sub_of_mem4 main_v185 rfl (by decide),
   sub_of_mem4 main_v186 rfl (by decide),
   sub_of_mem4 main_c_60 rfl (by decide),
   sub_of_mem4 main_v187 rfl (by decide),
   sub_of_mem4 main_v188 rfl (by decide),
   sub_of_mem4 main_c_61 rfl (by decide),
   sub_of_mem4 main_v189 rfl (by decide),
   sub_of_mem4 main_v190 rfl (by decide),
   sub_of_mem4 main_v191 rfl (by decide),
   sub_of_mem4 main_v192 rfl (by decide),
   sub_of_mem4 main_v193 rfl (by decide),
   sub_of_mem4 main_cst_62 rfl (by decide),
   sub_of_mem4 main_v194 rfl (by decide),
   sub_of_mem4 main_v195 rfl (by decide),
   sub_of_mem4 main_v196 rfl (by decide),
   sub_of_mem4 main_v197 rfl (by decide),
   sub_of_mem4 main_c_63 rfl (by decide),
   sub_of_mem4 main_v198 rfl (by decide),
   sub_of_mem4 main_v199 rfl (by decide),
   sub_of_mem4 main_c_64 rfl (by decide),
   sub_of_mem4 main_v200 rfl (by decide),
   sub_of_mem4 main_v201 rfl (by decide),
   sub_of_mem4 main_v202 rfl (by decide),
   sub_of_mem4 main_v203 rfl (by decide),
   sub_of_mem4 main_v204 rfl (by decide),
   sub_of_mem4 main_cst_65 rfl (by decide),
   sub_of_mem4 main_v205 rfl (by decide),
   sub_of_mem4 main_v206 rfl (by decide),
   sub_of_mem4 main_v207 rfl (by decide),
   sub_of_mem4 main_v208 rfl (by decide),
   sub_of_mem4 main_c_66 rfl (by decide),
   sub_of_mem4 main_v209 rfl (by decide),
   sub_of_mem4 main_v210 rfl (by decide),
   sub_of_mem4 main_c_67 rfl (by decide),
   sub_of_mem4 main_v211 rfl (by decide),
   sub_of_mem4 main_v212 rfl (by decide),
   sub_of_mem4 main_v213 rfl (by decide),
   sub_of_mem4 main_v214 rfl (by decide),
   sub_of_mem4 main_v215 rfl (by decide),
   sub_of_mem4 main_cst_68 rfl (by decide),
   sub_of_mem4 main_v216 rfl (by decide),
   sub_of_mem4 main_v217 rfl (by decide),
   sub_of_mem4 main_v218 rfl (by decide),
   sub_of_mem4 main_v219 rfl (by decide),
   sub_of_mem4 main_c_69 rfl (by decide),
   sub_of_mem4 main_v220 rfl (by decide),
   sub_of_mem4 main_v221 rfl (by decide),
   sub_of_mem4 main_c_70 rfl (by decide),
   sub_of_mem4 main_v222 rfl (by decide),
   sub_of_mem4 main_v223 rfl (by decide),
   sub_of_mem4 main_v224 rfl (by decide),
   sub_of_mem4 main_v225 rfl (by decide),
   sub_of_mem4 main_v226 rfl (by decide),
   sub_of_mem4 main_cst_71 rfl (by decide),
   sub_of_mem4 main_v227 rfl (by decide),
   sub_of_mem4 main_v228 rfl (by decide),
   sub_of_mem4 main_v229 rfl (by decide),
   sub_of_mem4 main_v230 rfl (by decide),
   sub_of_mem4 main_c_72 rfl (by decide),
   sub_of_mem4 main_v231 rfl (by decide),
   sub_of_mem4 main_v232 rfl (by decide),
   sub_of_mem4 main_c_73 rfl (by decide),
   sub_of_mem4 main_v233 rfl (by decide),
   sub_of_mem4 main_v234 rfl (by decide),
   sub_of_mem4 main_v235 rfl (by decide),
   sub_of_mem4 main_v236 rfl (by decide),
   sub_of_mem4 main_v237 rfl (by decide),
   sub_of_mem4 main_cst_74 rfl (by decide),
   sub_of_mem4 main_v238 rfl (by decide),
   sub_of_mem4 main_v239 rfl (by decide),
   sub_of_mem4 main_v240 rfl (by decide),
   sub_of_mem4 main_v241 rfl (by decide),
   sub_of_mem4 main_c_75 rfl (by decide),
   sub_of_mem4 main_v242 rfl (by decide),
   sub_of_mem4 main_v243 rfl (by decide),
   sub_of_mem4 main_c_76 rfl (by decide),
   sub_of_mem4 main_v244 rfl (by decide),
   sub_of_mem4 main_v245 rfl (by decide),
   sub_of_mem4 main_v246 rfl (by decide),
   sub_of_mem4 main_v247 rfl (by decide),
   sub_of_mem4 main_v248 rfl (by decide),
   sub_of_mem4 main_cst_77 rfl (by decide),
   sub_of_mem4 main_v249 rfl (by decide),
   sub_of_mem4 main_v250 rfl (by decide),
   sub_of_mem4 main_v251 rfl (by decide)⟩

/-- A buffer the stretch does not write keeps its contents through it. -/
theorem keepH4 (V : Valuation τ sig (Elt F)) (r : Ref sig .tc) (h : r ∉ H4W) :
    after hostOps4 V (Proc.devRef .tc r) = V (Proc.devRef .tc r) :=
  after_of_writes_sub hostOps4 V H4W_writes h

end Cert.KernelIdeal.KFold

end
-- ==== Proof.KFoldW8.lean ====
/-
  Host stretch `hostOps8` is 112 operations, each writing one buffer of its own. A buffer outside the list of
  those 112 buffers holds after the stretch what it held before.
-/
import proofs.«179549_j31344671326263_2_alg».proof.Proof.Gen.KernelIdeal.Launch

set_option maxRecDepth 16384

noncomputable section

namespace Cert.KernelIdeal.KFold

open Idealize.ShloMosaic Idealize.ShloMosaic.TcCoe Idealize.ShloMosaic.StableHlo
open Cert.KernelIdeal Cert.KernelIdeal.Gen

variable {F : FTy → Type} [FloatOps F]

/-- An operation whose one written buffer is in the list writes inside the list. -/
theorem sub_of_mem8 {Val : EltTy → Type} {op : HloOp τ sig Val} {W : List (Ref sig .tc)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers the stretch writes, in order. -/
abbrev H8W : List (Ref sig .tc) :=
  [main_v256, main_c_78, main_v257, main_v258, main_c_79, main_v259, main_v260, main_v261, main_v262, main_v263, main_cst_80, main_v264, main_v265, main_v266, main_v267, main_c_81, main_v268, main_v269, main_c_82, main_v270, main_v271, main_v272, main_v273, main_v274, main_cst_83, main_v275, main_v276, main_v277, main_v278, main_c_84, main_v279, main_v280, main_c_85, main_v281, main_v282, main_v283, main_v284, main_v285, main_cst_86, main_v286, main_v287, main_v288, main_v289, main_c_87, main_v290, main_v291, main_c_88, main_v292, main_v293, main_v294, main_v295, main_v296, main_cst_89, main_v297, main_v298, main_v299, main_v300, main_c_90, main_v301, main_v302, main_c_91, main_v303, main_v304, main_v305, main_v306, main_v307, main_cst_92, main_v308, main_v309, main_v310, main_v311, main_c_93, main_v312, main_v313, main_c_94, main_v314, main_v315, main_v316, main_v317, main_v318, main_cst_95, main_v319, main_v320, main_v321, main_v322, main_c_96, main_v323, main_v324, main_c_97, main_v325, main_v326, main_v327, main_v328, main_v329, main_cst_98, main_v330, main_v331, main_v332, main_v333, main_c_99, main_v334, main_v335, main_c_100, main_v336, main_v337, main_v338, main_v339, main_v340, main_cst_101, main_v341, main_v342, main_v343]

set_option maxHeartbeats 40000000 in
/-- Every operation of the stretch writes inside the list. -/
theorem H8W_writes : (hostOps8 : List (HloOp τ sig (Elt F))).Forall fun op => op.writes ⊆ (H8W.map (Proc.devRef (τ := τ) .tc)).toFinset :=
  ⟨sub_of_mem8 main_v256 rfl (by decide),
   sub_of_mem8 main_c_78 rfl (by decide),
   sub_of_mem8 main_v257 rfl (by decide),
   sub_of_mem8 main_v258 rfl (by decide),
   sub_of_mem8 main_c_79 rfl (by decide),
   sub_of_mem8 main_v259 rfl (by decide),
   sub_of_mem8 main_v260 rfl (by decide),
   sub_of_mem8 main_v261 rfl (by decide),
   sub_of_mem8 main_v262 rfl (by decide),
   sub_of_mem8 main_v263 rfl (by decide),
   sub_of_mem8 main_cst_80 rfl (by decide),
   sub_of_mem8 main_v264 rfl (by decide),
   sub_of_mem8 main_v265 rfl (by decide),
   sub_of_mem8 main_v266 rfl (by decide),
   sub_of_mem8 main_v267 rfl (by decide),
   sub_of_mem8 main_c_81 rfl (by decide),
   sub_of_mem8 main_v268 rfl (by decide),
   sub_of_mem8 main_v269 rfl (by decide),
   sub_of_mem8 main_c_82 rfl (by decide),
   sub_of_mem8 main_v270 rfl (by decide),
   sub_of_mem8 main_v271 rfl (by decide),
   sub_of_mem8 main_v272 rfl (by decide),
   sub_of_mem8 main_v273 rfl (by decide),
   sub_of_mem8 main_v274 rfl (by decide),
   sub_of_mem8 main_cst_83 rfl (by decide),
   sub_of_mem8 main_v275 rfl (by decide),
   sub_of_mem8 main_v276 rfl (by decide),
   sub_of_mem8 main_v277 rfl (by decide),
   sub_of_mem8 main_v278 rfl (by decide),
   sub_of_mem8 main_c_84 rfl (by decide),
   sub_of_mem8 main_v279 rfl (by decide),
   sub_of_mem8 main_v280 rfl (by decide),
   sub_of_mem8 main_c_85 rfl (by decide),
   sub_of_mem8 main_v281 rfl (by decide),
   sub_of_mem8 main_v282 rfl (by decide),
   sub_of_mem8 main_v283 rfl (by decide),
   sub_of_mem8 main_v284 rfl (by decide),
   sub_of_mem8 main_v285 rfl (by decide),
   sub_of_mem8 main_cst_86 rfl (by decide),
   sub_of_mem8 main_v286 rfl (by decide),
   sub_of_mem8 main_v287 rfl (by decide),
   sub_of_mem8 main_v288 rfl (by decide),
   sub_of_mem8 main_v289 rfl (by decide),
   sub_of_mem8 main_c_87 rfl (by decide),
   sub_of_mem8 main_v290 rfl (by decide),
   sub_of_mem8 main_v291 rfl (by decide),
   sub_of_mem8 main_c_88 rfl (by decide),
   sub_of_mem8 main_v292 rfl (by decide),
   sub_of_mem8 main_v293 rfl (by decide),
   sub_of_mem8 main_v294 rfl (by decide),
   sub_of_mem8 main_v295 rfl (by decide),
   sub_of_mem8 main_v296 rfl (by decide),
   sub_of_mem8 main_cst_89 rfl (by decide),
   sub_of_mem8 main_v297 rfl (by decide),
   sub_of_mem8 main_v298 rfl (by decide),
   sub_of_mem8 main_v299 rfl (by decide),
   sub_of_mem8 main_v300 rfl (by decide),
   sub_of_mem8 main_c_90 rfl (by decide),
   sub_of_mem8 main_v301 rfl (by decide),
   sub_of_mem8 main_v302 rfl (by decide),
   sub_of_mem8 main_c_91 rfl (by decide),
   sub_of_mem8 main_v303 rfl (by decide),
   sub_of_mem8 main_v304 rfl (by decide),
   sub_of_mem8 main_v305 rfl (by decide),
   sub_of_mem8 main_v306 rfl (by decide),
   sub_of_mem8 main_v307 rfl (by decide),
   sub_of_mem8 main_cst_92 rfl (by decide),
   sub_of_mem8 main_v308 rfl (by decide),
   sub_of_mem8 main_v309 rfl (by decide),
   sub_of_mem8 main_v310 rfl (by decide),
   sub_of_mem8 main_v311 rfl (by decide),
   sub_of_mem8 main_c_93 rfl (by decide),
   sub_of_mem8 main_v312 rfl (by decide),
   sub_of_mem8 main_v313 rfl (by decide),
   sub_of_mem8 main_c_94 rfl (by decide),
   sub_of_mem8 main_v314 rfl (by decide),
   sub_of_mem8 main_v315 rfl (by decide),
   sub_of_mem8 main_v316 rfl (by decide),
   sub_of_mem8 main_v317 rfl (by decide),
   sub_of_mem8 main_v318 rfl (by decide),
   sub_of_mem8 main_cst_95 rfl (by decide),
   sub_of_mem8 main_v319 rfl (by decide),
   sub_of_mem8 main_v320 rfl (by decide),
   sub_of_mem8 main_v321 rfl (by decide),
   sub_of_mem8 main_v322 rfl (by decide),
   sub_of_mem8 main_c_96 rfl (by decide),
   sub_of_mem8 main_v323 rfl (by decide),
   sub_of_mem8 main_v324 rfl (by decide),
   sub_of_mem8 main_c_97 rfl (by decide),
   sub_of_mem8 main_v325 rfl (by decide),
   sub_of_mem8 main_v326 rfl (by decide),
   sub_of_mem8 main_v327 rfl (by decide),
   sub_of_mem8 main_v328 rfl (by decide),
   sub_of_mem8 main_v329 rfl (by decide),
   sub_of_mem8 main_cst_98 rfl (by decide),
   sub_of_mem8 main_v330 rfl (by decide),
   sub_of_mem8 main_v331 rfl (by decide),
   sub_of_mem8 main_v332 rfl (by decide),
   sub_of_mem8 main_v333 rfl (by decide),
   sub_of_mem8 main_c_99 rfl (by decide),
   sub_of_mem8 main_v334 rfl (by decide),
   sub_of_mem8 main_v335 rfl (by decide),
   sub_of_mem8 main_c_100 rfl (by decide),
   sub_of_mem8 main_v336 rfl (by decide),
   sub_of_mem8 main_v337 rfl (by decide),
   sub_of_mem8 main_v338 rfl (by decide),
   sub_of_mem8 main_v339 rfl (by decide),
   sub_of_mem8 main_v340 rfl (by decide),
   sub_of_mem8 main_cst_101 rfl (by decide),
   sub_of_mem8 main_v341 rfl (by decide),
   sub_of_mem8 main_v342 rfl (by decide),
   sub_of_mem8 main_v343 rfl (by decide)⟩

/-- A buffer the stretch does not write keeps its contents through it. -/
theorem keepH8 (V : Valuation τ sig (Elt F)) (r : Ref sig .tc) (h : r ∉ H8W) :
    after hostOps8 V (Proc.devRef .tc r) = V (Proc.devRef .tc r) :=
  after_of_writes_sub hostOps8 V H8W_writes h

end Cert.KernelIdeal.KFold

end
-- ==== Proof.KFoldH0a.lean ====
/-
  The first host stretch's inverse-degree columns (relations VU, PU, UV, TV), each the specification's function of the
  destination endpoints the stretch found.
-/
import proofs.«179549_j31344671326263_2_alg».proof.Proof.Gen.KernelIdeal.Launch
import proofs.«179549_j31344671326263_2_alg».proof.Proof.Spec

set_option maxRecDepth 16384

noncomputable section

namespace Cert.KernelIdeal.KFold

open Idealize.ShloMosaic Idealize.ShloMosaic.TcCoe Idealize.ShloMosaic.StableHlo
open Cert.KernelIdeal Cert.KernelIdeal.Gen

set_option maxHeartbeats 8000000 in
/-- Relation VU's column of inverse in-degrees, from the destination endpoints. -/
theorem H0_main_v8 (V : Valuation τ sig (Elt Ideal)) :
    after (hostOps0 (F := Ideal)) V (Proc.devRef .tc main_v8)
      = Cert.Spec.iVU (V (Proc.devRef .tc main_arg7)) := by
  unfold Cert.Spec.iVU Cert.Spec.dVU
  simp only [hostOps0]
  after_results_simp <;> rfl

set_option maxHeartbeats 8000000 in
/-- Relation PU's column of inverse in-degrees, from the destination endpoints. -/
theorem H0_main_v17 (V : Valuation τ sig (Elt Ideal)) :
    after (hostOps0 (F := Ideal)) V (Proc.devRef .tc main_v17)
      = Cert.Spec.iPU (V (Proc.devRef .tc main_arg11)) := by
  unfold Cert.Spec.iPU Cert.Spec.dPU
  simp only [hostOps0]
  after_results_simp <;> rfl

set_option maxHeartbeats 8000000 in
/-- Relation UV's column of inverse in-degrees, from the destination endpoints. -/
theorem H0_main_v26 (V : Valuation τ sig (Elt Ideal)) :
    after (hostOps0 (F := Ideal)) V (Proc.devRef .tc main_v26)
      = Cert.Spec.iUV (V (Proc.devRef .tc main_arg5)) := by
  unfold Cert.Spec.iUV Cert.Spec.dUV
  simp only [hostOps0]
  after_results_simp <;> rfl

set_option maxHeartbeats 8000000 in
/-- Relation TV's column of inverse in-degrees, from the destination endpoints. -/
theorem H0_main_v35 (V : Valuation τ sig (Elt Ideal)) :
    after (hostOps0 (F := Ideal)) V (Proc.devRef .tc main_v35)
      = Cert.Spec.iTV (V (Proc.devRef .tc main_arg15)) := by
  unfold Cert.Spec.iTV Cert.Spec.dTV
  simp only [hostOps0]
  after_results_simp <;> rfl

end Cert.KernelIdeal.KFold

end
-- ==== Proof.KFoldH0b.lean ====
/-
  The first host stretch's inverse-degree columns (relations UP, TP, VT, PT), each the specification's function of the
  destination endpoints the stretch found.
-/
import proofs.«179549_j31344671326263_2_alg».proof.Proof.Gen.KernelIdeal.Launch
import proofs.«179549_j31344671326263_2_alg».proof.Proof.Spec

set_option maxRecDepth 16384

noncomputable section

namespace Cert.KernelIdeal.KFold

open Idealize.ShloMosaic Idealize.ShloMosaic.TcCoe Idealize.ShloMosaic.StableHlo
open Cert.KernelIdeal Cert.KernelIdeal.Gen

set_option maxHeartbeats 8000000 in
/-- Relation UP's column of inverse in-degrees, from the destination endpoints. -/
theorem H0_main_v44 (V : Valuation τ sig (Elt Ideal)) :
    after (hostOps0 (F := Ideal)) V (Proc.devRef .tc main_v44)
      = Cert.Spec.iUP (V (Proc.devRef .tc main_arg9)) := by
  unfold Cert.Spec.iUP Cert.Spec.dUP
  simp only [hostOps0]
  after_results_simp <;> rfl

set_option maxHeartbeats 8000000 in
/-- Relation TP's column of inverse in-degrees, from the destination endpoints. -/
theorem H0_main_v53 (V : Valuation τ sig (Elt Ideal)) :
    after (hostOps0 (F := Ideal)) V (Proc.devRef .tc main_v53)
      = Cert.Spec.iTP (V (Proc.devRef .tc main_arg19)) := by
  unfold Cert.Spec.iTP Cert.Spec.dTP
  simp only [hostOps0]
  after_results_simp <;> rfl

set_option maxHeartbeats 8000000 in
/-- Relation VT's column of inverse in-degrees, from the destination endpoints. -/
theorem H0_main_v62 (V : Valuation τ sig (Elt Ideal)) :
    after (hostOps0 (F := Ideal)) V (Proc.devRef .tc main_v62)
      = Cert.Spec.iVT (V (Proc.devRef .tc main_arg13)) := by
  unfold Cert.Spec.iVT Cert.Spec.dVT
  simp only [hostOps0]
  after_results_simp <;> rfl

set_option maxHeartbeats 8000000 in
/-- Relation PT's column of inverse in-degrees, from the destination endpoints. -/
theorem H0_main_v71 (V : Valuation τ sig (Elt Ideal)) :
    after (hostOps0 (F := Ideal)) V (Proc.devRef .tc main_v71)
      = Cert.Spec.iPT (V (Proc.devRef .tc main_arg17)) := by
  unfold Cert.Spec.iPT Cert.Spec.dPT
  simp only [hostOps0]
  after_results_simp <;> rfl

end Cert.KernelIdeal.KFold

end
-- ==== Proof.KFoldH0c.lean ====
/-
  Layer 1's segment sums (relations VU, PU, UV, TV) as the host stretch leaves them: the specification's function of the
  source table and the endpoints the stretch found.
-/
import proofs.«179549_j31344671326263_2_alg».proof.Proof.Gen.KernelIdeal.Launch
import proofs.«179549_j31344671326263_2_alg».proof.Proof.Spec

set_option maxRecDepth 16384

noncomputable section

namespace Cert.KernelIdeal.KFold

open Idealize.ShloMosaic Idealize.ShloMosaic.TcCoe Idealize.ShloMosaic.StableHlo
open Cert.KernelIdeal Cert.KernelIdeal.Gen

set_option maxHeartbeats 8000000 in
/-- Relation VU's segment sum of layer 1, from the source table and the endpoints. -/
theorem H0_main_v82 (V : Valuation τ sig (Elt Ideal)) :
    after (hostOps0 (F := Ideal)) V (Proc.devRef .tc main_v82)
      = Cert.Spec.sVU (V (Proc.devRef .tc main_arg1)) (V (Proc.devRef .tc main_arg6)) (V (Proc.devRef .tc main_arg7)) := by
  unfold Cert.Spec.sVU
  simp only [hostOps0]
  after_results_simp <;> rfl

set_option maxHeartbeats 8000000 in
/-- Relation PU's segment sum of layer 1, from the source table and the endpoints. -/
theorem H0_main_v93 (V : Valuation τ sig (Elt Ideal)) :
    after (hostOps0 (F := Ideal)) V (Proc.devRef .tc main_v93)
      = Cert.Spec.sPU (V (Proc.devRef .tc main_arg2)) (V (Proc.devRef .tc main_arg10)) (V (Proc.devRef .tc main_arg11)) := by
  unfold Cert.Spec.sPU
  simp only [hostOps0]
  after_results_simp <;> rfl

set_option maxHeartbeats 8000000 in
/-- Relation UV's segment sum of layer 1, from the source table and the endpoints. -/
theorem H0_main_v104 (V : Valuation τ sig (Elt Ideal)) :
    after (hostOps0 (F := Ideal)) V (Proc.devRef .tc main_v104)
      = Cert.Spec.sUV (V (Proc.devRef .tc main_arg0)) (V (Proc.devRef .tc main_arg4)) (V (Proc.devRef .tc main_arg5)) := by
  unfold Cert.Spec.sUV
  simp only [hostOps0]
  after_results_simp <;> rfl

set_option maxHeartbeats 8000000 in
/-- Relation TV's segment sum of layer 1, from the source table and the endpoints. -/
theorem H0_main_v115 (V : Valuation τ sig (Elt Ideal)) :
    after (hostOps0 (F := Ideal)) V (Proc.devRef .tc main_v115)
      = Cert.Spec.sTV (V (Proc.devRef .tc main_arg3)) (V (Proc.devRef .tc main_arg14)) (V (Proc.devRef .tc main_arg15)) := by
  unfold Cert.Spec.sTV
  simp only [hostOps0]
  after_results_simp <;> rfl

end Cert.KernelIdeal.KFold

end
-- ==== Proof.KFoldH0d.lean ====
/-
  Layer 1's segment sums (relations UP, TP, VT, PT) as the host stretch leaves them: the specification's function of the
  source table and the endpoints the stretch found.
-/
import proofs.«179549_j31344671326263_2_alg».proof.Proof.Gen.KernelIdeal.Launch
import proofs.«179549_j31344671326263_2_alg».proof.Proof.Spec

set_option maxRecDepth 16384

noncomputable section

namespace Cert.KernelIdeal.KFold

open Idealize.ShloMosaic Idealize.ShloMosaic.TcCoe Idealize.ShloMosaic.StableHlo
open Cert.KernelIdeal Cert.KernelIdeal.Gen

set_option maxHeartbeats 8000000 in
/-- Relation UP's segment sum of layer 1, from the source table and the endpoints. -/
theorem H0_main_v126 (V : Valuation τ sig (Elt Ideal)) :
    after (hostOps0 (F := Ideal)) V (Proc.devRef .tc main_v126)
      = Cert.Spec.sUP (V (Proc.devRef .tc main_arg0)) (V (Proc.devRef .tc main_arg8)) (V (Proc.devRef .tc main_arg9)) := by
  unfold Cert.Spec.sUP
  simp only [hostOps0]
  after_results_simp <;> rfl

set_option maxHeartbeats 8000000 in
/-- Relation TP's segment sum of layer 1, from the source table and the endpoints. -/
theorem H0_main_v137 (V : Valuation τ sig (Elt Ideal)) :
    after (hostOps0 (F := Ideal)) V (Proc.devRef .tc main_v137)
      = Cert.Spec.sTP (V (Proc.devRef .tc main_arg3)) (V (Proc.devRef .tc main_arg18)) (V (Proc.devRef .tc main_arg19)) := by
  unfold Cert.Spec.sTP
  simp only [hostOps0]
  after_results_simp <;> rfl

set_option maxHeartbeats 8000000 in
/-- Relation VT's segment sum of layer 1, from the source table and the endpoints. -/
theorem H0_main_v148 (V : Valuation τ sig (Elt Ideal)) :
    after (hostOps0 (F := Ideal)) V (Proc.devRef .tc main_v148)
      = Cert.Spec.sVT (V (Proc.devRef .tc main_arg1)) (V (Proc.devRef .tc main_arg12)) (V (Proc.devRef .tc main_arg13)) := by
  unfold Cert.Spec.sVT
  simp only [hostOps0]
  after_results_simp <;> rfl

set_option maxHeartbeats 8000000 in
/-- Relation PT's segment sum of layer 1, from the source table and the endpoints. -/
theorem H0_main_v159 (V : Valuation τ sig (Elt Ideal)) :
    after (hostOps0 (F := Ideal)) V (Proc.devRef .tc main_v159)
      = Cert.Spec.sPT (V (Proc.devRef .tc main_arg2)) (V (Proc.devRef .tc main_arg16)) (V (Proc.devRef .tc main_arg17)) := by
  unfold Cert.Spec.sPT
  simp only [hostOps0]
  after_results_simp <;> rfl

end Cert.KernelIdeal.KFold

end
-- ==== Proof.KFoldH4c.lean ====
/-
  Layer 2's segment sums (relations VU, PU, UV, TV) as the host stretch leaves them: the specification's function of the
  source table and the endpoints the stretch found.
-/
import proofs.«179549_j31344671326263_2_alg».proof.Proof.Gen.KernelIdeal.Launch
import proofs.«179549_j31344671326263_2_alg».proof.Proof.Spec

set_option maxRecDepth 16384

noncomputable section

namespace Cert.KernelIdeal.KFold

open Idealize.ShloMosaic Idealize.ShloMosaic.TcCoe Idealize.ShloMosaic.StableHlo
open Cert.KernelIdeal Cert.KernelIdeal.Gen

set_option maxHeartbeats 8000000 in
/-- Relation VU's segment sum of layer 2, from the source table and the endpoints. -/
theorem H4_main_v174 (V : Valuation τ sig (Elt Ideal)) :
    after (hostOps4 (F := Ideal)) V (Proc.devRef .tc main_v174)
      = Cert.Spec.sVU (V (Proc.devRef .tc main_v161_0)) (V (Proc.devRef .tc main_arg6)) (V (Proc.devRef .tc main_arg7)) := by
  unfold Cert.Spec.sVU
  simp only [hostOps4]
  after_results_simp <;> rfl

set_option maxHeartbeats 8000000 in
/-- Relation PU's segment sum of layer 2, from the source table and the endpoints. -/
theorem H4_main_v185 (V : Valuation τ sig (Elt Ideal)) :
    after (hostOps4 (F := Ideal)) V (Proc.devRef .tc main_v185)
      = Cert.Spec.sPU (V (Proc.devRef .tc main_v162_0)) (V (Proc.devRef .tc main_arg10)) (V (Proc.devRef .tc main_arg11)) := by
  unfold Cert.Spec.sPU
  simp only [hostOps4]
  after_results_simp <;> rfl

set_option maxHeartbeats 8000000 in
/-- Relation UV's segment sum of layer 2, from the source table and the endpoints. -/
theorem H4_main_v196 (V : Valuation τ sig (Elt Ideal)) :
    after (hostOps4 (F := Ideal)) V (Proc.devRef .tc main_v196)
      = Cert.Spec.sUV (V (Proc.devRef .tc main_v160_0)) (V (Proc.devRef .tc main_arg4)) (V (Proc.devRef .tc main_arg5)) := by
  unfold Cert.Spec.sUV
  simp only [hostOps4]
  after_results_simp <;> rfl

set_option maxHeartbeats 8000000 in
/-- Relation TV's segment sum of layer 2, from the source table and the endpoints. -/
theorem H4_main_v207 (V : Valuation τ sig (Elt Ideal)) :
    after (hostOps4 (F := Ideal)) V (Proc.devRef .tc main_v207)
      = Cert.Spec.sTV (V (Proc.devRef .tc main_v163_0)) (V (Proc.devRef .tc main_arg14)) (V (Proc.devRef .tc main_arg15)) := by
  unfold Cert.Spec.sTV
  simp only [hostOps4]
  after_results_simp <;> rfl

end Cert.KernelIdeal.KFold

end
-- ==== Proof.KFoldH4d.lean ====
/-
  Layer 2's segment sums (relations UP, TP, VT, PT) as the host stretch leaves them: the specification's function of the
  source table and the endpoints the stretch found.
-/
import proofs.«179549_j31344671326263_2_alg».proof.Proof.Gen.KernelIdeal.Launch
import proofs.«179549_j31344671326263_2_alg».proof.Proof.Spec

set_option maxRecDepth 16384

noncomputable section

namespace Cert.KernelIdeal.KFold

open Idealize.ShloMosaic Idealize.ShloMosaic.TcCoe Idealize.ShloMosaic.StableHlo
open Cert.KernelIdeal Cert.KernelIdeal.Gen

set_option maxHeartbeats 8000000 in
/-- Relation UP's segment sum of layer 2, from the source table and the endpoints. -/
theorem H4_main_v218 (V : Valuation τ sig (Elt Ideal)) :
    after (hostOps4 (F := Ideal)) V (Proc.devRef .tc main_v218)
      = Cert.Spec.sUP (V (Proc.devRef .tc main_v160_0)) (V (Proc.devRef .tc main_arg8)) (V (Proc.devRef .tc main_arg9)) := by
  unfold Cert.Spec.sUP
  simp only [hostOps4]
  after_results_simp <;> rfl

set_option maxHeartbeats 8000000 in
/-- Relation TP's segment sum of layer 2, from the source table and the endpoints. -/
theorem H4_main_v229 (V : Valuation τ sig (Elt Ideal)) :
    after (hostOps4 (F := Ideal)) V (Proc.devRef .tc main_v229)
      = Cert.Spec.sTP (V (Proc.devRef .tc main_v163_0)) (V (Proc.devRef .tc main_arg18)) (V (Proc.devRef .tc main_arg19)) := by
  unfold Cert.Spec.sTP
  simp only [hostOps4]
  after_results_simp <;> rfl

set_option maxHeartbeats 8000000 in
/-- Relation VT's segment sum of layer 2, from the source table and the endpoints. -/
theorem H4_main_v240 (V : Valuation τ sig (Elt Ideal)) :
    after (hostOps4 (F := Ideal)) V (Proc.devRef .tc main_v240)
      = Cert.Spec.sVT (V (Proc.devRef .tc main_v161_0)) (V (Proc.devRef .tc main_arg12)) (V (Proc.devRef .tc main_arg13)) := by
  unfold Cert.Spec.sVT
  simp only [hostOps4]
  after_results_simp <;> rfl

set_option maxHeartbeats 8000000 in
/-- Relation PT's segment sum of layer 2, from the source table and the endpoints. -/
theorem H4_main_v251 (V : Valuation τ sig (Elt Ideal)) :
    after (hostOps4 (F := Ideal)) V (Proc.devRef .tc main_v251)
      = Cert.Spec.sPT (V (Proc.devRef .tc main_v162_0)) (V (Proc.devRef .tc main_arg16)) (V (Proc.devRef .tc main_arg17)) := by
  unfold Cert.Spec.sPT
  simp only [hostOps4]
  after_results_simp <;> rfl

end Cert.KernelIdeal.KFold

end
-- ==== Proof.KFoldH8c.lean ====
/-
  Layer 3's segment sums (relations VU, PU, UV, TV) as the host stretch leaves them: the specification's function of the
  source table and the endpoints the stretch found.
-/
import proofs.«179549_j31344671326263_2_alg».proof.Proof.Gen.KernelIdeal.Launch
import proofs.«179549_j31344671326263_2_alg».proof.Proof.Spec

set_option maxRecDepth 16384

noncomputable section

namespace Cert.KernelIdeal.KFold

open Idealize.ShloMosaic Idealize.ShloMosaic.TcCoe Idealize.ShloMosaic.StableHlo
open Cert.KernelIdeal Cert.KernelIdeal.Gen

set_option maxHeartbeats 8000000 in
/-- Relation VU's segment sum of layer 3, from the source table and the endpoints. -/
theorem H8_main_v266 (V : Valuation τ sig (Elt Ideal)) :
    after (hostOps8 (F := Ideal)) V (Proc.devRef .tc main_v266)
      = Cert.Spec.sVU (V (Proc.devRef .tc main_v253_0)) (V (Proc.devRef .tc main_arg6)) (V (Proc.devRef .tc main_arg7)) := by
  unfold Cert.Spec.sVU
  simp only [hostOps8]
  after_results_simp <;> rfl

set_option maxHeartbeats 8000000 in
/-- Relation PU's segment sum of layer 3, from the source table and the endpoints. -/
theorem H8_main_v277 (V : Valuation τ sig (Elt Ideal)) :
    after (hostOps8 (F := Ideal)) V (Proc.devRef .tc main_v277)
      = Cert.Spec.sPU (V (Proc.devRef .tc main_v254_0)) (V (Proc.devRef .tc main_arg10)) (V (Proc.devRef .tc main_arg11)) := by
  unfold Cert.Spec.sPU
  simp only [hostOps8]
  after_results_simp <;> rfl

set_option maxHeartbeats 8000000 in
/-- Relation UV's segment sum of layer 3, from the source table and the endpoints. -/
theorem H8_main_v288 (V : Valuation τ sig (Elt Ideal)) :
    after (hostOps8 (F := Ideal)) V (Proc.devRef .tc main_v288)
      = Cert.Spec.sUV (V (Proc.devRef .tc main_v252_0)) (V (Proc.devRef .tc main_arg4)) (V (Proc.devRef .tc main_arg5)) := by
  unfold Cert.Spec.sUV
  simp only [hostOps8]
  after_results_simp <;> rfl

set_option maxHeartbeats 8000000 in
/-- Relation TV's segment sum of layer 3, from the source table and the endpoints. -/
theorem H8_main_v299 (V : Valuation τ sig (Elt Ideal)) :
    after (hostOps8 (F := Ideal)) V (Proc.devRef .tc main_v299)
      = Cert.Spec.sTV (V (Proc.devRef .tc main_v255_0)) (V (Proc.devRef .tc main_arg14)) (V (Proc.devRef .tc main_arg15)) := by
  unfold Cert.Spec.sTV
  simp only [hostOps8]
  after_results_simp <;> rfl

end Cert.KernelIdeal.KFold

end
-- ==== Proof.KFoldH8d.lean ====
/-
  Layer 3's segment sums (relations UP, TP, VT, PT) as the host stretch leaves them: the specification's function of the
  source table and the endpoints the stretch found.
-/
import proofs.«179549_j31344671326263_2_alg».proof.Proof.Gen.KernelIdeal.Launch
import proofs.«179549_j31344671326263_2_alg».proof.Proof.Spec

set_option maxRecDepth 16384

noncomputable section

namespace Cert.KernelIdeal.KFold

open Idealize.ShloMosaic Idealize.ShloMosaic.TcCoe Idealize.ShloMosaic.StableHlo
open Cert.KernelIdeal Cert.KernelIdeal.Gen

set_option maxHeartbeats 8000000 in
/-- Relation UP's segment sum of layer 3, from the source table and the endpoints. -/
theorem H8_main_v310 (V : Valuation τ sig (Elt Ideal)) :
    after (hostOps8 (F := Ideal)) V (Proc.devRef .tc main_v310)
      = Cert.Spec.sUP (V (Proc.devRef .tc main_v252_0)) (V (Proc.devRef .tc main_arg8)) (V (Proc.devRef .tc main_arg9)) := by
  unfold Cert.Spec.sUP
  simp only [hostOps8]
  after_results_simp <;> rfl

set_option maxHeartbeats 8000000 in
/-- Relation TP's segment sum of layer 3, from the source table and the endpoints. -/
theorem H8_main_v321 (V : Valuation τ sig (Elt Ideal)) :
    after (hostOps8 (F := Ideal)) V (Proc.devRef .tc main_v321)
      = Cert.Spec.sTP (V (Proc.devRef .tc main_v255_0)) (V (Proc.devRef .tc main_arg18)) (V (Proc.devRef .tc main_arg19)) := by
  unfold Cert.Spec.sTP
  simp only [hostOps8]
  after_results_simp <;> rfl

set_option maxHeartbeats 8000000 in
/-- Relation VT's segment sum of layer 3, from the source table and the endpoints. -/
theorem H8_main_v332 (V : Valuation τ sig (Elt Ideal)) :
    after (hostOps8 (F := Ideal)) V (Proc.devRef .tc main_v332)
      = Cert.Spec.sVT (V (Proc.devRef .tc main_v253_0)) (V (Proc.devRef .tc main_arg12)) (V (Proc.devRef .tc main_arg13)) := by
  unfold Cert.Spec.sVT
  simp only [hostOps8]
  after_results_simp <;> rfl

set_option maxHeartbeats 8000000 in
/-- Relation PT's segment sum of layer 3, from the source table and the endpoints. -/
theorem H8_main_v343 (V : Valuation τ sig (Elt Ideal)) :
    after (hostOps8 (F := Ideal)) V (Proc.devRef .tc main_v343)
      = Cert.Spec.sPT (V (Proc.devRef .tc main_v254_0)) (V (Proc.devRef .tc main_arg16)) (V (Proc.devRef .tc main_arg17)) := by
  unfold Cert.Spec.sPT
  simp only [hostOps8]
  after_results_simp <;> rfl

end Cert.KernelIdeal.KFold

end
-- ==== Proof.KFoldChain.lean ====
/-
  The kernel program's fold of buffer contents `W0 … W15`, read boundary by boundary in the specification's words.

  A buffer is produced at one boundary — an argument at the launch, an inverse-degree column or a segment sum by a host
  stretch, a layer's new table or running sum by a combine call — and every later step up to the boundary where it is
  read leaves it alone: a host stretch does not write it; a combine call either bypasses it or reads it through an
  input window, whose array it hands back as found. So each read is a chain of such steps down to the producing boundary,
  where the value is the specification's function (`Cert.Spec`) of values read one boundary earlier. Theorem `Wj_b` says:
  at boundary `j` buffer `b` holds the named specification term. What each combine call computes enters as the
  hypotheses `RegionFacts` (the new table is `meanCat` of the four arrays found, the running sum `accum`).
-/
import proofs.«179549_j31344671326263_2_alg».proof.Proof.Gen.KernelIdeal.Frame
import proofs.«179549_j31344671326263_2_alg».proof.Proof.KFoldDefs
import proofs.«179549_j31344671326263_2_alg».proof.Proof.KFoldW0
import proofs.«179549_j31344671326263_2_alg».proof.Proof.KFoldW4
import proofs.«179549_j31344671326263_2_alg».proof.Proof.KFoldW8
import proofs.«179549_j31344671326263_2_alg».proof.Proof.KFoldH0a
import proofs.«179549_j31344671326263_2_alg».proof.Proof.KFoldH0b
import proofs.«179549_j31344671326263_2_alg».proof.Proof.KFoldH0c
import proofs.«179549_j31344671326263_2_alg».proof.Proof.KFoldH0d
import proofs.«179549_j31344671326263_2_alg».proof.Proof.KFoldH4c
import proofs.«179549_j31344671326263_2_alg».proof.Proof.KFoldH4d
import proofs.«179549_j31344671326263_2_alg».proof.Proof.KFoldH8c
import proofs.«179549_j31344671326263_2_alg».proof.Proof.KFoldH8d

set_option maxRecDepth 16384
set_option maxHeartbeats 1000000

noncomputable section

namespace Cert.KernelIdeal.KFold

open Idealize.ShloMosaic Idealize.ShloMosaic.TcCoe Idealize.ShloMosaic.StableHlo Idealize.SL.Sem
open Idealize.ShloMosaic.Pipeline (Dat Cfg Window)
open Cert.KernelIdeal Cert.KernelIdeal.Gen

/-- What the twelve combine calls compute, each as whole-array functions of the arrays it finds: `n k` the new table,
    `a k` the running sum. -/
structure RegionFacts : Prop where
  n0 : ∀ (V : (c : Dev nD) → (b : Ref sig .tc) → Buf (Elt Ideal) ((c : Thread nD τ).loc b)) (c : Dev nD),
    (dat0 V c).arrAt 5 cfg0.N = Cert.SegMean.meanCat (n := 200000) (V c main_v82) (V c main_v8) (V c main_v93) (V c main_v17)
  a0 : ∀ (V : (c : Dev nD) → (b : Ref sig .tc) → Buf (Elt Ideal) ((c : Thread nD τ).loc b)) (c : Dev nD),
    (dat0 V c).arrAt 6 cfg0.N = Cert.SegMean.accum (V c main_arg0) (Cert.SegMean.meanCat (n := 200000) (V c main_v82) (V c main_v8) (V c main_v93) (V c main_v17)) (Ideal.ofBits .f32 0x3F000000#32)
  n1 : ∀ (V : (c : Dev nD) → (b : Ref sig .tc) → Buf (Elt Ideal) ((c : Thread nD τ).loc b)) (c : Dev nD),
    (dat1 V c).arrAt 5 cfg1.N = Cert.SegMean.meanCat (n := 100000) (V c main_v104) (V c main_v26) (V c main_v115) (V c main_v35)
  a1 : ∀ (V : (c : Dev nD) → (b : Ref sig .tc) → Buf (Elt Ideal) ((c : Thread nD τ).loc b)) (c : Dev nD),
    (dat1 V c).arrAt 6 cfg1.N = Cert.SegMean.accum (V c main_arg1) (Cert.SegMean.meanCat (n := 100000) (V c main_v104) (V c main_v26) (V c main_v115) (V c main_v35)) (Ideal.ofBits .f32 0x3F000000#32)
  n2 : ∀ (V : (c : Dev nD) → (b : Ref sig .tc) → Buf (Elt Ideal) ((c : Thread nD τ).loc b)) (c : Dev nD),
    (dat2 V c).arrAt 5 cfg2.N = Cert.SegMean.meanCat (n := 20000) (V c main_v126) (V c main_v44) (V c main_v137) (V c main_v53)
  a2 : ∀ (V : (c : Dev nD) → (b : Ref sig .tc) → Buf (Elt Ideal) ((c : Thread nD τ).loc b)) (c : Dev nD),
    (dat2 V c).arrAt 6 cfg2.N = Cert.SegMean.accum (V c main_arg2) (Cert.SegMean.meanCat (n := 20000) (V c main_v126) (V c main_v44) (V c main_v137) (V c main_v53)) (Ideal.ofBits .f32 0x3F000000#32)
  n3 : ∀ (V : (c : Dev nD) → (b : Ref sig .tc) → Buf (Elt Ideal) ((c : Thread nD τ).loc b)) (c : Dev nD),
    (dat3 V c).arrAt 5 cfg3.N = Cert.SegMean.meanCat (n := 5000) (V c main_v148) (V c main_v62) (V c main_v159) (V c main_v71)
  a3 : ∀ (V : (c : Dev nD) → (b : Ref sig .tc) → Buf (Elt Ideal) ((c : Thread nD τ).loc b)) (c : Dev nD),
    (dat3 V c).arrAt 6 cfg3.N = Cert.SegMean.accum (V c main_arg3) (Cert.SegMean.meanCat (n := 5000) (V c main_v148) (V c main_v62) (V c main_v159) (V c main_v71)) (Ideal.ofBits .f32 0x3F000000#32)
  n4 : ∀ (V : (c : Dev nD) → (b : Ref sig .tc) → Buf (Elt Ideal) ((c : Thread nD τ).loc b)) (c : Dev nD),
    (dat4 V c).arrAt 5 cfg4.N = Cert.SegMean.meanCat (n := 200000) (V c main_v174) (V c main_v8) (V c main_v185) (V c main_v17)
  a4 : ∀ (V : (c : Dev nD) → (b : Ref sig .tc) → Buf (Elt Ideal) ((c : Thread nD τ).loc b)) (c : Dev nD),
    (dat4 V c).arrAt 6 cfg4.N = Cert.SegMean.accum (V c main_v160_1) (Cert.SegMean.meanCat (n := 200000) (V c main_v174) (V c main_v8) (V c main_v185) (V c main_v17)) (Ideal.ofBits .f32 0x3EAAAAAB#32)
  n5 : ∀ (V : (c : Dev nD) → (b : Ref sig .tc) → Buf (Elt Ideal) ((c : Thread nD τ).loc b)) (c : Dev nD),
    (dat5 V c).arrAt 5 cfg5.N = Cert.SegMean.meanCat (n := 100000) (V c main_v196) (V c main_v26) (V c main_v207) (V c main_v35)
  a5 : ∀ (V : (c : Dev nD) → (b : Ref sig .tc) → Buf (Elt Ideal) ((c : Thread nD τ).loc b)) (c : Dev nD),
    (dat5 V c).arrAt 6 cfg5.N = Cert.SegMean.accum (V c main_v161_1) (Cert.SegMean.meanCat (n := 100000) (V c main_v196) (V c main_v26) (V c main_v207) (V c main_v35)) (Ideal.ofBits .f32 0x3EAAAAAB#32)
  n6 : ∀ (V : (c : Dev nD) → (b : Ref sig .tc) → Buf (Elt Ideal) ((c : Thread nD τ).loc b)) (c : Dev nD),
    (dat6 V c).arrAt 5 cfg6.N = Cert.SegMean.meanCat (n := 20000) (V c main_v218) (V c main_v44) (V c main_v229) (V c main_v53)
  a6 : ∀ (V : (c : Dev nD) → (b : Ref sig .tc) → Buf (Elt Ideal) ((c : Thread nD τ).loc b)) (c : Dev nD),
    (dat6 V c).arrAt 6 cfg6.N = Cert.SegMean.accum (V c main_v162_1) (Cert.SegMean.meanCat (n := 20000) (V c main_v218) (V c main_v44) (V c main_v229) (V c main_v53)) (Ideal.ofBits .f32 0x3EAAAAAB#32)
  n7 : ∀ (V : (c : Dev nD) → (b : Ref sig .tc) → Buf (Elt Ideal) ((c : Thread nD τ).loc b)) (c : Dev nD),
    (dat7 V c).arrAt 5 cfg7.N = Cert.SegMean.meanCat (n := 5000) (V c main_v240) (V c main_v62) (V c main_v251) (V c main_v71)
  a7 : ∀ (V : (c : Dev nD) → (b : Ref sig .tc) → Buf (Elt Ideal) ((c : Thread nD τ).loc b)) (c : Dev nD),
    (dat7 V c).arrAt 6 cfg7.N = Cert.SegMean.accum (V c main_v163_1) (Cert.SegMean.meanCat (n := 5000) (V c main_v240) (V c main_v62) (V c main_v251) (V c main_v71)) (Ideal.ofBits .f32 0x3EAAAAAB#32)
  n8 : ∀ (V : (c : Dev nD) → (b : Ref sig .tc) → Buf (Elt Ideal) ((c : Thread nD τ).loc b)) (c : Dev nD),
    (dat8 V c).arrAt 5 cfg8.N = Cert.SegMean.meanCat (n := 200000) (V c main_v266) (V c main_v8) (V c main_v277) (V c main_v17)
  a8 : ∀ (V : (c : Dev nD) → (b : Ref sig .tc) → Buf (Elt Ideal) ((c : Thread nD τ).loc b)) (c : Dev nD),
    (dat8 V c).arrAt 6 cfg8.N = Cert.SegMean.accum (V c main_v252_1) (Cert.SegMean.meanCat (n := 200000) (V c main_v266) (V c main_v8) (V c main_v277) (V c main_v17)) (Ideal.ofBits .f32 0x3E800000#32)
  n9 : ∀ (V : (c : Dev nD) → (b : Ref sig .tc) → Buf (Elt Ideal) ((c : Thread nD τ).loc b)) (c : Dev nD),
    (dat9 V c).arrAt 5 cfg9.N = Cert.SegMean.meanCat (n := 100000) (V c main_v288) (V c main_v26) (V c main_v299) (V c main_v35)
  a9 : ∀ (V : (c : Dev nD) → (b : Ref sig .tc) → Buf (Elt Ideal) ((c : Thread nD τ).loc b)) (c : Dev nD),
    (dat9 V c).arrAt 6 cfg9.N = Cert.SegMean.accum (V c main_v253_1) (Cert.SegMean.meanCat (n := 100000) (V c main_v288) (V c main_v26) (V c main_v299) (V c main_v35)) (Ideal.ofBits .f32 0x3E800000#32)
  n10 : ∀ (V : (c : Dev nD) → (b : Ref sig .tc) → Buf (Elt Ideal) ((c : Thread nD τ).loc b)) (c : Dev nD),
    (dat10 V c).arrAt 5 cfg10.N = Cert.SegMean.meanCat (n := 20000) (V c main_v310) (V c main_v44) (V c main_v321) (V c main_v53)
  a10 : ∀ (V : (c : Dev nD) → (b : Ref sig .tc) → Buf (Elt Ideal) ((c : Thread nD τ).loc b)) (c : Dev nD),
    (dat10 V c).arrAt 6 cfg10.N = Cert.SegMean.accum (V c main_v254_1) (Cert.SegMean.meanCat (n := 20000) (V c main_v310) (V c main_v44) (V c main_v321) (V c main_v53)) (Ideal.ofBits .f32 0x3E800000#32)
  n11 : ∀ (V : (c : Dev nD) → (b : Ref sig .tc) → Buf (Elt Ideal) ((c : Thread nD τ).loc b)) (c : Dev nD),
    (dat11 V c).arrAt 5 cfg11.N = Cert.SegMean.meanCat (n := 5000) (V c main_v332) (V c main_v62) (V c main_v343) (V c main_v71)
  a11 : ∀ (V : (c : Dev nD) → (b : Ref sig .tc) → Buf (Elt Ideal) ((c : Thread nD τ).loc b)) (c : Dev nD),
    (dat11 V c).arrAt 6 cfg11.N = Cert.SegMean.accum (V c main_v255_1) (Cert.SegMean.meanCat (n := 5000) (V c main_v332) (V c main_v62) (V c main_v343) (V c main_v71)) (Ideal.ofBits .f32 0x3E800000#32)

theorem W0_main_arg0 (R : RegionFacts) (m : (ℓ : Loc nD τ sig) → Buf (Elt Ideal) ℓ) (ρ : Dev nD → PrngReg) (c : Dev nD) :
    W0 m ρ c (Proc.devRef .tc main_arg0) = m ((c.tc : Thread nD τ).loc main_arg0) :=
  rfl

theorem W1_main_arg0 (R : RegionFacts) (m : (ℓ : Loc nD τ sig) → Buf (Elt Ideal) ℓ) (ρ : Dev nD → PrngReg) (c : Dev nD) :
    W1 m ρ c (Proc.devRef .tc main_arg0) = m ((c.tc : Thread nD τ).loc main_arg0) :=
  (keepH0 (W0 m ρ c) main_arg0 (by decide)).trans (W0_main_arg0 R m ρ c)

theorem W0_main_arg1 (R : RegionFacts) (m : (ℓ : Loc nD τ sig) → Buf (Elt Ideal) ℓ) (ρ : Dev nD → PrngReg) (c : Dev nD) :
    W0 m ρ c (Proc.devRef .tc main_arg1) = m ((c.tc : Thread nD τ).loc main_arg1) :=
  rfl

theorem W0_main_arg6 (R : RegionFacts) (m : (ℓ : Loc nD τ sig) → Buf (Elt Ideal) ℓ) (ρ : Dev nD → PrngReg) (c : Dev nD) :
    W0 m ρ c (Proc.devRef .tc main_arg6) = m ((c.tc : Thread nD τ).loc main_arg6) :=
  rfl

theorem W0_main_arg7 (R : RegionFacts) (m : (ℓ : Loc nD τ sig) → Buf (Elt Ideal) ℓ) (ρ : Dev nD → PrngReg) (c : Dev nD) :
    W0 m ρ c (Proc.devRef .tc main_arg7) = m ((c.tc : Thread nD τ).loc main_arg7) :=
  rfl

theorem W1_main_v82 (R : RegionFacts) (m : (ℓ : Loc nD τ sig) → Buf (Elt Ideal) ℓ) (ρ : Dev nD → PrngReg) (c : Dev nD) :
    W1 m ρ c (Proc.devRef .tc main_v82) = Cert.Spec.sVU (tabs m c).v (edges m c).vu_src (edges m c).vu_dst :=
  (H0_main_v82 (W0 m ρ c)).trans (by
    rw [W0_main_arg1 R m ρ c, W0_main_arg6 R m ρ c, W0_main_arg7 R m ρ c] <;> rfl)

theorem W1_main_v8 (R : RegionFacts) (m : (ℓ : Loc nD τ sig) → Buf (Elt Ideal) ℓ) (ρ : Dev nD → PrngReg) (c : Dev nD) :
    W1 m ρ c (Proc.devRef .tc main_v8) = Cert.Spec.iVU (edges m c).vu_dst :=
  (H0_main_v8 (W0 m ρ c)).trans (by
    rw [W0_main_arg7 R m ρ c] <;> rfl)

theorem W0_main_arg2 (R : RegionFacts) (m : (ℓ : Loc nD τ sig) → Buf (Elt Ideal) ℓ) (ρ : Dev nD → PrngReg) (c : Dev nD) :
    W0 m ρ c (Proc.devRef .tc main_arg2) = m ((c.tc : Thread nD τ).loc main_arg2) :=
  rfl

theorem W0_main_arg10 (R : RegionFacts) (m : (ℓ : Loc nD τ sig) → Buf (Elt Ideal) ℓ) (ρ : Dev nD → PrngReg) (c : Dev nD) :
    W0 m ρ c (Proc.devRef .tc main_arg10) = m ((c.tc : Thread nD τ).loc main_arg10) :=
  rfl

theorem W0_main_arg11 (R : RegionFacts) (m : (ℓ : Loc nD τ sig) → Buf (Elt Ideal) ℓ) (ρ : Dev nD → PrngReg) (c : Dev nD) :
    W0 m ρ c (Proc.devRef .tc main_arg11) = m ((c.tc : Thread nD τ).loc main_arg11) :=
  rfl

theorem W1_main_v93 (R : RegionFacts) (m : (ℓ : Loc nD τ sig) → Buf (Elt Ideal) ℓ) (ρ : Dev nD → PrngReg) (c : Dev nD) :
    W1 m ρ c (Proc.devRef .tc main_v93) = Cert.Spec.sPU (tabs m c).p (edges m c).pu_src (edges m c).pu_dst :=
  (H0_main_v93 (W0 m ρ c)).trans (by
    rw [W0_main_arg2 R m ρ c, W0_main_arg10 R m ρ c, W0_main_arg11 R m ρ c] <;> rfl)

theorem W1_main_v17 (R : RegionFacts) (m : (ℓ : Loc nD τ sig) → Buf (Elt Ideal) ℓ) (ρ : Dev nD → PrngReg) (c : Dev nD) :
    W1 m ρ c (Proc.devRef .tc main_v17) = Cert.Spec.iPU (edges m c).pu_dst :=
  (H0_main_v17 (W0 m ρ c)).trans (by
    rw [W0_main_arg11 R m ρ c] <;> rfl)

theorem W2_main_v160_1 (R : RegionFacts) (m : (ℓ : Loc nD τ sig) → Buf (Elt Ideal) ℓ) (ρ : Dev nD → PrngReg) (c : Dev nD) :
    W2 m ρ c (Proc.devRef .tc main_v160_1) = (A1 m c).u :=
  ((W2_arr m ρ c 6).trans (R.a0 (V1 m ρ) c)).trans (by
    show Cert.SegMean.accum (W1 m ρ c (Proc.devRef .tc main_arg0)) (Cert.SegMean.meanCat (n := 200000) (W1 m ρ c (Proc.devRef .tc main_v82)) (W1 m ρ c (Proc.devRef .tc main_v8)) (W1 m ρ c (Proc.devRef .tc main_v93)) (W1 m ρ c (Proc.devRef .tc main_v17))) (Ideal.ofBits .f32 0x3F000000#32) = _
    rw [W1_main_arg0 R m ρ c, W1_main_v82 R m ρ c, W1_main_v8 R m ρ c, W1_main_v93 R m ρ c, W1_main_v17 R m ρ c] <;> rfl)

theorem W3_main_v160_1 (R : RegionFacts) (m : (ℓ : Loc nD τ sig) → Buf (Elt Ideal) ℓ) (ρ : Dev nD → PrngReg) (c : Dev nD) :
    W3 m ρ c (Proc.devRef .tc main_v160_1) = (A1 m c).u :=
  (W3_of_ne m ρ c main_v160_1 (by decide)).trans (W2_main_v160_1 R m ρ c)

theorem W4_main_v160_1 (R : RegionFacts) (m : (ℓ : Loc nD τ sig) → Buf (Elt Ideal) ℓ) (ρ : Dev nD → PrngReg) (c : Dev nD) :
    W4 m ρ c (Proc.devRef .tc main_v160_1) = (A1 m c).u :=
  (W4_of_ne m ρ c main_v160_1 (by decide)).trans (W3_main_v160_1 R m ρ c)

theorem W5_main_v160_1 (R : RegionFacts) (m : (ℓ : Loc nD τ sig) → Buf (Elt Ideal) ℓ) (ρ : Dev nD → PrngReg) (c : Dev nD) :
    W5 m ρ c (Proc.devRef .tc main_v160_1) = (A1 m c).u :=
  (W5_of_ne m ρ c main_v160_1 (by decide)).trans (W4_main_v160_1 R m ρ c)

theorem W6_main_v160_1 (R : RegionFacts) (m : (ℓ : Loc nD τ sig) → Buf (Elt Ideal) ℓ) (ρ : Dev nD → PrngReg) (c : Dev nD) :
    W6 m ρ c (Proc.devRef .tc main_v160_1) = (A1 m c).u :=
  (keepH4 (W5 m ρ c) main_v160_1 (by decide)).trans (W5_main_v160_1 R m ρ c)

theorem W0_main_arg4 (R : RegionFacts) (m : (ℓ : Loc nD τ sig) → Buf (Elt Ideal) ℓ) (ρ : Dev nD → PrngReg) (c : Dev nD) :
    W0 m ρ c (Proc.devRef .tc main_arg4) = m ((c.tc : Thread nD τ).loc main_arg4) :=
  rfl

theorem W0_main_arg5 (R : RegionFacts) (m : (ℓ : Loc nD τ sig) → Buf (Elt Ideal) ℓ) (ρ : Dev nD → PrngReg) (c : Dev nD) :
    W0 m ρ c (Proc.devRef .tc main_arg5) = m ((c.tc : Thread nD τ).loc main_arg5) :=
  rfl

theorem W1_main_v104 (R : RegionFacts) (m : (ℓ : Loc nD τ sig) → Buf (Elt Ideal) ℓ) (ρ : Dev nD → PrngReg) (c : Dev nD) :
    W1 m ρ c (Proc.devRef .tc main_v104) = Cert.Spec.sUV (tabs m c).u (edges m c).uv_src (edges m c).uv_dst :=
  (H0_main_v104 (W0 m ρ c)).trans (by
    rw [W0_main_arg0 R m ρ c, W0_main_arg4 R m ρ c, W0_main_arg5 R m ρ c] <;> rfl)

theorem W2_main_v104 (R : RegionFacts) (m : (ℓ : Loc nD τ sig) → Buf (Elt Ideal) ℓ) (ρ : Dev nD → PrngReg) (c : Dev nD) :
    W2 m ρ c (Proc.devRef .tc main_v104) = Cert.Spec.sUV (tabs m c).u (edges m c).uv_src (edges m c).uv_dst :=
  (W2_of_ne m ρ c main_v104 (by decide)).trans (W1_main_v104 R m ρ c)

theorem W1_main_v26 (R : RegionFacts) (m : (ℓ : Loc nD τ sig) → Buf (Elt Ideal) ℓ) (ρ : Dev nD → PrngReg) (c : Dev nD) :
    W1 m ρ c (Proc.devRef .tc main_v26) = Cert.Spec.iUV (edges m c).uv_dst :=
  (H0_main_v26 (W0 m ρ c)).trans (by
    rw [W0_main_arg5 R m ρ c] <;> rfl)

theorem W2_main_v26 (R : RegionFacts) (m : (ℓ : Loc nD τ sig) → Buf (Elt Ideal) ℓ) (ρ : Dev nD → PrngReg) (c : Dev nD) :
    W2 m ρ c (Proc.devRef .tc main_v26) = Cert.Spec.iUV (edges m c).uv_dst :=
  (W2_of_ne m ρ c main_v26 (by decide)).trans (W1_main_v26 R m ρ c)

theorem W0_main_arg3 (R : RegionFacts) (m : (ℓ : Loc nD τ sig) → Buf (Elt Ideal) ℓ) (ρ : Dev nD → PrngReg) (c : Dev nD) :
    W0 m ρ c (Proc.devRef .tc main_arg3) = m ((c.tc : Thread nD τ).loc main_arg3) :=
  rfl

theorem W0_main_arg14 (R : RegionFacts) (m : (ℓ : Loc nD τ sig) → Buf (Elt Ideal) ℓ) (ρ : Dev nD → PrngReg) (c : Dev nD) :
    W0 m ρ c (Proc.devRef .tc main_arg14) = m ((c.tc : Thread nD τ).loc main_arg14) :=
  rfl

theorem W0_main_arg15 (R : RegionFacts) (m : (ℓ : Loc nD τ sig) → Buf (Elt Ideal) ℓ) (ρ : Dev nD → PrngReg) (c : Dev nD) :
    W0 m ρ c (Proc.devRef .tc main_arg15) = m ((c.tc : Thread nD τ).loc main_arg15) :=
  rfl

theorem W1_main_v115 (R : RegionFacts) (m : (ℓ : Loc nD τ sig) → Buf (Elt Ideal) ℓ) (ρ : Dev nD → PrngReg) (c : Dev nD) :
    W1 m ρ c (Proc.devRef .tc main_v115) = Cert.Spec.sTV (tabs m c).t (edges m c).tv_src (edges m c).tv_dst :=
  (H0_main_v115 (W0 m ρ c)).trans (by
    rw [W0_main_arg3 R m ρ c, W0_main_arg14 R m ρ c, W0_main_arg15 R m ρ c] <;> rfl)

theorem W2_main_v115 (R : RegionFacts) (m : (ℓ : Loc nD τ sig) → Buf (Elt Ideal) ℓ) (ρ : Dev nD → PrngReg) (c : Dev nD) :
    W2 m ρ c (Proc.devRef .tc main_v115) = Cert.Spec.sTV (tabs m c).t (edges m c).tv_src (edges m c).tv_dst :=
  (W2_of_ne m ρ c main_v115 (by decide)).trans (W1_main_v115 R m ρ c)

theorem W1_main_v35 (R : RegionFacts) (m : (ℓ : Loc nD τ sig) → Buf (Elt Ideal) ℓ) (ρ : Dev nD → PrngReg) (c : Dev nD) :
    W1 m ρ c (Proc.devRef .tc main_v35) = Cert.Spec.iTV (edges m c).tv_dst :=
  (H0_main_v35 (W0 m ρ c)).trans (by
    rw [W0_main_arg15 R m ρ c] <;> rfl)

theorem W2_main_v35 (R : RegionFacts) (m : (ℓ : Loc nD τ sig) → Buf (Elt Ideal) ℓ) (ρ : Dev nD → PrngReg) (c : Dev nD) :
    W2 m ρ c (Proc.devRef .tc main_v35) = Cert.Spec.iTV (edges m c).tv_dst :=
  (W2_of_ne m ρ c main_v35 (by decide)).trans (W1_main_v35 R m ρ c)

theorem W3_main_v161_0 (R : RegionFacts) (m : (ℓ : Loc nD τ sig) → Buf (Elt Ideal) ℓ) (ρ : Dev nD → PrngReg) (c : Dev nD) :
    W3 m ρ c (Proc.devRef .tc main_v161_0) = (L1 m c).v :=
  ((W3_arr m ρ c 5).trans (R.n1 (V2 m ρ) c)).trans (by
    show Cert.SegMean.meanCat (n := 100000) (W2 m ρ c (Proc.devRef .tc main_v104)) (W2 m ρ c (Proc.devRef .tc main_v26)) (W2 m ρ c (Proc.devRef .tc main_v115)) (W2 m ρ c (Proc.devRef .tc main_v35)) = _
    rw [W2_main_v104 R m ρ c, W2_main_v26 R m ρ c, W2_main_v115 R m ρ c, W2_main_v35 R m ρ c] <;> rfl)

theorem W4_main_v161_0 (R : RegionFacts) (m : (ℓ : Loc nD τ sig) → Buf (Elt Ideal) ℓ) (ρ : Dev nD → PrngReg) (c : Dev nD) :
    W4 m ρ c (Proc.devRef .tc main_v161_0) = (L1 m c).v :=
  (W4_of_ne m ρ c main_v161_0 (by decide)).trans (W3_main_v161_0 R m ρ c)

theorem W5_main_v161_0 (R : RegionFacts) (m : (ℓ : Loc nD τ sig) → Buf (Elt Ideal) ℓ) (ρ : Dev nD → PrngReg) (c : Dev nD) :
    W5 m ρ c (Proc.devRef .tc main_v161_0) = (L1 m c).v :=
  (W5_of_ne m ρ c main_v161_0 (by decide)).trans (W4_main_v161_0 R m ρ c)

theorem W1_main_arg6 (R : RegionFacts) (m : (ℓ : Loc nD τ sig) → Buf (Elt Ideal) ℓ) (ρ : Dev nD → PrngReg) (c : Dev nD) :
    W1 m ρ c (Proc.devRef .tc main_arg6) = m ((c.tc : Thread nD τ).loc main_arg6) :=
  (keepH0 (W0 m ρ c) main_arg6 (by decide)).trans (W0_main_arg6 R m ρ c)

theorem W2_main_arg6 (R : RegionFacts) (m : (ℓ : Loc nD τ sig) → Buf (Elt Ideal) ℓ) (ρ : Dev nD → PrngReg) (c : Dev nD) :
    W2 m ρ c (Proc.devRef .tc main_arg6) = m ((c.tc : Thread nD τ).loc main_arg6) :=
  (W2_of_ne m ρ c main_arg6 (by decide)).trans (W1_main_arg6 R m ρ c)

theorem W3_main_arg6 (R : RegionFacts) (m : (ℓ : Loc nD τ sig) → Buf (Elt Ideal) ℓ) (ρ : Dev nD → PrngReg) (c : Dev nD) :
    W3 m ρ c (Proc.devRef .tc main_arg6) = m ((c.tc : Thread nD τ).loc main_arg6) :=
  (W3_of_ne m ρ c main_arg6 (by decide)).trans (W2_main_arg6 R m ρ c)

theorem W4_main_arg6 (R : RegionFacts) (m : (ℓ : Loc nD τ sig) → Buf (Elt Ideal) ℓ) (ρ : Dev nD → PrngReg) (c : Dev nD) :
    W4 m ρ c (Proc.devRef .tc main_arg6) = m ((c.tc : Thread nD τ).loc main_arg6) :=
  (W4_of_ne m ρ c main_arg6 (by decide)).trans (W3_main_arg6 R m ρ c)

theorem W5_main_arg6 (R : RegionFacts) (m : (ℓ : Loc nD τ sig) → Buf (Elt Ideal) ℓ) (ρ : Dev nD → PrngReg) (c : Dev nD) :
    W5 m ρ c (Proc.devRef .tc main_arg6) = m ((c.tc : Thread nD τ).loc main_arg6) :=
  (W5_of_ne m ρ c main_arg6 (by decide)).trans (W4_main_arg6 R m ρ c)

theorem W1_main_arg7 (R : RegionFacts) (m : (ℓ : Loc nD τ sig) → Buf (Elt Ideal) ℓ) (ρ : Dev nD → PrngReg) (c : Dev nD) :
    W1 m ρ c (Proc.devRef .tc main_arg7) = m ((c.tc : Thread nD τ).loc main_arg7) :=
  (keepH0 (W0 m ρ c) main_arg7 (by decide)).trans (W0_main_arg7 R m ρ c)

theorem W2_main_arg7 (R : RegionFacts) (m : (ℓ : Loc nD τ sig) → Buf (Elt Ideal) ℓ) (ρ : Dev nD → PrngReg) (c : Dev nD) :
    W2 m ρ c (Proc.devRef .tc main_arg7) = m ((c.tc : Thread nD τ).loc main_arg7) :=
  (W2_of_ne m ρ c main_arg7 (by decide)).trans (W1_main_arg7 R m ρ c)

theorem W3_main_arg7 (R : RegionFacts) (m : (ℓ : Loc nD τ sig) → Buf (Elt Ideal) ℓ) (ρ : Dev nD → PrngReg) (c : Dev nD) :
    W3 m ρ c (Proc.devRef .tc main_arg7) = m ((c.tc : Thread nD τ).loc main_arg7) :=
  (W3_of_ne m ρ c main_arg7 (by decide)).trans (W2_main_arg7 R m ρ c)

theorem W4_main_arg7 (R : RegionFacts) (m : (ℓ : Loc nD τ sig) → Buf (Elt Ideal) ℓ) (ρ : Dev nD → PrngReg) (c : Dev nD) :
    W4 m ρ c (Proc.devRef .tc main_arg7) = m ((c.tc : Thread nD τ).loc main_arg7) :=
  (W4_of_ne m ρ c main_arg7 (by decide)).trans (W3_main_arg7 R m ρ c)

theorem W5_main_arg7 (R : RegionFacts) (m : (ℓ : Loc nD τ sig) → Buf (Elt Ideal) ℓ) (ρ : Dev nD → PrngReg) (c : Dev nD) :
    W5 m ρ c (Proc.devRef .tc main_arg7) = m ((c.tc : Thread nD τ).loc main_arg7) :=
  (W5_of_ne m ρ c main_arg7 (by decide)).trans (W4_main_arg7 R m ρ c)

theorem W6_main_v174 (R : RegionFacts) (m : (ℓ : Loc nD τ sig) → Buf (Elt Ideal) ℓ) (ρ : Dev nD → PrngReg) (c : Dev nD) :
    W6 m ρ c (Proc.devRef .tc main_v174) = Cert.Spec.sVU (L1 m c).v (edges m c).vu_src (edges m c).vu_dst :=
  (H4_main_v174 (W5 m ρ c)).trans (by
    rw [W5_main_v161_0 R m ρ c, W5_main_arg6 R m ρ c, W5_main_arg7 R m ρ c] <;> rfl)

theorem W2_main_v8 (R : RegionFacts) (m : (ℓ : Loc nD τ sig) → Buf (Elt Ideal) ℓ) (ρ : Dev nD → PrngReg) (c : Dev nD) :
    W2 m ρ c (Proc.devRef .tc main_v8) = Cert.Spec.iVU (edges m c).vu_dst :=
  ((W2_arr m ρ c 1).trans (((dat0 (V1 m ρ) c).arrAt_in 1 rfl _).trans (A_eq0 (V1 m ρ) c 1))).trans (W1_main_v8 R m ρ c)

theorem W3_main_v8 (R : RegionFacts) (m : (ℓ : Loc nD τ sig) → Buf (Elt Ideal) ℓ) (ρ : Dev nD → PrngReg) (c : Dev nD) :
    W3 m ρ c (Proc.devRef .tc main_v8) = Cert.Spec.iVU (edges m c).vu_dst :=
  (W3_of_ne m ρ c main_v8 (by decide)).trans (W2_main_v8 R m ρ c)

theorem W4_main_v8 (R : RegionFacts) (m : (ℓ : Loc nD τ sig) → Buf (Elt Ideal) ℓ) (ρ : Dev nD → PrngReg) (c : Dev nD) :
    W4 m ρ c (Proc.devRef .tc main_v8) = Cert.Spec.iVU (edges m c).vu_dst :=
  (W4_of_ne m ρ c main_v8 (by decide)).trans (W3_main_v8 R m ρ c)

theorem W5_main_v8 (R : RegionFacts) (m : (ℓ : Loc nD τ sig) → Buf (Elt Ideal) ℓ) (ρ : Dev nD → PrngReg) (c : Dev nD) :
    W5 m ρ c (Proc.devRef .tc main_v8) = Cert.Spec.iVU (edges m c).vu_dst :=
  (W5_of_ne m ρ c main_v8 (by decide)).trans (W4_main_v8 R m ρ c)

theorem W6_main_v8 (R : RegionFacts) (m : (ℓ : Loc nD τ sig) → Buf (Elt Ideal) ℓ) (ρ : Dev nD → PrngReg) (c : Dev nD) :
    W6 m ρ c (Proc.devRef .tc main_v8) = Cert.Spec.iVU (edges m c).vu_dst :=
  (keepH4 (W5 m ρ c) main_v8 (by decide)).trans (W5_main_v8 R m ρ c)

theorem W0_main_arg8 (R : RegionFacts) (m : (ℓ : Loc nD τ sig) → Buf (Elt Ideal) ℓ) (ρ : Dev nD → PrngReg) (c : Dev nD) :
    W0 m ρ c (Proc.devRef .tc main_arg8) = m ((c.tc : Thread nD τ).loc main_arg8) :=
  rfl

theorem W0_main_arg9 (R : RegionFacts) (m : (ℓ : Loc nD τ sig) → Buf (Elt Ideal) ℓ) (ρ : Dev nD → PrngReg) (c : Dev nD) :
    W0 m ρ c (Proc.devRef .tc main_arg9) = m ((c.tc : Thread nD τ).loc main_arg9) :=
  rfl

theorem W1_main_v126 (R : RegionFacts) (m : (ℓ : Loc nD τ sig) → Buf (Elt Ideal) ℓ) (ρ : Dev nD → PrngReg) (c : Dev nD) :
    W1 m ρ c (Proc.devRef .tc main_v126) = Cert.Spec.sUP (tabs m c).u (edges m c).up_src (edges m c).up_dst :=
  (H0_main_v126 (W0 m ρ c)).trans (by
    rw [W0_main_arg0 R m ρ c, W0_main_arg8 R m ρ c, W0_main_arg9 R m ρ c] <;> rfl)

theorem W2_main_v126 (R : RegionFacts) (m : (ℓ : Loc nD τ sig) → Buf (Elt Ideal) ℓ) (ρ : Dev nD → PrngReg) (c : Dev nD) :
    W2 m ρ c (Proc.devRef .tc main_v126) = Cert.Spec.sUP (tabs m c).u (edges m c).up_src (edges m c).up_dst :=
  (W2_of_ne m ρ c main_v126 (by decide)).trans (W1_main_v126 R m ρ c)

theorem W3_main_v126 (R : RegionFacts) (m : (ℓ : Loc nD τ sig) → Buf (Elt Ideal) ℓ) (ρ : Dev nD → PrngReg) (c : Dev nD) :
    W3 m ρ c (Proc.devRef .tc main_v126) = Cert.Spec.sUP (tabs m c).u (edges m c).up_src (edges m c).up_dst :=
  (W3_of_ne m ρ c main_v126 (by decide)).trans (W2_main_v126 R m ρ c)

theorem W1_main_v44 (R : RegionFacts) (m : (ℓ : Loc nD τ sig) → Buf (Elt Ideal) ℓ) (ρ : Dev nD → PrngReg) (c : Dev nD) :
    W1 m ρ c (Proc.devRef .tc main_v44) = Cert.Spec.iUP (edges m c).up_dst :=
  (H0_main_v44 (W0 m ρ c)).trans (by
    rw [W0_main_arg9 R m ρ c] <;> rfl)

theorem W2_main_v44 (R : RegionFacts) (m : (ℓ : Loc nD τ sig) → Buf (Elt Ideal) ℓ) (ρ : Dev nD → PrngReg) (c : Dev nD) :
    W2 m ρ c (Proc.devRef .tc main_v44) = Cert.Spec.iUP (edges m c).up_dst :=
  (W2_of_ne m ρ c main_v44 (by decide)).trans (W1_main_v44 R m ρ c)

theorem W3_main_v44 (R : RegionFacts) (m : (ℓ : Loc nD τ sig) → Buf (Elt Ideal) ℓ) (ρ : Dev nD → PrngReg) (c : Dev nD) :
    W3 m ρ c (Proc.devRef .tc main_v44) = Cert.Spec.iUP (edges m c).up_dst :=
  (W3_of_ne m ρ c main_v44 (by decide)).trans (W2_main_v44 R m ρ c)

theorem W0_main_arg18 (R : RegionFacts) (m : (ℓ : Loc nD τ sig) → Buf (Elt Ideal) ℓ) (ρ : Dev nD → PrngReg) (c : Dev nD) :
    W0 m ρ c (Proc.devRef .tc main_arg18) = m ((c.tc : Thread nD τ).loc main_arg18) :=
  rfl

theorem W0_main_arg19 (R : RegionFacts) (m : (ℓ : Loc nD τ sig) → Buf (Elt Ideal) ℓ) (ρ : Dev nD → PrngReg) (c : Dev nD) :
    W0 m ρ c (Proc.devRef .tc main_arg19) = m ((c.tc : Thread nD τ).loc main_arg19) :=
  rfl

theorem W1_main_v137 (R : RegionFacts) (m : (ℓ : Loc nD τ sig) → Buf (Elt Ideal) ℓ) (ρ : Dev nD → PrngReg) (c : Dev nD) :
    W1 m ρ c (Proc.devRef .tc main_v137) = Cert.Spec.sTP (tabs m c).t (edges m c).tp_src (edges m c).tp_dst :=
  (H0_main_v137 (W0 m ρ c)).trans (by
    rw [W0_main_arg3 R m ρ c, W0_main_arg18 R m ρ c, W0_main_arg19 R m ρ c] <;> rfl)

theorem W2_main_v137 (R : RegionFacts) (m : (ℓ : Loc nD τ sig) → Buf (Elt Ideal) ℓ) (ρ : Dev nD → PrngReg) (c : Dev nD) :
    W2 m ρ c (Proc.devRef .tc main_v137) = Cert.Spec.sTP (tabs m c).t (edges m c).tp_src (edges m c).tp_dst :=
  (W2_of_ne m ρ c main_v137 (by decide)).trans (W1_main_v137 R m ρ c)

theorem W3_main_v137 (R : RegionFacts) (m : (ℓ : Loc nD τ sig) → Buf (Elt Ideal) ℓ) (ρ : Dev nD → PrngReg) (c : Dev nD) :
    W3 m ρ c (Proc.devRef .tc main_v137) = Cert.Spec.sTP (tabs m c).t (edges m c).tp_src (edges m c).tp_dst :=
  (W3_of_ne m ρ c main_v137 (by decide)).trans (W2_main_v137 R m ρ c)

theorem W1_main_v53 (R : RegionFacts) (m : (ℓ : Loc nD τ sig) → Buf (Elt Ideal) ℓ) (ρ : Dev nD → PrngReg) (c : Dev nD) :
    W1 m ρ c (Proc.devRef .tc main_v53) = Cert.Spec.iTP (edges m c).tp_dst :=
  (H0_main_v53 (W0 m ρ c)).trans (by
    rw [W0_main_arg19 R m ρ c] <;> rfl)

theorem W2_main_v53 (R : RegionFacts) (m : (ℓ : Loc nD τ sig) → Buf (Elt Ideal) ℓ) (ρ : Dev nD → PrngReg) (c : Dev nD) :
    W2 m ρ c (Proc.devRef .tc main_v53) = Cert.Spec.iTP (edges m c).tp_dst :=
  (W2_of_ne m ρ c main_v53 (by decide)).trans (W1_main_v53 R m ρ c)

theorem W3_main_v53 (R : RegionFacts) (m : (ℓ : Loc nD τ sig) → Buf (Elt Ideal) ℓ) (ρ : Dev nD → PrngReg) (c : Dev nD) :
    W3 m ρ c (Proc.devRef .tc main_v53) = Cert.Spec.iTP (edges m c).tp_dst :=
  (W3_of_ne m ρ c main_v53 (by decide)).trans (W2_main_v53 R m ρ c)

theorem W4_main_v162_0 (R : RegionFacts) (m : (ℓ : Loc nD τ sig) → Buf (Elt Ideal) ℓ) (ρ : Dev nD → PrngReg) (c : Dev nD) :
    W4 m ρ c (Proc.devRef .tc main_v162_0) = (L1 m c).p :=
  ((W4_arr m ρ c 5).trans (R.n2 (V3 m ρ) c)).trans (by
    show Cert.SegMean.meanCat (n := 20000) (W3 m ρ c (Proc.devRef .tc main_v126)) (W3 m ρ c (Proc.devRef .tc main_v44)) (W3 m ρ c (Proc.devRef .tc main_v137)) (W3 m ρ c (Proc.devRef .tc main_v53)) = _
    rw [W3_main_v126 R m ρ c, W3_main_v44 R m ρ c, W3_main_v137 R m ρ c, W3_main_v53 R m ρ c] <;> rfl)

theorem W5_main_v162_0 (R : RegionFacts) (m : (ℓ : Loc nD τ sig) → Buf (Elt Ideal) ℓ) (ρ : Dev nD → PrngReg) (c : Dev nD) :
    W5 m ρ c (Proc.devRef .tc main_v162_0) = (L1 m c).p :=
  (W5_of_ne m ρ c main_v162_0 (by decide)).trans (W4_main_v162_0 R m ρ c)

theorem W1_main_arg10 (R : RegionFacts) (m : (ℓ : Loc nD τ sig) → Buf (Elt Ideal) ℓ) (ρ : Dev nD → PrngReg) (c : Dev nD) :
    W1 m ρ c (Proc.devRef .tc main_arg10) = m ((c.tc : Thread nD τ).loc main_arg10) :=
  (keepH0 (W0 m ρ c) main_arg10 (by decide)).trans (W0_main_arg10 R m ρ c)

theorem W2_main_arg10 (R : RegionFacts) (m : (ℓ : Loc nD τ sig) → Buf (Elt Ideal) ℓ) (ρ : Dev nD → PrngReg) (c : Dev nD) :
    W2 m ρ c (Proc.devRef .tc main_arg10) = m ((c.tc : Thread nD τ).loc main_arg10) :=
  (W2_of_ne m ρ c main_arg10 (by decide)).trans (W1_main_arg10 R m ρ c)

theorem W3_main_arg10 (R : RegionFacts) (m : (ℓ : Loc nD τ sig) → Buf (Elt Ideal) ℓ) (ρ : Dev nD → PrngReg) (c : Dev nD) :
    W3 m ρ c (Proc.devRef .tc main_arg10) = m ((c.tc : Thread nD τ).loc main_arg10) :=
  (W3_of_ne m ρ c main_arg10 (by decide)).trans (W2_main_arg10 R m ρ c)

theorem W4_main_arg10 (R : RegionFacts) (m : (ℓ : Loc nD τ sig) → Buf (Elt Ideal) ℓ) (ρ : Dev nD → PrngReg) (c : Dev nD) :
    W4 m ρ c (Proc.devRef .tc main_arg10) = m ((c.tc : Thread nD τ).loc main_arg10) :=
  (W4_of_ne m ρ c main_arg10 (by decide)).trans (W3_main_arg10 R m ρ c)

theorem W5_main_arg10 (R : RegionFacts) (m : (ℓ : Loc nD τ sig) → Buf (Elt Ideal) ℓ) (ρ : Dev nD → PrngReg) (c : Dev nD) :
    W5 m ρ c (Proc.devRef .tc main_arg10) = m ((c.tc : Thread nD τ).loc main_arg10) :=
  (W5_of_ne m ρ c main_arg10 (by decide)).trans (W4_main_arg10 R m ρ c)

theorem W1_main_arg11 (R : RegionFacts) (m : (ℓ : Loc nD τ sig) → Buf (Elt Ideal) ℓ) (ρ : Dev nD → PrngReg) (c : Dev nD) :
    W1 m ρ c (Proc.devRef .tc main_arg11) = m ((c.tc : Thread nD τ).loc main_arg11) :=
  (keepH0 (W0 m ρ c) main_arg11 (by decide)).trans (W0_main_arg11 R m ρ c)

theorem W2_main_arg11 (R : RegionFacts) (m : (ℓ : Loc nD τ sig) → Buf (Elt Ideal) ℓ) (ρ : Dev nD → PrngReg) (c : Dev nD) :
    W2 m ρ c (Proc.devRef .tc main_arg11) = m ((c.tc : Thread nD τ).loc main_arg11) :=
  (W2_of_ne m ρ c main_arg11 (by decide)).trans (W1_main_arg11 R m ρ c)

theorem W3_main_arg11 (R : RegionFacts) (m : (ℓ : Loc nD τ sig) → Buf (Elt Ideal) ℓ) (ρ : Dev nD → PrngReg) (c : Dev nD) :
    W3 m ρ c (Proc.devRef .tc main_arg11) = m ((c.tc : Thread nD τ).loc main_arg11) :=
  (W3_of_ne m ρ c main_arg11 (by decide)).trans (W2_main_arg11 R m ρ c)

theorem W4_main_arg11 (R : RegionFacts) (m : (ℓ : Loc nD τ sig) → Buf (Elt Ideal) ℓ) (ρ : Dev nD → PrngReg) (c : Dev nD) :
    W4 m ρ c (Proc.devRef .tc main_arg11) = m ((c.tc : Thread nD τ).loc main_arg11) :=
  (W4_of_ne m ρ c main_arg11 (by decide)).trans (W3_main_arg11 R m ρ c)

theorem W5_main_arg11 (R : RegionFacts) (m : (ℓ : Loc nD τ sig) → Buf (Elt Ideal) ℓ) (ρ : Dev nD → PrngReg) (c : Dev nD) :
    W5 m ρ c (Proc.devRef .tc main_arg11) = m ((c.tc : Thread nD τ).loc main_arg11) :=
  (W5_of_ne m ρ c main_arg11 (by decide)).trans (W4_main_arg11 R m ρ c)

theorem W6_main_v185 (R : RegionFacts) (m : (ℓ : Loc nD τ sig) → Buf (Elt Ideal) ℓ) (ρ : Dev nD → PrngReg) (c : Dev nD) :
    W6 m ρ c (Proc.devRef .tc main_v185) = Cert.Spec.sPU (L1 m c).p (edges m c).pu_src (edges m c).pu_dst :=
  (H4_main_v185 (W5 m ρ c)).trans (by
    rw [W5_main_v162_0 R m ρ c, W5_main_arg10 R m ρ c, W5_main_arg11 R m ρ c] <;> rfl)

theorem W2_main_v17 (R : RegionFacts) (m : (ℓ : Loc nD τ sig) → Buf (Elt Ideal) ℓ) (ρ : Dev nD → PrngReg) (c : Dev nD) :
    W2 m ρ c (Proc.devRef .tc main_v17) = Cert.Spec.iPU (edges m c).pu_dst :=
  ((W2_arr m ρ c 3).trans (((dat0 (V1 m ρ) c).arrAt_in 3 rfl _).trans (A_eq0 (V1 m ρ) c 3))).trans (W1_main_v17 R m ρ c)

theorem W3_main_v17 (R : RegionFacts) (m : (ℓ : Loc nD τ sig) → Buf (Elt Ideal) ℓ) (ρ : Dev nD → PrngReg) (c : Dev nD) :
    W3 m ρ c (Proc.devRef .tc main_v17) = Cert.Spec.iPU (edges m c).pu_dst :=
  (W3_of_ne m ρ c main_v17 (by decide)).trans (W2_main_v17 R m ρ c)

theorem W4_main_v17 (R : RegionFacts) (m : (ℓ : Loc nD τ sig) → Buf (Elt Ideal) ℓ) (ρ : Dev nD → PrngReg) (c : Dev nD) :
    W4 m ρ c (Proc.devRef .tc main_v17) = Cert.Spec.iPU (edges m c).pu_dst :=
  (W4_of_ne m ρ c main_v17 (by decide)).trans (W3_main_v17 R m ρ c)

theorem W5_main_v17 (R : RegionFacts) (m : (ℓ : Loc nD τ sig) → Buf (Elt Ideal) ℓ) (ρ : Dev nD → PrngReg) (c : Dev nD) :
    W5 m ρ c (Proc.devRef .tc main_v17) = Cert.Spec.iPU (edges m c).pu_dst :=
  (W5_of_ne m ρ c main_v17 (by decide)).trans (W4_main_v17 R m ρ c)

theorem W6_main_v17 (R : RegionFacts) (m : (ℓ : Loc nD τ sig) → Buf (Elt Ideal) ℓ) (ρ : Dev nD → PrngReg) (c : Dev nD) :
    W6 m ρ c (Proc.devRef .tc main_v17) = Cert.Spec.iPU (edges m c).pu_dst :=
  (keepH4 (W5 m ρ c) main_v17 (by decide)).trans (W5_main_v17 R m ρ c)

theorem W7_main_v252_1 (R : RegionFacts) (m : (ℓ : Loc nD τ sig) → Buf (Elt Ideal) ℓ) (ρ : Dev nD → PrngReg) (c : Dev nD) :
    W7 m ρ c (Proc.devRef .tc main_v252_1) = (A2 m c).u :=
  ((W7_arr m ρ c 6).trans (R.a4 (V6 m ρ) c)).trans (by
    show Cert.SegMean.accum (W6 m ρ c (Proc.devRef .tc main_v160_1)) (Cert.SegMean.meanCat (n := 200000) (W6 m ρ c (Proc.devRef .tc main_v174)) (W6 m ρ c (Proc.devRef .tc main_v8)) (W6 m ρ c (Proc.devRef .tc main_v185)) (W6 m ρ c (Proc.devRef .tc main_v17))) (Ideal.ofBits .f32 0x3EAAAAAB#32) = _
    rw [W6_main_v160_1 R m ρ c, W6_main_v174 R m ρ c, W6_main_v8 R m ρ c, W6_main_v185 R m ρ c, W6_main_v17 R m ρ c] <;> rfl)

theorem W8_main_v252_1 (R : RegionFacts) (m : (ℓ : Loc nD τ sig) → Buf (Elt Ideal) ℓ) (ρ : Dev nD → PrngReg) (c : Dev nD) :
    W8 m ρ c (Proc.devRef .tc main_v252_1) = (A2 m c).u :=
  (W8_of_ne m ρ c main_v252_1 (by decide)).trans (W7_main_v252_1 R m ρ c)

theorem W9_main_v252_1 (R : RegionFacts) (m : (ℓ : Loc nD τ sig) → Buf (Elt Ideal) ℓ) (ρ : Dev nD → PrngReg) (c : Dev nD) :
    W9 m ρ c (Proc.devRef .tc main_v252_1) = (A2 m c).u :=
  (W9_of_ne m ρ c main_v252_1 (by decide)).trans (W8_main_v252_1 R m ρ c)

theorem W10_main_v252_1 (R : RegionFacts) (m : (ℓ : Loc nD τ sig) → Buf (Elt Ideal) ℓ) (ρ : Dev nD → PrngReg) (c : Dev nD) :
    W10 m ρ c (Proc.devRef .tc main_v252_1) = (A2 m c).u :=
  (W10_of_ne m ρ c main_v252_1 (by decide)).trans (W9_main_v252_1 R m ρ c)

theorem W11_main_v252_1 (R : RegionFacts) (m : (ℓ : Loc nD τ sig) → Buf (Elt Ideal) ℓ) (ρ : Dev nD → PrngReg) (c : Dev nD) :
    W11 m ρ c (Proc.devRef .tc main_v252_1) = (A2 m c).u :=
  (keepH8 (W10 m ρ c) main_v252_1 (by decide)).trans (W10_main_v252_1 R m ρ c)

theorem W2_main_v160_0 (R : RegionFacts) (m : (ℓ : Loc nD τ sig) → Buf (Elt Ideal) ℓ) (ρ : Dev nD → PrngReg) (c : Dev nD) :
    W2 m ρ c (Proc.devRef .tc main_v160_0) = (L1 m c).u :=
  ((W2_arr m ρ c 5).trans (R.n0 (V1 m ρ) c)).trans (by
    show Cert.SegMean.meanCat (n := 200000) (W1 m ρ c (Proc.devRef .tc main_v82)) (W1 m ρ c (Proc.devRef .tc main_v8)) (W1 m ρ c (Proc.devRef .tc main_v93)) (W1 m ρ c (Proc.devRef .tc main_v17)) = _
    rw [W1_main_v82 R m ρ c, W1_main_v8 R m ρ c, W1_main_v93 R m ρ c, W1_main_v17 R m ρ c] <;> rfl)

theorem W3_main_v160_0 (R : RegionFacts) (m : (ℓ : Loc nD τ sig) → Buf (Elt Ideal) ℓ) (ρ : Dev nD → PrngReg) (c : Dev nD) :
    W3 m ρ c (Proc.devRef .tc main_v160_0) = (L1 m c).u :=
  (W3_of_ne m ρ c main_v160_0 (by decide)).trans (W2_main_v160_0 R m ρ c)

theorem W4_main_v160_0 (R : RegionFacts) (m : (ℓ : Loc nD τ sig) → Buf (Elt Ideal) ℓ) (ρ : Dev nD → PrngReg) (c : Dev nD) :
    W4 m ρ c (Proc.devRef .tc main_v160_0) = (L1 m c).u :=
  (W4_of_ne m ρ c main_v160_0 (by decide)).trans (W3_main_v160_0 R m ρ c)

theorem W5_main_v160_0 (R : RegionFacts) (m : (ℓ : Loc nD τ sig) → Buf (Elt Ideal) ℓ) (ρ : Dev nD → PrngReg) (c : Dev nD) :
    W5 m ρ c (Proc.devRef .tc main_v160_0) = (L1 m c).u :=
  (W5_of_ne m ρ c main_v160_0 (by decide)).trans (W4_main_v160_0 R m ρ c)

theorem W1_main_arg4 (R : RegionFacts) (m : (ℓ : Loc nD τ sig) → Buf (Elt Ideal) ℓ) (ρ : Dev nD → PrngReg) (c : Dev nD) :
    W1 m ρ c (Proc.devRef .tc main_arg4) = m ((c.tc : Thread nD τ).loc main_arg4) :=
  (keepH0 (W0 m ρ c) main_arg4 (by decide)).trans (W0_main_arg4 R m ρ c)

theorem W2_main_arg4 (R : RegionFacts) (m : (ℓ : Loc nD τ sig) → Buf (Elt Ideal) ℓ) (ρ : Dev nD → PrngReg) (c : Dev nD) :
    W2 m ρ c (Proc.devRef .tc main_arg4) = m ((c.tc : Thread nD τ).loc main_arg4) :=
  (W2_of_ne m ρ c main_arg4 (by decide)).trans (W1_main_arg4 R m ρ c)

theorem W3_main_arg4 (R : RegionFacts) (m : (ℓ : Loc nD τ sig) → Buf (Elt Ideal) ℓ) (ρ : Dev nD → PrngReg) (c : Dev nD) :
    W3 m ρ c (Proc.devRef .tc main_arg4) = m ((c.tc : Thread nD τ).loc main_arg4) :=
  (W3_of_ne m ρ c main_arg4 (by decide)).trans (W2_main_arg4 R m ρ c)

theorem W4_main_arg4 (R : RegionFacts) (m : (ℓ : Loc nD τ sig) → Buf (Elt Ideal) ℓ) (ρ : Dev nD → PrngReg) (c : Dev nD) :
    W4 m ρ c (Proc.devRef .tc main_arg4) = m ((c.tc : Thread nD τ).loc main_arg4) :=
  (W4_of_ne m ρ c main_arg4 (by decide)).trans (W3_main_arg4 R m ρ c)

theorem W5_main_arg4 (R : RegionFacts) (m : (ℓ : Loc nD τ sig) → Buf (Elt Ideal) ℓ) (ρ : Dev nD → PrngReg) (c : Dev nD) :
    W5 m ρ c (Proc.devRef .tc main_arg4) = m ((c.tc : Thread nD τ).loc main_arg4) :=
  (W5_of_ne m ρ c main_arg4 (by decide)).trans (W4_main_arg4 R m ρ c)

theorem W1_main_arg5 (R : RegionFacts) (m : (ℓ : Loc nD τ sig) → Buf (Elt Ideal) ℓ) (ρ : Dev nD → PrngReg) (c : Dev nD) :
    W1 m ρ c (Proc.devRef .tc main_arg5) = m ((c.tc : Thread nD τ).loc main_arg5) :=
  (keepH0 (W0 m ρ c) main_arg5 (by decide)).trans (W0_main_arg5 R m ρ c)

theorem W2_main_arg5 (R : RegionFacts) (m : (ℓ : Loc nD τ sig) → Buf (Elt Ideal) ℓ) (ρ : Dev nD → PrngReg) (c : Dev nD) :
    W2 m ρ c (Proc.devRef .tc main_arg5) = m ((c.tc : Thread nD τ).loc main_arg5) :=
  (W2_of_ne m ρ c main_arg5 (by decide)).trans (W1_main_arg5 R m ρ c)

theorem W3_main_arg5 (R : RegionFacts) (m : (ℓ : Loc nD τ sig) → Buf (Elt Ideal) ℓ) (ρ : Dev nD → PrngReg) (c : Dev nD) :
    W3 m ρ c (Proc.devRef .tc main_arg5) = m ((c.tc : Thread nD τ).loc main_arg5) :=
  (W3_of_ne m ρ c main_arg5 (by decide)).trans (W2_main_arg5 R m ρ c)

theorem W4_main_arg5 (R : RegionFacts) (m : (ℓ : Loc nD τ sig) → Buf (Elt Ideal) ℓ) (ρ : Dev nD → PrngReg) (c : Dev nD) :
    W4 m ρ c (Proc.devRef .tc main_arg5) = m ((c.tc : Thread nD τ).loc main_arg5) :=
  (W4_of_ne m ρ c main_arg5 (by decide)).trans (W3_main_arg5 R m ρ c)

theorem W5_main_arg5 (R : RegionFacts) (m : (ℓ : Loc nD τ sig) → Buf (Elt Ideal) ℓ) (ρ : Dev nD → PrngReg) (c : Dev nD) :
    W5 m ρ c (Proc.devRef .tc main_arg5) = m ((c.tc : Thread nD τ).loc main_arg5) :=
  (W5_of_ne m ρ c main_arg5 (by decide)).trans (W4_main_arg5 R m ρ c)

theorem W6_main_v196 (R : RegionFacts) (m : (ℓ : Loc nD τ sig) → Buf (Elt Ideal) ℓ) (ρ : Dev nD → PrngReg) (c : Dev nD) :
    W6 m ρ c (Proc.devRef .tc main_v196) = Cert.Spec.sUV (L1 m c).u (edges m c).uv_src (edges m c).uv_dst :=
  (H4_main_v196 (W5 m ρ c)).trans (by
    rw [W5_main_v160_0 R m ρ c, W5_main_arg4 R m ρ c, W5_main_arg5 R m ρ c] <;> rfl)

theorem W7_main_v196 (R : RegionFacts) (m : (ℓ : Loc nD τ sig) → Buf (Elt Ideal) ℓ) (ρ : Dev nD → PrngReg) (c : Dev nD) :
    W7 m ρ c (Proc.devRef .tc main_v196) = Cert.Spec.sUV (L1 m c).u (edges m c).uv_src (edges m c).uv_dst :=
  (W7_of_ne m ρ c main_v196 (by decide)).trans (W6_main_v196 R m ρ c)

theorem W3_main_v26 (R : RegionFacts) (m : (ℓ : Loc nD τ sig) → Buf (Elt Ideal) ℓ) (ρ : Dev nD → PrngReg) (c : Dev nD) :
    W3 m ρ c (Proc.devRef .tc main_v26) = Cert.Spec.iUV (edges m c).uv_dst :=
  ((W3_arr m ρ c 1).trans (((dat1 (V2 m ρ) c).arrAt_in 1 rfl _).trans (A_eq1 (V2 m ρ) c 1))).trans (W2_main_v26 R m ρ c)

theorem W4_main_v26 (R : RegionFacts) (m : (ℓ : Loc nD τ sig) → Buf (Elt Ideal) ℓ) (ρ : Dev nD → PrngReg) (c : Dev nD) :
    W4 m ρ c (Proc.devRef .tc main_v26) = Cert.Spec.iUV (edges m c).uv_dst :=
  (W4_of_ne m ρ c main_v26 (by decide)).trans (W3_main_v26 R m ρ c)

theorem W5_main_v26 (R : RegionFacts) (m : (ℓ : Loc nD τ sig) → Buf (Elt Ideal) ℓ) (ρ : Dev nD → PrngReg) (c : Dev nD) :
    W5 m ρ c (Proc.devRef .tc main_v26) = Cert.Spec.iUV (edges m c).uv_dst :=
  (W5_of_ne m ρ c main_v26 (by decide)).trans (W4_main_v26 R m ρ c)

theorem W6_main_v26 (R : RegionFacts) (m : (ℓ : Loc nD τ sig) → Buf (Elt Ideal) ℓ) (ρ : Dev nD → PrngReg) (c : Dev nD) :
    W6 m ρ c (Proc.devRef .tc main_v26) = Cert.Spec.iUV (edges m c).uv_dst :=
  (keepH4 (W5 m ρ c) main_v26 (by decide)).trans (W5_main_v26 R m ρ c)

theorem W7_main_v26 (R : RegionFacts) (m : (ℓ : Loc nD τ sig) → Buf (Elt Ideal) ℓ) (ρ : Dev nD → PrngReg) (c : Dev nD) :
    W7 m ρ c (Proc.devRef .tc main_v26) = Cert.Spec.iUV (edges m c).uv_dst :=
  (W7_of_ne m ρ c main_v26 (by decide)).trans (W6_main_v26 R m ρ c)

theorem W0_main_arg12 (R : RegionFacts) (m : (ℓ : Loc nD τ sig) → Buf (Elt Ideal) ℓ) (ρ : Dev nD → PrngReg) (c : Dev nD) :
    W0 m ρ c (Proc.devRef .tc main_arg12) = m ((c.tc : Thread nD τ).loc main_arg12) :=
  rfl

theorem W0_main_arg13 (R : RegionFacts) (m : (ℓ : Loc nD τ sig) → Buf (Elt Ideal) ℓ) (ρ : Dev nD → PrngReg) (c : Dev nD) :
    W0 m ρ c (Proc.devRef .tc main_arg13) = m ((c.tc : Thread nD τ).loc main_arg13) :=
  rfl

theorem W1_main_v148 (R : RegionFacts) (m : (ℓ : Loc nD τ sig) → Buf (Elt Ideal) ℓ) (ρ : Dev nD → PrngReg) (c : Dev nD) :
    W1 m ρ c (Proc.devRef .tc main_v148) = Cert.Spec.sVT (tabs m c).v (edges m c).vt_src (edges m c).vt_dst :=
  (H0_main_v148 (W0 m ρ c)).trans (by
    rw [W0_main_arg1 R m ρ c, W0_main_arg12 R m ρ c, W0_main_arg13 R m ρ c] <;> rfl)

theorem W2_main_v148 (R : RegionFacts) (m : (ℓ : Loc nD τ sig) → Buf (Elt Ideal) ℓ) (ρ : Dev nD → PrngReg) (c : Dev nD) :
    W2 m ρ c (Proc.devRef .tc main_v148) = Cert.Spec.sVT (tabs m c).v (edges m c).vt_src (edges m c).vt_dst :=
  (W2_of_ne m ρ c main_v148 (by decide)).trans (W1_main_v148 R m ρ c)

theorem W3_main_v148 (R : RegionFacts) (m : (ℓ : Loc nD τ sig) → Buf (Elt Ideal) ℓ) (ρ : Dev nD → PrngReg) (c : Dev nD) :
    W3 m ρ c (Proc.devRef .tc main_v148) = Cert.Spec.sVT (tabs m c).v (edges m c).vt_src (edges m c).vt_dst :=
  (W3_of_ne m ρ c main_v148 (by decide)).trans (W2_main_v148 R m ρ c)

theorem W4_main_v148 (R : RegionFacts) (m : (ℓ : Loc nD τ sig) → Buf (Elt Ideal) ℓ) (ρ : Dev nD → PrngReg) (c : Dev nD) :
    W4 m ρ c (Proc.devRef .tc main_v148) = Cert.Spec.sVT (tabs m c).v (edges m c).vt_src (edges m c).vt_dst :=
  (W4_of_ne m ρ c main_v148 (by decide)).trans (W3_main_v148 R m ρ c)

theorem W1_main_v62 (R : RegionFacts) (m : (ℓ : Loc nD τ sig) → Buf (Elt Ideal) ℓ) (ρ : Dev nD → PrngReg) (c : Dev nD) :
    W1 m ρ c (Proc.devRef .tc main_v62) = Cert.Spec.iVT (edges m c).vt_dst :=
  (H0_main_v62 (W0 m ρ c)).trans (by
    rw [W0_main_arg13 R m ρ c] <;> rfl)

theorem W2_main_v62 (R : RegionFacts) (m : (ℓ : Loc nD τ sig) → Buf (Elt Ideal) ℓ) (ρ : Dev nD → PrngReg) (c : Dev nD) :
    W2 m ρ c (Proc.devRef .tc main_v62) = Cert.Spec.iVT (edges m c).vt_dst :=
  (W2_of_ne m ρ c main_v62 (by decide)).trans (W1_main_v62 R m ρ c)

theorem W3_main_v62 (R : RegionFacts) (m : (ℓ : Loc nD τ sig) → Buf (Elt Ideal) ℓ) (ρ : Dev nD → PrngReg) (c : Dev nD) :
    W3 m ρ c (Proc.devRef .tc main_v62) = Cert.Spec.iVT (edges m c).vt_dst :=
  (W3_of_ne m ρ c main_v62 (by decide)).trans (W2_main_v62 R m ρ c)

theorem W4_main_v62 (R : RegionFacts) (m : (ℓ : Loc nD τ sig) → Buf (Elt Ideal) ℓ) (ρ : Dev nD → PrngReg) (c : Dev nD) :
    W4 m ρ c (Proc.devRef .tc main_v62) = Cert.Spec.iVT (edges m c).vt_dst :=
  (W4_of_ne m ρ c main_v62 (by decide)).trans (W3_main_v62 R m ρ c)

theorem W0_main_arg16 (R : RegionFacts) (m : (ℓ : Loc nD τ sig) → Buf (Elt Ideal) ℓ) (ρ : Dev nD → PrngReg) (c : Dev nD) :
    W0 m ρ c (Proc.devRef .tc main_arg16) = m ((c.tc : Thread nD τ).loc main_arg16) :=
  rfl

theorem W0_main_arg17 (R : RegionFacts) (m : (ℓ : Loc nD τ sig) → Buf (Elt Ideal) ℓ) (ρ : Dev nD → PrngReg) (c : Dev nD) :
    W0 m ρ c (Proc.devRef .tc main_arg17) = m ((c.tc : Thread nD τ).loc main_arg17) :=
  rfl

theorem W1_main_v159 (R : RegionFacts) (m : (ℓ : Loc nD τ sig) → Buf (Elt Ideal) ℓ) (ρ : Dev nD → PrngReg) (c : Dev nD) :
    W1 m ρ c (Proc.devRef .tc main_v159) = Cert.Spec.sPT (tabs m c).p (edges m c).pt_src (edges m c).pt_dst :=
  (H0_main_v159 (W0 m ρ c)).trans (by
    rw [W0_main_arg2 R m ρ c, W0_main_arg16 R m ρ c, W0_main_arg17 R m ρ c] <;> rfl)

theorem W2_main_v159 (R : RegionFacts) (m : (ℓ : Loc nD τ sig) → Buf (Elt Ideal) ℓ) (ρ : Dev nD → PrngReg) (c : Dev nD) :
    W2 m ρ c (Proc.devRef .tc main_v159) = Cert.Spec.sPT (tabs m c).p (edges m c).pt_src (edges m c).pt_dst :=
  (W2_of_ne m ρ c main_v159 (by decide)).trans (W1_main_v159 R m ρ c)

theorem W3_main_v159 (R : RegionFacts) (m : (ℓ : Loc nD τ sig) → Buf (Elt Ideal) ℓ) (ρ : Dev nD → PrngReg) (c : Dev nD) :
    W3 m ρ c (Proc.devRef .tc main_v159) = Cert.Spec.sPT (tabs m c).p (edges m c).pt_src (edges m c).pt_dst :=
  (W3_of_ne m ρ c main_v159 (by decide)).trans (W2_main_v159 R m ρ c)

theorem W4_main_v159 (R : RegionFacts) (m : (ℓ : Loc nD τ sig) → Buf (Elt Ideal) ℓ) (ρ : Dev nD → PrngReg) (c : Dev nD) :
    W4 m ρ c (Proc.devRef .tc main_v159) = Cert.Spec.sPT (tabs m c).p (edges m c).pt_src (edges m c).pt_dst :=
  (W4_of_ne m ρ c main_v159 (by decide)).trans (W3_main_v159 R m ρ c)

theorem W1_main_v71 (R : RegionFacts) (m : (ℓ : Loc nD τ sig) → Buf (Elt Ideal) ℓ) (ρ : Dev nD → PrngReg) (c : Dev nD) :
    W1 m ρ c (Proc.devRef .tc main_v71) = Cert.Spec.iPT (edges m c).pt_dst :=
  (H0_main_v71 (W0 m ρ c)).trans (by
    rw [W0_main_arg17 R m ρ c] <;> rfl)

theorem W2_main_v71 (R : RegionFacts) (m : (ℓ : Loc nD τ sig) → Buf (Elt Ideal) ℓ) (ρ : Dev nD → PrngReg) (c : Dev nD) :
    W2 m ρ c (Proc.devRef .tc main_v71) = Cert.Spec.iPT (edges m c).pt_dst :=
  (W2_of_ne m ρ c main_v71 (by decide)).trans (W1_main_v71 R m ρ c)

theorem W3_main_v71 (R : RegionFacts) (m : (ℓ : Loc nD τ sig) → Buf (Elt Ideal) ℓ) (ρ : Dev nD → PrngReg) (c : Dev nD) :
    W3 m ρ c (Proc.devRef .tc main_v71) = Cert.Spec.iPT (edges m c).pt_dst :=
  (W3_of_ne m ρ c main_v71 (by decide)).trans (W2_main_v71 R m ρ c)

theorem W4_main_v71 (R : RegionFacts) (m : (ℓ : Loc nD τ sig) → Buf (Elt Ideal) ℓ) (ρ : Dev nD → PrngReg) (c : Dev nD) :
    W4 m ρ c (Proc.devRef .tc main_v71) = Cert.Spec.iPT (edges m c).pt_dst :=
  (W4_of_ne m ρ c main_v71 (by decide)).trans (W3_main_v71 R m ρ c)

theorem W5_main_v163_0 (R : RegionFacts) (m : (ℓ : Loc nD τ sig) → Buf (Elt Ideal) ℓ) (ρ : Dev nD → PrngReg) (c : Dev nD) :
    W5 m ρ c (Proc.devRef .tc main_v163_0) = (L1 m c).t :=
  ((W5_arr m ρ c 5).trans (R.n3 (V4 m ρ) c)).trans (by
    show Cert.SegMean.meanCat (n := 5000) (W4 m ρ c (Proc.devRef .tc main_v148)) (W4 m ρ c (Proc.devRef .tc main_v62)) (W4 m ρ c (Proc.devRef .tc main_v159)) (W4 m ρ c (Proc.devRef .tc main_v71)) = _
    rw [W4_main_v148 R m ρ c, W4_main_v62 R m ρ c, W4_main_v159 R m ρ c, W4_main_v71 R m ρ c] <;> rfl)

theorem W1_main_arg14 (R : RegionFacts) (m : (ℓ : Loc nD τ sig) → Buf (Elt Ideal) ℓ) (ρ : Dev nD → PrngReg) (c : Dev nD) :
    W1 m ρ c (Proc.devRef .tc main_arg14) = m ((c.tc : Thread nD τ).loc main_arg14) :=
  (keepH0 (W0 m ρ c) main_arg14 (by decide)).trans (W0_main_arg14 R m ρ c)

theorem W2_main_arg14 (R : RegionFacts) (m : (ℓ : Loc nD τ sig) → Buf (Elt Ideal) ℓ) (ρ : Dev nD → PrngReg) (c : Dev nD) :
    W2 m ρ c (Proc.devRef .tc main_arg14) = m ((c.tc : Thread nD τ).loc main_arg14) :=
  (W2_of_ne m ρ c main_arg14 (by decide)).trans (W1_main_arg14 R m ρ c)

theorem W3_main_arg14 (R : RegionFacts) (m : (ℓ : Loc nD τ sig) → Buf (Elt Ideal) ℓ) (ρ : Dev nD → PrngReg) (c : Dev nD) :
    W3 m ρ c (Proc.devRef .tc main_arg14) = m ((c.tc : Thread nD τ).loc main_arg14) :=
  (W3_of_ne m ρ c main_arg14 (by decide)).trans (W2_main_arg14 R m ρ c)

theorem W4_main_arg14 (R : RegionFacts) (m : (ℓ : Loc nD τ sig) → Buf (Elt Ideal) ℓ) (ρ : Dev nD → PrngReg) (c : Dev nD) :
    W4 m ρ c (Proc.devRef .tc main_arg14) = m ((c.tc : Thread nD τ).loc main_arg14) :=
  (W4_of_ne m ρ c main_arg14 (by decide)).trans (W3_main_arg14 R m ρ c)

theorem W5_main_arg14 (R : RegionFacts) (m : (ℓ : Loc nD τ sig) → Buf (Elt Ideal) ℓ) (ρ : Dev nD → PrngReg) (c : Dev nD) :
    W5 m ρ c (Proc.devRef .tc main_arg14) = m ((c.tc : Thread nD τ).loc main_arg14) :=
  (W5_of_ne m ρ c main_arg14 (by decide)).trans (W4_main_arg14 R m ρ c)

theorem W1_main_arg15 (R : RegionFacts) (m : (ℓ : Loc nD τ sig) → Buf (Elt Ideal) ℓ) (ρ : Dev nD → PrngReg) (c : Dev nD) :
    W1 m ρ c (Proc.devRef .tc main_arg15) = m ((c.tc : Thread nD τ).loc main_arg15) :=
  (keepH0 (W0 m ρ c) main_arg15 (by decide)).trans (W0_main_arg15 R m ρ c)

theorem W2_main_arg15 (R : RegionFacts) (m : (ℓ : Loc nD τ sig) → Buf (Elt Ideal) ℓ) (ρ : Dev nD → PrngReg) (c : Dev nD) :
    W2 m ρ c (Proc.devRef .tc main_arg15) = m ((c.tc : Thread nD τ).loc main_arg15) :=
  (W2_of_ne m ρ c main_arg15 (by decide)).trans (W1_main_arg15 R m ρ c)

theorem W3_main_arg15 (R : RegionFacts) (m : (ℓ : Loc nD τ sig) → Buf (Elt Ideal) ℓ) (ρ : Dev nD → PrngReg) (c : Dev nD) :
    W3 m ρ c (Proc.devRef .tc main_arg15) = m ((c.tc : Thread nD τ).loc main_arg15) :=
  (W3_of_ne m ρ c main_arg15 (by decide)).trans (W2_main_arg15 R m ρ c)

theorem W4_main_arg15 (R : RegionFacts) (m : (ℓ : Loc nD τ sig) → Buf (Elt Ideal) ℓ) (ρ : Dev nD → PrngReg) (c : Dev nD) :
    W4 m ρ c (Proc.devRef .tc main_arg15) = m ((c.tc : Thread nD τ).loc main_arg15) :=
  (W4_of_ne m ρ c main_arg15 (by decide)).trans (W3_main_arg15 R m ρ c)

theorem W5_main_arg15 (R : RegionFacts) (m : (ℓ : Loc nD τ sig) → Buf (Elt Ideal) ℓ) (ρ : Dev nD → PrngReg) (c : Dev nD) :
    W5 m ρ c (Proc.devRef .tc main_arg15) = m ((c.tc : Thread nD τ).loc main_arg15) :=
  (W5_of_ne m ρ c main_arg15 (by decide)).trans (W4_main_arg15 R m ρ c)

theorem W6_main_v207 (R : RegionFacts) (m : (ℓ : Loc nD τ sig) → Buf (Elt Ideal) ℓ) (ρ : Dev nD → PrngReg) (c : Dev nD) :
    W6 m ρ c (Proc.devRef .tc main_v207) = Cert.Spec.sTV (L1 m c).t (edges m c).tv_src (edges m c).tv_dst :=
  (H4_main_v207 (W5 m ρ c)).trans (by
    rw [W5_main_v163_0 R m ρ c, W5_main_arg14 R m ρ c, W5_main_arg15 R m ρ c] <;> rfl)

theorem W7_main_v207 (R : RegionFacts) (m : (ℓ : Loc nD τ sig) → Buf (Elt Ideal) ℓ) (ρ : Dev nD → PrngReg) (c : Dev nD) :
    W7 m ρ c (Proc.devRef .tc main_v207) = Cert.Spec.sTV (L1 m c).t (edges m c).tv_src (edges m c).tv_dst :=
  (W7_of_ne m ρ c main_v207 (by decide)).trans (W6_main_v207 R m ρ c)

theorem W3_main_v35 (R : RegionFacts) (m : (ℓ : Loc nD τ sig) → Buf (Elt Ideal) ℓ) (ρ : Dev nD → PrngReg) (c : Dev nD) :
    W3 m ρ c (Proc.devRef .tc main_v35) = Cert.Spec.iTV (edges m c).tv_dst :=
  ((W3_arr m ρ c 3).trans (((dat1 (V2 m ρ) c).arrAt_in 3 rfl _).trans (A_eq1 (V2 m ρ) c 3))).trans (W2_main_v35 R m ρ c)

theorem W4_main_v35 (R : RegionFacts) (m : (ℓ : Loc nD τ sig) → Buf (Elt Ideal) ℓ) (ρ : Dev nD → PrngReg) (c : Dev nD) :
    W4 m ρ c (Proc.devRef .tc main_v35) = Cert.Spec.iTV (edges m c).tv_dst :=
  (W4_of_ne m ρ c main_v35 (by decide)).trans (W3_main_v35 R m ρ c)

theorem W5_main_v35 (R : RegionFacts) (m : (ℓ : Loc nD τ sig) → Buf (Elt Ideal) ℓ) (ρ : Dev nD → PrngReg) (c : Dev nD) :
    W5 m ρ c (Proc.devRef .tc main_v35) = Cert.Spec.iTV (edges m c).tv_dst :=
  (W5_of_ne m ρ c main_v35 (by decide)).trans (W4_main_v35 R m ρ c)

theorem W6_main_v35 (R : RegionFacts) (m : (ℓ : Loc nD τ sig) → Buf (Elt Ideal) ℓ) (ρ : Dev nD → PrngReg) (c : Dev nD) :
    W6 m ρ c (Proc.devRef .tc main_v35) = Cert.Spec.iTV (edges m c).tv_dst :=
  (keepH4 (W5 m ρ c) main_v35 (by decide)).trans (W5_main_v35 R m ρ c)

theorem W7_main_v35 (R : RegionFacts) (m : (ℓ : Loc nD τ sig) → Buf (Elt Ideal) ℓ) (ρ : Dev nD → PrngReg) (c : Dev nD) :
    W7 m ρ c (Proc.devRef .tc main_v35) = Cert.Spec.iTV (edges m c).tv_dst :=
  (W7_of_ne m ρ c main_v35 (by decide)).trans (W6_main_v35 R m ρ c)

theorem W8_main_v253_0 (R : RegionFacts) (m : (ℓ : Loc nD τ sig) → Buf (Elt Ideal) ℓ) (ρ : Dev nD → PrngReg) (c : Dev nD) :
    W8 m ρ c (Proc.devRef .tc main_v253_0) = (L2 m c).v :=
  ((W8_arr m ρ c 5).trans (R.n5 (V7 m ρ) c)).trans (by
    show Cert.SegMean.meanCat (n := 100000) (W7 m ρ c (Proc.devRef .tc main_v196)) (W7 m ρ c (Proc.devRef .tc main_v26)) (W7 m ρ c (Proc.devRef .tc main_v207)) (W7 m ρ c (Proc.devRef .tc main_v35)) = _
    rw [W7_main_v196 R m ρ c, W7_main_v26 R m ρ c, W7_main_v207 R m ρ c, W7_main_v35 R m ρ c] <;> rfl)

theorem W9_main_v253_0 (R : RegionFacts) (m : (ℓ : Loc nD τ sig) → Buf (Elt Ideal) ℓ) (ρ : Dev nD → PrngReg) (c : Dev nD) :
    W9 m ρ c (Proc.devRef .tc main_v253_0) = (L2 m c).v :=
  (W9_of_ne m ρ c main_v253_0 (by decide)).trans (W8_main_v253_0 R m ρ c)

theorem W10_main_v253_0 (R : RegionFacts) (m : (ℓ : Loc nD τ sig) → Buf (Elt Ideal) ℓ) (ρ : Dev nD → PrngReg) (c : Dev nD) :
    W10 m ρ c (Proc.devRef .tc main_v253_0) = (L2 m c).v :=
  (W10_of_ne m ρ c main_v253_0 (by decide)).trans (W9_main_v253_0 R m ρ c)

theorem W6_main_arg6 (R : RegionFacts) (m : (ℓ : Loc nD τ sig) → Buf (Elt Ideal) ℓ) (ρ : Dev nD → PrngReg) (c : Dev nD) :
    W6 m ρ c (Proc.devRef .tc main_arg6) = m ((c.tc : Thread nD τ).loc main_arg6) :=
  (keepH4 (W5 m ρ c) main_arg6 (by decide)).trans (W5_main_arg6 R m ρ c)

theorem W7_main_arg6 (R : RegionFacts) (m : (ℓ : Loc nD τ sig) → Buf (Elt Ideal) ℓ) (ρ : Dev nD → PrngReg) (c : Dev nD) :
    W7 m ρ c (Proc.devRef .tc main_arg6) = m ((c.tc : Thread nD τ).loc main_arg6) :=
  (W7_of_ne m ρ c main_arg6 (by decide)).trans (W6_main_arg6 R m ρ c)

theorem W8_main_arg6 (R : RegionFacts) (m : (ℓ : Loc nD τ sig) → Buf (Elt Ideal) ℓ) (ρ : Dev nD → PrngReg) (c : Dev nD) :
    W8 m ρ c (Proc.devRef .tc main_arg6) = m ((c.tc : Thread nD τ).loc main_arg6) :=
  (W8_of_ne m ρ c main_arg6 (by decide)).trans (W7_main_arg6 R m ρ c)

theorem W9_main_arg6 (R : RegionFacts) (m : (ℓ : Loc nD τ sig) → Buf (Elt Ideal) ℓ) (ρ : Dev nD → PrngReg) (c : Dev nD) :
    W9 m ρ c (Proc.devRef .tc main_arg6) = m ((c.tc : Thread nD τ).loc main_arg6) :=
  (W9_of_ne m ρ c main_arg6 (by decide)).trans (W8_main_arg6 R m ρ c)

theorem W10_main_arg6 (R : RegionFacts) (m : (ℓ : Loc nD τ sig) → Buf (Elt Ideal) ℓ) (ρ : Dev nD → PrngReg) (c : Dev nD) :
    W10 m ρ c (Proc.devRef .tc main_arg6) = m ((c.tc : Thread nD τ).loc main_arg6) :=
  (W10_of_ne m ρ c main_arg6 (by decide)).trans (W9_main_arg6 R m ρ c)

theorem W6_main_arg7 (R : RegionFacts) (m : (ℓ : Loc nD τ sig) → Buf (Elt Ideal) ℓ) (ρ : Dev nD → PrngReg) (c : Dev nD) :
    W6 m ρ c (Proc.devRef .tc main_arg7) = m ((c.tc : Thread nD τ).loc main_arg7) :=
  (keepH4 (W5 m ρ c) main_arg7 (by decide)).trans (W5_main_arg7 R m ρ c)

theorem W7_main_arg7 (R : RegionFacts) (m : (ℓ : Loc nD τ sig) → Buf (Elt Ideal) ℓ) (ρ : Dev nD → PrngReg) (c : Dev nD) :
    W7 m ρ c (Proc.devRef .tc main_arg7) = m ((c.tc : Thread nD τ).loc main_arg7) :=
  (W7_of_ne m ρ c main_arg7 (by decide)).trans (W6_main_arg7 R m ρ c)

theorem W8_main_arg7 (R : RegionFacts) (m : (ℓ : Loc nD τ sig) → Buf (Elt Ideal) ℓ) (ρ : Dev nD → PrngReg) (c : Dev nD) :
    W8 m ρ c (Proc.devRef .tc main_arg7) = m ((c.tc : Thread nD τ).loc main_arg7) :=
  (W8_of_ne m ρ c main_arg7 (by decide)).trans (W7_main_arg7 R m ρ c)

theorem W9_main_arg7 (R : RegionFacts) (m : (ℓ : Loc nD τ sig) → Buf (Elt Ideal) ℓ) (ρ : Dev nD → PrngReg) (c : Dev nD) :
    W9 m ρ c (Proc.devRef .tc main_arg7) = m ((c.tc : Thread nD τ).loc main_arg7) :=
  (W9_of_ne m ρ c main_arg7 (by decide)).trans (W8_main_arg7 R m ρ c)

theorem W10_main_arg7 (R : RegionFacts) (m : (ℓ : Loc nD τ sig) → Buf (Elt Ideal) ℓ) (ρ : Dev nD → PrngReg) (c : Dev nD) :
    W10 m ρ c (Proc.devRef .tc main_arg7) = m ((c.tc : Thread nD τ).loc main_arg7) :=
  (W10_of_ne m ρ c main_arg7 (by decide)).trans (W9_main_arg7 R m ρ c)

theorem W11_main_v266 (R : RegionFacts) (m : (ℓ : Loc nD τ sig) → Buf (Elt Ideal) ℓ) (ρ : Dev nD → PrngReg) (c : Dev nD) :
    W11 m ρ c (Proc.devRef .tc main_v266) = Cert.Spec.sVU (L2 m c).v (edges m c).vu_src (edges m c).vu_dst :=
  (H8_main_v266 (W10 m ρ c)).trans (by
    rw [W10_main_v253_0 R m ρ c, W10_main_arg6 R m ρ c, W10_main_arg7 R m ρ c] <;> rfl)

theorem W7_main_v8 (R : RegionFacts) (m : (ℓ : Loc nD τ sig) → Buf (Elt Ideal) ℓ) (ρ : Dev nD → PrngReg) (c : Dev nD) :
    W7 m ρ c (Proc.devRef .tc main_v8) = Cert.Spec.iVU (edges m c).vu_dst :=
  ((W7_arr m ρ c 1).trans (((dat4 (V6 m ρ) c).arrAt_in 1 rfl _).trans (A_eq4 (V6 m ρ) c 1))).trans (W6_main_v8 R m ρ c)

theorem W8_main_v8 (R : RegionFacts) (m : (ℓ : Loc nD τ sig) → Buf (Elt Ideal) ℓ) (ρ : Dev nD → PrngReg) (c : Dev nD) :
    W8 m ρ c (Proc.devRef .tc main_v8) = Cert.Spec.iVU (edges m c).vu_dst :=
  (W8_of_ne m ρ c main_v8 (by decide)).trans (W7_main_v8 R m ρ c)

theorem W9_main_v8 (R : RegionFacts) (m : (ℓ : Loc nD τ sig) → Buf (Elt Ideal) ℓ) (ρ : Dev nD → PrngReg) (c : Dev nD) :
    W9 m ρ c (Proc.devRef .tc main_v8) = Cert.Spec.iVU (edges m c).vu_dst :=
  (W9_of_ne m ρ c main_v8 (by decide)).trans (W8_main_v8 R m ρ c)

theorem W10_main_v8 (R : RegionFacts) (m : (ℓ : Loc nD τ sig) → Buf (Elt Ideal) ℓ) (ρ : Dev nD → PrngReg) (c : Dev nD) :
    W10 m ρ c (Proc.devRef .tc main_v8) = Cert.Spec.iVU (edges m c).vu_dst :=
  (W10_of_ne m ρ c main_v8 (by decide)).trans (W9_main_v8 R m ρ c)

theorem W11_main_v8 (R : RegionFacts) (m : (ℓ : Loc nD τ sig) → Buf (Elt Ideal) ℓ) (ρ : Dev nD → PrngReg) (c : Dev nD) :
    W11 m ρ c (Proc.devRef .tc main_v8) = Cert.Spec.iVU (edges m c).vu_dst :=
  (keepH8 (W10 m ρ c) main_v8 (by decide)).trans (W10_main_v8 R m ρ c)

theorem W1_main_arg8 (R : RegionFacts) (m : (ℓ : Loc nD τ sig) → Buf (Elt Ideal) ℓ) (ρ : Dev nD → PrngReg) (c : Dev nD) :
    W1 m ρ c (Proc.devRef .tc main_arg8) = m ((c.tc : Thread nD τ).loc main_arg8) :=
  (keepH0 (W0 m ρ c) main_arg8 (by decide)).trans (W0_main_arg8 R m ρ c)

theorem W2_main_arg8 (R : RegionFacts) (m : (ℓ : Loc nD τ sig) → Buf (Elt Ideal) ℓ) (ρ : Dev nD → PrngReg) (c : Dev nD) :
    W2 m ρ c (Proc.devRef .tc main_arg8) = m ((c.tc : Thread nD τ).loc main_arg8) :=
  (W2_of_ne m ρ c main_arg8 (by decide)).trans (W1_main_arg8 R m ρ c)

theorem W3_main_arg8 (R : RegionFacts) (m : (ℓ : Loc nD τ sig) → Buf (Elt Ideal) ℓ) (ρ : Dev nD → PrngReg) (c : Dev nD) :
    W3 m ρ c (Proc.devRef .tc main_arg8) = m ((c.tc : Thread nD τ).loc main_arg8) :=
  (W3_of_ne m ρ c main_arg8 (by decide)).trans (W2_main_arg8 R m ρ c)

theorem W4_main_arg8 (R : RegionFacts) (m : (ℓ : Loc nD τ sig) → Buf (Elt Ideal) ℓ) (ρ : Dev nD → PrngReg) (c : Dev nD) :
    W4 m ρ c (Proc.devRef .tc main_arg8) = m ((c.tc : Thread nD τ).loc main_arg8) :=
  (W4_of_ne m ρ c main_arg8 (by decide)).trans (W3_main_arg8 R m ρ c)

theorem W5_main_arg8 (R : RegionFacts) (m : (ℓ : Loc nD τ sig) → Buf (Elt Ideal) ℓ) (ρ : Dev nD → PrngReg) (c : Dev nD) :
    W5 m ρ c (Proc.devRef .tc main_arg8) = m ((c.tc : Thread nD τ).loc main_arg8) :=
  (W5_of_ne m ρ c main_arg8 (by decide)).trans (W4_main_arg8 R m ρ c)

theorem W1_main_arg9 (R : RegionFacts) (m : (ℓ : Loc nD τ sig) → Buf (Elt Ideal) ℓ) (ρ : Dev nD → PrngReg) (c : Dev nD) :
    W1 m ρ c (Proc.devRef .tc main_arg9) = m ((c.tc : Thread nD τ).loc main_arg9) :=
  (keepH0 (W0 m ρ c) main_arg9 (by decide)).trans (W0_main_arg9 R m ρ c)

theorem W2_main_arg9 (R : RegionFacts) (m : (ℓ : Loc nD τ sig) → Buf (Elt Ideal) ℓ) (ρ : Dev nD → PrngReg) (c : Dev nD) :
    W2 m ρ c (Proc.devRef .tc main_arg9) = m ((c.tc : Thread nD τ).loc main_arg9) :=
  (W2_of_ne m ρ c main_arg9 (by decide)).trans (W1_main_arg9 R m ρ c)

theorem W3_main_arg9 (R : RegionFacts) (m : (ℓ : Loc nD τ sig) → Buf (Elt Ideal) ℓ) (ρ : Dev nD → PrngReg) (c : Dev nD) :
    W3 m ρ c (Proc.devRef .tc main_arg9) = m ((c.tc : Thread nD τ).loc main_arg9) :=
  (W3_of_ne m ρ c main_arg9 (by decide)).trans (W2_main_arg9 R m ρ c)

theorem W4_main_arg9 (R : RegionFacts) (m : (ℓ : Loc nD τ sig) → Buf (Elt Ideal) ℓ) (ρ : Dev nD → PrngReg) (c : Dev nD) :
    W4 m ρ c (Proc.devRef .tc main_arg9) = m ((c.tc : Thread nD τ).loc main_arg9) :=
  (W4_of_ne m ρ c main_arg9 (by decide)).trans (W3_main_arg9 R m ρ c)

theorem W5_main_arg9 (R : RegionFacts) (m : (ℓ : Loc nD τ sig) → Buf (Elt Ideal) ℓ) (ρ : Dev nD → PrngReg) (c : Dev nD) :
    W5 m ρ c (Proc.devRef .tc main_arg9) = m ((c.tc : Thread nD τ).loc main_arg9) :=
  (W5_of_ne m ρ c main_arg9 (by decide)).trans (W4_main_arg9 R m ρ c)

theorem W6_main_v218 (R : RegionFacts) (m : (ℓ : Loc nD τ sig) → Buf (Elt Ideal) ℓ) (ρ : Dev nD → PrngReg) (c : Dev nD) :
    W6 m ρ c (Proc.devRef .tc main_v218) = Cert.Spec.sUP (L1 m c).u (edges m c).up_src (edges m c).up_dst :=
  (H4_main_v218 (W5 m ρ c)).trans (by
    rw [W5_main_v160_0 R m ρ c, W5_main_arg8 R m ρ c, W5_main_arg9 R m ρ c] <;> rfl)

theorem W7_main_v218 (R : RegionFacts) (m : (ℓ : Loc nD τ sig) → Buf (Elt Ideal) ℓ) (ρ : Dev nD → PrngReg) (c : Dev nD) :
    W7 m ρ c (Proc.devRef .tc main_v218) = Cert.Spec.sUP (L1 m c).u (edges m c).up_src (edges m c).up_dst :=
  (W7_of_ne m ρ c main_v218 (by decide)).trans (W6_main_v218 R m ρ c)

theorem W8_main_v218 (R : RegionFacts) (m : (ℓ : Loc nD τ sig) → Buf (Elt Ideal) ℓ) (ρ : Dev nD → PrngReg) (c : Dev nD) :
    W8 m ρ c (Proc.devRef .tc main_v218) = Cert.Spec.sUP (L1 m c).u (edges m c).up_src (edges m c).up_dst :=
  (W8_of_ne m ρ c main_v218 (by decide)).trans (W7_main_v218 R m ρ c)

theorem W4_main_v44 (R : RegionFacts) (m : (ℓ : Loc nD τ sig) → Buf (Elt Ideal) ℓ) (ρ : Dev nD → PrngReg) (c : Dev nD) :
    W4 m ρ c (Proc.devRef .tc main_v44) = Cert.Spec.iUP (edges m c).up_dst :=
  ((W4_arr m ρ c 1).trans (((dat2 (V3 m ρ) c).arrAt_in 1 rfl _).trans (A_eq2 (V3 m ρ) c 1))).trans (W3_main_v44 R m ρ c)

theorem W5_main_v44 (R : RegionFacts) (m : (ℓ : Loc nD τ sig) → Buf (Elt Ideal) ℓ) (ρ : Dev nD → PrngReg) (c : Dev nD) :
    W5 m ρ c (Proc.devRef .tc main_v44) = Cert.Spec.iUP (edges m c).up_dst :=
  (W5_of_ne m ρ c main_v44 (by decide)).trans (W4_main_v44 R m ρ c)

theorem W6_main_v44 (R : RegionFacts) (m : (ℓ : Loc nD τ sig) → Buf (Elt Ideal) ℓ) (ρ : Dev nD → PrngReg) (c : Dev nD) :
    W6 m ρ c (Proc.devRef .tc main_v44) = Cert.Spec.iUP (edges m c).up_dst :=
  (keepH4 (W5 m ρ c) main_v44 (by decide)).trans (W5_main_v44 R m ρ c)

theorem W7_main_v44 (R : RegionFacts) (m : (ℓ : Loc nD τ sig) → Buf (Elt Ideal) ℓ) (ρ : Dev nD → PrngReg) (c : Dev nD) :
    W7 m ρ c (Proc.devRef .tc main_v44) = Cert.Spec.iUP (edges m c).up_dst :=
  (W7_of_ne m ρ c main_v44 (by decide)).trans (W6_main_v44 R m ρ c)

theorem W8_main_v44 (R : RegionFacts) (m : (ℓ : Loc nD τ sig) → Buf (Elt Ideal) ℓ) (ρ : Dev nD → PrngReg) (c : Dev nD) :
    W8 m ρ c (Proc.devRef .tc main_v44) = Cert.Spec.iUP (edges m c).up_dst :=
  (W8_of_ne m ρ c main_v44 (by decide)).trans (W7_main_v44 R m ρ c)

theorem W1_main_arg18 (R : RegionFacts) (m : (ℓ : Loc nD τ sig) → Buf (Elt Ideal) ℓ) (ρ : Dev nD → PrngReg) (c : Dev nD) :
    W1 m ρ c (Proc.devRef .tc main_arg18) = m ((c.tc : Thread nD τ).loc main_arg18) :=
  (keepH0 (W0 m ρ c) main_arg18 (by decide)).trans (W0_main_arg18 R m ρ c)

theorem W2_main_arg18 (R : RegionFacts) (m : (ℓ : Loc nD τ sig) → Buf (Elt Ideal) ℓ) (ρ : Dev nD → PrngReg) (c : Dev nD) :
    W2 m ρ c (Proc.devRef .tc main_arg18) = m ((c.tc : Thread nD τ).loc main_arg18) :=
  (W2_of_ne m ρ c main_arg18 (by decide)).trans (W1_main_arg18 R m ρ c)

theorem W3_main_arg18 (R : RegionFacts) (m : (ℓ : Loc nD τ sig) → Buf (Elt Ideal) ℓ) (ρ : Dev nD → PrngReg) (c : Dev nD) :
    W3 m ρ c (Proc.devRef .tc main_arg18) = m ((c.tc : Thread nD τ).loc main_arg18) :=
  (W3_of_ne m ρ c main_arg18 (by decide)).trans (W2_main_arg18 R m ρ c)

theorem W4_main_arg18 (R : RegionFacts) (m : (ℓ : Loc nD τ sig) → Buf (Elt Ideal) ℓ) (ρ : Dev nD → PrngReg) (c : Dev nD) :
    W4 m ρ c (Proc.devRef .tc main_arg18) = m ((c.tc : Thread nD τ).loc main_arg18) :=
  (W4_of_ne m ρ c main_arg18 (by decide)).trans (W3_main_arg18 R m ρ c)

theorem W5_main_arg18 (R : RegionFacts) (m : (ℓ : Loc nD τ sig) → Buf (Elt Ideal) ℓ) (ρ : Dev nD → PrngReg) (c : Dev nD) :
    W5 m ρ c (Proc.devRef .tc main_arg18) = m ((c.tc : Thread nD τ).loc main_arg18) :=
  (W5_of_ne m ρ c main_arg18 (by decide)).trans (W4_main_arg18 R m ρ c)

theorem W1_main_arg19 (R : RegionFacts) (m : (ℓ : Loc nD τ sig) → Buf (Elt Ideal) ℓ) (ρ : Dev nD → PrngReg) (c : Dev nD) :
    W1 m ρ c (Proc.devRef .tc main_arg19) = m ((c.tc : Thread nD τ).loc main_arg19) :=
  (keepH0 (W0 m ρ c) main_arg19 (by decide)).trans (W0_main_arg19 R m ρ c)

theorem W2_main_arg19 (R : RegionFacts) (m : (ℓ : Loc nD τ sig) → Buf (Elt Ideal) ℓ) (ρ : Dev nD → PrngReg) (c : Dev nD) :
    W2 m ρ c (Proc.devRef .tc main_arg19) = m ((c.tc : Thread nD τ).loc main_arg19) :=
  (W2_of_ne m ρ c main_arg19 (by decide)).trans (W1_main_arg19 R m ρ c)

theorem W3_main_arg19 (R : RegionFacts) (m : (ℓ : Loc nD τ sig) → Buf (Elt Ideal) ℓ) (ρ : Dev nD → PrngReg) (c : Dev nD) :
    W3 m ρ c (Proc.devRef .tc main_arg19) = m ((c.tc : Thread nD τ).loc main_arg19) :=
  (W3_of_ne m ρ c main_arg19 (by decide)).trans (W2_main_arg19 R m ρ c)

theorem W4_main_arg19 (R : RegionFacts) (m : (ℓ : Loc nD τ sig) → Buf (Elt Ideal) ℓ) (ρ : Dev nD → PrngReg) (c : Dev nD) :
    W4 m ρ c (Proc.devRef .tc main_arg19) = m ((c.tc : Thread nD τ).loc main_arg19) :=
  (W4_of_ne m ρ c main_arg19 (by decide)).trans (W3_main_arg19 R m ρ c)

theorem W5_main_arg19 (R : RegionFacts) (m : (ℓ : Loc nD τ sig) → Buf (Elt Ideal) ℓ) (ρ : Dev nD → PrngReg) (c : Dev nD) :
    W5 m ρ c (Proc.devRef .tc main_arg19) = m ((c.tc : Thread nD τ).loc main_arg19) :=
  (W5_of_ne m ρ c main_arg19 (by decide)).trans (W4_main_arg19 R m ρ c)

theorem W6_main_v229 (R : RegionFacts) (m : (ℓ : Loc nD τ sig) → Buf (Elt Ideal) ℓ) (ρ : Dev nD → PrngReg) (c : Dev nD) :
    W6 m ρ c (Proc.devRef .tc main_v229) = Cert.Spec.sTP (L1 m c).t (edges m c).tp_src (edges m c).tp_dst :=
  (H4_main_v229 (W5 m ρ c)).trans (by
    rw [W5_main_v163_0 R m ρ c, W5_main_arg18 R m ρ c, W5_main_arg19 R m ρ c] <;> rfl)

theorem W7_main_v229 (R : RegionFacts) (m : (ℓ : Loc nD τ sig) → Buf (Elt Ideal) ℓ) (ρ : Dev nD → PrngReg) (c : Dev nD) :
    W7 m ρ c (Proc.devRef .tc main_v229) = Cert.Spec.sTP (L1 m c).t (edges m c).tp_src (edges m c).tp_dst :=
  (W7_of_ne m ρ c main_v229 (by decide)).trans (W6_main_v229 R m ρ c)

theorem W8_main_v229 (R : RegionFacts) (m : (ℓ : Loc nD τ sig) → Buf (Elt Ideal) ℓ) (ρ : Dev nD → PrngReg) (c : Dev nD) :
    W8 m ρ c (Proc.devRef .tc main_v229) = Cert.Spec.sTP (L1 m c).t (edges m c).tp_src (edges m c).tp_dst :=
  (W8_of_ne m ρ c main_v229 (by decide)).trans (W7_main_v229 R m ρ c)

theorem W4_main_v53 (R : RegionFacts) (m : (ℓ : Loc nD τ sig) → Buf (Elt Ideal) ℓ) (ρ : Dev nD → PrngReg) (c : Dev nD) :
    W4 m ρ c (Proc.devRef .tc main_v53) = Cert.Spec.iTP (edges m c).tp_dst :=
  ((W4_arr m ρ c 3).trans (((dat2 (V3 m ρ) c).arrAt_in 3 rfl _).trans (A_eq2 (V3 m ρ) c 3))).trans (W3_main_v53 R m ρ c)

theorem W5_main_v53 (R : RegionFacts) (m : (ℓ : Loc nD τ sig) → Buf (Elt Ideal) ℓ) (ρ : Dev nD → PrngReg) (c : Dev nD) :
    W5 m ρ c (Proc.devRef .tc main_v53) = Cert.Spec.iTP (edges m c).tp_dst :=
  (W5_of_ne m ρ c main_v53 (by decide)).trans (W4_main_v53 R m ρ c)

theorem W6_main_v53 (R : RegionFacts) (m : (ℓ : Loc nD τ sig) → Buf (Elt Ideal) ℓ) (ρ : Dev nD → PrngReg) (c : Dev nD) :
    W6 m ρ c (Proc.devRef .tc main_v53) = Cert.Spec.iTP (edges m c).tp_dst :=
  (keepH4 (W5 m ρ c) main_v53 (by decide)).trans (W5_main_v53 R m ρ c)

theorem W7_main_v53 (R : RegionFacts) (m : (ℓ : Loc nD τ sig) → Buf (Elt Ideal) ℓ) (ρ : Dev nD → PrngReg) (c : Dev nD) :
    W7 m ρ c (Proc.devRef .tc main_v53) = Cert.Spec.iTP (edges m c).tp_dst :=
  (W7_of_ne m ρ c main_v53 (by decide)).trans (W6_main_v53 R m ρ c)

theorem W8_main_v53 (R : RegionFacts) (m : (ℓ : Loc nD τ sig) → Buf (Elt Ideal) ℓ) (ρ : Dev nD → PrngReg) (c : Dev nD) :
    W8 m ρ c (Proc.devRef .tc main_v53) = Cert.Spec.iTP (edges m c).tp_dst :=
  (W8_of_ne m ρ c main_v53 (by decide)).trans (W7_main_v53 R m ρ c)

theorem W9_main_v254_0 (R : RegionFacts) (m : (ℓ : Loc nD τ sig) → Buf (Elt Ideal) ℓ) (ρ : Dev nD → PrngReg) (c : Dev nD) :
    W9 m ρ c (Proc.devRef .tc main_v254_0) = (L2 m c).p :=
  ((W9_arr m ρ c 5).trans (R.n6 (V8 m ρ) c)).trans (by
    show Cert.SegMean.meanCat (n := 20000) (W8 m ρ c (Proc.devRef .tc main_v218)) (W8 m ρ c (Proc.devRef .tc main_v44)) (W8 m ρ c (Proc.devRef .tc main_v229)) (W8 m ρ c (Proc.devRef .tc main_v53)) = _
    rw [W8_main_v218 R m ρ c, W8_main_v44 R m ρ c, W8_main_v229 R m ρ c, W8_main_v53 R m ρ c] <;> rfl)

theorem W10_main_v254_0 (R : RegionFacts) (m : (ℓ : Loc nD τ sig) → Buf (Elt Ideal) ℓ) (ρ : Dev nD → PrngReg) (c : Dev nD) :
    W10 m ρ c (Proc.devRef .tc main_v254_0) = (L2 m c).p :=
  (W10_of_ne m ρ c main_v254_0 (by decide)).trans (W9_main_v254_0 R m ρ c)

theorem W6_main_arg10 (R : RegionFacts) (m : (ℓ : Loc nD τ sig) → Buf (Elt Ideal) ℓ) (ρ : Dev nD → PrngReg) (c : Dev nD) :
    W6 m ρ c (Proc.devRef .tc main_arg10) = m ((c.tc : Thread nD τ).loc main_arg10) :=
  (keepH4 (W5 m ρ c) main_arg10 (by decide)).trans (W5_main_arg10 R m ρ c)

theorem W7_main_arg10 (R : RegionFacts) (m : (ℓ : Loc nD τ sig) → Buf (Elt Ideal) ℓ) (ρ : Dev nD → PrngReg) (c : Dev nD) :
    W7 m ρ c (Proc.devRef .tc main_arg10) = m ((c.tc : Thread nD τ).loc main_arg10) :=
  (W7_of_ne m ρ c main_arg10 (by decide)).trans (W6_main_arg10 R m ρ c)

theorem W8_main_arg10 (R : RegionFacts) (m : (ℓ : Loc nD τ sig) → Buf (Elt Ideal) ℓ) (ρ : Dev nD → PrngReg) (c : Dev nD) :
    W8 m ρ c (Proc.devRef .tc main_arg10) = m ((c.tc : Thread nD τ).loc main_arg10) :=
  (W8_of_ne m ρ c main_arg10 (by decide)).trans (W7_main_arg10 R m ρ c)

theorem W9_main_arg10 (R : RegionFacts) (m : (ℓ : Loc nD τ sig) → Buf (Elt Ideal) ℓ) (ρ : Dev nD → PrngReg) (c : Dev nD) :
    W9 m ρ c (Proc.devRef .tc main_arg10) = m ((c.tc : Thread nD τ).loc main_arg10) :=
  (W9_of_ne m ρ c main_arg10 (by decide)).trans (W8_main_arg10 R m ρ c)

theorem W10_main_arg10 (R : RegionFacts) (m : (ℓ : Loc nD τ sig) → Buf (Elt Ideal) ℓ) (ρ : Dev nD → PrngReg) (c : Dev nD) :
    W10 m ρ c (Proc.devRef .tc main_arg10) = m ((c.tc : Thread nD τ).loc main_arg10) :=
  (W10_of_ne m ρ c main_arg10 (by decide)).trans (W9_main_arg10 R m ρ c)

theorem W6_main_arg11 (R : RegionFacts) (m : (ℓ : Loc nD τ sig) → Buf (Elt Ideal) ℓ) (ρ : Dev nD → PrngReg) (c : Dev nD) :
    W6 m ρ c (Proc.devRef .tc main_arg11) = m ((c.tc : Thread nD τ).loc main_arg11) :=
  (keepH4 (W5 m ρ c) main_arg11 (by decide)).trans (W5_main_arg11 R m ρ c)

theorem W7_main_arg11 (R : RegionFacts) (m : (ℓ : Loc nD τ sig) → Buf (Elt Ideal) ℓ) (ρ : Dev nD → PrngReg) (c : Dev nD) :
    W7 m ρ c (Proc.devRef .tc main_arg11) = m ((c.tc : Thread nD τ).loc main_arg11) :=
  (W7_of_ne m ρ c main_arg11 (by decide)).trans (W6_main_arg11 R m ρ c)

theorem W8_main_arg11 (R : RegionFacts) (m : (ℓ : Loc nD τ sig) → Buf (Elt Ideal) ℓ) (ρ : Dev nD → PrngReg) (c : Dev nD) :
    W8 m ρ c (Proc.devRef .tc main_arg11) = m ((c.tc : Thread nD τ).loc main_arg11) :=
  (W8_of_ne m ρ c main_arg11 (by decide)).trans (W7_main_arg11 R m ρ c)

theorem W9_main_arg11 (R : RegionFacts) (m : (ℓ : Loc nD τ sig) → Buf (Elt Ideal) ℓ) (ρ : Dev nD → PrngReg) (c : Dev nD) :
    W9 m ρ c (Proc.devRef .tc main_arg11) = m ((c.tc : Thread nD τ).loc main_arg11) :=
  (W9_of_ne m ρ c main_arg11 (by decide)).trans (W8_main_arg11 R m ρ c)

theorem W10_main_arg11 (R : RegionFacts) (m : (ℓ : Loc nD τ sig) → Buf (Elt Ideal) ℓ) (ρ : Dev nD → PrngReg) (c : Dev nD) :
    W10 m ρ c (Proc.devRef .tc main_arg11) = m ((c.tc : Thread nD τ).loc main_arg11) :=
  (W10_of_ne m ρ c main_arg11 (by decide)).trans (W9_main_arg11 R m ρ c)

theorem W11_main_v277 (R : RegionFacts) (m : (ℓ : Loc nD τ sig) → Buf (Elt Ideal) ℓ) (ρ : Dev nD → PrngReg) (c : Dev nD) :
    W11 m ρ c (Proc.devRef .tc main_v277) = Cert.Spec.sPU (L2 m c).p (edges m c).pu_src (edges m c).pu_dst :=
  (H8_main_v277 (W10 m ρ c)).trans (by
    rw [W10_main_v254_0 R m ρ c, W10_main_arg10 R m ρ c, W10_main_arg11 R m ρ c] <;> rfl)

theorem W7_main_v17 (R : RegionFacts) (m : (ℓ : Loc nD τ sig) → Buf (Elt Ideal) ℓ) (ρ : Dev nD → PrngReg) (c : Dev nD) :
    W7 m ρ c (Proc.devRef .tc main_v17) = Cert.Spec.iPU (edges m c).pu_dst :=
  ((W7_arr m ρ c 3).trans (((dat4 (V6 m ρ) c).arrAt_in 3 rfl _).trans (A_eq4 (V6 m ρ) c 3))).trans (W6_main_v17 R m ρ c)

theorem W8_main_v17 (R : RegionFacts) (m : (ℓ : Loc nD τ sig) → Buf (Elt Ideal) ℓ) (ρ : Dev nD → PrngReg) (c : Dev nD) :
    W8 m ρ c (Proc.devRef .tc main_v17) = Cert.Spec.iPU (edges m c).pu_dst :=
  (W8_of_ne m ρ c main_v17 (by decide)).trans (W7_main_v17 R m ρ c)

theorem W9_main_v17 (R : RegionFacts) (m : (ℓ : Loc nD τ sig) → Buf (Elt Ideal) ℓ) (ρ : Dev nD → PrngReg) (c : Dev nD) :
    W9 m ρ c (Proc.devRef .tc main_v17) = Cert.Spec.iPU (edges m c).pu_dst :=
  (W9_of_ne m ρ c main_v17 (by decide)).trans (W8_main_v17 R m ρ c)

theorem W10_main_v17 (R : RegionFacts) (m : (ℓ : Loc nD τ sig) → Buf (Elt Ideal) ℓ) (ρ : Dev nD → PrngReg) (c : Dev nD) :
    W10 m ρ c (Proc.devRef .tc main_v17) = Cert.Spec.iPU (edges m c).pu_dst :=
  (W10_of_ne m ρ c main_v17 (by decide)).trans (W9_main_v17 R m ρ c)

theorem W11_main_v17 (R : RegionFacts) (m : (ℓ : Loc nD τ sig) → Buf (Elt Ideal) ℓ) (ρ : Dev nD → PrngReg) (c : Dev nD) :
    W11 m ρ c (Proc.devRef .tc main_v17) = Cert.Spec.iPU (edges m c).pu_dst :=
  (keepH8 (W10 m ρ c) main_v17 (by decide)).trans (W10_main_v17 R m ρ c)

theorem W12_main_v344_1 (R : RegionFacts) (m : (ℓ : Loc nD τ sig) → Buf (Elt Ideal) ℓ) (ρ : Dev nD → PrngReg) (c : Dev nD) :
    W12 m ρ c (Proc.devRef .tc main_v344_1) = (A3 m c).u :=
  ((W12_arr m ρ c 6).trans (R.a8 (V11 m ρ) c)).trans (by
    show Cert.SegMean.accum (W11 m ρ c (Proc.devRef .tc main_v252_1)) (Cert.SegMean.meanCat (n := 200000) (W11 m ρ c (Proc.devRef .tc main_v266)) (W11 m ρ c (Proc.devRef .tc main_v8)) (W11 m ρ c (Proc.devRef .tc main_v277)) (W11 m ρ c (Proc.devRef .tc main_v17))) (Ideal.ofBits .f32 0x3E800000#32) = _
    rw [W11_main_v252_1 R m ρ c, W11_main_v266 R m ρ c, W11_main_v8 R m ρ c, W11_main_v277 R m ρ c, W11_main_v17 R m ρ c] <;> rfl)

theorem W13_main_v344_1 (R : RegionFacts) (m : (ℓ : Loc nD τ sig) → Buf (Elt Ideal) ℓ) (ρ : Dev nD → PrngReg) (c : Dev nD) :
    W13 m ρ c (Proc.devRef .tc main_v344_1) = (A3 m c).u :=
  (W13_of_ne m ρ c main_v344_1 (by decide)).trans (W12_main_v344_1 R m ρ c)

theorem W14_main_v344_1 (R : RegionFacts) (m : (ℓ : Loc nD τ sig) → Buf (Elt Ideal) ℓ) (ρ : Dev nD → PrngReg) (c : Dev nD) :
    W14 m ρ c (Proc.devRef .tc main_v344_1) = (A3 m c).u :=
  (W14_of_ne m ρ c main_v344_1 (by decide)).trans (W13_main_v344_1 R m ρ c)

theorem W15_main_v344_1 (R : RegionFacts) (m : (ℓ : Loc nD τ sig) → Buf (Elt Ideal) ℓ) (ρ : Dev nD → PrngReg) (c : Dev nD) :
    W15 m ρ c (Proc.devRef .tc main_v344_1) = (A3 m c).u :=
  (W15_of_ne m ρ c main_v344_1 (by decide)).trans (W14_main_v344_1 R m ρ c)

theorem W1_main_arg1 (R : RegionFacts) (m : (ℓ : Loc nD τ sig) → Buf (Elt Ideal) ℓ) (ρ : Dev nD → PrngReg) (c : Dev nD) :
    W1 m ρ c (Proc.devRef .tc main_arg1) = m ((c.tc : Thread nD τ).loc main_arg1) :=
  (keepH0 (W0 m ρ c) main_arg1 (by decide)).trans (W0_main_arg1 R m ρ c)

theorem W2_main_arg1 (R : RegionFacts) (m : (ℓ : Loc nD τ sig) → Buf (Elt Ideal) ℓ) (ρ : Dev nD → PrngReg) (c : Dev nD) :
    W2 m ρ c (Proc.devRef .tc main_arg1) = m ((c.tc : Thread nD τ).loc main_arg1) :=
  (W2_of_ne m ρ c main_arg1 (by decide)).trans (W1_main_arg1 R m ρ c)

theorem W3_main_v161_1 (R : RegionFacts) (m : (ℓ : Loc nD τ sig) → Buf (Elt Ideal) ℓ) (ρ : Dev nD → PrngReg) (c : Dev nD) :
    W3 m ρ c (Proc.devRef .tc main_v161_1) = (A1 m c).v :=
  ((W3_arr m ρ c 6).trans (R.a1 (V2 m ρ) c)).trans (by
    show Cert.SegMean.accum (W2 m ρ c (Proc.devRef .tc main_arg1)) (Cert.SegMean.meanCat (n := 100000) (W2 m ρ c (Proc.devRef .tc main_v104)) (W2 m ρ c (Proc.devRef .tc main_v26)) (W2 m ρ c (Proc.devRef .tc main_v115)) (W2 m ρ c (Proc.devRef .tc main_v35))) (Ideal.ofBits .f32 0x3F000000#32) = _
    rw [W2_main_arg1 R m ρ c, W2_main_v104 R m ρ c, W2_main_v26 R m ρ c, W2_main_v115 R m ρ c, W2_main_v35 R m ρ c] <;> rfl)

theorem W4_main_v161_1 (R : RegionFacts) (m : (ℓ : Loc nD τ sig) → Buf (Elt Ideal) ℓ) (ρ : Dev nD → PrngReg) (c : Dev nD) :
    W4 m ρ c (Proc.devRef .tc main_v161_1) = (A1 m c).v :=
  (W4_of_ne m ρ c main_v161_1 (by decide)).trans (W3_main_v161_1 R m ρ c)

theorem W5_main_v161_1 (R : RegionFacts) (m : (ℓ : Loc nD τ sig) → Buf (Elt Ideal) ℓ) (ρ : Dev nD → PrngReg) (c : Dev nD) :
    W5 m ρ c (Proc.devRef .tc main_v161_1) = (A1 m c).v :=
  (W5_of_ne m ρ c main_v161_1 (by decide)).trans (W4_main_v161_1 R m ρ c)

theorem W6_main_v161_1 (R : RegionFacts) (m : (ℓ : Loc nD τ sig) → Buf (Elt Ideal) ℓ) (ρ : Dev nD → PrngReg) (c : Dev nD) :
    W6 m ρ c (Proc.devRef .tc main_v161_1) = (A1 m c).v :=
  (keepH4 (W5 m ρ c) main_v161_1 (by decide)).trans (W5_main_v161_1 R m ρ c)

theorem W7_main_v161_1 (R : RegionFacts) (m : (ℓ : Loc nD τ sig) → Buf (Elt Ideal) ℓ) (ρ : Dev nD → PrngReg) (c : Dev nD) :
    W7 m ρ c (Proc.devRef .tc main_v161_1) = (A1 m c).v :=
  (W7_of_ne m ρ c main_v161_1 (by decide)).trans (W6_main_v161_1 R m ρ c)

theorem W8_main_v253_1 (R : RegionFacts) (m : (ℓ : Loc nD τ sig) → Buf (Elt Ideal) ℓ) (ρ : Dev nD → PrngReg) (c : Dev nD) :
    W8 m ρ c (Proc.devRef .tc main_v253_1) = (A2 m c).v :=
  ((W8_arr m ρ c 6).trans (R.a5 (V7 m ρ) c)).trans (by
    show Cert.SegMean.accum (W7 m ρ c (Proc.devRef .tc main_v161_1)) (Cert.SegMean.meanCat (n := 100000) (W7 m ρ c (Proc.devRef .tc main_v196)) (W7 m ρ c (Proc.devRef .tc main_v26)) (W7 m ρ c (Proc.devRef .tc main_v207)) (W7 m ρ c (Proc.devRef .tc main_v35))) (Ideal.ofBits .f32 0x3EAAAAAB#32) = _
    rw [W7_main_v161_1 R m ρ c, W7_main_v196 R m ρ c, W7_main_v26 R m ρ c, W7_main_v207 R m ρ c, W7_main_v35 R m ρ c] <;> rfl)

theorem W9_main_v253_1 (R : RegionFacts) (m : (ℓ : Loc nD τ sig) → Buf (Elt Ideal) ℓ) (ρ : Dev nD → PrngReg) (c : Dev nD) :
    W9 m ρ c (Proc.devRef .tc main_v253_1) = (A2 m c).v :=
  (W9_of_ne m ρ c main_v253_1 (by decide)).trans (W8_main_v253_1 R m ρ c)

theorem W10_main_v253_1 (R : RegionFacts) (m : (ℓ : Loc nD τ sig) → Buf (Elt Ideal) ℓ) (ρ : Dev nD → PrngReg) (c : Dev nD) :
    W10 m ρ c (Proc.devRef .tc main_v253_1) = (A2 m c).v :=
  (W10_of_ne m ρ c main_v253_1 (by decide)).trans (W9_main_v253_1 R m ρ c)

theorem W11_main_v253_1 (R : RegionFacts) (m : (ℓ : Loc nD τ sig) → Buf (Elt Ideal) ℓ) (ρ : Dev nD → PrngReg) (c : Dev nD) :
    W11 m ρ c (Proc.devRef .tc main_v253_1) = (A2 m c).v :=
  (keepH8 (W10 m ρ c) main_v253_1 (by decide)).trans (W10_main_v253_1 R m ρ c)

theorem W12_main_v253_1 (R : RegionFacts) (m : (ℓ : Loc nD τ sig) → Buf (Elt Ideal) ℓ) (ρ : Dev nD → PrngReg) (c : Dev nD) :
    W12 m ρ c (Proc.devRef .tc main_v253_1) = (A2 m c).v :=
  (W12_of_ne m ρ c main_v253_1 (by decide)).trans (W11_main_v253_1 R m ρ c)

theorem W7_main_v252_0 (R : RegionFacts) (m : (ℓ : Loc nD τ sig) → Buf (Elt Ideal) ℓ) (ρ : Dev nD → PrngReg) (c : Dev nD) :
    W7 m ρ c (Proc.devRef .tc main_v252_0) = (L2 m c).u :=
  ((W7_arr m ρ c 5).trans (R.n4 (V6 m ρ) c)).trans (by
    show Cert.SegMean.meanCat (n := 200000) (W6 m ρ c (Proc.devRef .tc main_v174)) (W6 m ρ c (Proc.devRef .tc main_v8)) (W6 m ρ c (Proc.devRef .tc main_v185)) (W6 m ρ c (Proc.devRef .tc main_v17)) = _
    rw [W6_main_v174 R m ρ c, W6_main_v8 R m ρ c, W6_main_v185 R m ρ c, W6_main_v17 R m ρ c] <;> rfl)

theorem W8_main_v252_0 (R : RegionFacts) (m : (ℓ : Loc nD τ sig) → Buf (Elt Ideal) ℓ) (ρ : Dev nD → PrngReg) (c : Dev nD) :
    W8 m ρ c (Proc.devRef .tc main_v252_0) = (L2 m c).u :=
  (W8_of_ne m ρ c main_v252_0 (by decide)).trans (W7_main_v252_0 R m ρ c)

theorem W9_main_v252_0 (R : RegionFacts) (m : (ℓ : Loc nD τ sig) → Buf (Elt Ideal) ℓ) (ρ : Dev nD → PrngReg) (c : Dev nD) :
    W9 m ρ c (Proc.devRef .tc main_v252_0) = (L2 m c).u :=
  (W9_of_ne m ρ c main_v252_0 (by decide)).trans (W8_main_v252_0 R m ρ c)

theorem W10_main_v252_0 (R : RegionFacts) (m : (ℓ : Loc nD τ sig) → Buf (Elt Ideal) ℓ) (ρ : Dev nD → PrngReg) (c : Dev nD) :
    W10 m ρ c (Proc.devRef .tc main_v252_0) = (L2 m c).u :=
  (W10_of_ne m ρ c main_v252_0 (by decide)).trans (W9_main_v252_0 R m ρ c)

theorem W6_main_arg4 (R : RegionFacts) (m : (ℓ : Loc nD τ sig) → Buf (Elt Ideal) ℓ) (ρ : Dev nD → PrngReg) (c : Dev nD) :
    W6 m ρ c (Proc.devRef .tc main_arg4) = m ((c.tc : Thread nD τ).loc main_arg4) :=
  (keepH4 (W5 m ρ c) main_arg4 (by decide)).trans (W5_main_arg4 R m ρ c)

theorem W7_main_arg4 (R : RegionFacts) (m : (ℓ : Loc nD τ sig) → Buf (Elt Ideal) ℓ) (ρ : Dev nD → PrngReg) (c : Dev nD) :
    W7 m ρ c (Proc.devRef .tc main_arg4) = m ((c.tc : Thread nD τ).loc main_arg4) :=
  (W7_of_ne m ρ c main_arg4 (by decide)).trans (W6_main_arg4 R m ρ c)

theorem W8_main_arg4 (R : RegionFacts) (m : (ℓ : Loc nD τ sig) → Buf (Elt Ideal) ℓ) (ρ : Dev nD → PrngReg) (c : Dev nD) :
    W8 m ρ c (Proc.devRef .tc main_arg4) = m ((c.tc : Thread nD τ).loc main_arg4) :=
  (W8_of_ne m ρ c main_arg4 (by decide)).trans (W7_main_arg4 R m ρ c)

theorem W9_main_arg4 (R : RegionFacts) (m : (ℓ : Loc nD τ sig) → Buf (Elt Ideal) ℓ) (ρ : Dev nD → PrngReg) (c : Dev nD) :
    W9 m ρ c (Proc.devRef .tc main_arg4) = m ((c.tc : Thread nD τ).loc main_arg4) :=
  (W9_of_ne m ρ c main_arg4 (by decide)).trans (W8_main_arg4 R m ρ c)

theorem W10_main_arg4 (R : RegionFacts) (m : (ℓ : Loc nD τ sig) → Buf (Elt Ideal) ℓ) (ρ : Dev nD → PrngReg) (c : Dev nD) :
    W10 m ρ c (Proc.devRef .tc main_arg4) = m ((c.tc : Thread nD τ).loc main_arg4) :=
  (W10_of_ne m ρ c main_arg4 (by decide)).trans (W9_main_arg4 R m ρ c)

theorem W6_main_arg5 (R : RegionFacts) (m : (ℓ : Loc nD τ sig) → Buf (Elt Ideal) ℓ) (ρ : Dev nD → PrngReg) (c : Dev nD) :
    W6 m ρ c (Proc.devRef .tc main_arg5) = m ((c.tc : Thread nD τ).loc main_arg5) :=
  (keepH4 (W5 m ρ c) main_arg5 (by decide)).trans (W5_main_arg5 R m ρ c)

theorem W7_main_arg5 (R : RegionFacts) (m : (ℓ : Loc nD τ sig) → Buf (Elt Ideal) ℓ) (ρ : Dev nD → PrngReg) (c : Dev nD) :
    W7 m ρ c (Proc.devRef .tc main_arg5) = m ((c.tc : Thread nD τ).loc main_arg5) :=
  (W7_of_ne m ρ c main_arg5 (by decide)).trans (W6_main_arg5 R m ρ c)

theorem W8_main_arg5 (R : RegionFacts) (m : (ℓ : Loc nD τ sig) → Buf (Elt Ideal) ℓ) (ρ : Dev nD → PrngReg) (c : Dev nD) :
    W8 m ρ c (Proc.devRef .tc main_arg5) = m ((c.tc : Thread nD τ).loc main_arg5) :=
  (W8_of_ne m ρ c main_arg5 (by decide)).trans (W7_main_arg5 R m ρ c)

theorem W9_main_arg5 (R : RegionFacts) (m : (ℓ : Loc nD τ sig) → Buf (Elt Ideal) ℓ) (ρ : Dev nD → PrngReg) (c : Dev nD) :
    W9 m ρ c (Proc.devRef .tc main_arg5) = m ((c.tc : Thread nD τ).loc main_arg5) :=
  (W9_of_ne m ρ c main_arg5 (by decide)).trans (W8_main_arg5 R m ρ c)

theorem W10_main_arg5 (R : RegionFacts) (m : (ℓ : Loc nD τ sig) → Buf (Elt Ideal) ℓ) (ρ : Dev nD → PrngReg) (c : Dev nD) :
    W10 m ρ c (Proc.devRef .tc main_arg5) = m ((c.tc : Thread nD τ).loc main_arg5) :=
  (W10_of_ne m ρ c main_arg5 (by decide)).trans (W9_main_arg5 R m ρ c)

theorem W11_main_v288 (R : RegionFacts) (m : (ℓ : Loc nD τ sig) → Buf (Elt Ideal) ℓ) (ρ : Dev nD → PrngReg) (c : Dev nD) :
    W11 m ρ c (Proc.devRef .tc main_v288) = Cert.Spec.sUV (L2 m c).u (edges m c).uv_src (edges m c).uv_dst :=
  (H8_main_v288 (W10 m ρ c)).trans (by
    rw [W10_main_v252_0 R m ρ c, W10_main_arg4 R m ρ c, W10_main_arg5 R m ρ c] <;> rfl)

theorem W12_main_v288 (R : RegionFacts) (m : (ℓ : Loc nD τ sig) → Buf (Elt Ideal) ℓ) (ρ : Dev nD → PrngReg) (c : Dev nD) :
    W12 m ρ c (Proc.devRef .tc main_v288) = Cert.Spec.sUV (L2 m c).u (edges m c).uv_src (edges m c).uv_dst :=
  (W12_of_ne m ρ c main_v288 (by decide)).trans (W11_main_v288 R m ρ c)

theorem W8_main_v26 (R : RegionFacts) (m : (ℓ : Loc nD τ sig) → Buf (Elt Ideal) ℓ) (ρ : Dev nD → PrngReg) (c : Dev nD) :
    W8 m ρ c (Proc.devRef .tc main_v26) = Cert.Spec.iUV (edges m c).uv_dst :=
  ((W8_arr m ρ c 1).trans (((dat5 (V7 m ρ) c).arrAt_in 1 rfl _).trans (A_eq5 (V7 m ρ) c 1))).trans (W7_main_v26 R m ρ c)

theorem W9_main_v26 (R : RegionFacts) (m : (ℓ : Loc nD τ sig) → Buf (Elt Ideal) ℓ) (ρ : Dev nD → PrngReg) (c : Dev nD) :
    W9 m ρ c (Proc.devRef .tc main_v26) = Cert.Spec.iUV (edges m c).uv_dst :=
  (W9_of_ne m ρ c main_v26 (by decide)).trans (W8_main_v26 R m ρ c)

theorem W10_main_v26 (R : RegionFacts) (m : (ℓ : Loc nD τ sig) → Buf (Elt Ideal) ℓ) (ρ : Dev nD → PrngReg) (c : Dev nD) :
    W10 m ρ c (Proc.devRef .tc main_v26) = Cert.Spec.iUV (edges m c).uv_dst :=
  (W10_of_ne m ρ c main_v26 (by decide)).trans (W9_main_v26 R m ρ c)

theorem W11_main_v26 (R : RegionFacts) (m : (ℓ : Loc nD τ sig) → Buf (Elt Ideal) ℓ) (ρ : Dev nD → PrngReg) (c : Dev nD) :
    W11 m ρ c (Proc.devRef .tc main_v26) = Cert.Spec.iUV (edges m c).uv_dst :=
  (keepH8 (W10 m ρ c) main_v26 (by decide)).trans (W10_main_v26 R m ρ c)

theorem W12_main_v26 (R : RegionFacts) (m : (ℓ : Loc nD τ sig) → Buf (Elt Ideal) ℓ) (ρ : Dev nD → PrngReg) (c : Dev nD) :
    W12 m ρ c (Proc.devRef .tc main_v26) = Cert.Spec.iUV (edges m c).uv_dst :=
  (W12_of_ne m ρ c main_v26 (by decide)).trans (W11_main_v26 R m ρ c)

theorem W1_main_arg12 (R : RegionFacts) (m : (ℓ : Loc nD τ sig) → Buf (Elt Ideal) ℓ) (ρ : Dev nD → PrngReg) (c : Dev nD) :
    W1 m ρ c (Proc.devRef .tc main_arg12) = m ((c.tc : Thread nD τ).loc main_arg12) :=
  (keepH0 (W0 m ρ c) main_arg12 (by decide)).trans (W0_main_arg12 R m ρ c)

theorem W2_main_arg12 (R : RegionFacts) (m : (ℓ : Loc nD τ sig) → Buf (Elt Ideal) ℓ) (ρ : Dev nD → PrngReg) (c : Dev nD) :
    W2 m ρ c (Proc.devRef .tc main_arg12) = m ((c.tc : Thread nD τ).loc main_arg12) :=
  (W2_of_ne m ρ c main_arg12 (by decide)).trans (W1_main_arg12 R m ρ c)

theorem W3_main_arg12 (R : RegionFacts) (m : (ℓ : Loc nD τ sig) → Buf (Elt Ideal) ℓ) (ρ : Dev nD → PrngReg) (c : Dev nD) :
    W3 m ρ c (Proc.devRef .tc main_arg12) = m ((c.tc : Thread nD τ).loc main_arg12) :=
  (W3_of_ne m ρ c main_arg12 (by decide)).trans (W2_main_arg12 R m ρ c)

theorem W4_main_arg12 (R : RegionFacts) (m : (ℓ : Loc nD τ sig) → Buf (Elt Ideal) ℓ) (ρ : Dev nD → PrngReg) (c : Dev nD) :
    W4 m ρ c (Proc.devRef .tc main_arg12) = m ((c.tc : Thread nD τ).loc main_arg12) :=
  (W4_of_ne m ρ c main_arg12 (by decide)).trans (W3_main_arg12 R m ρ c)

theorem W5_main_arg12 (R : RegionFacts) (m : (ℓ : Loc nD τ sig) → Buf (Elt Ideal) ℓ) (ρ : Dev nD → PrngReg) (c : Dev nD) :
    W5 m ρ c (Proc.devRef .tc main_arg12) = m ((c.tc : Thread nD τ).loc main_arg12) :=
  (W5_of_ne m ρ c main_arg12 (by decide)).trans (W4_main_arg12 R m ρ c)

theorem W1_main_arg13 (R : RegionFacts) (m : (ℓ : Loc nD τ sig) → Buf (Elt Ideal) ℓ) (ρ : Dev nD → PrngReg) (c : Dev nD) :
    W1 m ρ c (Proc.devRef .tc main_arg13) = m ((c.tc : Thread nD τ).loc main_arg13) :=
  (keepH0 (W0 m ρ c) main_arg13 (by decide)).trans (W0_main_arg13 R m ρ c)

theorem W2_main_arg13 (R : RegionFacts) (m : (ℓ : Loc nD τ sig) → Buf (Elt Ideal) ℓ) (ρ : Dev nD → PrngReg) (c : Dev nD) :
    W2 m ρ c (Proc.devRef .tc main_arg13) = m ((c.tc : Thread nD τ).loc main_arg13) :=
  (W2_of_ne m ρ c main_arg13 (by decide)).trans (W1_main_arg13 R m ρ c)

theorem W3_main_arg13 (R : RegionFacts) (m : (ℓ : Loc nD τ sig) → Buf (Elt Ideal) ℓ) (ρ : Dev nD → PrngReg) (c : Dev nD) :
    W3 m ρ c (Proc.devRef .tc main_arg13) = m ((c.tc : Thread nD τ).loc main_arg13) :=
  (W3_of_ne m ρ c main_arg13 (by decide)).trans (W2_main_arg13 R m ρ c)

theorem W4_main_arg13 (R : RegionFacts) (m : (ℓ : Loc nD τ sig) → Buf (Elt Ideal) ℓ) (ρ : Dev nD → PrngReg) (c : Dev nD) :
    W4 m ρ c (Proc.devRef .tc main_arg13) = m ((c.tc : Thread nD τ).loc main_arg13) :=
  (W4_of_ne m ρ c main_arg13 (by decide)).trans (W3_main_arg13 R m ρ c)

theorem W5_main_arg13 (R : RegionFacts) (m : (ℓ : Loc nD τ sig) → Buf (Elt Ideal) ℓ) (ρ : Dev nD → PrngReg) (c : Dev nD) :
    W5 m ρ c (Proc.devRef .tc main_arg13) = m ((c.tc : Thread nD τ).loc main_arg13) :=
  (W5_of_ne m ρ c main_arg13 (by decide)).trans (W4_main_arg13 R m ρ c)

theorem W6_main_v240 (R : RegionFacts) (m : (ℓ : Loc nD τ sig) → Buf (Elt Ideal) ℓ) (ρ : Dev nD → PrngReg) (c : Dev nD) :
    W6 m ρ c (Proc.devRef .tc main_v240) = Cert.Spec.sVT (L1 m c).v (edges m c).vt_src (edges m c).vt_dst :=
  (H4_main_v240 (W5 m ρ c)).trans (by
    rw [W5_main_v161_0 R m ρ c, W5_main_arg12 R m ρ c, W5_main_arg13 R m ρ c] <;> rfl)

theorem W7_main_v240 (R : RegionFacts) (m : (ℓ : Loc nD τ sig) → Buf (Elt Ideal) ℓ) (ρ : Dev nD → PrngReg) (c : Dev nD) :
    W7 m ρ c (Proc.devRef .tc main_v240) = Cert.Spec.sVT (L1 m c).v (edges m c).vt_src (edges m c).vt_dst :=
  (W7_of_ne m ρ c main_v240 (by decide)).trans (W6_main_v240 R m ρ c)

theorem W8_main_v240 (R : RegionFacts) (m : (ℓ : Loc nD τ sig) → Buf (Elt Ideal) ℓ) (ρ : Dev nD → PrngReg) (c : Dev nD) :
    W8 m ρ c (Proc.devRef .tc main_v240) = Cert.Spec.sVT (L1 m c).v (edges m c).vt_src (edges m c).vt_dst :=
  (W8_of_ne m ρ c main_v240 (by decide)).trans (W7_main_v240 R m ρ c)

theorem W9_main_v240 (R : RegionFacts) (m : (ℓ : Loc nD τ sig) → Buf (Elt Ideal) ℓ) (ρ : Dev nD → PrngReg) (c : Dev nD) :
    W9 m ρ c (Proc.devRef .tc main_v240) = Cert.Spec.sVT (L1 m c).v (edges m c).vt_src (edges m c).vt_dst :=
  (W9_of_ne m ρ c main_v240 (by decide)).trans (W8_main_v240 R m ρ c)

theorem W5_main_v62 (R : RegionFacts) (m : (ℓ : Loc nD τ sig) → Buf (Elt Ideal) ℓ) (ρ : Dev nD → PrngReg) (c : Dev nD) :
    W5 m ρ c (Proc.devRef .tc main_v62) = Cert.Spec.iVT (edges m c).vt_dst :=
  ((W5_arr m ρ c 1).trans (((dat3 (V4 m ρ) c).arrAt_in 1 rfl _).trans (A_eq3 (V4 m ρ) c 1))).trans (W4_main_v62 R m ρ c)

theorem W6_main_v62 (R : RegionFacts) (m : (ℓ : Loc nD τ sig) → Buf (Elt Ideal) ℓ) (ρ : Dev nD → PrngReg) (c : Dev nD) :
    W6 m ρ c (Proc.devRef .tc main_v62) = Cert.Spec.iVT (edges m c).vt_dst :=
  (keepH4 (W5 m ρ c) main_v62 (by decide)).trans (W5_main_v62 R m ρ c)

theorem W7_main_v62 (R : RegionFacts) (m : (ℓ : Loc nD τ sig) → Buf (Elt Ideal) ℓ) (ρ : Dev nD → PrngReg) (c : Dev nD) :
    W7 m ρ c (Proc.devRef .tc main_v62) = Cert.Spec.iVT (edges m c).vt_dst :=
  (W7_of_ne m ρ c main_v62 (by decide)).trans (W6_main_v62 R m ρ c)

theorem W8_main_v62 (R : RegionFacts) (m : (ℓ : Loc nD τ sig) → Buf (Elt Ideal) ℓ) (ρ : Dev nD → PrngReg) (c : Dev nD) :
    W8 m ρ c (Proc.devRef .tc main_v62) = Cert.Spec.iVT (edges m c).vt_dst :=
  (W8_of_ne m ρ c main_v62 (by decide)).trans (W7_main_v62 R m ρ c)

theorem W9_main_v62 (R : RegionFacts) (m : (ℓ : Loc nD τ sig) → Buf (Elt Ideal) ℓ) (ρ : Dev nD → PrngReg) (c : Dev nD) :
    W9 m ρ c (Proc.devRef .tc main_v62) = Cert.Spec.iVT (edges m c).vt_dst :=
  (W9_of_ne m ρ c main_v62 (by decide)).trans (W8_main_v62 R m ρ c)

theorem W1_main_arg16 (R : RegionFacts) (m : (ℓ : Loc nD τ sig) → Buf (Elt Ideal) ℓ) (ρ : Dev nD → PrngReg) (c : Dev nD) :
    W1 m ρ c (Proc.devRef .tc main_arg16) = m ((c.tc : Thread nD τ).loc main_arg16) :=
  (keepH0 (W0 m ρ c) main_arg16 (by decide)).trans (W0_main_arg16 R m ρ c)

theorem W2_main_arg16 (R : RegionFacts) (m : (ℓ : Loc nD τ sig) → Buf (Elt Ideal) ℓ) (ρ : Dev nD → PrngReg) (c : Dev nD) :
    W2 m ρ c (Proc.devRef .tc main_arg16) = m ((c.tc : Thread nD τ).loc main_arg16) :=
  (W2_of_ne m ρ c main_arg16 (by decide)).trans (W1_main_arg16 R m ρ c)

theorem W3_main_arg16 (R : RegionFacts) (m : (ℓ : Loc nD τ sig) → Buf (Elt Ideal) ℓ) (ρ : Dev nD → PrngReg) (c : Dev nD) :
    W3 m ρ c (Proc.devRef .tc main_arg16) = m ((c.tc : Thread nD τ).loc main_arg16) :=
  (W3_of_ne m ρ c main_arg16 (by decide)).trans (W2_main_arg16 R m ρ c)

theorem W4_main_arg16 (R : RegionFacts) (m : (ℓ : Loc nD τ sig) → Buf (Elt Ideal) ℓ) (ρ : Dev nD → PrngReg) (c : Dev nD) :
    W4 m ρ c (Proc.devRef .tc main_arg16) = m ((c.tc : Thread nD τ).loc main_arg16) :=
  (W4_of_ne m ρ c main_arg16 (by decide)).trans (W3_main_arg16 R m ρ c)

theorem W5_main_arg16 (R : RegionFacts) (m : (ℓ : Loc nD τ sig) → Buf (Elt Ideal) ℓ) (ρ : Dev nD → PrngReg) (c : Dev nD) :
    W5 m ρ c (Proc.devRef .tc main_arg16) = m ((c.tc : Thread nD τ).loc main_arg16) :=
  (W5_of_ne m ρ c main_arg16 (by decide)).trans (W4_main_arg16 R m ρ c)

theorem W1_main_arg17 (R : RegionFacts) (m : (ℓ : Loc nD τ sig) → Buf (Elt Ideal) ℓ) (ρ : Dev nD → PrngReg) (c : Dev nD) :
    W1 m ρ c (Proc.devRef .tc main_arg17) = m ((c.tc : Thread nD τ).loc main_arg17) :=
  (keepH0 (W0 m ρ c) main_arg17 (by decide)).trans (W0_main_arg17 R m ρ c)

theorem W2_main_arg17 (R : RegionFacts) (m : (ℓ : Loc nD τ sig) → Buf (Elt Ideal) ℓ) (ρ : Dev nD → PrngReg) (c : Dev nD) :
    W2 m ρ c (Proc.devRef .tc main_arg17) = m ((c.tc : Thread nD τ).loc main_arg17) :=
  (W2_of_ne m ρ c main_arg17 (by decide)).trans (W1_main_arg17 R m ρ c)

theorem W3_main_arg17 (R : RegionFacts) (m : (ℓ : Loc nD τ sig) → Buf (Elt Ideal) ℓ) (ρ : Dev nD → PrngReg) (c : Dev nD) :
    W3 m ρ c (Proc.devRef .tc main_arg17) = m ((c.tc : Thread nD τ).loc main_arg17) :=
  (W3_of_ne m ρ c main_arg17 (by decide)).trans (W2_main_arg17 R m ρ c)

theorem W4_main_arg17 (R : RegionFacts) (m : (ℓ : Loc nD τ sig) → Buf (Elt Ideal) ℓ) (ρ : Dev nD → PrngReg) (c : Dev nD) :
    W4 m ρ c (Proc.devRef .tc main_arg17) = m ((c.tc : Thread nD τ).loc main_arg17) :=
  (W4_of_ne m ρ c main_arg17 (by decide)).trans (W3_main_arg17 R m ρ c)

theorem W5_main_arg17 (R : RegionFacts) (m : (ℓ : Loc nD τ sig) → Buf (Elt Ideal) ℓ) (ρ : Dev nD → PrngReg) (c : Dev nD) :
    W5 m ρ c (Proc.devRef .tc main_arg17) = m ((c.tc : Thread nD τ).loc main_arg17) :=
  (W5_of_ne m ρ c main_arg17 (by decide)).trans (W4_main_arg17 R m ρ c)

theorem W6_main_v251 (R : RegionFacts) (m : (ℓ : Loc nD τ sig) → Buf (Elt Ideal) ℓ) (ρ : Dev nD → PrngReg) (c : Dev nD) :
    W6 m ρ c (Proc.devRef .tc main_v251) = Cert.Spec.sPT (L1 m c).p (edges m c).pt_src (edges m c).pt_dst :=
  (H4_main_v251 (W5 m ρ c)).trans (by
    rw [W5_main_v162_0 R m ρ c, W5_main_arg16 R m ρ c, W5_main_arg17 R m ρ c] <;> rfl)

theorem W7_main_v251 (R : RegionFacts) (m : (ℓ : Loc nD τ sig) → Buf (Elt Ideal) ℓ) (ρ : Dev nD → PrngReg) (c : Dev nD) :
    W7 m ρ c (Proc.devRef .tc main_v251) = Cert.Spec.sPT (L1 m c).p (edges m c).pt_src (edges m c).pt_dst :=
  (W7_of_ne m ρ c main_v251 (by decide)).trans (W6_main_v251 R m ρ c)

theorem W8_main_v251 (R : RegionFacts) (m : (ℓ : Loc nD τ sig) → Buf (Elt Ideal) ℓ) (ρ : Dev nD → PrngReg) (c : Dev nD) :
    W8 m ρ c (Proc.devRef .tc main_v251) = Cert.Spec.sPT (L1 m c).p (edges m c).pt_src (edges m c).pt_dst :=
  (W8_of_ne m ρ c main_v251 (by decide)).trans (W7_main_v251 R m ρ c)

theorem W9_main_v251 (R : RegionFacts) (m : (ℓ : Loc nD τ sig) → Buf (Elt Ideal) ℓ) (ρ : Dev nD → PrngReg) (c : Dev nD) :
    W9 m ρ c (Proc.devRef .tc main_v251) = Cert.Spec.sPT (L1 m c).p (edges m c).pt_src (edges m c).pt_dst :=
  (W9_of_ne m ρ c main_v251 (by decide)).trans (W8_main_v251 R m ρ c)

theorem W5_main_v71 (R : RegionFacts) (m : (ℓ : Loc nD τ sig) → Buf (Elt Ideal) ℓ) (ρ : Dev nD → PrngReg) (c : Dev nD) :
    W5 m ρ c (Proc.devRef .tc main_v71) = Cert.Spec.iPT (edges m c).pt_dst :=
  ((W5_arr m ρ c 3).trans (((dat3 (V4 m ρ) c).arrAt_in 3 rfl _).trans (A_eq3 (V4 m ρ) c 3))).trans (W4_main_v71 R m ρ c)

theorem W6_main_v71 (R : RegionFacts) (m : (ℓ : Loc nD τ sig) → Buf (Elt Ideal) ℓ) (ρ : Dev nD → PrngReg) (c : Dev nD) :
    W6 m ρ c (Proc.devRef .tc main_v71) = Cert.Spec.iPT (edges m c).pt_dst :=
  (keepH4 (W5 m ρ c) main_v71 (by decide)).trans (W5_main_v71 R m ρ c)

theorem W7_main_v71 (R : RegionFacts) (m : (ℓ : Loc nD τ sig) → Buf (Elt Ideal) ℓ) (ρ : Dev nD → PrngReg) (c : Dev nD) :
    W7 m ρ c (Proc.devRef .tc main_v71) = Cert.Spec.iPT (edges m c).pt_dst :=
  (W7_of_ne m ρ c main_v71 (by decide)).trans (W6_main_v71 R m ρ c)

theorem W8_main_v71 (R : RegionFacts) (m : (ℓ : Loc nD τ sig) → Buf (Elt Ideal) ℓ) (ρ : Dev nD → PrngReg) (c : Dev nD) :
    W8 m ρ c (Proc.devRef .tc main_v71) = Cert.Spec.iPT (edges m c).pt_dst :=
  (W8_of_ne m ρ c main_v71 (by decide)).trans (W7_main_v71 R m ρ c)

theorem W9_main_v71 (R : RegionFacts) (m : (ℓ : Loc nD τ sig) → Buf (Elt Ideal) ℓ) (ρ : Dev nD → PrngReg) (c : Dev nD) :
    W9 m ρ c (Proc.devRef .tc main_v71) = Cert.Spec.iPT (edges m c).pt_dst :=
  (W9_of_ne m ρ c main_v71 (by decide)).trans (W8_main_v71 R m ρ c)

theorem W10_main_v255_0 (R : RegionFacts) (m : (ℓ : Loc nD τ sig) → Buf (Elt Ideal) ℓ) (ρ : Dev nD → PrngReg) (c : Dev nD) :
    W10 m ρ c (Proc.devRef .tc main_v255_0) = (L2 m c).t :=
  ((W10_arr m ρ c 5).trans (R.n7 (V9 m ρ) c)).trans (by
    show Cert.SegMean.meanCat (n := 5000) (W9 m ρ c (Proc.devRef .tc main_v240)) (W9 m ρ c (Proc.devRef .tc main_v62)) (W9 m ρ c (Proc.devRef .tc main_v251)) (W9 m ρ c (Proc.devRef .tc main_v71)) = _
    rw [W9_main_v240 R m ρ c, W9_main_v62 R m ρ c, W9_main_v251 R m ρ c, W9_main_v71 R m ρ c] <;> rfl)

theorem W6_main_arg14 (R : RegionFacts) (m : (ℓ : Loc nD τ sig) → Buf (Elt Ideal) ℓ) (ρ : Dev nD → PrngReg) (c : Dev nD) :
    W6 m ρ c (Proc.devRef .tc main_arg14) = m ((c.tc : Thread nD τ).loc main_arg14) :=
  (keepH4 (W5 m ρ c) main_arg14 (by decide)).trans (W5_main_arg14 R m ρ c)

theorem W7_main_arg14 (R : RegionFacts) (m : (ℓ : Loc nD τ sig) → Buf (Elt Ideal) ℓ) (ρ : Dev nD → PrngReg) (c : Dev nD) :
    W7 m ρ c (Proc.devRef .tc main_arg14) = m ((c.tc : Thread nD τ).loc main_arg14) :=
  (W7_of_ne m ρ c main_arg14 (by decide)).trans (W6_main_arg14 R m ρ c)

theorem W8_main_arg14 (R : RegionFacts) (m : (ℓ : Loc nD τ sig) → Buf (Elt Ideal) ℓ) (ρ : Dev nD → PrngReg) (c : Dev nD) :
    W8 m ρ c (Proc.devRef .tc main_arg14) = m ((c.tc : Thread nD τ).loc main_arg14) :=
  (W8_of_ne m ρ c main_arg14 (by decide)).trans (W7_main_arg14 R m ρ c)

theorem W9_main_arg14 (R : RegionFacts) (m : (ℓ : Loc nD τ sig) → Buf (Elt Ideal) ℓ) (ρ : Dev nD → PrngReg) (c : Dev nD) :
    W9 m ρ c (Proc.devRef .tc main_arg14) = m ((c.tc : Thread nD τ).loc main_arg14) :=
  (W9_of_ne m ρ c main_arg14 (by decide)).trans (W8_main_arg14 R m ρ c)

theorem W10_main_arg14 (R : RegionFacts) (m : (ℓ : Loc nD τ sig) → Buf (Elt Ideal) ℓ) (ρ : Dev nD → PrngReg) (c : Dev nD) :
    W10 m ρ c (Proc.devRef .tc main_arg14) = m ((c.tc : Thread nD τ).loc main_arg14) :=
  (W10_of_ne m ρ c main_arg14 (by decide)).trans (W9_main_arg14 R m ρ c)

theorem W6_main_arg15 (R : RegionFacts) (m : (ℓ : Loc nD τ sig) → Buf (Elt Ideal) ℓ) (ρ : Dev nD → PrngReg) (c : Dev nD) :
    W6 m ρ c (Proc.devRef .tc main_arg15) = m ((c.tc : Thread nD τ).loc main_arg15) :=
  (keepH4 (W5 m ρ c) main_arg15 (by decide)).trans (W5_main_arg15 R m ρ c)

theorem W7_main_arg15 (R : RegionFacts) (m : (ℓ : Loc nD τ sig) → Buf (Elt Ideal) ℓ) (ρ : Dev nD → PrngReg) (c : Dev nD) :
    W7 m ρ c (Proc.devRef .tc main_arg15) = m ((c.tc : Thread nD τ).loc main_arg15) :=
  (W7_of_ne m ρ c main_arg15 (by decide)).trans (W6_main_arg15 R m ρ c)

theorem W8_main_arg15 (R : RegionFacts) (m : (ℓ : Loc nD τ sig) → Buf (Elt Ideal) ℓ) (ρ : Dev nD → PrngReg) (c : Dev nD) :
    W8 m ρ c (Proc.devRef .tc main_arg15) = m ((c.tc : Thread nD τ).loc main_arg15) :=
  (W8_of_ne m ρ c main_arg15 (by decide)).trans (W7_main_arg15 R m ρ c)

theorem W9_main_arg15 (R : RegionFacts) (m : (ℓ : Loc nD τ sig) → Buf (Elt Ideal) ℓ) (ρ : Dev nD → PrngReg) (c : Dev nD) :
    W9 m ρ c (Proc.devRef .tc main_arg15) = m ((c.tc : Thread nD τ).loc main_arg15) :=
  (W9_of_ne m ρ c main_arg15 (by decide)).trans (W8_main_arg15 R m ρ c)

theorem W10_main_arg15 (R : RegionFacts) (m : (ℓ : Loc nD τ sig) → Buf (Elt Ideal) ℓ) (ρ : Dev nD → PrngReg) (c : Dev nD) :
    W10 m ρ c (Proc.devRef .tc main_arg15) = m ((c.tc : Thread nD τ).loc main_arg15) :=
  (W10_of_ne m ρ c main_arg15 (by decide)).trans (W9_main_arg15 R m ρ c)

theorem W11_main_v299 (R : RegionFacts) (m : (ℓ : Loc nD τ sig) → Buf (Elt Ideal) ℓ) (ρ : Dev nD → PrngReg) (c : Dev nD) :
    W11 m ρ c (Proc.devRef .tc main_v299) = Cert.Spec.sTV (L2 m c).t (edges m c).tv_src (edges m c).tv_dst :=
  (H8_main_v299 (W10 m ρ c)).trans (by
    rw [W10_main_v255_0 R m ρ c, W10_main_arg14 R m ρ c, W10_main_arg15 R m ρ c] <;> rfl)

theorem W12_main_v299 (R : RegionFacts) (m : (ℓ : Loc nD τ sig) → Buf (Elt Ideal) ℓ) (ρ : Dev nD → PrngReg) (c : Dev nD) :
    W12 m ρ c (Proc.devRef .tc main_v299) = Cert.Spec.sTV (L2 m c).t (edges m c).tv_src (edges m c).tv_dst :=
  (W12_of_ne m ρ c main_v299 (by decide)).trans (W11_main_v299 R m ρ c)

theorem W8_main_v35 (R : RegionFacts) (m : (ℓ : Loc nD τ sig) → Buf (Elt Ideal) ℓ) (ρ : Dev nD → PrngReg) (c : Dev nD) :
    W8 m ρ c (Proc.devRef .tc main_v35) = Cert.Spec.iTV (edges m c).tv_dst :=
  ((W8_arr m ρ c 3).trans (((dat5 (V7 m ρ) c).arrAt_in 3 rfl _).trans (A_eq5 (V7 m ρ) c 3))).trans (W7_main_v35 R m ρ c)

theorem W9_main_v35 (R : RegionFacts) (m : (ℓ : Loc nD τ sig) → Buf (Elt Ideal) ℓ) (ρ : Dev nD → PrngReg) (c : Dev nD) :
    W9 m ρ c (Proc.devRef .tc main_v35) = Cert.Spec.iTV (edges m c).tv_dst :=
  (W9_of_ne m ρ c main_v35 (by decide)).trans (W8_main_v35 R m ρ c)

theorem W10_main_v35 (R : RegionFacts) (m : (ℓ : Loc nD τ sig) → Buf (Elt Ideal) ℓ) (ρ : Dev nD → PrngReg) (c : Dev nD) :
    W10 m ρ c (Proc.devRef .tc main_v35) = Cert.Spec.iTV (edges m c).tv_dst :=
  (W10_of_ne m ρ c main_v35 (by decide)).trans (W9_main_v35 R m ρ c)

theorem W11_main_v35 (R : RegionFacts) (m : (ℓ : Loc nD τ sig) → Buf (Elt Ideal) ℓ) (ρ : Dev nD → PrngReg) (c : Dev nD) :
    W11 m ρ c (Proc.devRef .tc main_v35) = Cert.Spec.iTV (edges m c).tv_dst :=
  (keepH8 (W10 m ρ c) main_v35 (by decide)).trans (W10_main_v35 R m ρ c)

theorem W12_main_v35 (R : RegionFacts) (m : (ℓ : Loc nD τ sig) → Buf (Elt Ideal) ℓ) (ρ : Dev nD → PrngReg) (c : Dev nD) :
    W12 m ρ c (Proc.devRef .tc main_v35) = Cert.Spec.iTV (edges m c).tv_dst :=
  (W12_of_ne m ρ c main_v35 (by decide)).trans (W11_main_v35 R m ρ c)

theorem W13_main_v345_1 (R : RegionFacts) (m : (ℓ : Loc nD τ sig) → Buf (Elt Ideal) ℓ) (ρ : Dev nD → PrngReg) (c : Dev nD) :
    W13 m ρ c (Proc.devRef .tc main_v345_1) = (A3 m c).v :=
  ((W13_arr m ρ c 6).trans (R.a9 (V12 m ρ) c)).trans (by
    show Cert.SegMean.accum (W12 m ρ c (Proc.devRef .tc main_v253_1)) (Cert.SegMean.meanCat (n := 100000) (W12 m ρ c (Proc.devRef .tc main_v288)) (W12 m ρ c (Proc.devRef .tc main_v26)) (W12 m ρ c (Proc.devRef .tc main_v299)) (W12 m ρ c (Proc.devRef .tc main_v35))) (Ideal.ofBits .f32 0x3E800000#32) = _
    rw [W12_main_v253_1 R m ρ c, W12_main_v288 R m ρ c, W12_main_v26 R m ρ c, W12_main_v299 R m ρ c, W12_main_v35 R m ρ c] <;> rfl)

theorem W14_main_v345_1 (R : RegionFacts) (m : (ℓ : Loc nD τ sig) → Buf (Elt Ideal) ℓ) (ρ : Dev nD → PrngReg) (c : Dev nD) :
    W14 m ρ c (Proc.devRef .tc main_v345_1) = (A3 m c).v :=
  (W14_of_ne m ρ c main_v345_1 (by decide)).trans (W13_main_v345_1 R m ρ c)

theorem W15_main_v345_1 (R : RegionFacts) (m : (ℓ : Loc nD τ sig) → Buf (Elt Ideal) ℓ) (ρ : Dev nD → PrngReg) (c : Dev nD) :
    W15 m ρ c (Proc.devRef .tc main_v345_1) = (A3 m c).v :=
  (W15_of_ne m ρ c main_v345_1 (by decide)).trans (W14_main_v345_1 R m ρ c)

theorem W1_main_arg2 (R : RegionFacts) (m : (ℓ : Loc nD τ sig) → Buf (Elt Ideal) ℓ) (ρ : Dev nD → PrngReg) (c : Dev nD) :
    W1 m ρ c (Proc.devRef .tc main_arg2) = m ((c.tc : Thread nD τ).loc main_arg2) :=
  (keepH0 (W0 m ρ c) main_arg2 (by decide)).trans (W0_main_arg2 R m ρ c)

theorem W2_main_arg2 (R : RegionFacts) (m : (ℓ : Loc nD τ sig) → Buf (Elt Ideal) ℓ) (ρ : Dev nD → PrngReg) (c : Dev nD) :
    W2 m ρ c (Proc.devRef .tc main_arg2) = m ((c.tc : Thread nD τ).loc main_arg2) :=
  (W2_of_ne m ρ c main_arg2 (by decide)).trans (W1_main_arg2 R m ρ c)

theorem W3_main_arg2 (R : RegionFacts) (m : (ℓ : Loc nD τ sig) → Buf (Elt Ideal) ℓ) (ρ : Dev nD → PrngReg) (c : Dev nD) :
    W3 m ρ c (Proc.devRef .tc main_arg2) = m ((c.tc : Thread nD τ).loc main_arg2) :=
  (W3_of_ne m ρ c main_arg2 (by decide)).trans (W2_main_arg2 R m ρ c)

theorem W4_main_v162_1 (R : RegionFacts) (m : (ℓ : Loc nD τ sig) → Buf (Elt Ideal) ℓ) (ρ : Dev nD → PrngReg) (c : Dev nD) :
    W4 m ρ c (Proc.devRef .tc main_v162_1) = (A1 m c).p :=
  ((W4_arr m ρ c 6).trans (R.a2 (V3 m ρ) c)).trans (by
    show Cert.SegMean.accum (W3 m ρ c (Proc.devRef .tc main_arg2)) (Cert.SegMean.meanCat (n := 20000) (W3 m ρ c (Proc.devRef .tc main_v126)) (W3 m ρ c (Proc.devRef .tc main_v44)) (W3 m ρ c (Proc.devRef .tc main_v137)) (W3 m ρ c (Proc.devRef .tc main_v53))) (Ideal.ofBits .f32 0x3F000000#32) = _
    rw [W3_main_arg2 R m ρ c, W3_main_v126 R m ρ c, W3_main_v44 R m ρ c, W3_main_v137 R m ρ c, W3_main_v53 R m ρ c] <;> rfl)

theorem W5_main_v162_1 (R : RegionFacts) (m : (ℓ : Loc nD τ sig) → Buf (Elt Ideal) ℓ) (ρ : Dev nD → PrngReg) (c : Dev nD) :
    W5 m ρ c (Proc.devRef .tc main_v162_1) = (A1 m c).p :=
  (W5_of_ne m ρ c main_v162_1 (by decide)).trans (W4_main_v162_1 R m ρ c)

theorem W6_main_v162_1 (R : RegionFacts) (m : (ℓ : Loc nD τ sig) → Buf (Elt Ideal) ℓ) (ρ : Dev nD → PrngReg) (c : Dev nD) :
    W6 m ρ c (Proc.devRef .tc main_v162_1) = (A1 m c).p :=
  (keepH4 (W5 m ρ c) main_v162_1 (by decide)).trans (W5_main_v162_1 R m ρ c)

theorem W7_main_v162_1 (R : RegionFacts) (m : (ℓ : Loc nD τ sig) → Buf (Elt Ideal) ℓ) (ρ : Dev nD → PrngReg) (c : Dev nD) :
    W7 m ρ c (Proc.devRef .tc main_v162_1) = (A1 m c).p :=
  (W7_of_ne m ρ c main_v162_1 (by decide)).trans (W6_main_v162_1 R m ρ c)

theorem W8_main_v162_1 (R : RegionFacts) (m : (ℓ : Loc nD τ sig) → Buf (Elt Ideal) ℓ) (ρ : Dev nD → PrngReg) (c : Dev nD) :
    W8 m ρ c (Proc.devRef .tc main_v162_1) = (A1 m c).p :=
  (W8_of_ne m ρ c main_v162_1 (by decide)).trans (W7_main_v162_1 R m ρ c)

theorem W9_main_v254_1 (R : RegionFacts) (m : (ℓ : Loc nD τ sig) → Buf (Elt Ideal) ℓ) (ρ : Dev nD → PrngReg) (c : Dev nD) :
    W9 m ρ c (Proc.devRef .tc main_v254_1) = (A2 m c).p :=
  ((W9_arr m ρ c 6).trans (R.a6 (V8 m ρ) c)).trans (by
    show Cert.SegMean.accum (W8 m ρ c (Proc.devRef .tc main_v162_1)) (Cert.SegMean.meanCat (n := 20000) (W8 m ρ c (Proc.devRef .tc main_v218)) (W8 m ρ c (Proc.devRef .tc main_v44)) (W8 m ρ c (Proc.devRef .tc main_v229)) (W8 m ρ c (Proc.devRef .tc main_v53))) (Ideal.ofBits .f32 0x3EAAAAAB#32) = _
    rw [W8_main_v162_1 R m ρ c, W8_main_v218 R m ρ c, W8_main_v44 R m ρ c, W8_main_v229 R m ρ c, W8_main_v53 R m ρ c] <;> rfl)

theorem W10_main_v254_1 (R : RegionFacts) (m : (ℓ : Loc nD τ sig) → Buf (Elt Ideal) ℓ) (ρ : Dev nD → PrngReg) (c : Dev nD) :
    W10 m ρ c (Proc.devRef .tc main_v254_1) = (A2 m c).p :=
  (W10_of_ne m ρ c main_v254_1 (by decide)).trans (W9_main_v254_1 R m ρ c)

theorem W11_main_v254_1 (R : RegionFacts) (m : (ℓ : Loc nD τ sig) → Buf (Elt Ideal) ℓ) (ρ : Dev nD → PrngReg) (c : Dev nD) :
    W11 m ρ c (Proc.devRef .tc main_v254_1) = (A2 m c).p :=
  (keepH8 (W10 m ρ c) main_v254_1 (by decide)).trans (W10_main_v254_1 R m ρ c)

theorem W12_main_v254_1 (R : RegionFacts) (m : (ℓ : Loc nD τ sig) → Buf (Elt Ideal) ℓ) (ρ : Dev nD → PrngReg) (c : Dev nD) :
    W12 m ρ c (Proc.devRef .tc main_v254_1) = (A2 m c).p :=
  (W12_of_ne m ρ c main_v254_1 (by decide)).trans (W11_main_v254_1 R m ρ c)

theorem W13_main_v254_1 (R : RegionFacts) (m : (ℓ : Loc nD τ sig) → Buf (Elt Ideal) ℓ) (ρ : Dev nD → PrngReg) (c : Dev nD) :
    W13 m ρ c (Proc.devRef .tc main_v254_1) = (A2 m c).p :=
  (W13_of_ne m ρ c main_v254_1 (by decide)).trans (W12_main_v254_1 R m ρ c)

theorem W6_main_arg8 (R : RegionFacts) (m : (ℓ : Loc nD τ sig) → Buf (Elt Ideal) ℓ) (ρ : Dev nD → PrngReg) (c : Dev nD) :
    W6 m ρ c (Proc.devRef .tc main_arg8) = m ((c.tc : Thread nD τ).loc main_arg8) :=
  (keepH4 (W5 m ρ c) main_arg8 (by decide)).trans (W5_main_arg8 R m ρ c)

theorem W7_main_arg8 (R : RegionFacts) (m : (ℓ : Loc nD τ sig) → Buf (Elt Ideal) ℓ) (ρ : Dev nD → PrngReg) (c : Dev nD) :
    W7 m ρ c (Proc.devRef .tc main_arg8) = m ((c.tc : Thread nD τ).loc main_arg8) :=
  (W7_of_ne m ρ c main_arg8 (by decide)).trans (W6_main_arg8 R m ρ c)

theorem W8_main_arg8 (R : RegionFacts) (m : (ℓ : Loc nD τ sig) → Buf (Elt Ideal) ℓ) (ρ : Dev nD → PrngReg) (c : Dev nD) :
    W8 m ρ c (Proc.devRef .tc main_arg8) = m ((c.tc : Thread nD τ).loc main_arg8) :=
  (W8_of_ne m ρ c main_arg8 (by decide)).trans (W7_main_arg8 R m ρ c)

theorem W9_main_arg8 (R : RegionFacts) (m : (ℓ : Loc nD τ sig) → Buf (Elt Ideal) ℓ) (ρ : Dev nD → PrngReg) (c : Dev nD) :
    W9 m ρ c (Proc.devRef .tc main_arg8) = m ((c.tc : Thread nD τ).loc main_arg8) :=
  (W9_of_ne m ρ c main_arg8 (by decide)).trans (W8_main_arg8 R m ρ c)

theorem W10_main_arg8 (R : RegionFacts) (m : (ℓ : Loc nD τ sig) → Buf (Elt Ideal) ℓ) (ρ : Dev nD → PrngReg) (c : Dev nD) :
    W10 m ρ c (Proc.devRef .tc main_arg8) = m ((c.tc : Thread nD τ).loc main_arg8) :=
  (W10_of_ne m ρ c main_arg8 (by decide)).trans (W9_main_arg8 R m ρ c)

theorem W6_main_arg9 (R : RegionFacts) (m : (ℓ : Loc nD τ sig) → Buf (Elt Ideal) ℓ) (ρ : Dev nD → PrngReg) (c : Dev nD) :
    W6 m ρ c (Proc.devRef .tc main_arg9) = m ((c.tc : Thread nD τ).loc main_arg9) :=
  (keepH4 (W5 m ρ c) main_arg9 (by decide)).trans (W5_main_arg9 R m ρ c)

theorem W7_main_arg9 (R : RegionFacts) (m : (ℓ : Loc nD τ sig) → Buf (Elt Ideal) ℓ) (ρ : Dev nD → PrngReg) (c : Dev nD) :
    W7 m ρ c (Proc.devRef .tc main_arg9) = m ((c.tc : Thread nD τ).loc main_arg9) :=
  (W7_of_ne m ρ c main_arg9 (by decide)).trans (W6_main_arg9 R m ρ c)

theorem W8_main_arg9 (R : RegionFacts) (m : (ℓ : Loc nD τ sig) → Buf (Elt Ideal) ℓ) (ρ : Dev nD → PrngReg) (c : Dev nD) :
    W8 m ρ c (Proc.devRef .tc main_arg9) = m ((c.tc : Thread nD τ).loc main_arg9) :=
  (W8_of_ne m ρ c main_arg9 (by decide)).trans (W7_main_arg9 R m ρ c)

theorem W9_main_arg9 (R : RegionFacts) (m : (ℓ : Loc nD τ sig) → Buf (Elt Ideal) ℓ) (ρ : Dev nD → PrngReg) (c : Dev nD) :
    W9 m ρ c (Proc.devRef .tc main_arg9) = m ((c.tc : Thread nD τ).loc main_arg9) :=
  (W9_of_ne m ρ c main_arg9 (by decide)).trans (W8_main_arg9 R m ρ c)

theorem W10_main_arg9 (R : RegionFacts) (m : (ℓ : Loc nD τ sig) → Buf (Elt Ideal) ℓ) (ρ : Dev nD → PrngReg) (c : Dev nD) :
    W10 m ρ c (Proc.devRef .tc main_arg9) = m ((c.tc : Thread nD τ).loc main_arg9) :=
  (W10_of_ne m ρ c main_arg9 (by decide)).trans (W9_main_arg9 R m ρ c)

theorem W11_main_v310 (R : RegionFacts) (m : (ℓ : Loc nD τ sig) → Buf (Elt Ideal) ℓ) (ρ : Dev nD → PrngReg) (c : Dev nD) :
    W11 m ρ c (Proc.devRef .tc main_v310) = Cert.Spec.sUP (L2 m c).u (edges m c).up_src (edges m c).up_dst :=
  (H8_main_v310 (W10 m ρ c)).trans (by
    rw [W10_main_v252_0 R m ρ c, W10_main_arg8 R m ρ c, W10_main_arg9 R m ρ c] <;> rfl)

theorem W12_main_v310 (R : RegionFacts) (m : (ℓ : Loc nD τ sig) → Buf (Elt Ideal) ℓ) (ρ : Dev nD → PrngReg) (c : Dev nD) :
    W12 m ρ c (Proc.devRef .tc main_v310) = Cert.Spec.sUP (L2 m c).u (edges m c).up_src (edges m c).up_dst :=
  (W12_of_ne m ρ c main_v310 (by decide)).trans (W11_main_v310 R m ρ c)

theorem W13_main_v310 (R : RegionFacts) (m : (ℓ : Loc nD τ sig) → Buf (Elt Ideal) ℓ) (ρ : Dev nD → PrngReg) (c : Dev nD) :
    W13 m ρ c (Proc.devRef .tc main_v310) = Cert.Spec.sUP (L2 m c).u (edges m c).up_src (edges m c).up_dst :=
  (W13_of_ne m ρ c main_v310 (by decide)).trans (W12_main_v310 R m ρ c)

theorem W9_main_v44 (R : RegionFacts) (m : (ℓ : Loc nD τ sig) → Buf (Elt Ideal) ℓ) (ρ : Dev nD → PrngReg) (c : Dev nD) :
    W9 m ρ c (Proc.devRef .tc main_v44) = Cert.Spec.iUP (edges m c).up_dst :=
  ((W9_arr m ρ c 1).trans (((dat6 (V8 m ρ) c).arrAt_in 1 rfl _).trans (A_eq6 (V8 m ρ) c 1))).trans (W8_main_v44 R m ρ c)

theorem W10_main_v44 (R : RegionFacts) (m : (ℓ : Loc nD τ sig) → Buf (Elt Ideal) ℓ) (ρ : Dev nD → PrngReg) (c : Dev nD) :
    W10 m ρ c (Proc.devRef .tc main_v44) = Cert.Spec.iUP (edges m c).up_dst :=
  (W10_of_ne m ρ c main_v44 (by decide)).trans (W9_main_v44 R m ρ c)

theorem W11_main_v44 (R : RegionFacts) (m : (ℓ : Loc nD τ sig) → Buf (Elt Ideal) ℓ) (ρ : Dev nD → PrngReg) (c : Dev nD) :
    W11 m ρ c (Proc.devRef .tc main_v44) = Cert.Spec.iUP (edges m c).up_dst :=
  (keepH8 (W10 m ρ c) main_v44 (by decide)).trans (W10_main_v44 R m ρ c)

theorem W12_main_v44 (R : RegionFacts) (m : (ℓ : Loc nD τ sig) → Buf (Elt Ideal) ℓ) (ρ : Dev nD → PrngReg) (c : Dev nD) :
    W12 m ρ c (Proc.devRef .tc main_v44) = Cert.Spec.iUP (edges m c).up_dst :=
  (W12_of_ne m ρ c main_v44 (by decide)).trans (W11_main_v44 R m ρ c)

theorem W13_main_v44 (R : RegionFacts) (m : (ℓ : Loc nD τ sig) → Buf (Elt Ideal) ℓ) (ρ : Dev nD → PrngReg) (c : Dev nD) :
    W13 m ρ c (Proc.devRef .tc main_v44) = Cert.Spec.iUP (edges m c).up_dst :=
  (W13_of_ne m ρ c main_v44 (by decide)).trans (W12_main_v44 R m ρ c)

theorem W6_main_arg18 (R : RegionFacts) (m : (ℓ : Loc nD τ sig) → Buf (Elt Ideal) ℓ) (ρ : Dev nD → PrngReg) (c : Dev nD) :
    W6 m ρ c (Proc.devRef .tc main_arg18) = m ((c.tc : Thread nD τ).loc main_arg18) :=
  (keepH4 (W5 m ρ c) main_arg18 (by decide)).trans (W5_main_arg18 R m ρ c)

theorem W7_main_arg18 (R : RegionFacts) (m : (ℓ : Loc nD τ sig) → Buf (Elt Ideal) ℓ) (ρ : Dev nD → PrngReg) (c : Dev nD) :
    W7 m ρ c (Proc.devRef .tc main_arg18) = m ((c.tc : Thread nD τ).loc main_arg18) :=
  (W7_of_ne m ρ c main_arg18 (by decide)).trans (W6_main_arg18 R m ρ c)

theorem W8_main_arg18 (R : RegionFacts) (m : (ℓ : Loc nD τ sig) → Buf (Elt Ideal) ℓ) (ρ : Dev nD → PrngReg) (c : Dev nD) :
    W8 m ρ c (Proc.devRef .tc main_arg18) = m ((c.tc : Thread nD τ).loc main_arg18) :=
  (W8_of_ne m ρ c main_arg18 (by decide)).trans (W7_main_arg18 R m ρ c)

theorem W9_main_arg18 (R : RegionFacts) (m : (ℓ : Loc nD τ sig) → Buf (Elt Ideal) ℓ) (ρ : Dev nD → PrngReg) (c : Dev nD) :
    W9 m ρ c (Proc.devRef .tc main_arg18) = m ((c.tc : Thread nD τ).loc main_arg18) :=
  (W9_of_ne m ρ c main_arg18 (by decide)).trans (W8_main_arg18 R m ρ c)

theorem W10_main_arg18 (R : RegionFacts) (m : (ℓ : Loc nD τ sig) → Buf (Elt Ideal) ℓ) (ρ : Dev nD → PrngReg) (c : Dev nD) :
    W10 m ρ c (Proc.devRef .tc main_arg18) = m ((c.tc : Thread nD τ).loc main_arg18) :=
  (W10_of_ne m ρ c main_arg18 (by decide)).trans (W9_main_arg18 R m ρ c)

theorem W6_main_arg19 (R : RegionFacts) (m : (ℓ : Loc nD τ sig) → Buf (Elt Ideal) ℓ) (ρ : Dev nD → PrngReg) (c : Dev nD) :
    W6 m ρ c (Proc.devRef .tc main_arg19) = m ((c.tc : Thread nD τ).loc main_arg19) :=
  (keepH4 (W5 m ρ c) main_arg19 (by decide)).trans (W5_main_arg19 R m ρ c)

theorem W7_main_arg19 (R : RegionFacts) (m : (ℓ : Loc nD τ sig) → Buf (Elt Ideal) ℓ) (ρ : Dev nD → PrngReg) (c : Dev nD) :
    W7 m ρ c (Proc.devRef .tc main_arg19) = m ((c.tc : Thread nD τ).loc main_arg19) :=
  (W7_of_ne m ρ c main_arg19 (by decide)).trans (W6_main_arg19 R m ρ c)

theorem W8_main_arg19 (R : RegionFacts) (m : (ℓ : Loc nD τ sig) → Buf (Elt Ideal) ℓ) (ρ : Dev nD → PrngReg) (c : Dev nD) :
    W8 m ρ c (Proc.devRef .tc main_arg19) = m ((c.tc : Thread nD τ).loc main_arg19) :=
  (W8_of_ne m ρ c main_arg19 (by decide)).trans (W7_main_arg19 R m ρ c)

theorem W9_main_arg19 (R : RegionFacts) (m : (ℓ : Loc nD τ sig) → Buf (Elt Ideal) ℓ) (ρ : Dev nD → PrngReg) (c : Dev nD) :
    W9 m ρ c (Proc.devRef .tc main_arg19) = m ((c.tc : Thread nD τ).loc main_arg19) :=
  (W9_of_ne m ρ c main_arg19 (by decide)).trans (W8_main_arg19 R m ρ c)

theorem W10_main_arg19 (R : RegionFacts) (m : (ℓ : Loc nD τ sig) → Buf (Elt Ideal) ℓ) (ρ : Dev nD → PrngReg) (c : Dev nD) :
    W10 m ρ c (Proc.devRef .tc main_arg19) = m ((c.tc : Thread nD τ).loc main_arg19) :=
  (W10_of_ne m ρ c main_arg19 (by decide)).trans (W9_main_arg19 R m ρ c)

theorem W11_main_v321 (R : RegionFacts) (m : (ℓ : Loc nD τ sig) → Buf (Elt Ideal) ℓ) (ρ : Dev nD → PrngReg) (c : Dev nD) :
    W11 m ρ c (Proc.devRef .tc main_v321) = Cert.Spec.sTP (L2 m c).t (edges m c).tp_src (edges m c).tp_dst :=
  (H8_main_v321 (W10 m ρ c)).trans (by
    rw [W10_main_v255_0 R m ρ c, W10_main_arg18 R m ρ c, W10_main_arg19 R m ρ c] <;> rfl)

theorem W12_main_v321 (R : RegionFacts) (m : (ℓ : Loc nD τ sig) → Buf (Elt Ideal) ℓ) (ρ : Dev nD → PrngReg) (c : Dev nD) :
    W12 m ρ c (Proc.devRef .tc main_v321) = Cert.Spec.sTP (L2 m c).t (edges m c).tp_src (edges m c).tp_dst :=
  (W12_of_ne m ρ c main_v321 (by decide)).trans (W11_main_v321 R m ρ c)

theorem W13_main_v321 (R : RegionFacts) (m : (ℓ : Loc nD τ sig) → Buf (Elt Ideal) ℓ) (ρ : Dev nD → PrngReg) (c : Dev nD) :
    W13 m ρ c (Proc.devRef .tc main_v321) = Cert.Spec.sTP (L2 m c).t (edges m c).tp_src (edges m c).tp_dst :=
  (W13_of_ne m ρ c main_v321 (by decide)).trans (W12_main_v321 R m ρ c)

theorem W9_main_v53 (R : RegionFacts) (m : (ℓ : Loc nD τ sig) → Buf (Elt Ideal) ℓ) (ρ : Dev nD → PrngReg) (c : Dev nD) :
    W9 m ρ c (Proc.devRef .tc main_v53) = Cert.Spec.iTP (edges m c).tp_dst :=
  ((W9_arr m ρ c 3).trans (((dat6 (V8 m ρ) c).arrAt_in 3 rfl _).trans (A_eq6 (V8 m ρ) c 3))).trans (W8_main_v53 R m ρ c)

theorem W10_main_v53 (R : RegionFacts) (m : (ℓ : Loc nD τ sig) → Buf (Elt Ideal) ℓ) (ρ : Dev nD → PrngReg) (c : Dev nD) :
    W10 m ρ c (Proc.devRef .tc main_v53) = Cert.Spec.iTP (edges m c).tp_dst :=
  (W10_of_ne m ρ c main_v53 (by decide)).trans (W9_main_v53 R m ρ c)

theorem W11_main_v53 (R : RegionFacts) (m : (ℓ : Loc nD τ sig) → Buf (Elt Ideal) ℓ) (ρ : Dev nD → PrngReg) (c : Dev nD) :
    W11 m ρ c (Proc.devRef .tc main_v53) = Cert.Spec.iTP (edges m c).tp_dst :=
  (keepH8 (W10 m ρ c) main_v53 (by decide)).trans (W10_main_v53 R m ρ c)

theorem W12_main_v53 (R : RegionFacts) (m : (ℓ : Loc nD τ sig) → Buf (Elt Ideal) ℓ) (ρ : Dev nD → PrngReg) (c : Dev nD) :
    W12 m ρ c (Proc.devRef .tc main_v53) = Cert.Spec.iTP (edges m c).tp_dst :=
  (W12_of_ne m ρ c main_v53 (by decide)).trans (W11_main_v53 R m ρ c)

theorem W13_main_v53 (R : RegionFacts) (m : (ℓ : Loc nD τ sig) → Buf (Elt Ideal) ℓ) (ρ : Dev nD → PrngReg) (c : Dev nD) :
    W13 m ρ c (Proc.devRef .tc main_v53) = Cert.Spec.iTP (edges m c).tp_dst :=
  (W13_of_ne m ρ c main_v53 (by decide)).trans (W12_main_v53 R m ρ c)

theorem W14_main_v346_1 (R : RegionFacts) (m : (ℓ : Loc nD τ sig) → Buf (Elt Ideal) ℓ) (ρ : Dev nD → PrngReg) (c : Dev nD) :
    W14 m ρ c (Proc.devRef .tc main_v346_1) = (A3 m c).p :=
  ((W14_arr m ρ c 6).trans (R.a10 (V13 m ρ) c)).trans (by
    show Cert.SegMean.accum (W13 m ρ c (Proc.devRef .tc main_v254_1)) (Cert.SegMean.meanCat (n := 20000) (W13 m ρ c (Proc.devRef .tc main_v310)) (W13 m ρ c (Proc.devRef .tc main_v44)) (W13 m ρ c (Proc.devRef .tc main_v321)) (W13 m ρ c (Proc.devRef .tc main_v53))) (Ideal.ofBits .f32 0x3E800000#32) = _
    rw [W13_main_v254_1 R m ρ c, W13_main_v310 R m ρ c, W13_main_v44 R m ρ c, W13_main_v321 R m ρ c, W13_main_v53 R m ρ c] <;> rfl)

theorem W15_main_v346_1 (R : RegionFacts) (m : (ℓ : Loc nD τ sig) → Buf (Elt Ideal) ℓ) (ρ : Dev nD → PrngReg) (c : Dev nD) :
    W15 m ρ c (Proc.devRef .tc main_v346_1) = (A3 m c).p :=
  (W15_of_ne m ρ c main_v346_1 (by decide)).trans (W14_main_v346_1 R m ρ c)

theorem W1_main_arg3 (R : RegionFacts) (m : (ℓ : Loc nD τ sig) → Buf (Elt Ideal) ℓ) (ρ : Dev nD → PrngReg) (c : Dev nD) :
    W1 m ρ c (Proc.devRef .tc main_arg3) = m ((c.tc : Thread nD τ).loc main_arg3) :=
  (keepH0 (W0 m ρ c) main_arg3 (by decide)).trans (W0_main_arg3 R m ρ c)

theorem W2_main_arg3 (R : RegionFacts) (m : (ℓ : Loc nD τ sig) → Buf (Elt Ideal) ℓ) (ρ : Dev nD → PrngReg) (c : Dev nD) :
    W2 m ρ c (Proc.devRef .tc main_arg3) = m ((c.tc : Thread nD τ).loc main_arg3) :=
  (W2_of_ne m ρ c main_arg3 (by decide)).trans (W1_main_arg3 R m ρ c)

theorem W3_main_arg3 (R : RegionFacts) (m : (ℓ : Loc nD τ sig) → Buf (Elt Ideal) ℓ) (ρ : Dev nD → PrngReg) (c : Dev nD) :
    W3 m ρ c (Proc.devRef .tc main_arg3) = m ((c.tc : Thread nD τ).loc main_arg3) :=
  (W3_of_ne m ρ c main_arg3 (by decide)).trans (W2_main_arg3 R m ρ c)

theorem W4_main_arg3 (R : RegionFacts) (m : (ℓ : Loc nD τ sig) → Buf (Elt Ideal) ℓ) (ρ : Dev nD → PrngReg) (c : Dev nD) :
    W4 m ρ c (Proc.devRef .tc main_arg3) = m ((c.tc : Thread nD τ).loc main_arg3) :=
  (W4_of_ne m ρ c main_arg3 (by decide)).trans (W3_main_arg3 R m ρ c)

theorem W5_main_v163_1 (R : RegionFacts) (m : (ℓ : Loc nD τ sig) → Buf (Elt Ideal) ℓ) (ρ : Dev nD → PrngReg) (c : Dev nD) :
    W5 m ρ c (Proc.devRef .tc main_v163_1) = (A1 m c).t :=
  ((W5_arr m ρ c 6).trans (R.a3 (V4 m ρ) c)).trans (by
    show Cert.SegMean.accum (W4 m ρ c (Proc.devRef .tc main_arg3)) (Cert.SegMean.meanCat (n := 5000) (W4 m ρ c (Proc.devRef .tc main_v148)) (W4 m ρ c (Proc.devRef .tc main_v62)) (W4 m ρ c (Proc.devRef .tc main_v159)) (W4 m ρ c (Proc.devRef .tc main_v71))) (Ideal.ofBits .f32 0x3F000000#32) = _
    rw [W4_main_arg3 R m ρ c, W4_main_v148 R m ρ c, W4_main_v62 R m ρ c, W4_main_v159 R m ρ c, W4_main_v71 R m ρ c] <;> rfl)

theorem W6_main_v163_1 (R : RegionFacts) (m : (ℓ : Loc nD τ sig) → Buf (Elt Ideal) ℓ) (ρ : Dev nD → PrngReg) (c : Dev nD) :
    W6 m ρ c (Proc.devRef .tc main_v163_1) = (A1 m c).t :=
  (keepH4 (W5 m ρ c) main_v163_1 (by decide)).trans (W5_main_v163_1 R m ρ c)

theorem W7_main_v163_1 (R : RegionFacts) (m : (ℓ : Loc nD τ sig) → Buf (Elt Ideal) ℓ) (ρ : Dev nD → PrngReg) (c : Dev nD) :
    W7 m ρ c (Proc.devRef .tc main_v163_1) = (A1 m c).t :=
  (W7_of_ne m ρ c main_v163_1 (by decide)).trans (W6_main_v163_1 R m ρ c)

theorem W8_main_v163_1 (R : RegionFacts) (m : (ℓ : Loc nD τ sig) → Buf (Elt Ideal) ℓ) (ρ : Dev nD → PrngReg) (c : Dev nD) :
    W8 m ρ c (Proc.devRef .tc main_v163_1) = (A1 m c).t :=
  (W8_of_ne m ρ c main_v163_1 (by decide)).trans (W7_main_v163_1 R m ρ c)

theorem W9_main_v163_1 (R : RegionFacts) (m : (ℓ : Loc nD τ sig) → Buf (Elt Ideal) ℓ) (ρ : Dev nD → PrngReg) (c : Dev nD) :
    W9 m ρ c (Proc.devRef .tc main_v163_1) = (A1 m c).t :=
  (W9_of_ne m ρ c main_v163_1 (by decide)).trans (W8_main_v163_1 R m ρ c)

theorem W10_main_v255_1 (R : RegionFacts) (m : (ℓ : Loc nD τ sig) → Buf (Elt Ideal) ℓ) (ρ : Dev nD → PrngReg) (c : Dev nD) :
    W10 m ρ c (Proc.devRef .tc main_v255_1) = (A2 m c).t :=
  ((W10_arr m ρ c 6).trans (R.a7 (V9 m ρ) c)).trans (by
    show Cert.SegMean.accum (W9 m ρ c (Proc.devRef .tc main_v163_1)) (Cert.SegMean.meanCat (n := 5000) (W9 m ρ c (Proc.devRef .tc main_v240)) (W9 m ρ c (Proc.devRef .tc main_v62)) (W9 m ρ c (Proc.devRef .tc main_v251)) (W9 m ρ c (Proc.devRef .tc main_v71))) (Ideal.ofBits .f32 0x3EAAAAAB#32) = _
    rw [W9_main_v163_1 R m ρ c, W9_main_v240 R m ρ c, W9_main_v62 R m ρ c, W9_main_v251 R m ρ c, W9_main_v71 R m ρ c] <;> rfl)

theorem W11_main_v255_1 (R : RegionFacts) (m : (ℓ : Loc nD τ sig) → Buf (Elt Ideal) ℓ) (ρ : Dev nD → PrngReg) (c : Dev nD) :
    W11 m ρ c (Proc.devRef .tc main_v255_1) = (A2 m c).t :=
  (keepH8 (W10 m ρ c) main_v255_1 (by decide)).trans (W10_main_v255_1 R m ρ c)

theorem W12_main_v255_1 (R : RegionFacts) (m : (ℓ : Loc nD τ sig) → Buf (Elt Ideal) ℓ) (ρ : Dev nD → PrngReg) (c : Dev nD) :
    W12 m ρ c (Proc.devRef .tc main_v255_1) = (A2 m c).t :=
  (W12_of_ne m ρ c main_v255_1 (by decide)).trans (W11_main_v255_1 R m ρ c)

theorem W13_main_v255_1 (R : RegionFacts) (m : (ℓ : Loc nD τ sig) → Buf (Elt Ideal) ℓ) (ρ : Dev nD → PrngReg) (c : Dev nD) :
    W13 m ρ c (Proc.devRef .tc main_v255_1) = (A2 m c).t :=
  (W13_of_ne m ρ c main_v255_1 (by decide)).trans (W12_main_v255_1 R m ρ c)

theorem W14_main_v255_1 (R : RegionFacts) (m : (ℓ : Loc nD τ sig) → Buf (Elt Ideal) ℓ) (ρ : Dev nD → PrngReg) (c : Dev nD) :
    W14 m ρ c (Proc.devRef .tc main_v255_1) = (A2 m c).t :=
  (W14_of_ne m ρ c main_v255_1 (by decide)).trans (W13_main_v255_1 R m ρ c)

theorem W6_main_arg12 (R : RegionFacts) (m : (ℓ : Loc nD τ sig) → Buf (Elt Ideal) ℓ) (ρ : Dev nD → PrngReg) (c : Dev nD) :
    W6 m ρ c (Proc.devRef .tc main_arg12) = m ((c.tc : Thread nD τ).loc main_arg12) :=
  (keepH4 (W5 m ρ c) main_arg12 (by decide)).trans (W5_main_arg12 R m ρ c)

theorem W7_main_arg12 (R : RegionFacts) (m : (ℓ : Loc nD τ sig) → Buf (Elt Ideal) ℓ) (ρ : Dev nD → PrngReg) (c : Dev nD) :
    W7 m ρ c (Proc.devRef .tc main_arg12) = m ((c.tc : Thread nD τ).loc main_arg12) :=
  (W7_of_ne m ρ c main_arg12 (by decide)).trans (W6_main_arg12 R m ρ c)

theorem W8_main_arg12 (R : RegionFacts) (m : (ℓ : Loc nD τ sig) → Buf (Elt Ideal) ℓ) (ρ : Dev nD → PrngReg) (c : Dev nD) :
    W8 m ρ c (Proc.devRef .tc main_arg12) = m ((c.tc : Thread nD τ).loc main_arg12) :=
  (W8_of_ne m ρ c main_arg12 (by decide)).trans (W7_main_arg12 R m ρ c)

theorem W9_main_arg12 (R : RegionFacts) (m : (ℓ : Loc nD τ sig) → Buf (Elt Ideal) ℓ) (ρ : Dev nD → PrngReg) (c : Dev nD) :
    W9 m ρ c (Proc.devRef .tc main_arg12) = m ((c.tc : Thread nD τ).loc main_arg12) :=
  (W9_of_ne m ρ c main_arg12 (by decide)).trans (W8_main_arg12 R m ρ c)

theorem W10_main_arg12 (R : RegionFacts) (m : (ℓ : Loc nD τ sig) → Buf (Elt Ideal) ℓ) (ρ : Dev nD → PrngReg) (c : Dev nD) :
    W10 m ρ c (Proc.devRef .tc main_arg12) = m ((c.tc : Thread nD τ).loc main_arg12) :=
  (W10_of_ne m ρ c main_arg12 (by decide)).trans (W9_main_arg12 R m ρ c)

theorem W6_main_arg13 (R : RegionFacts) (m : (ℓ : Loc nD τ sig) → Buf (Elt Ideal) ℓ) (ρ : Dev nD → PrngReg) (c : Dev nD) :
    W6 m ρ c (Proc.devRef .tc main_arg13) = m ((c.tc : Thread nD τ).loc main_arg13) :=
  (keepH4 (W5 m ρ c) main_arg13 (by decide)).trans (W5_main_arg13 R m ρ c)

theorem W7_main_arg13 (R : RegionFacts) (m : (ℓ : Loc nD τ sig) → Buf (Elt Ideal) ℓ) (ρ : Dev nD → PrngReg) (c : Dev nD) :
    W7 m ρ c (Proc.devRef .tc main_arg13) = m ((c.tc : Thread nD τ).loc main_arg13) :=
  (W7_of_ne m ρ c main_arg13 (by decide)).trans (W6_main_arg13 R m ρ c)

theorem W8_main_arg13 (R : RegionFacts) (m : (ℓ : Loc nD τ sig) → Buf (Elt Ideal) ℓ) (ρ : Dev nD → PrngReg) (c : Dev nD) :
    W8 m ρ c (Proc.devRef .tc main_arg13) = m ((c.tc : Thread nD τ).loc main_arg13) :=
  (W8_of_ne m ρ c main_arg13 (by decide)).trans (W7_main_arg13 R m ρ c)

theorem W9_main_arg13 (R : RegionFacts) (m : (ℓ : Loc nD τ sig) → Buf (Elt Ideal) ℓ) (ρ : Dev nD → PrngReg) (c : Dev nD) :
    W9 m ρ c (Proc.devRef .tc main_arg13) = m ((c.tc : Thread nD τ).loc main_arg13) :=
  (W9_of_ne m ρ c main_arg13 (by decide)).trans (W8_main_arg13 R m ρ c)

theorem W10_main_arg13 (R : RegionFacts) (m : (ℓ : Loc nD τ sig) → Buf (Elt Ideal) ℓ) (ρ : Dev nD → PrngReg) (c : Dev nD) :
    W10 m ρ c (Proc.devRef .tc main_arg13) = m ((c.tc : Thread nD τ).loc main_arg13) :=
  (W10_of_ne m ρ c main_arg13 (by decide)).trans (W9_main_arg13 R m ρ c)

theorem W11_main_v332 (R : RegionFacts) (m : (ℓ : Loc nD τ sig) → Buf (Elt Ideal) ℓ) (ρ : Dev nD → PrngReg) (c : Dev nD) :
    W11 m ρ c (Proc.devRef .tc main_v332) = Cert.Spec.sVT (L2 m c).v (edges m c).vt_src (edges m c).vt_dst :=
  (H8_main_v332 (W10 m ρ c)).trans (by
    rw [W10_main_v253_0 R m ρ c, W10_main_arg12 R m ρ c, W10_main_arg13 R m ρ c] <;> rfl)

theorem W12_main_v332 (R : RegionFacts) (m : (ℓ : Loc nD τ sig) → Buf (Elt Ideal) ℓ) (ρ : Dev nD → PrngReg) (c : Dev nD) :
    W12 m ρ c (Proc.devRef .tc main_v332) = Cert.Spec.sVT (L2 m c).v (edges m c).vt_src (edges m c).vt_dst :=
  (W12_of_ne m ρ c main_v332 (by decide)).trans (W11_main_v332 R m ρ c)

theorem W13_main_v332 (R : RegionFacts) (m : (ℓ : Loc nD τ sig) → Buf (Elt Ideal) ℓ) (ρ : Dev nD → PrngReg) (c : Dev nD) :
    W13 m ρ c (Proc.devRef .tc main_v332) = Cert.Spec.sVT (L2 m c).v (edges m c).vt_src (edges m c).vt_dst :=
  (W13_of_ne m ρ c main_v332 (by decide)).trans (W12_main_v332 R m ρ c)

theorem W14_main_v332 (R : RegionFacts) (m : (ℓ : Loc nD τ sig) → Buf (Elt Ideal) ℓ) (ρ : Dev nD → PrngReg) (c : Dev nD) :
    W14 m ρ c (Proc.devRef .tc main_v332) = Cert.Spec.sVT (L2 m c).v (edges m c).vt_src (edges m c).vt_dst :=
  (W14_of_ne m ρ c main_v332 (by decide)).trans (W13_main_v332 R m ρ c)

theorem W10_main_v62 (R : RegionFacts) (m : (ℓ : Loc nD τ sig) → Buf (Elt Ideal) ℓ) (ρ : Dev nD → PrngReg) (c : Dev nD) :
    W10 m ρ c (Proc.devRef .tc main_v62) = Cert.Spec.iVT (edges m c).vt_dst :=
  ((W10_arr m ρ c 1).trans (((dat7 (V9 m ρ) c).arrAt_in 1 rfl _).trans (A_eq7 (V9 m ρ) c 1))).trans (W9_main_v62 R m ρ c)

theorem W11_main_v62 (R : RegionFacts) (m : (ℓ : Loc nD τ sig) → Buf (Elt Ideal) ℓ) (ρ : Dev nD → PrngReg) (c : Dev nD) :
    W11 m ρ c (Proc.devRef .tc main_v62) = Cert.Spec.iVT (edges m c).vt_dst :=
  (keepH8 (W10 m ρ c) main_v62 (by decide)).trans (W10_main_v62 R m ρ c)

theorem W12_main_v62 (R : RegionFacts) (m : (ℓ : Loc nD τ sig) → Buf (Elt Ideal) ℓ) (ρ : Dev nD → PrngReg) (c : Dev nD) :
    W12 m ρ c (Proc.devRef .tc main_v62) = Cert.Spec.iVT (edges m c).vt_dst :=
  (W12_of_ne m ρ c main_v62 (by decide)).trans (W11_main_v62 R m ρ c)

theorem W13_main_v62 (R : RegionFacts) (m : (ℓ : Loc nD τ sig) → Buf (Elt Ideal) ℓ) (ρ : Dev nD → PrngReg) (c : Dev nD) :
    W13 m ρ c (Proc.devRef .tc main_v62) = Cert.Spec.iVT (edges m c).vt_dst :=
  (W13_of_ne m ρ c main_v62 (by decide)).trans (W12_main_v62 R m ρ c)

theorem W14_main_v62 (R : RegionFacts) (m : (ℓ : Loc nD τ sig) → Buf (Elt Ideal) ℓ) (ρ : Dev nD → PrngReg) (c : Dev nD) :
    W14 m ρ c (Proc.devRef .tc main_v62) = Cert.Spec.iVT (edges m c).vt_dst :=
  (W14_of_ne m ρ c main_v62 (by decide)).trans (W13_main_v62 R m ρ c)

theorem W6_main_arg16 (R : RegionFacts) (m : (ℓ : Loc nD τ sig) → Buf (Elt Ideal) ℓ) (ρ : Dev nD → PrngReg) (c : Dev nD) :
    W6 m ρ c (Proc.devRef .tc main_arg16) = m ((c.tc : Thread nD τ).loc main_arg16) :=
  (keepH4 (W5 m ρ c) main_arg16 (by decide)).trans (W5_main_arg16 R m ρ c)

theorem W7_main_arg16 (R : RegionFacts) (m : (ℓ : Loc nD τ sig) → Buf (Elt Ideal) ℓ) (ρ : Dev nD → PrngReg) (c : Dev nD) :
    W7 m ρ c (Proc.devRef .tc main_arg16) = m ((c.tc : Thread nD τ).loc main_arg16) :=
  (W7_of_ne m ρ c main_arg16 (by decide)).trans (W6_main_arg16 R m ρ c)

theorem W8_main_arg16 (R : RegionFacts) (m : (ℓ : Loc nD τ sig) → Buf (Elt Ideal) ℓ) (ρ : Dev nD → PrngReg) (c : Dev nD) :
    W8 m ρ c (Proc.devRef .tc main_arg16) = m ((c.tc : Thread nD τ).loc main_arg16) :=
  (W8_of_ne m ρ c main_arg16 (by decide)).trans (W7_main_arg16 R m ρ c)

theorem W9_main_arg16 (R : RegionFacts) (m : (ℓ : Loc nD τ sig) → Buf (Elt Ideal) ℓ) (ρ : Dev nD → PrngReg) (c : Dev nD) :
    W9 m ρ c (Proc.devRef .tc main_arg16) = m ((c.tc : Thread nD τ).loc main_arg16) :=
  (W9_of_ne m ρ c main_arg16 (by decide)).trans (W8_main_arg16 R m ρ c)

theorem W10_main_arg16 (R : RegionFacts) (m : (ℓ : Loc nD τ sig) → Buf (Elt Ideal) ℓ) (ρ : Dev nD → PrngReg) (c : Dev nD) :
    W10 m ρ c (Proc.devRef .tc main_arg16) = m ((c.tc : Thread nD τ).loc main_arg16) :=
  (W10_of_ne m ρ c main_arg16 (by decide)).trans (W9_main_arg16 R m ρ c)

theorem W6_main_arg17 (R : RegionFacts) (m : (ℓ : Loc nD τ sig) → Buf (Elt Ideal) ℓ) (ρ : Dev nD → PrngReg) (c : Dev nD) :
    W6 m ρ c (Proc.devRef .tc main_arg17) = m ((c.tc : Thread nD τ).loc main_arg17) :=
  (keepH4 (W5 m ρ c) main_arg17 (by decide)).trans (W5_main_arg17 R m ρ c)

theorem W7_main_arg17 (R : RegionFacts) (m : (ℓ : Loc nD τ sig) → Buf (Elt Ideal) ℓ) (ρ : Dev nD → PrngReg) (c : Dev nD) :
    W7 m ρ c (Proc.devRef .tc main_arg17) = m ((c.tc : Thread nD τ).loc main_arg17) :=
  (W7_of_ne m ρ c main_arg17 (by decide)).trans (W6_main_arg17 R m ρ c)

theorem W8_main_arg17 (R : RegionFacts) (m : (ℓ : Loc nD τ sig) → Buf (Elt Ideal) ℓ) (ρ : Dev nD → PrngReg) (c : Dev nD) :
    W8 m ρ c (Proc.devRef .tc main_arg17) = m ((c.tc : Thread nD τ).loc main_arg17) :=
  (W8_of_ne m ρ c main_arg17 (by decide)).trans (W7_main_arg17 R m ρ c)

theorem W9_main_arg17 (R : RegionFacts) (m : (ℓ : Loc nD τ sig) → Buf (Elt Ideal) ℓ) (ρ : Dev nD → PrngReg) (c : Dev nD) :
    W9 m ρ c (Proc.devRef .tc main_arg17) = m ((c.tc : Thread nD τ).loc main_arg17) :=
  (W9_of_ne m ρ c main_arg17 (by decide)).trans (W8_main_arg17 R m ρ c)

theorem W10_main_arg17 (R : RegionFacts) (m : (ℓ : Loc nD τ sig) → Buf (Elt Ideal) ℓ) (ρ : Dev nD → PrngReg) (c : Dev nD) :
    W10 m ρ c (Proc.devRef .tc main_arg17) = m ((c.tc : Thread nD τ).loc main_arg17) :=
  (W10_of_ne m ρ c main_arg17 (by decide)).trans (W9_main_arg17 R m ρ c)

theorem W11_main_v343 (R : RegionFacts) (m : (ℓ : Loc nD τ sig) → Buf (Elt Ideal) ℓ) (ρ : Dev nD → PrngReg) (c : Dev nD) :
    W11 m ρ c (Proc.devRef .tc main_v343) = Cert.Spec.sPT (L2 m c).p (edges m c).pt_src (edges m c).pt_dst :=
  (H8_main_v343 (W10 m ρ c)).trans (by
    rw [W10_main_v254_0 R m ρ c, W10_main_arg16 R m ρ c, W10_main_arg17 R m ρ c] <;> rfl)

theorem W12_main_v343 (R : RegionFacts) (m : (ℓ : Loc nD τ sig) → Buf (Elt Ideal) ℓ) (ρ : Dev nD → PrngReg) (c : Dev nD) :
    W12 m ρ c (Proc.devRef .tc main_v343) = Cert.Spec.sPT (L2 m c).p (edges m c).pt_src (edges m c).pt_dst :=
  (W12_of_ne m ρ c main_v343 (by decide)).trans (W11_main_v343 R m ρ c)

theorem W13_main_v343 (R : RegionFacts) (m : (ℓ : Loc nD τ sig) → Buf (Elt Ideal) ℓ) (ρ : Dev nD → PrngReg) (c : Dev nD) :
    W13 m ρ c (Proc.devRef .tc main_v343) = Cert.Spec.sPT (L2 m c).p (edges m c).pt_src (edges m c).pt_dst :=
  (W13_of_ne m ρ c main_v343 (by decide)).trans (W12_main_v343 R m ρ c)

theorem W14_main_v343 (R : RegionFacts) (m : (ℓ : Loc nD τ sig) → Buf (Elt Ideal) ℓ) (ρ : Dev nD → PrngReg) (c : Dev nD) :
    W14 m ρ c (Proc.devRef .tc main_v343) = Cert.Spec.sPT (L2 m c).p (edges m c).pt_src (edges m c).pt_dst :=
  (W14_of_ne m ρ c main_v343 (by decide)).trans (W13_main_v343 R m ρ c)

theorem W10_main_v71 (R : RegionFacts) (m : (ℓ : Loc nD τ sig) → Buf (Elt Ideal) ℓ) (ρ : Dev nD → PrngReg) (c : Dev nD) :
    W10 m ρ c (Proc.devRef .tc main_v71) = Cert.Spec.iPT (edges m c).pt_dst :=
  ((W10_arr m ρ c 3).trans (((dat7 (V9 m ρ) c).arrAt_in 3 rfl _).trans (A_eq7 (V9 m ρ) c 3))).trans (W9_main_v71 R m ρ c)

theorem W11_main_v71 (R : RegionFacts) (m : (ℓ : Loc nD τ sig) → Buf (Elt Ideal) ℓ) (ρ : Dev nD → PrngReg) (c : Dev nD) :
    W11 m ρ c (Proc.devRef .tc main_v71) = Cert.Spec.iPT (edges m c).pt_dst :=
  (keepH8 (W10 m ρ c) main_v71 (by decide)).trans (W10_main_v71 R m ρ c)

theorem W12_main_v71 (R : RegionFacts) (m : (ℓ : Loc nD τ sig) → Buf (Elt Ideal) ℓ) (ρ : Dev nD → PrngReg) (c : Dev nD) :
    W12 m ρ c (Proc.devRef .tc main_v71) = Cert.Spec.iPT (edges m c).pt_dst :=
  (W12_of_ne m ρ c main_v71 (by decide)).trans (W11_main_v71 R m ρ c)

theorem W13_main_v71 (R : RegionFacts) (m : (ℓ : Loc nD τ sig) → Buf (Elt Ideal) ℓ) (ρ : Dev nD → PrngReg) (c : Dev nD) :
    W13 m ρ c (Proc.devRef .tc main_v71) = Cert.Spec.iPT (edges m c).pt_dst :=
  (W13_of_ne m ρ c main_v71 (by decide)).trans (W12_main_v71 R m ρ c)

theorem W14_main_v71 (R : RegionFacts) (m : (ℓ : Loc nD τ sig) → Buf (Elt Ideal) ℓ) (ρ : Dev nD → PrngReg) (c : Dev nD) :
    W14 m ρ c (Proc.devRef .tc main_v71) = Cert.Spec.iPT (edges m c).pt_dst :=
  (W14_of_ne m ρ c main_v71 (by decide)).trans (W13_main_v71 R m ρ c)

theorem W15_main_v347_1 (R : RegionFacts) (m : (ℓ : Loc nD τ sig) → Buf (Elt Ideal) ℓ) (ρ : Dev nD → PrngReg) (c : Dev nD) :
    W15 m ρ c (Proc.devRef .tc main_v347_1) = (A3 m c).t :=
  ((W15_arr m ρ c 6).trans (R.a11 (V14 m ρ) c)).trans (by
    show Cert.SegMean.accum (W14 m ρ c (Proc.devRef .tc main_v255_1)) (Cert.SegMean.meanCat (n := 5000) (W14 m ρ c (Proc.devRef .tc main_v332)) (W14 m ρ c (Proc.devRef .tc main_v62)) (W14 m ρ c (Proc.devRef .tc main_v343)) (W14 m ρ c (Proc.devRef .tc main_v71))) (Ideal.ofBits .f32 0x3E800000#32) = _
    rw [W14_main_v255_1 R m ρ c, W14_main_v332 R m ρ c, W14_main_v62 R m ρ c, W14_main_v343 R m ρ c, W14_main_v71 R m ρ c] <;> rfl)

end Cert.KernelIdeal.KFold

end
-- ==== Proof.Region0.lean ====
/-
  Region 0 of the kernel's program (the first combine call on the user table), read as whole-array functions.

  The call walks 50 blocks of 4000 rows. At block `t` the body reads rows `4000 t … 4000 t + 3999` of two
  half-width sums and of their two inverse-degree columns, scales each half row by row by its column, joins the
  two halves along the feature axis into 128 features (`meanCat`) and stores that as the new features; it also
  stores the running sum `acc + new * w` (`accum`). Block `t` of every window sits at row offset `4000 t`,
  the blocks tile the 200000 rows, and `meanCat` / `accum` commute with cutting a block of rows, so after the
  call each output array is that one function of the arrays the call found.
-/
import proofs.«179549_j31344671326263_2_alg».proof.Proof.Gen.KernelIdeal.Frame
import proofs.«179549_j31344671326263_2_alg».proof.Proof.LibSegMean

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegMean

/-- The first payload: the two halves, each scaled row by row by its column, joined along the features. -/
theorem pay1 (x0 : Vec Ideal S4000x64 .f32) (x1 : Vec Ideal S4000x1 .f32) (x2 : Vec Ideal S4000x64 .f32)
    (x3 : Vec Ideal S4000x1 .f32) :
    k0_pay1 (F := Ideal) x0 x1 x2 x3 = meanCat (n := 4000) x0 x1 x2 x3 := by
  funext j
  obtain ⟨r, f, rfl⟩ : ∃ (r : Fin 4000) (f : Fin 128), j = ix2 r f := ⟨j 0, j 1, eq_ix2 j⟩
  unfold k0_pay1
  simp only [shapeCast_self]
  by_cases h : f.val < 64
  · rw [meanCat_left _ _ _ _ r f h]
    refine (concatenate_pair_apply_left (t := S4000x128) (s₁ := S4000x64) (s₂ := S4000x64) (1 : Fin 2) _ _ _
      (ix2 r f) rfl (ix2 (n0 := 4000) (n1 := 64) r ⟨f.val, h⟩)
      (fun b => by match b with | ⟨0, _⟩ => rfl | ⟨1, _⟩ => rfl)).trans ?_
    show x0 _ * broadcastTo S4000x64 x1 _ (ix2 r ⟨f.val, h⟩) = _
    rw [broadcastTo_apply x1 _ (ix2 r ⟨f.val, h⟩) (ix2 (n0 := 4000) (n1 := 1) r ⟨0, Nat.one_pos⟩)
      (fun a => by match a with | ⟨0, _⟩ => rfl | ⟨1, _⟩ => rfl)]
  · rw [meanCat_right _ _ _ _ r f h]
    have h128 := f.isLt
    refine (concatenate_pair_apply_right (t := S4000x128) (s₁ := S4000x64) (s₂ := S4000x64) (1 : Fin 2) _ _ _
      (ix2 r f) rfl rfl (ix2 (n0 := 4000) (n1 := 64) r ⟨f.val - 64, by omega⟩)
      (fun b hb => by match b with | ⟨0, _⟩ => rfl | ⟨1, _⟩ => exact absurd rfl hb)
      (by show f.val - 64 + 64 = f.val; omega)).trans ?_
    show x2 _ * broadcastTo S4000x64 x3 _ (ix2 r ⟨f.val - 64, _⟩) = _
    rw [broadcastTo_apply x3 _ (ix2 r ⟨f.val - 64, by omega⟩) (ix2 (n0 := 4000) (n1 := 1) r ⟨0, Nat.one_pos⟩)
      (fun a => by match a with | ⟨0, _⟩ => rfl | ⟨1, _⟩ => rfl)]

/-- The second payload: the running sum of the accumulator block and the first payload times the layer weight. -/
theorem pay2 (x0 : Vec Ideal S4000x64 .f32) (x1 : Vec Ideal S4000x1 .f32) (x2 : Vec Ideal S4000x64 .f32)
    (x3 : Vec Ideal S4000x1 .f32) (x4 : Vec Ideal S4000x128 .f32) :
    k0_pay2 (F := Ideal) x0 x1 x2 x3 x4
      = accum x4 (meanCat (n := 4000) x0 x1 x2 x3) (Ideal.ofBits .f32 0x3F000000#32) := by
  unfold k0_pay2
  rw [pay1]
  try simp only [shapeCast_self]
  rfl

/-- The running sum commutes with cutting a block: if the accumulator's block and the output's block sit at the same
    place and the addend's block is the addend at the embedded index, the block of the running sum is the running sum
    at the embedded index. -/
theorem accum_block {s s' : Shape} (acc : s'.Idx → EReal) (x : s.Idx → EReal) (X : s'.Idx → EReal) (w : EReal)
    (e4 e6 : s.Idx → s'.Idx) (y : s.Idx) (h46 : e4 y = e6 y) (hx : x y = X (e6 y)) :
    accum (fun z => acc (e4 z)) x w y = accum acc X w (e6 y) := by
  unfold accum
  show acc (e4 y) + x y * w = acc (e6 y) + X (e6 y) * w
  rw [h46, hx]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block row `t`, block
    column `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point `t` writes back through the new-features window is block `t` of `meanCat` of the four arrays. -/
theorem flushed5_eq (c : Dev nD) (t : Fin cfg0.N) :
    (dat0 V c).flushed 5 t = ((cfg0.win 5).blk t).view.read (Elt Ideal)
      (meanCat (n := 200000) (V c main_v82) (V c main_v8) (V c main_v93) (V c main_v17)) := by
  show (cfg0.win 5).cut (grid0.coords t) ((dat0 V c).after 5 t) = _
  rw [after0_5]
  unfold out0_5
  rw [View.canon_unit_zero hz]
  simp only [View.ld_unit_zero (S := S4000x64) hz, View.ld_unit_zero (S := S4000x1) hz]
  rw [pay1]
  obtain ⟨e00, e01, e10, e11, e20, e21, e30, e31, e40, e41, e50, e51, e60, e61⟩ := idx_facts t
  funext y
  show meanCat (n := 4000) (fun z => V c main_v82 (((cfg0.win 0).blk t).view.emb z))
      (fun z => V c main_v8 (((cfg0.win 1).blk t).view.emb z))
      (fun z => V c main_v93 (((cfg0.win 2).blk t).view.emb z))
      (fun z => V c main_v17 (((cfg0.win 3).blk t).view.emb z)) y
    = meanCat (n := 200000) (V c main_v82) (V c main_v8) (V c main_v93) (V c main_v17)
        (((cfg0.win 5).blk t).view.emb y)
  exact meanCat_block (4000 * t.val) _ _ _ _ _ _ _ _ _
    (fun z => ⟨by show win0_0.index t (0 : Fin 2) * 4000 + 1 * (z 0).val = 4000 * t.val + (z 0).val; rw [e00]; omega,
      by show win0_0.index t (1 : Fin 2) * 64 + 1 * (z 1).val = (z 1).val; rw [e01]; omega⟩)
    (fun z => ⟨by show win0_1.index t (0 : Fin 2) * 4000 + 1 * (z 0).val = 4000 * t.val + (z 0).val; rw [e10]; omega,
      by show win0_1.index t (1 : Fin 2) * 1 + 1 * (z 1).val = (z 1).val; rw [e11]; omega⟩)
    (fun z => ⟨by show win0_2.index t (0 : Fin 2) * 4000 + 1 * (z 0).val = 4000 * t.val + (z 0).val; rw [e20]; omega,
      by show win0_2.index t (1 : Fin 2) * 64 + 1 * (z 1).val = (z 1).val; rw [e21]; omega⟩)
    (fun z => ⟨by show win0_3.index t (0 : Fin 2) * 4000 + 1 * (z 0).val = 4000 * t.val + (z 0).val; rw [e30]; omega,
      by show win0_3.index t (1 : Fin 2) * 1 + 1 * (z 1).val = (z 1).val; rw [e31]; omega⟩)
    (fun z => ⟨by show win0_5.index t (0 : Fin 2) * 4000 + 1 * (z 0).val = 4000 * t.val + (z 0).val; rw [e50]; omega,
      by show win0_5.index t (1 : Fin 2) * 128 + 1 * (z 1).val = (z 1).val; rw [e51]; omega⟩)
    y

/-- What point `t` writes back through the running-sum window is block `t` of `accum` of the accumulator array
    and `meanCat` of the four arrays. -/
theorem flushed6_eq (c : Dev nD) (t : Fin cfg0.N) :
    (dat0 V c).flushed 6 t = ((cfg0.win 6).blk t).view.read (Elt Ideal)
      (accum (V c main_arg0) (meanCat (n := 200000) (V c main_v82) (V c main_v8) (V c main_v93) (V c main_v17))
        (Ideal.ofBits .f32 0x3F000000#32)) := by
  show (cfg0.win 6).cut (grid0.coords t) ((dat0 V c).after 6 t) = _
  rw [after0_6]
  unfold out0_6
  rw [View.canon_unit_zero hz]
  simp only [View.ld_unit_zero (S := S4000x64) hz, View.ld_unit_zero (S := S4000x1) hz,
    View.ld_unit_zero (S := S4000x128) hz]
  rw [pay2]
  obtain ⟨e00, e01, e10, e11, e20, e21, e30, e31, e40, e41, e50, e51, e60, e61⟩ := idx_facts t
  funext y
  show accum (s := S4000x128) (fun z => V c main_arg0 (((cfg0.win 4).blk t).view.emb z))
      (meanCat (n := 4000) (fun z => V c main_v82 (((cfg0.win 0).blk t).view.emb z))
          (fun z => V c main_v8 (((cfg0.win 1).blk t).view.emb z))
          (fun z => V c main_v93 (((cfg0.win 2).blk t).view.emb z))
          (fun z => V c main_v17 (((cfg0.win 3).blk t).view.emb z))) (Ideal.ofBits .f32 0x3F000000#32) y
    = accum (s := S200000x128) (V c main_arg0)
        (meanCat (n := 200000) (V c main_v82) (V c main_v8) (V c main_v93) (V c main_v17))
        (Ideal.ofBits .f32 0x3F000000#32) (((cfg0.win 6).blk t).view.emb y)
  refine accum_block _ _ _ _ _ _ y ?_ ?_
  · funext a; apply Fin.ext
    match a with
    | ⟨0, _⟩ => show win0_4.index t (0 : Fin 2) * 4000 + 1 * (y 0).val = win0_6.index t (0 : Fin 2) * 4000 + 1 * (y 0).val; rw [e40, e60]
    | ⟨1, _⟩ => show win0_4.index t (1 : Fin 2) * 128 + 1 * (y 1).val = win0_6.index t (1 : Fin 2) * 128 + 1 * (y 1).val; rw [e41, e61]
  exact meanCat_block (4000 * t.val) _ _ _ _ _ _ _ _ _
    (fun z => ⟨by show win0_0.index t (0 : Fin 2) * 4000 + 1 * (z 0).val = 4000 * t.val + (z 0).val; rw [e00]; omega,
      by show win0_0.index t (1 : Fin 2) * 64 + 1 * (z 1).val = (z 1).val; rw [e01]; omega⟩)
    (fun z => ⟨by show win0_1.index t (0 : Fin 2) * 4000 + 1 * (z 0).val = 4000 * t.val + (z 0).val; rw [e10]; omega,
      by show win0_1.index t (1 : Fin 2) * 1 + 1 * (z 1).val = (z 1).val; rw [e11]; omega⟩)
    (fun z => ⟨by show win0_2.index t (0 : Fin 2) * 4000 + 1 * (z 0).val = 4000 * t.val + (z 0).val; rw [e20]; omega,
      by show win0_2.index t (1 : Fin 2) * 64 + 1 * (z 1).val = (z 1).val; rw [e21]; omega⟩)
    (fun z => ⟨by show win0_3.index t (0 : Fin 2) * 4000 + 1 * (z 0).val = 4000 * t.val + (z 0).val; rw [e30]; omega,
      by show win0_3.index t (1 : Fin 2) * 1 + 1 * (z 1).val = (z 1).val; rw [e31]; omega⟩)
    (fun z => ⟨by show win0_6.index t (0 : Fin 2) * 4000 + 1 * (z 0).val = 4000 * t.val + (z 0).val; rw [e60]; omega,
      by show win0_6.index t (1 : Fin 2) * 128 + 1 * (z 1).val = (z 1).val; rw [e61]; omega⟩)
    y

/-- An index of the new-features array is in point `t`'s block iff each coordinate is in the block's range. -/
theorem mem_blk5 (t : Fin cfg0.N) (i : S200000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v160_0).slice (win0_5.rect t)).set ↔ _
  rw [View.set_slice_whole, Rect.mem_set_unit]
  exact Iff.rfl

theorem mem_blk6 (t : Fin cfg0.N) (i : S200000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v160_1).slice (win0_6.rect t)).set ↔ _
  rw [View.set_slice_whole, Rect.mem_set_unit]
  exact Iff.rfl

/-- The 50 blocks of 4000 rows tile the 200000 rows: row `r` is in block `r / 4000`. -/
theorem cover5 (i : S200000x128.Idx) :
    ∃ t : Fin cfg0.N, (cfg0.win 5).flush t = true ∧ i ∈ ((cfg0.win 5).blk t).view.set := by
  have hi0 : (i 0).val < 200000 := (i 0).isLt
  have hi1 : (i 1).val < 128 := (i 1).isLt
  have hN : (i 0).val / 4000 < cfg0.N := by show (i 0).val / 4000 < 50; omega
  obtain ⟨e00, e01, e10, e11, e20, e21, e30, e31, e40, e41, e50, e51, e60, e61⟩ := idx_facts ⟨(i 0).val / 4000, hN⟩
  refine ⟨⟨(i 0).val / 4000, hN⟩, flush0_5 _, ?_⟩
  rw [mem_blk5]
  intro a
  match a with
  | ⟨0, _⟩ =>
    show win0_5.index ⟨(i 0).val / 4000, hN⟩ (0 : Fin 2) * 4000 ≤ (i 0).val
      ∧ (i 0).val < win0_5.index ⟨(i 0).val / 4000, hN⟩ (0 : Fin 2) * 4000 + 4000
    rw [e50]; show (i 0).val / 4000 * 4000 ≤ (i 0).val ∧ (i 0).val < (i 0).val / 4000 * 4000 + 4000; omega
  | ⟨1, _⟩ =>
    show win0_5.index ⟨(i 0).val / 4000, hN⟩ (1 : Fin 2) * 128 ≤ (i 1).val
      ∧ (i 1).val < win0_5.index ⟨(i 0).val / 4000, hN⟩ (1 : Fin 2) * 128 + 128
    rw [e51]; omega

theorem cover6 (i : S200000x128.Idx) :
    ∃ t : Fin cfg0.N, (cfg0.win 6).flush t = true ∧ i ∈ ((cfg0.win 6).blk t).view.set := by
  have hi0 : (i 0).val < 200000 := (i 0).isLt
  have hi1 : (i 1).val < 128 := (i 1).isLt
  have hN : (i 0).val / 4000 < cfg0.N := by show (i 0).val / 4000 < 50; omega
  obtain ⟨e00, e01, e10, e11, e20, e21, e30, e31, e40, e41, e50, e51, e60, e61⟩ := idx_facts ⟨(i 0).val / 4000, hN⟩
  refine ⟨⟨(i 0).val / 4000, hN⟩, flush0_6 _, ?_⟩
  rw [mem_blk6]
  intro a
  match a with
  | ⟨0, _⟩ =>
    show win0_6.index ⟨(i 0).val / 4000, hN⟩ (0 : Fin 2) * 4000 ≤ (i 0).val
      ∧ (i 0).val < win0_6.index ⟨(i 0).val / 4000, hN⟩ (0 : Fin 2) * 4000 + 4000
    rw [e60]; show (i 0).val / 4000 * 4000 ≤ (i 0).val ∧ (i 0).val < (i 0).val / 4000 * 4000 + 4000; omega
  | ⟨1, _⟩ =>
    show win0_6.index ⟨(i 0).val / 4000, hN⟩ (1 : Fin 2) * 128 ≤ (i 1).val
      ∧ (i 1).val < win0_6.index ⟨(i 0).val / 4000, hN⟩ (1 : Fin 2) * 128 + 128
    rw [e61]; omega

/-- After the call the new-features array is `meanCat` of the four arrays the call found. -/
theorem newx (c : Dev nD) :
    (dat0 V c).arrAt 5 cfg0.N
      = meanCat (n := 200000) (V c main_v82) (V c main_v8) (V c main_v93) (V c main_v17) :=
  (dat0 V c).arrAt_eq_of_cover 5 _ (fun t _ => flushed5_eq V c t) cover5

/-- After the call the running-sum array is `accum` of the accumulator the call found and the new features. -/
theorem accout (c : Dev nD) :
    (dat0 V c).arrAt 6 cfg0.N
      = accum (V c main_arg0) (meanCat (n := 200000) (V c main_v82) (V c main_v8) (V c main_v93) (V c main_v17))
          (Ideal.ofBits .f32 0x3F000000#32) :=
  (dat0 V c).arrAt_eq_of_cover 6 _ (fun t _ => flushed6_eq V c t) cover6

end Cert.KernelIdeal.Region0

end
-- ==== Proof.Region1.lean ====
/-
  Region 1 of the kernel's program (a combine call on the video table: 25 blocks of 4000 rows over 100000 rows), read as
  whole-array functions: the argument is Region 0's, with this call's buffers, extents and layer weight.
-/
import proofs.«179549_j31344671326263_2_alg».proof.Proof.Gen.KernelIdeal.Frame
import proofs.«179549_j31344671326263_2_alg».proof.Proof.LibSegMean

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegMean

/-- The first payload: the two halves, each scaled row by row by its column, joined along the features. -/
theorem pay1 (x0 : Vec Ideal S4000x64 .f32) (x1 : Vec Ideal S4000x1 .f32) (x2 : Vec Ideal S4000x64 .f32)
    (x3 : Vec Ideal S4000x1 .f32) :
    k1_pay1 (F := Ideal) x0 x1 x2 x3 = meanCat (n := 4000) x0 x1 x2 x3 := by
  funext j
  obtain ⟨r, f, rfl⟩ : ∃ (r : Fin 4000) (f : Fin 128), j = ix2 r f := ⟨j 0, j 1, eq_ix2 j⟩
  unfold k1_pay1
  simp only [shapeCast_self]
  by_cases h : f.val < 64
  · rw [meanCat_left _ _ _ _ r f h]
    refine (concatenate_pair_apply_left (t := S4000x128) (s₁ := S4000x64) (s₂ := S4000x64) (1 : Fin 2) _ _ _
      (ix2 r f) rfl (ix2 (n0 := 4000) (n1 := 64) r ⟨f.val, h⟩)
      (fun b => by match b with | ⟨0, _⟩ => rfl | ⟨1, _⟩ => rfl)).trans ?_
    show x0 _ * broadcastTo S4000x64 x1 _ (ix2 r ⟨f.val, h⟩) = _
    rw [broadcastTo_apply x1 _ (ix2 r ⟨f.val, h⟩) (ix2 (n0 := 4000) (n1 := 1) r ⟨0, Nat.one_pos⟩)
      (fun a => by match a with | ⟨0, _⟩ => rfl | ⟨1, _⟩ => rfl)]
  · rw [meanCat_right _ _ _ _ r f h]
    have h128 := f.isLt
    refine (concatenate_pair_apply_right (t := S4000x128) (s₁ := S4000x64) (s₂ := S4000x64) (1 : Fin 2) _ _ _
      (ix2 r f) rfl rfl (ix2 (n0 := 4000) (n1 := 64) r ⟨f.val - 64, by omega⟩)
      (fun b hb => by match b with | ⟨0, _⟩ => rfl | ⟨1, _⟩ => exact absurd rfl hb)
      (by show f.val - 64 + 64 = f.val; omega)).trans ?_
    show x2 _ * broadcastTo S4000x64 x3 _ (ix2 r ⟨f.val - 64, _⟩) = _
    rw [broadcastTo_apply x3 _ (ix2 r ⟨f.val - 64, by omega⟩) (ix2 (n0 := 4000) (n1 := 1) r ⟨0, Nat.one_pos⟩)
      (fun a => by match a with | ⟨0, _⟩ => rfl | ⟨1, _⟩ => rfl)]

/-- The second payload: the running sum of the accumulator block and the first payload times the layer weight. -/
theorem pay2 (x0 : Vec Ideal S4000x64 .f32) (x1 : Vec Ideal S4000x1 .f32) (x2 : Vec Ideal S4000x64 .f32)
    (x3 : Vec Ideal S4000x1 .f32) (x4 : Vec Ideal S4000x128 .f32) :
    k1_pay2 (F := Ideal) x0 x1 x2 x3 x4
      = accum x4 (meanCat (n := 4000) x0 x1 x2 x3) (Ideal.ofBits .f32 0x3F000000#32) := by
  unfold k1_pay2
  rw [pay1]
  try simp only [shapeCast_self]
  rfl

/-- The running sum commutes with cutting a block: if the accumulator's block and the output's block sit at the same
    place and the addend's block is the addend at the embedded index, the block of the running sum is the running sum
    at the embedded index. -/
theorem accum_block {s s' : Shape} (acc : s'.Idx → EReal) (x : s.Idx → EReal) (X : s'.Idx → EReal) (w : EReal)
    (e4 e6 : s.Idx → s'.Idx) (y : s.Idx) (h46 : e4 y = e6 y) (hx : x y = X (e6 y)) :
    accum (fun z => acc (e4 z)) x w y = accum acc X w (e6 y) := by
  unfold accum
  show acc (e4 y) + x y * w = acc (e6 y) + X (e6 y) * w
  rw [h46, hx]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block row `t`, block
    column `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- What point `t` writes back through the new-features window is block `t` of `meanCat` of the four arrays. -/
theorem flushed5_eq (c : Dev nD) (t : Fin cfg1.N) :
    (dat1 V c).flushed 5 t = ((cfg1.win 5).blk t).view.read (Elt Ideal)
      (meanCat (n := 100000) (V c main_v104) (V c main_v26) (V c main_v115) (V c main_v35)) := by
  show (cfg1.win 5).cut (grid1.coords t) ((dat1 V c).after 5 t) = _
  rw [after1_5]
  unfold out1_5
  rw [View.canon_unit_zero hz]
  simp only [View.ld_unit_zero (S := S4000x64) hz, View.ld_unit_zero (S := S4000x1) hz]
  rw [pay1]
  obtain ⟨e00, e01, e10, e11, e20, e21, e30, e31, e40, e41, e50, e51, e60, e61⟩ := idx_facts t
  funext y
  show meanCat (n := 4000) (fun z => V c main_v104 (((cfg1.win 0).blk t).view.emb z))
      (fun z => V c main_v26 (((cfg1.win 1).blk t).view.emb z))
      (fun z => V c main_v115 (((cfg1.win 2).blk t).view.emb z))
      (fun z => V c main_v35 (((cfg1.win 3).blk t).view.emb z)) y
    = meanCat (n := 100000) (V c main_v104) (V c main_v26) (V c main_v115) (V c main_v35)
        (((cfg1.win 5).blk t).view.emb y)
  exact meanCat_block (4000 * t.val) _ _ _ _ _ _ _ _ _
    (fun z => ⟨by show win1_0.index t (0 : Fin 2) * 4000 + 1 * (z 0).val = 4000 * t.val + (z 0).val; rw [e00]; omega,
      by show win1_0.index t (1 : Fin 2) * 64 + 1 * (z 1).val = (z 1).val; rw [e01]; omega⟩)
    (fun z => ⟨by show win1_1.index t (0 : Fin 2) * 4000 + 1 * (z 0).val = 4000 * t.val + (z 0).val; rw [e10]; omega,
      by show win1_1.index t (1 : Fin 2) * 1 + 1 * (z 1).val = (z 1).val; rw [e11]; omega⟩)
    (fun z => ⟨by show win1_2.index t (0 : Fin 2) * 4000 + 1 * (z 0).val = 4000 * t.val + (z 0).val; rw [e20]; omega,
      by show win1_2.index t (1 : Fin 2) * 64 + 1 * (z 1).val = (z 1).val; rw [e21]; omega⟩)
    (fun z => ⟨by show win1_3.index t (0 : Fin 2) * 4000 + 1 * (z 0).val = 4000 * t.val + (z 0).val; rw [e30]; omega,
      by show win1_3.index t (1 : Fin 2) * 1 + 1 * (z 1).val = (z 1).val; rw [e31]; omega⟩)
    (fun z => ⟨by show win1_5.index t (0 : Fin 2) * 4000 + 1 * (z 0).val = 4000 * t.val + (z 0).val; rw [e50]; omega,
      by show win1_5.index t (1 : Fin 2) * 128 + 1 * (z 1).val = (z 1).val; rw [e51]; omega⟩)
    y

/-- What point `t` writes back through the running-sum window is block `t` of `accum` of the accumulator array
    and `meanCat` of the four arrays. -/
theorem flushed6_eq (c : Dev nD) (t : Fin cfg1.N) :
    (dat1 V c).flushed 6 t = ((cfg1.win 6).blk t).view.read (Elt Ideal)
      (accum (V c main_arg1) (meanCat (n := 100000) (V c main_v104) (V c main_v26) (V c main_v115) (V c main_v35))
        (Ideal.ofBits .f32 0x3F000000#32)) := by
  show (cfg1.win 6).cut (grid1.coords t) ((dat1 V c).after 6 t) = _
  rw [after1_6]
  unfold out1_6
  rw [View.canon_unit_zero hz]
  simp only [View.ld_unit_zero (S := S4000x64) hz, View.ld_unit_zero (S := S4000x1) hz,
    View.ld_unit_zero (S := S4000x128) hz]
  rw [pay2]
  obtain ⟨e00, e01, e10, e11, e20, e21, e30, e31, e40, e41, e50, e51, e60, e61⟩ := idx_facts t
  funext y
  show accum (s := S4000x128) (fun z => V c main_arg1 (((cfg1.win 4).blk t).view.emb z))
      (meanCat (n := 4000) (fun z => V c main_v104 (((cfg1.win 0).blk t).view.emb z))
          (fun z => V c main_v26 (((cfg1.win 1).blk t).view.emb z))
          (fun z => V c main_v115 (((cfg1.win 2).blk t).view.emb z))
          (fun z => V c main_v35 (((cfg1.win 3).blk t).view.emb z))) (Ideal.ofBits .f32 0x3F000000#32) y
    = accum (s := S100000x128) (V c main_arg1)
        (meanCat (n := 100000) (V c main_v104) (V c main_v26) (V c main_v115) (V c main_v35))
        (Ideal.ofBits .f32 0x3F000000#32) (((cfg1.win 6).blk t).view.emb y)
  refine accum_block _ _ _ _ _ _ y ?_ ?_
  · funext a; apply Fin.ext
    match a with
    | ⟨0, _⟩ => show win1_4.index t (0 : Fin 2) * 4000 + 1 * (y 0).val = win1_6.index t (0 : Fin 2) * 4000 + 1 * (y 0).val; rw [e40, e60]
    | ⟨1, _⟩ => show win1_4.index t (1 : Fin 2) * 128 + 1 * (y 1).val = win1_6.index t (1 : Fin 2) * 128 + 1 * (y 1).val; rw [e41, e61]
  exact meanCat_block (4000 * t.val) _ _ _ _ _ _ _ _ _
    (fun z => ⟨by show win1_0.index t (0 : Fin 2) * 4000 + 1 * (z 0).val = 4000 * t.val + (z 0).val; rw [e00]; omega,
      by show win1_0.index t (1 : Fin 2) * 64 + 1 * (z 1).val = (z 1).val; rw [e01]; omega⟩)
    (fun z => ⟨by show win1_1.index t (0 : Fin 2) * 4000 + 1 * (z 0).val = 4000 * t.val + (z 0).val; rw [e10]; omega,
      by show win1_1.index t (1 : Fin 2) * 1 + 1 * (z 1).val = (z 1).val; rw [e11]; omega⟩)
    (fun z => ⟨by show win1_2.index t (0 : Fin 2) * 4000 + 1 * (z 0).val = 4000 * t.val + (z 0).val; rw [e20]; omega,
      by show win1_2.index t (1 : Fin 2) * 64 + 1 * (z 1).val = (z 1).val; rw [e21]; omega⟩)
    (fun z => ⟨by show win1_3.index t (0 : Fin 2) * 4000 + 1 * (z 0).val = 4000 * t.val + (z 0).val; rw [e30]; omega,
      by show win1_3.index t (1 : Fin 2) * 1 + 1 * (z 1).val = (z 1).val; rw [e31]; omega⟩)
    (fun z => ⟨by show win1_6.index t (0 : Fin 2) * 4000 + 1 * (z 0).val = 4000 * t.val + (z 0).val; rw [e60]; omega,
      by show win1_6.index t (1 : Fin 2) * 128 + 1 * (z 1).val = (z 1).val; rw [e61]; omega⟩)
    y

/-- An index of the new-features array is in point `t`'s block iff each coordinate is in the block's range. -/
theorem mem_blk5 (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v161_0).slice (win1_5.rect t)).set ↔ _
  rw [View.set_slice_whole, Rect.mem_set_unit]
  exact Iff.rfl

theorem mem_blk6 (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v161_1).slice (win1_6.rect t)).set ↔ _
  rw [View.set_slice_whole, Rect.mem_set_unit]
  exact Iff.rfl

/-- The 25 blocks of 4000 rows tile the 100000 rows: row `r` is in block `r / 4000`. -/
theorem cover5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 4000 < cfg1.N := by show (i 0).val / 4000 < 25; omega
  obtain ⟨e00, e01, e10, e11, e20, e21, e30, e31, e40, e41, e50, e51, e60, e61⟩ := idx_facts ⟨(i 0).val / 4000, hN⟩
  refine ⟨⟨(i 0).val / 4000, hN⟩, flush1_5 _, ?_⟩
  rw [mem_blk5]
  intro a
  match a with
  | ⟨0, _⟩ =>
    show win1_5.index ⟨(i 0).val / 4000, hN⟩ (0 : Fin 2) * 4000 ≤ (i 0).val
      ∧ (i 0).val < win1_5.index ⟨(i 0).val / 4000, hN⟩ (0 : Fin 2) * 4000 + 4000
    rw [e50]; show (i 0).val / 4000 * 4000 ≤ (i 0).val ∧ (i 0).val < (i 0).val / 4000 * 4000 + 4000; omega
  | ⟨1, _⟩ =>
    show win1_5.index ⟨(i 0).val / 4000, hN⟩ (1 : Fin 2) * 128 ≤ (i 1).val
      ∧ (i 1).val < win1_5.index ⟨(i 0).val / 4000, hN⟩ (1 : Fin 2) * 128 + 128
    rw [e51]; omega

theorem cover6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 4000 < cfg1.N := by show (i 0).val / 4000 < 25; omega
  obtain ⟨e00, e01, e10, e11, e20, e21, e30, e31, e40, e41, e50, e51, e60, e61⟩ := idx_facts ⟨(i 0).val / 4000, hN⟩
  refine ⟨⟨(i 0).val / 4000, hN⟩, flush1_6 _, ?_⟩
  rw [mem_blk6]
  intro a
  match a with
  | ⟨0, _⟩ =>
    show win1_6.index ⟨(i 0).val / 4000, hN⟩ (0 : Fin 2) * 4000 ≤ (i 0).val
      ∧ (i 0).val < win1_6.index ⟨(i 0).val / 4000, hN⟩ (0 : Fin 2) * 4000 + 4000
    rw [e60]; show (i 0).val / 4000 * 4000 ≤ (i 0).val ∧ (i 0).val < (i 0).val / 4000 * 4000 + 4000; omega
  | ⟨1, _⟩ =>
    show win1_6.index ⟨(i 0).val / 4000, hN⟩ (1 : Fin 2) * 128 ≤ (i 1).val
      ∧ (i 1).val < win1_6.index ⟨(i 0).val / 4000, hN⟩ (1 : Fin 2) * 128 + 128
    rw [e61]; omega

/-- After the call the new-features array is `meanCat` of the four arrays the call found. -/
theorem newx (c : Dev nD) :
    (dat1 V c).arrAt 5 cfg1.N
      = meanCat (n := 100000) (V c main_v104) (V c main_v26) (V c main_v115) (V c main_v35) :=
  (dat1 V c).arrAt_eq_of_cover 5 _ (fun t _ => flushed5_eq V c t) cover5

/-- After the call the running-sum array is `accum` of the accumulator the call found and the new features. -/
theorem accout (c : Dev nD) :
    (dat1 V c).arrAt 6 cfg1.N
      = accum (V c main_arg1) (meanCat (n := 100000) (V c main_v104) (V c main_v26) (V c main_v115) (V c main_v35))
          (Ideal.ofBits .f32 0x3F000000#32) :=
  (dat1 V c).arrAt_eq_of_cover 6 _ (fun t _ => flushed6_eq V c t) cover6

end Cert.KernelIdeal.Region1

end
-- ==== Proof.Region2.lean ====
/-
  Region 2 of the kernel's program (a combine call on the publisher table: 5 blocks of 4000 rows over 20000 rows), read as
  whole-array functions: the argument is Region 0's, with this call's buffers, extents and layer weight.
-/
import proofs.«179549_j31344671326263_2_alg».proof.Proof.Gen.KernelIdeal.Frame
import proofs.«179549_j31344671326263_2_alg».proof.Proof.LibSegMean

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegMean

/-- The first payload: the two halves, each scaled row by row by its column, joined along the features. -/
theorem pay1 (x0 : Vec Ideal S4000x64 .f32) (x1 : Vec Ideal S4000x1 .f32) (x2 : Vec Ideal S4000x64 .f32)
    (x3 : Vec Ideal S4000x1 .f32) :
    k2_pay1 (F := Ideal) x0 x1 x2 x3 = meanCat (n := 4000) x0 x1 x2 x3 := by
  funext j
  obtain ⟨r, f, rfl⟩ : ∃ (r : Fin 4000) (f : Fin 128), j = ix2 r f := ⟨j 0, j 1, eq_ix2 j⟩
  unfold k2_pay1
  simp only [shapeCast_self]
  by_cases h : f.val < 64
  · rw [meanCat_left _ _ _ _ r f h]
    refine (concatenate_pair_apply_left (t := S4000x128) (s₁ := S4000x64) (s₂ := S4000x64) (1 : Fin 2) _ _ _
      (ix2 r f) rfl (ix2 (n0 := 4000) (n1 := 64) r ⟨f.val, h⟩)
      (fun b => by match b with | ⟨0, _⟩ => rfl | ⟨1, _⟩ => rfl)).trans ?_
    show x0 _ * broadcastTo S4000x64 x1 _ (ix2 r ⟨f.val, h⟩) = _
    rw [broadcastTo_apply x1 _ (ix2 r ⟨f.val, h⟩) (ix2 (n0 := 4000) (n1 := 1) r ⟨0, Nat.one_pos⟩)
      (fun a => by match a with | ⟨0, _⟩ => rfl | ⟨1, _⟩ => rfl)]
  · rw [meanCat_right _ _ _ _ r f h]
    have h128 := f.isLt
    refine (concatenate_pair_apply_right (t := S4000x128) (s₁ := S4000x64) (s₂ := S4000x64) (1 : Fin 2) _ _ _
      (ix2 r f) rfl rfl (ix2 (n0 := 4000) (n1 := 64) r ⟨f.val - 64, by omega⟩)
      (fun b hb => by match b with | ⟨0, _⟩ => rfl | ⟨1, _⟩ => exact absurd rfl hb)
      (by show f.val - 64 + 64 = f.val; omega)).trans ?_
    show x2 _ * broadcastTo S4000x64 x3 _ (ix2 r ⟨f.val - 64, _⟩) = _
    rw [broadcastTo_apply x3 _ (ix2 r ⟨f.val - 64, by omega⟩) (ix2 (n0 := 4000) (n1 := 1) r ⟨0, Nat.one_pos⟩)
      (fun a => by match a with | ⟨0, _⟩ => rfl | ⟨1, _⟩ => rfl)]

/-- The second payload: the running sum of the accumulator block and the first payload times the layer weight. -/
theorem pay2 (x0 : Vec Ideal S4000x64 .f32) (x1 : Vec Ideal S4000x1 .f32) (x2 : Vec Ideal S4000x64 .f32)
    (x3 : Vec Ideal S4000x1 .f32) (x4 : Vec Ideal S4000x128 .f32) :
    k2_pay2 (F := Ideal) x0 x1 x2 x3 x4
      = accum x4 (meanCat (n := 4000) x0 x1 x2 x3) (Ideal.ofBits .f32 0x3F000000#32) := by
  unfold k2_pay2
  rw [pay1]
  try simp only [shapeCast_self]
  rfl

/-- The running sum commutes with cutting a block: if the accumulator's block and the output's block sit at the same
    place and the addend's block is the addend at the embedded index, the block of the running sum is the running sum
    at the embedded index. -/
theorem accum_block {s s' : Shape} (acc : s'.Idx → EReal) (x : s.Idx → EReal) (X : s'.Idx → EReal) (w : EReal)
    (e4 e6 : s.Idx → s'.Idx) (y : s.Idx) (h46 : e4 y = e6 y) (hx : x y = X (e6 y)) :
    accum (fun z => acc (e4 z)) x w y = accum acc X w (e6 y) := by
  unfold accum
  show acc (e4 y) + x y * w = acc (e6 y) + X (e6 y) * w
  rw [h46, hx]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block row `t`, block
    column `0`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- What point `t` writes back through the new-features window is block `t` of `meanCat` of the four arrays. -/
theorem flushed5_eq (c : Dev nD) (t : Fin cfg2.N) :
    (dat2 V c).flushed 5 t = ((cfg2.win 5).blk t).view.read (Elt Ideal)
      (meanCat (n := 20000) (V c main_v126) (V c main_v44) (V c main_v137) (V c main_v53)) := by
  show (cfg2.win 5).cut (grid2.coords t) ((dat2 V c).after 5 t) = _
  rw [after2_5]
  unfold out2_5
  rw [View.canon_unit_zero hz]
  simp only [View.ld_unit_zero (S := S4000x64) hz, View.ld_unit_zero (S := S4000x1) hz]
  rw [pay1]
  obtain ⟨e00, e01, e10, e11, e20, e21, e30, e31, e40, e41, e50, e51, e60, e61⟩ := idx_facts t
  funext y
  show meanCat (n := 4000) (fun z => V c main_v126 (((cfg2.win 0).blk t).view.emb z))
      (fun z => V c main_v44 (((cfg2.win 1).blk t).view.emb z))
      (fun z => V c main_v137 (((cfg2.win 2).blk t).view.emb z))
      (fun z => V c main_v53 (((cfg2.win 3).blk t).view.emb z)) y
    = meanCat (n := 20000) (V c main_v126) (V c main_v44) (V c main_v137) (V c main_v53)
        (((cfg2.win 5).blk t).view.emb y)
  exact meanCat_block (4000 * t.val) _ _ _ _ _ _ _ _ _
    (fun z => ⟨by show win2_0.index t (0 : Fin 2) * 4000 + 1 * (z 0).val = 4000 * t.val + (z 0).val; rw [e00]; omega,
      by show win2_0.index t (1 : Fin 2) * 64 + 1 * (z 1).val = (z 1).val; rw [e01]; omega⟩)
    (fun z => ⟨by show win2_1.index t (0 : Fin 2) * 4000 + 1 * (z 0).val = 4000 * t.val + (z 0).val; rw [e10]; omega,
      by show win2_1.index t (1 : Fin 2) * 1 + 1 * (z 1).val = (z 1).val; rw [e11]; omega⟩)
    (fun z => ⟨by show win2_2.index t (0 : Fin 2) * 4000 + 1 * (z 0).val = 4000 * t.val + (z 0).val; rw [e20]; omega,
      by show win2_2.index t (1 : Fin 2) * 64 + 1 * (z 1).val = (z 1).val; rw [e21]; omega⟩)
    (fun z => ⟨by show win2_3.index t (0 : Fin 2) * 4000 + 1 * (z 0).val = 4000 * t.val + (z 0).val; rw [e30]; omega,
      by show win2_3.index t (1 : Fin 2) * 1 + 1 * (z 1).val = (z 1).val; rw [e31]; omega⟩)
    (fun z => ⟨by show win2_5.index t (0 : Fin 2) * 4000 + 1 * (z 0).val = 4000 * t.val + (z 0).val; rw [e50]; omega,
      by show win2_5.index t (1 : Fin 2) * 128 + 1 * (z 1).val = (z 1).val; rw [e51]; omega⟩)
    y

/-- What point `t` writes back through the running-sum window is block `t` of `accum` of the accumulator array
    and `meanCat` of the four arrays. -/
theorem flushed6_eq (c : Dev nD) (t : Fin cfg2.N) :
    (dat2 V c).flushed 6 t = ((cfg2.win 6).blk t).view.read (Elt Ideal)
      (accum (V c main_arg2) (meanCat (n := 20000) (V c main_v126) (V c main_v44) (V c main_v137) (V c main_v53))
        (Ideal.ofBits .f32 0x3F000000#32)) := by
  show (cfg2.win 6).cut (grid2.coords t) ((dat2 V c).after 6 t) = _
  rw [after2_6]
  unfold out2_6
  rw [View.canon_unit_zero hz]
  simp only [View.ld_unit_zero (S := S4000x64) hz, View.ld_unit_zero (S := S4000x1) hz,
    View.ld_unit_zero (S := S4000x128) hz]
  rw [pay2]
  obtain ⟨e00, e01, e10, e11, e20, e21, e30, e31, e40, e41, e50, e51, e60, e61⟩ := idx_facts t
  funext y
  show accum (s := S4000x128) (fun z => V c main_arg2 (((cfg2.win 4).blk t).view.emb z))
      (meanCat (n := 4000) (fun z => V c main_v126 (((cfg2.win 0).blk t).view.emb z))
          (fun z => V c main_v44 (((cfg2.win 1).blk t).view.emb z))
          (fun z => V c main_v137 (((cfg2.win 2).blk t).view.emb z))
          (fun z => V c main_v53 (((cfg2.win 3).blk t).view.emb z))) (Ideal.ofBits .f32 0x3F000000#32) y
    = accum (s := S20000x128) (V c main_arg2)
        (meanCat (n := 20000) (V c main_v126) (V c main_v44) (V c main_v137) (V c main_v53))
        (Ideal.ofBits .f32 0x3F000000#32) (((cfg2.win 6).blk t).view.emb y)
  refine accum_block _ _ _ _ _ _ y ?_ ?_
  · funext a; apply Fin.ext
    match a with
    | ⟨0, _⟩ => show win2_4.index t (0 : Fin 2) * 4000 + 1 * (y 0).val = win2_6.index t (0 : Fin 2) * 4000 + 1 * (y 0).val; rw [e40, e60]
    | ⟨1, _⟩ => show win2_4.index t (1 : Fin 2) * 128 + 1 * (y 1).val = win2_6.index t (1 : Fin 2) * 128 + 1 * (y 1).val; rw [e41, e61]
  exact meanCat_block (4000 * t.val) _ _ _ _ _ _ _ _ _
    (fun z => ⟨by show win2_0.index t (0 : Fin 2) * 4000 + 1 * (z 0).val = 4000 * t.val + (z 0).val; rw [e00]; omega,
      by show win2_0.index t (1 : Fin 2) * 64 + 1 * (z 1).val = (z 1).val; rw [e01]; omega⟩)
    (fun z => ⟨by show win2_1.index t (0 : Fin 2) * 4000 + 1 * (z 0).val = 4000 * t.val + (z 0).val; rw [e10]; omega,
      by show win2_1.index t (1 : Fin 2) * 1 + 1 * (z 1).val = (z 1).val; rw [e11]; omega⟩)
    (fun z => ⟨by show win2_2.index t (0 : Fin 2) * 4000 + 1 * (z 0).val = 4000 * t.val + (z 0).val; rw [e20]; omega,
      by show win2_2.index t (1 : Fin 2) * 64 + 1 * (z 1).val = (z 1).val; rw [e21]; omega⟩)
    (fun z => ⟨by show win2_3.index t (0 : Fin 2) * 4000 + 1 * (z 0).val = 4000 * t.val + (z 0).val; rw [e30]; omega,
      by show win2_3.index t (1 : Fin 2) * 1 + 1 * (z 1).val = (z 1).val; rw [e31]; omega⟩)
    (fun z => ⟨by show win2_6.index t (0 : Fin 2) * 4000 + 1 * (z 0).val = 4000 * t.val + (z 0).val; rw [e60]; omega,
      by show win2_6.index t (1 : Fin 2) * 128 + 1 * (z 1).val = (z 1).val; rw [e61]; omega⟩)
    y

/-- An index of the new-features array is in point `t`'s block iff each coordinate is in the block's range. -/
theorem mem_blk5 (t : Fin cfg2.N) (i : S20000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v162_0).slice (win2_5.rect t)).set ↔ _
  rw [View.set_slice_whole, Rect.mem_set_unit]
  exact Iff.rfl

theorem mem_blk6 (t : Fin cfg2.N) (i : S20000x128.Idx) :
    i ∈ ((cfg2.win 6).blk t).view.set ↔ ∀ a : Fin 2, win2_6.index t a * S4000x128.size a ≤ (i a).val
      ∧ (i a).val < win2_6.index t a * S4000x128.size a + S4000x128.size a := by
  show i ∈ ((View.whole main_v162_1).slice (win2_6.rect t)).set ↔ _
  rw [View.set_slice_whole, Rect.mem_set_unit]
  exact Iff.rfl

/-- The 5 blocks of 4000 rows tile the 20000 rows: row `r` is in block `r / 4000`. -/
theorem cover5 (i : S20000x128.Idx) :
    ∃ t : Fin cfg2.N, (cfg2.win 5).flush t = true ∧ i ∈ ((cfg2.win 5).blk t).view.set := by
  have hi0 : (i 0).val < 20000 := (i 0).isLt
  have hi1 : (i 1).val < 128 := (i 1).isLt
  have hN : (i 0).val / 4000 < cfg2.N := by show (i 0).val / 4000 < 5; omega
  obtain ⟨e00, e01, e10, e11, e20, e21, e30, e31, e40, e41, e50, e51, e60, e61⟩ := idx_facts ⟨(i 0).val / 4000, hN⟩
  refine ⟨⟨(i 0).val / 4000, hN⟩, flush2_5 _, ?_⟩
  rw [mem_blk5]
  intro a
  match a with
  | ⟨0, _⟩ =>
    show win2_5.index ⟨(i 0).val / 4000, hN⟩ (0 : Fin 2) * 4000 ≤ (i 0).val
      ∧ (i 0).val < win2_5.index ⟨(i 0).val / 4000, hN⟩ (0 : Fin 2) * 4000 + 4000
    rw [e50]; show (i 0).val / 4000 * 4000 ≤ (i 0).val ∧ (i 0).val < (i 0).val / 4000 * 4000 + 4000; omega
  | ⟨1, _⟩ =>
    show win2_5.index ⟨(i 0).val / 4000, hN⟩ (1 : Fin 2) * 128 ≤ (i 1).val
      ∧ (i 1).val < win2_5.index ⟨(i 0).val / 4000, hN⟩ (1 : Fin 2) * 128 + 128
    rw [e51]; omega

theorem cover6 (i : S20000x128.Idx) :
    ∃ t : Fin cfg2.N, (cfg2.win 6).flush t = true ∧ i ∈ ((cfg2.win 6).blk t).view.set := by
  have hi0 : (i 0).val < 20000 := (i 0).isLt
  have hi1 : (i 1).val < 128 := (i 1).isLt
  have hN : (i 0).val / 4000 < cfg2.N := by show (i 0).val / 4000 < 5; omega
  obtain ⟨e00, e01, e10, e11, e20, e21, e30, e31, e40, e41, e50, e51, e60, e61⟩ := idx_facts ⟨(i 0).val / 4000, hN⟩
  refine ⟨⟨(i 0).val / 4000, hN⟩, flush2_6 _, ?_⟩
  rw [mem_blk6]
  intro a
  match a with
  | ⟨0, _⟩ =>
    show win2_6.index ⟨(i 0).val / 4000, hN⟩ (0 : Fin 2) * 4000 ≤ (i 0).val
      ∧ (i 0).val < win2_6.index ⟨(i 0).val / 4000, hN⟩ (0 : Fin 2) * 4000 + 4000
    rw [e60]; show (i 0).val / 4000 * 4000 ≤ (i 0).val ∧ (i 0).val < (i 0).val / 4000 * 4000 + 4000; omega
  | ⟨1, _⟩ =>
    show win2_6.index ⟨(i 0).val / 4000, hN⟩ (1 : Fin 2) * 128 ≤ (i 1).val
      ∧ (i 1).val < win2_6.index ⟨(i 0).val / 4000, hN⟩ (1 : Fin 2) * 128 + 128
    rw [e61]; omega

/-- After the call the new-features array is `meanCat` of the four arrays the call found. -/
theorem newx (c : Dev nD) :
    (dat2 V c).arrAt 5 cfg2.N
      = meanCat (n := 20000) (V c main_v126) (V c main_v44) (V c main_v137) (V c main_v53) :=
  (dat2 V c).arrAt_eq_of_cover 5 _ (fun t _ => flushed5_eq V c t) cover5

/-- After the call the running-sum array is `accum` of the accumulator the call found and the new features. -/
theorem accout (c : Dev nD) :
    (dat2 V c).arrAt 6 cfg2.N
      = accum (V c main_arg2) (meanCat (n := 20000) (V c main_v126) (V c main_v44) (V c main_v137) (V c main_v53))
          (Ideal.ofBits .f32 0x3F000000#32) :=
  (dat2 V c).arrAt_eq_of_cover 6 _ (fun t _ => flushed6_eq V c t) cover6

end Cert.KernelIdeal.Region2

end
-- ==== Proof.Region3.lean ====
/-
  Region 3 of the kernel's program (a combine call on the tag table: 5 blocks of 1000 rows over 5000 rows), read as
  whole-array functions: the argument is Region 0's, with this call's buffers, extents and layer weight.
-/
import proofs.«179549_j31344671326263_2_alg».proof.Proof.Gen.KernelIdeal.Frame
import proofs.«179549_j31344671326263_2_alg».proof.Proof.LibSegMean

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegMean

/-- The first payload: the two halves, each scaled row by row by its column, joined along the features. -/
theorem pay1 (x0 : Vec Ideal S1000x64 .f32) (x1 : Vec Ideal S1000x1 .f32) (x2 : Vec Ideal S1000x64 .f32)
    (x3 : Vec Ideal S1000x1 .f32) :
    k3_pay1 (F := Ideal) x0 x1 x2 x3 = meanCat (n := 1000) x0 x1 x2 x3 := by
  funext j
  obtain ⟨r, f, rfl⟩ : ∃ (r : Fin 1000) (f : Fin 128), j = ix2 r f := ⟨j 0, j 1, eq_ix2 j⟩
  unfold k3_pay1
  simp only [shapeCast_self]
  by_cases h : f.val < 64
  · rw [meanCat_left _ _ _ _ r f h]
    refine (concatenate_pair_apply_left (t := S1000x128) (s₁ := S1000x64) (s₂ := S1000x64) (1 : Fin 2) _ _ _
      (ix2 r f) rfl (ix2 (n0 := 1000) (n1 := 64) r ⟨f.val, h⟩)
      (fun b => by match b with | ⟨0, _⟩ => rfl | ⟨1, _⟩ => rfl)).trans ?_
    show x0 _ * broadcastTo S1000x64 x1 _ (ix2 r ⟨f.val, h⟩) = _
    rw [broadcastTo_apply x1 _ (ix2 r ⟨f.val, h⟩) (ix2 (n0 := 1000) (n1 := 1) r ⟨0, Nat.one_pos⟩)
      (fun a => by match a with | ⟨0, _⟩ => rfl | ⟨1, _⟩ => rfl)]
  · rw [meanCat_right _ _ _ _ r f h]
    have h128 := f.isLt
    refine (concatenate_pair_apply_right (t := S1000x128) (s₁ := S1000x64) (s₂ := S1000x64) (1 : Fin 2) _ _ _
      (ix2 r f) rfl rfl (ix2 (n0 := 1000) (n1 := 64) r ⟨f.val - 64, by omega⟩)
      (fun b hb => by match b with | ⟨0, _⟩ => rfl | ⟨1, _⟩ => exact absurd rfl hb)
      (by show f.val - 64 + 64 = f.val; omega)).trans ?_
    show x2 _ * broadcastTo S1000x64 x3 _ (ix2 r ⟨f.val - 64, _⟩) = _
    rw [broadcastTo_apply x3 _ (ix2 r ⟨f.val - 64, by omega⟩) (ix2 (n0 := 1000) (n1 := 1) r ⟨0, Nat.one_pos⟩)
      (fun a => by match a with | ⟨0, _⟩ => rfl | ⟨1, _⟩ => rfl)]

/-- The second payload: the running sum of the accumulator block and the first payload times the layer weight. -/
theorem pay2 (x0 : Vec Ideal S1000x64 .f32) (x1 : Vec Ideal S1000x1 .f32) (x2 : Vec Ideal S1000x64 .f32)
    (x3 : Vec Ideal S1000x1 .f32) (x4 : Vec Ideal S1000x128 .f32) :
    k3_pay2 (F := Ideal) x0 x1 x2 x3 x4
      = accum x4 (meanCat (n := 1000) x0 x1 x2 x3) (Ideal.ofBits .f32 0x3F000000#32) := by
  unfold k3_pay2
  rw [pay1]
  try simp only [shapeCast_self]
  rfl

/-- The running sum commutes with cutting a block: if the accumulator's block and the output's block sit at the same
    place and the addend's block is the addend at the embedded index, the block of the running sum is the running sum
    at the embedded index. -/
theorem accum_block {s s' : Shape} (acc : s'.Idx → EReal) (x : s.Idx → EReal) (X : s'.Idx → EReal) (w : EReal)
    (e4 e6 : s.Idx → s'.Idx) (y : s.Idx) (h46 : e4 y = e6 y) (hx : x y = X (e6 y)) :
    accum (fun z => acc (e4 z)) x w y = accum acc X w (e6 y) := by
  unfold accum
  show acc (e4 y) + x y * w = acc (e6 y) + X (e6 y) * w
  rw [h46, hx]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block row `t`, block
    column `0`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- What point `t` writes back through the new-features window is block `t` of `meanCat` of the four arrays. -/
theorem flushed5_eq (c : Dev nD) (t : Fin cfg3.N) :
    (dat3 V c).flushed 5 t = ((cfg3.win 5).blk t).view.read (Elt Ideal)
      (meanCat (n := 5000) (V c main_v148) (V c main_v62) (V c main_v159) (V c main_v71)) := by
  show (cfg3.win 5).cut (grid3.coords t) ((dat3 V c).after 5 t) = _
  rw [after3_5]
  unfold out3_5
  rw [View.canon_unit_zero hz]
  simp only [View.ld_unit_zero (S := S1000x64) hz, View.ld_unit_zero (S := S1000x1) hz]
  rw [pay1]
  obtain ⟨e00, e01, e10, e11, e20, e21, e30, e31, e40, e41, e50, e51, e60, e61⟩ := idx_facts t
  funext y
  show meanCat (n := 1000) (fun z => V c main_v148 (((cfg3.win 0).blk t).view.emb z))
      (fun z => V c main_v62 (((cfg3.win 1).blk t).view.emb z))
      (fun z => V c main_v159 (((cfg3.win 2).blk t).view.emb z))
      (fun z => V c main_v71 (((cfg3.win 3).blk t).view.emb z)) y
    = meanCat (n := 5000) (V c main_v148) (V c main_v62) (V c main_v159) (V c main_v71)
        (((cfg3.win 5).blk t).view.emb y)
  exact meanCat_block (1000 * t.val) _ _ _ _ _ _ _ _ _
    (fun z => ⟨by show win3_0.index t (0 : Fin 2) * 1000 + 1 * (z 0).val = 1000 * t.val + (z 0).val; rw [e00]; omega,
      by show win3_0.index t (1 : Fin 2) * 64 + 1 * (z 1).val = (z 1).val; rw [e01]; omega⟩)
    (fun z => ⟨by show win3_1.index t (0 : Fin 2) * 1000 + 1 * (z 0).val = 1000 * t.val + (z 0).val; rw [e10]; omega,
      by show win3_1.index t (1 : Fin 2) * 1 + 1 * (z 1).val = (z 1).val; rw [e11]; omega⟩)
    (fun z => ⟨by show win3_2.index t (0 : Fin 2) * 1000 + 1 * (z 0).val = 1000 * t.val + (z 0).val; rw [e20]; omega,
      by show win3_2.index t (1 : Fin 2) * 64 + 1 * (z 1).val = (z 1).val; rw [e21]; omega⟩)
    (fun z => ⟨by show win3_3.index t (0 : Fin 2) * 1000 + 1 * (z 0).val = 1000 * t.val + (z 0).val; rw [e30]; omega,
      by show win3_3.index t (1 : Fin 2) * 1 + 1 * (z 1).val = (z 1).val; rw [e31]; omega⟩)
    (fun z => ⟨by show win3_5.index t (0 : Fin 2) * 1000 + 1 * (z 0).val = 1000 * t.val + (z 0).val; rw [e50]; omega,
      by show win3_5.index t (1 : Fin 2) * 128 + 1 * (z 1).val = (z 1).val; rw [e51]; omega⟩)
    y

/-- What point `t` writes back through the running-sum window is block `t` of `accum` of the accumulator array
    and `meanCat` of the four arrays. -/
theorem flushed6_eq (c : Dev nD) (t : Fin cfg3.N) :
    (dat3 V c).flushed 6 t = ((cfg3.win 6).blk t).view.read (Elt Ideal)
      (accum (V c main_arg3) (meanCat (n := 5000) (V c main_v148) (V c main_v62) (V c main_v159) (V c main_v71))
        (Ideal.ofBits .f32 0x3F000000#32)) := by
  show (cfg3.win 6).cut (grid3.coords t) ((dat3 V c).after 6 t) = _
  rw [after3_6]
  unfold out3_6
  rw [View.canon_unit_zero hz]
  simp only [View.ld_unit_zero (S := S1000x64) hz, View.ld_unit_zero (S := S1000x1) hz,
    View.ld_unit_zero (S := S1000x128) hz]
  rw [pay2]
  obtain ⟨e00, e01, e10, e11, e20, e21, e30, e31, e40, e41, e50, e51, e60, e61⟩ := idx_facts t
  funext y
  show accum (s := S1000x128) (fun z => V c main_arg3 (((cfg3.win 4).blk t).view.emb z))
      (meanCat (n := 1000) (fun z => V c main_v148 (((cfg3.win 0).blk t).view.emb z))
          (fun z => V c main_v62 (((cfg3.win 1).blk t).view.emb z))
          (fun z => V c main_v159 (((cfg3.win 2).blk t).view.emb z))
          (fun z => V c main_v71 (((cfg3.win 3).blk t).view.emb z))) (Ideal.ofBits .f32 0x3F000000#32) y
    = accum (s := S5000x128) (V c main_arg3)
        (meanCat (n := 5000) (V c main_v148) (V c main_v62) (V c main_v159) (V c main_v71))
        (Ideal.ofBits .f32 0x3F000000#32) (((cfg3.win 6).blk t).view.emb y)
  refine accum_block _ _ _ _ _ _ y ?_ ?_
  · funext a; apply Fin.ext
    match a with
    | ⟨0, _⟩ => show win3_4.index t (0 : Fin 2) * 1000 + 1 * (y 0).val = win3_6.index t (0 : Fin 2) * 1000 + 1 * (y 0).val; rw [e40, e60]
    | ⟨1, _⟩ => show win3_4.index t (1 : Fin 2) * 128 + 1 * (y 1).val = win3_6.index t (1 : Fin 2) * 128 + 1 * (y 1).val; rw [e41, e61]
  exact meanCat_block (1000 * t.val) _ _ _ _ _ _ _ _ _
    (fun z => ⟨by show win3_0.index t (0 : Fin 2) * 1000 + 1 * (z 0).val = 1000 * t.val + (z 0).val; rw [e00]; omega,
      by show win3_0.index t (1 : Fin 2) * 64 + 1 * (z 1).val = (z 1).val; rw [e01]; omega⟩)
    (fun z => ⟨by show win3_1.index t (0 : Fin 2) * 1000 + 1 * (z 0).val = 1000 * t.val + (z 0).val; rw [e10]; omega,
      by show win3_1.index t (1 : Fin 2) * 1 + 1 * (z 1).val = (z 1).val; rw [e11]; omega⟩)
    (fun z => ⟨by show win3_2.index t (0 : Fin 2) * 1000 + 1 * (z 0).val = 1000 * t.val + (z 0).val; rw [e20]; omega,
      by show win3_2.index t (1 : Fin 2) * 64 + 1 * (z 1).val = (z 1).val; rw [e21]; omega⟩)
    (fun z => ⟨by show win3_3.index t (0 : Fin 2) * 1000 + 1 * (z 0).val = 1000 * t.val + (z 0).val; rw [e30]; omega,
      by show win3_3.index t (1 : Fin 2) * 1 + 1 * (z 1).val = (z 1).val; rw [e31]; omega⟩)
    (fun z => ⟨by show win3_6.index t (0 : Fin 2) * 1000 + 1 * (z 0).val = 1000 * t.val + (z 0).val; rw [e60]; omega,
      by show win3_6.index t (1 : Fin 2) * 128 + 1 * (z 1).val = (z 1).val; rw [e61]; omega⟩)
    y

/-- An index of the new-features array is in point `t`'s block iff each coordinate is in the block's range. -/
theorem mem_blk5 (t : Fin cfg3.N) (i : S5000x128.Idx) :
    i ∈ ((cfg3.win 5).blk t).view.set ↔ ∀ a : Fin 2, win3_5.index t a * S1000x128.size a ≤ (i a).val
      ∧ (i a).val < win3_5.index t a * S1000x128.size a + S1000x128.size a := by
  show i ∈ ((View.whole main_v163_0).slice (win3_5.rect t)).set ↔ _
  rw [View.set_slice_whole, Rect.mem_set_unit]
  exact Iff.rfl

theorem mem_blk6 (t : Fin cfg3.N) (i : S5000x128.Idx) :
    i ∈ ((cfg3.win 6).blk t).view.set ↔ ∀ a : Fin 2, win3_6.index t a * S1000x128.size a ≤ (i a).val
      ∧ (i a).val < win3_6.index t a * S1000x128.size a + S1000x128.size a := by
  show i ∈ ((View.whole main_v163_1).slice (win3_6.rect t)).set ↔ _
  rw [View.set_slice_whole, Rect.mem_set_unit]
  exact Iff.rfl

/-- The 5 blocks of 1000 rows tile the 5000 rows: row `r` is in block `r / 1000`. -/
theorem cover5 (i : S5000x128.Idx) :
    ∃ t : Fin cfg3.N, (cfg3.win 5).flush t = true ∧ i ∈ ((cfg3.win 5).blk t).view.set := by
  have hi0 : (i 0).val < 5000 := (i 0).isLt
  have hi1 : (i 1).val < 128 := (i 1).isLt
  have hN : (i 0).val / 1000 < cfg3.N := by show (i 0).val / 1000 < 5; omega
  obtain ⟨e00, e01, e10, e11, e20, e21, e30, e31, e40, e41, e50, e51, e60, e61⟩ := idx_facts ⟨(i 0).val / 1000, hN⟩
  refine ⟨⟨(i 0).val / 1000, hN⟩, flush3_5 _, ?_⟩
  rw [mem_blk5]
  intro a
  match a with
  | ⟨0, _⟩ =>
    show win3_5.index ⟨(i 0).val / 1000, hN⟩ (0 : Fin 2) * 1000 ≤ (i 0).val
      ∧ (i 0).val < win3_5.index ⟨(i 0).val / 1000, hN⟩ (0 : Fin 2) * 1000 + 1000
    rw [e50]; show (i 0).val / 1000 * 1000 ≤ (i 0).val ∧ (i 0).val < (i 0).val / 1000 * 1000 + 1000; omega
  | ⟨1, _⟩ =>
    show win3_5.index ⟨(i 0).val / 1000, hN⟩ (1 : Fin 2) * 128 ≤ (i 1).val
      ∧ (i 1).val < win3_5.index ⟨(i 0).val / 1000, hN⟩ (1 : Fin 2) * 128 + 128
    rw [e51]; omega

theorem cover6 (i : S5000x128.Idx) :
    ∃ t : Fin cfg3.N, (cfg3.win 6).flush t = true ∧ i ∈ ((cfg3.win 6).blk t).view.set := by
  have hi0 : (i 0).val < 5000 := (i 0).isLt
  have hi1 : (i 1).val < 128 := (i 1).isLt
  have hN : (i 0).val / 1000 < cfg3.N := by show (i 0).val / 1000 < 5; omega
  obtain ⟨e00, e01, e10, e11, e20, e21, e30, e31, e40, e41, e50, e51, e60, e61⟩ := idx_facts ⟨(i 0).val / 1000, hN⟩
  refine ⟨⟨(i 0).val / 1000, hN⟩, flush3_6 _, ?_⟩
  rw [mem_blk6]
  intro a
  match a with
  | ⟨0, _⟩ =>
    show win3_6.index ⟨(i 0).val / 1000, hN⟩ (0 : Fin 2) * 1000 ≤ (i 0).val
      ∧ (i 0).val < win3_6.index ⟨(i 0).val / 1000, hN⟩ (0 : Fin 2) * 1000 + 1000
    rw [e60]; show (i 0).val / 1000 * 1000 ≤ (i 0).val ∧ (i 0).val < (i 0).val / 1000 * 1000 + 1000; omega
  | ⟨1, _⟩ =>
    show win3_6.index ⟨(i 0).val / 1000, hN⟩ (1 : Fin 2) * 128 ≤ (i 1).val
      ∧ (i 1).val < win3_6.index ⟨(i 0).val / 1000, hN⟩ (1 : Fin 2) * 128 + 128
    rw [e61]; omega

/-- After the call the new-features array is `meanCat` of the four arrays the call found. -/
theorem newx (c : Dev nD) :
    (dat3 V c).arrAt 5 cfg3.N
      = meanCat (n := 5000) (V c main_v148) (V c main_v62) (V c main_v159) (V c main_v71) :=
  (dat3 V c).arrAt_eq_of_cover 5 _ (fun t _ => flushed5_eq V c t) cover5

/-- After the call the running-sum array is `accum` of the accumulator the call found and the new features. -/
theorem accout (c : Dev nD) :
    (dat3 V c).arrAt 6 cfg3.N
      = accum (V c main_arg3) (meanCat (n := 5000) (V c main_v148) (V c main_v62) (V c main_v159) (V c main_v71))
          (Ideal.ofBits .f32 0x3F000000#32) :=
  (dat3 V c).arrAt_eq_of_cover 6 _ (fun t _ => flushed6_eq V c t) cover6

end Cert.KernelIdeal.Region3

end
-- ==== Proof.Region4.lean ====
/-
  Region 4 of the kernel's program (a combine call on the user table: 50 blocks of 4000 rows over 200000 rows), read as
  whole-array functions: the argument is Region 0's, with this call's buffers, extents and layer weight.
-/
import proofs.«179549_j31344671326263_2_alg».proof.Proof.Gen.KernelIdeal.Frame
import proofs.«179549_j31344671326263_2_alg».proof.Proof.LibSegMean

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegMean

/-- The first payload: the two halves, each scaled row by row by its column, joined along the features. -/
theorem pay1 (x0 : Vec Ideal S4000x64 .f32) (x1 : Vec Ideal S4000x1 .f32) (x2 : Vec Ideal S4000x64 .f32)
    (x3 : Vec Ideal S4000x1 .f32) :
    k4_pay1 (F := Ideal) x0 x1 x2 x3 = meanCat (n := 4000) x0 x1 x2 x3 := by
  funext j
  obtain ⟨r, f, rfl⟩ : ∃ (r : Fin 4000) (f : Fin 128), j = ix2 r f := ⟨j 0, j 1, eq_ix2 j⟩
  unfold k4_pay1
  simp only [shapeCast_self]
  by_cases h : f.val < 64
  · rw [meanCat_left _ _ _ _ r f h]
    refine (concatenate_pair_apply_left (t := S4000x128) (s₁ := S4000x64) (s₂ := S4000x64) (1 : Fin 2) _ _ _
      (ix2 r f) rfl (ix2 (n0 := 4000) (n1 := 64) r ⟨f.val, h⟩)
      (fun b => by match b with | ⟨0, _⟩ => rfl | ⟨1, _⟩ => rfl)).trans ?_
    show x0 _ * broadcastTo S4000x64 x1 _ (ix2 r ⟨f.val, h⟩) = _
    rw [broadcastTo_apply x1 _ (ix2 r ⟨f.val, h⟩) (ix2 (n0 := 4000) (n1 := 1) r ⟨0, Nat.one_pos⟩)
      (fun a => by match a with | ⟨0, _⟩ => rfl | ⟨1, _⟩ => rfl)]
  · rw [meanCat_right _ _ _ _ r f h]
    have h128 := f.isLt
    refine (concatenate_pair_apply_right (t := S4000x128) (s₁ := S4000x64) (s₂ := S4000x64) (1 : Fin 2) _ _ _
      (ix2 r f) rfl rfl (ix2 (n0 := 4000) (n1 := 64) r ⟨f.val - 64, by omega⟩)
      (fun b hb => by match b with | ⟨0, _⟩ => rfl | ⟨1, _⟩ => exact absurd rfl hb)
      (by show f.val - 64 + 64 = f.val; omega)).trans ?_
    show x2 _ * broadcastTo S4000x64 x3 _ (ix2 r ⟨f.val - 64, _⟩) = _
    rw [broadcastTo_apply x3 _ (ix2 r ⟨f.val - 64, by omega⟩) (ix2 (n0 := 4000) (n1 := 1) r ⟨0, Nat.one_pos⟩)
      (fun a => by match a with | ⟨0, _⟩ => rfl | ⟨1, _⟩ => rfl)]

/-- The second payload: the running sum of the accumulator block and the first payload times the layer weight. -/
theorem pay2 (x0 : Vec Ideal S4000x64 .f32) (x1 : Vec Ideal S4000x1 .f32) (x2 : Vec Ideal S4000x64 .f32)
    (x3 : Vec Ideal S4000x1 .f32) (x4 : Vec Ideal S4000x128 .f32) :
    k4_pay2 (F := Ideal) x0 x1 x2 x3 x4
      = accum x4 (meanCat (n := 4000) x0 x1 x2 x3) (Ideal.ofBits .f32 0x3EAAAAAB#32) := by
  unfold k4_pay2
  rw [pay1]
  try simp only [shapeCast_self]
  rfl

/-- The running sum commutes with cutting a block: if the accumulator's block and the output's block sit at the same
    place and the addend's block is the addend at the embedded index, the block of the running sum is the running sum
    at the embedded index. -/
theorem accum_block {s s' : Shape} (acc : s'.Idx → EReal) (x : s.Idx → EReal) (X : s'.Idx → EReal) (w : EReal)
    (e4 e6 : s.Idx → s'.Idx) (y : s.Idx) (h46 : e4 y = e6 y) (hx : x y = X (e6 y)) :
    accum (fun z => acc (e4 z)) x w y = accum acc X w (e6 y) := by
  unfold accum
  show acc (e4 y) + x y * w = acc (e6 y) + X (e6 y) * w
  rw [h46, hx]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block row `t`, block
    column `0`. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- What point `t` writes back through the new-features window is block `t` of `meanCat` of the four arrays. -/
theorem flushed5_eq (c : Dev nD) (t : Fin cfg4.N) :
    (dat4 V c).flushed 5 t = ((cfg4.win 5).blk t).view.read (Elt Ideal)
      (meanCat (n := 200000) (V c main_v174) (V c main_v8) (V c main_v185) (V c main_v17)) := by
  show (cfg4.win 5).cut (grid4.coords t) ((dat4 V c).after 5 t) = _
  rw [after4_5]
  unfold out4_5
  rw [View.canon_unit_zero hz]
  simp only [View.ld_unit_zero (S := S4000x64) hz, View.ld_unit_zero (S := S4000x1) hz]
  rw [pay1]
  obtain ⟨e00, e01, e10, e11, e20, e21, e30, e31, e40, e41, e50, e51, e60, e61⟩ := idx_facts t
  funext y
  show meanCat (n := 4000) (fun z => V c main_v174 (((cfg4.win 0).blk t).view.emb z))
      (fun z => V c main_v8 (((cfg4.win 1).blk t).view.emb z))
      (fun z => V c main_v185 (((cfg4.win 2).blk t).view.emb z))
      (fun z => V c main_v17 (((cfg4.win 3).blk t).view.emb z)) y
    = meanCat (n := 200000) (V c main_v174) (V c main_v8) (V c main_v185) (V c main_v17)
        (((cfg4.win 5).blk t).view.emb y)
  exact meanCat_block (4000 * t.val) _ _ _ _ _ _ _ _ _
    (fun z => ⟨by show win4_0.index t (0 : Fin 2) * 4000 + 1 * (z 0).val = 4000 * t.val + (z 0).val; rw [e00]; omega,
      by show win4_0.index t (1 : Fin 2) * 64 + 1 * (z 1).val = (z 1).val; rw [e01]; omega⟩)
    (fun z => ⟨by show win4_1.index t (0 : Fin 2) * 4000 + 1 * (z 0).val = 4000 * t.val + (z 0).val; rw [e10]; omega,
      by show win4_1.index t (1 : Fin 2) * 1 + 1 * (z 1).val = (z 1).val; rw [e11]; omega⟩)
    (fun z => ⟨by show win4_2.index t (0 : Fin 2) * 4000 + 1 * (z 0).val = 4000 * t.val + (z 0).val; rw [e20]; omega,
      by show win4_2.index t (1 : Fin 2) * 64 + 1 * (z 1).val = (z 1).val; rw [e21]; omega⟩)
    (fun z => ⟨by show win4_3.index t (0 : Fin 2) * 4000 + 1 * (z 0).val = 4000 * t.val + (z 0).val; rw [e30]; omega,
      by show win4_3.index t (1 : Fin 2) * 1 + 1 * (z 1).val = (z 1).val; rw [e31]; omega⟩)
    (fun z => ⟨by show win4_5.index t (0 : Fin 2) * 4000 + 1 * (z 0).val = 4000 * t.val + (z 0).val; rw [e50]; omega,
      by show win4_5.index t (1 : Fin 2) * 128 + 1 * (z 1).val = (z 1).val; rw [e51]; omega⟩)
    y

/-- What point `t` writes back through the running-sum window is block `t` of `accum` of the accumulator array
    and `meanCat` of the four arrays. -/
theorem flushed6_eq (c : Dev nD) (t : Fin cfg4.N) :
    (dat4 V c).flushed 6 t = ((cfg4.win 6).blk t).view.read (Elt Ideal)
      (accum (V c main_v160_1) (meanCat (n := 200000) (V c main_v174) (V c main_v8) (V c main_v185) (V c main_v17))
        (Ideal.ofBits .f32 0x3EAAAAAB#32)) := by
  show (cfg4.win 6).cut (grid4.coords t) ((dat4 V c).after 6 t) = _
  rw [after4_6]
  unfold out4_6
  rw [View.canon_unit_zero hz]
  simp only [View.ld_unit_zero (S := S4000x64) hz, View.ld_unit_zero (S := S4000x1) hz,
    View.ld_unit_zero (S := S4000x128) hz]
  rw [pay2]
  obtain ⟨e00, e01, e10, e11, e20, e21, e30, e31, e40, e41, e50, e51, e60, e61⟩ := idx_facts t
  funext y
  show accum (s := S4000x128) (fun z => V c main_v160_1 (((cfg4.win 4).blk t).view.emb z))
      (meanCat (n := 4000) (fun z => V c main_v174 (((cfg4.win 0).blk t).view.emb z))
          (fun z => V c main_v8 (((cfg4.win 1).blk t).view.emb z))
          (fun z => V c main_v185 (((cfg4.win 2).blk t).view.emb z))
          (fun z => V c main_v17 (((cfg4.win 3).blk t).view.emb z))) (Ideal.ofBits .f32 0x3EAAAAAB#32) y
    = accum (s := S200000x128) (V c main_v160_1)
        (meanCat (n := 200000) (V c main_v174) (V c main_v8) (V c main_v185) (V c main_v17))
        (Ideal.ofBits .f32 0x3EAAAAAB#32) (((cfg4.win 6).blk t).view.emb y)
  refine accum_block _ _ _ _ _ _ y ?_ ?_
  · funext a; apply Fin.ext
    match a with
    | ⟨0, _⟩ => show win4_4.index t (0 : Fin 2) * 4000 + 1 * (y 0).val = win4_6.index t (0 : Fin 2) * 4000 + 1 * (y 0).val; rw [e40, e60]
    | ⟨1, _⟩ => show win4_4.index t (1 : Fin 2) * 128 + 1 * (y 1).val = win4_6.index t (1 : Fin 2) * 128 + 1 * (y 1).val; rw [e41, e61]
  exact meanCat_block (4000 * t.val) _ _ _ _ _ _ _ _ _
    (fun z => ⟨by show win4_0.index t (0 : Fin 2) * 4000 + 1 * (z 0).val = 4000 * t.val + (z 0).val; rw [e00]; omega,
      by show win4_0.index t (1 : Fin 2) * 64 + 1 * (z 1).val = (z 1).val; rw [e01]; omega⟩)
    (fun z => ⟨by show win4_1.index t (0 : Fin 2) * 4000 + 1 * (z 0).val = 4000 * t.val + (z 0).val; rw [e10]; omega,
      by show win4_1.index t (1 : Fin 2) * 1 + 1 * (z 1).val = (z 1).val; rw [e11]; omega⟩)
    (fun z => ⟨by show win4_2.index t (0 : Fin 2) * 4000 + 1 * (z 0).val = 4000 * t.val + (z 0).val; rw [e20]; omega,
      by show win4_2.index t (1 : Fin 2) * 64 + 1 * (z 1).val = (z 1).val; rw [e21]; omega⟩)
    (fun z => ⟨by show win4_3.index t (0 : Fin 2) * 4000 + 1 * (z 0).val = 4000 * t.val + (z 0).val; rw [e30]; omega,
      by show win4_3.index t (1 : Fin 2) * 1 + 1 * (z 1).val = (z 1).val; rw [e31]; omega⟩)
    (fun z => ⟨by show win4_6.index t (0 : Fin 2) * 4000 + 1 * (z 0).val = 4000 * t.val + (z 0).val; rw [e60]; omega,
      by show win4_6.index t (1 : Fin 2) * 128 + 1 * (z 1).val = (z 1).val; rw [e61]; omega⟩)
    y

/-- An index of the new-features array is in point `t`'s block iff each coordinate is in the block's range. -/
theorem mem_blk5 (t : Fin cfg4.N) (i : S200000x128.Idx) :
    i ∈ ((cfg4.win 5).blk t).view.set ↔ ∀ a : Fin 2, win4_5.index t a * S4000x128.size a ≤ (i a).val
      ∧ (i a).val < win4_5.index t a * S4000x128.size a + S4000x128.size a := by
  show i ∈ ((View.whole main_v252_0).slice (win4_5.rect t)).set ↔ _
  rw [View.set_slice_whole, Rect.mem_set_unit]
  exact Iff.rfl

theorem mem_blk6 (t : Fin cfg4.N) (i : S200000x128.Idx) :
    i ∈ ((cfg4.win 6).blk t).view.set ↔ ∀ a : Fin 2, win4_6.index t a * S4000x128.size a ≤ (i a).val
      ∧ (i a).val < win4_6.index t a * S4000x128.size a + S4000x128.size a := by
  show i ∈ ((View.whole main_v252_1).slice (win4_6.rect t)).set ↔ _
  rw [View.set_slice_whole, Rect.mem_set_unit]
  exact Iff.rfl

/-- The 50 blocks of 4000 rows tile the 200000 rows: row `r` is in block `r / 4000`. -/
theorem cover5 (i : S200000x128.Idx) :
    ∃ t : Fin cfg4.N, (cfg4.win 5).flush t = true ∧ i ∈ ((cfg4.win 5).blk t).view.set := by
  have hi0 : (i 0).val < 200000 := (i 0).isLt
  have hi1 : (i 1).val < 128 := (i 1).isLt
  have hN : (i 0).val / 4000 < cfg4.N := by show (i 0).val / 4000 < 50; omega
  obtain ⟨e00, e01, e10, e11, e20, e21, e30, e31, e40, e41, e50, e51, e60, e61⟩ := idx_facts ⟨(i 0).val / 4000, hN⟩
  refine ⟨⟨(i 0).val / 4000, hN⟩, flush4_5 _, ?_⟩
  rw [mem_blk5]
  intro a
  match a with
  | ⟨0, _⟩ =>
    show win4_5.index ⟨(i 0).val / 4000, hN⟩ (0 : Fin 2) * 4000 ≤ (i 0).val
      ∧ (i 0).val < win4_5.index ⟨(i 0).val / 4000, hN⟩ (0 : Fin 2) * 4000 + 4000
    rw [e50]; show (i 0).val / 4000 * 4000 ≤ (i 0).val ∧ (i 0).val < (i 0).val / 4000 * 4000 + 4000; omega
  | ⟨1, _⟩ =>
    show win4_5.index ⟨(i 0).val / 4000, hN⟩ (1 : Fin 2) * 128 ≤ (i 1).val
      ∧ (i 1).val < win4_5.index ⟨(i 0).val / 4000, hN⟩ (1 : Fin 2) * 128 + 128
    rw [e51]; omega

theorem cover6 (i : S200000x128.Idx) :
    ∃ t : Fin cfg4.N, (cfg4.win 6).flush t = true ∧ i ∈ ((cfg4.win 6).blk t).view.set := by
  have hi0 : (i 0).val < 200000 := (i 0).isLt
  have hi1 : (i 1).val < 128 := (i 1).isLt
  have hN : (i 0).val / 4000 < cfg4.N := by show (i 0).val / 4000 < 50; omega
  obtain ⟨e00, e01, e10, e11, e20, e21, e30, e31, e40, e41, e50, e51, e60, e61⟩ := idx_facts ⟨(i 0).val / 4000, hN⟩
  refine ⟨⟨(i 0).val / 4000, hN⟩, flush4_6 _, ?_⟩
  rw [mem_blk6]
  intro a
  match a with
  | ⟨0, _⟩ =>
    show win4_6.index ⟨(i 0).val / 4000, hN⟩ (0 : Fin 2) * 4000 ≤ (i 0).val
      ∧ (i 0).val < win4_6.index ⟨(i 0).val / 4000, hN⟩ (0 : Fin 2) * 4000 + 4000
    rw [e60]; show (i 0).val / 4000 * 4000 ≤ (i 0).val ∧ (i 0).val < (i 0).val / 4000 * 4000 + 4000; omega
  | ⟨1, _⟩ =>
    show win4_6.index ⟨(i 0).val / 4000, hN⟩ (1 : Fin 2) * 128 ≤ (i 1).val
      ∧ (i 1).val < win4_6.index ⟨(i 0).val / 4000, hN⟩ (1 : Fin 2) * 128 + 128
    rw [e61]; omega

/-- After the call the new-features array is `meanCat` of the four arrays the call found. -/
theorem newx (c : Dev nD) :
    (dat4 V c).arrAt 5 cfg4.N
      = meanCat (n := 200000) (V c main_v174) (V c main_v8) (V c main_v185) (V c main_v17) :=
  (dat4 V c).arrAt_eq_of_cover 5 _ (fun t _ => flushed5_eq V c t) cover5

/-- After the call the running-sum array is `accum` of the accumulator the call found and the new features. -/
theorem accout (c : Dev nD) :
    (dat4 V c).arrAt 6 cfg4.N
      = accum (V c main_v160_1) (meanCat (n := 200000) (V c main_v174) (V c main_v8) (V c main_v185) (V c main_v17))
          (Ideal.ofBits .f32 0x3EAAAAAB#32) :=
  (dat4 V c).arrAt_eq_of_cover 6 _ (fun t _ => flushed6_eq V c t) cover6

end Cert.KernelIdeal.Region4

end
-- ==== Proof.Region5.lean ====
/-
  Region 5 of the kernel's program (a combine call on the video table: 25 blocks of 4000 rows over 100000 rows), read as
  whole-array functions: the argument is Region 0's, with this call's buffers, extents and layer weight.
-/
import proofs.«179549_j31344671326263_2_alg».proof.Proof.Gen.KernelIdeal.Frame
import proofs.«179549_j31344671326263_2_alg».proof.Proof.LibSegMean

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegMean

/-- The first payload: the two halves, each scaled row by row by its column, joined along the features. -/
theorem pay1 (x0 : Vec Ideal S4000x64 .f32) (x1 : Vec Ideal S4000x1 .f32) (x2 : Vec Ideal S4000x64 .f32)
    (x3 : Vec Ideal S4000x1 .f32) :
    k5_pay1 (F := Ideal) x0 x1 x2 x3 = meanCat (n := 4000) x0 x1 x2 x3 := by
  funext j
  obtain ⟨r, f, rfl⟩ : ∃ (r : Fin 4000) (f : Fin 128), j = ix2 r f := ⟨j 0, j 1, eq_ix2 j⟩
  unfold k5_pay1
  simp only [shapeCast_self]
  by_cases h : f.val < 64
  · rw [meanCat_left _ _ _ _ r f h]
    refine (concatenate_pair_apply_left (t := S4000x128) (s₁ := S4000x64) (s₂ := S4000x64) (1 : Fin 2) _ _ _
      (ix2 r f) rfl (ix2 (n0 := 4000) (n1 := 64) r ⟨f.val, h⟩)
      (fun b => by match b with | ⟨0, _⟩ => rfl | ⟨1, _⟩ => rfl)).trans ?_
    show x0 _ * broadcastTo S4000x64 x1 _ (ix2 r ⟨f.val, h⟩) = _
    rw [broadcastTo_apply x1 _ (ix2 r ⟨f.val, h⟩) (ix2 (n0 := 4000) (n1 := 1) r ⟨0, Nat.one_pos⟩)
      (fun a => by match a with | ⟨0, _⟩ => rfl | ⟨1, _⟩ => rfl)]
  · rw [meanCat_right _ _ _ _ r f h]
    have h128 := f.isLt
    refine (concatenate_pair_apply_right (t := S4000x128) (s₁ := S4000x64) (s₂ := S4000x64) (1 : Fin 2) _ _ _
      (ix2 r f) rfl rfl (ix2 (n0 := 4000) (n1 := 64) r ⟨f.val - 64, by omega⟩)
      (fun b hb => by match b with | ⟨0, _⟩ => rfl | ⟨1, _⟩ => exact absurd rfl hb)
      (by show f.val - 64 + 64 = f.val; omega)).trans ?_
    show x2 _ * broadcastTo S4000x64 x3 _ (ix2 r ⟨f.val - 64, _⟩) = _
    rw [broadcastTo_apply x3 _ (ix2 r ⟨f.val - 64, by omega⟩) (ix2 (n0 := 4000) (n1 := 1) r ⟨0, Nat.one_pos⟩)
      (fun a => by match a with | ⟨0, _⟩ => rfl | ⟨1, _⟩ => rfl)]

/-- The second payload: the running sum of the accumulator block and the first payload times the layer weight. -/
theorem pay2 (x0 : Vec Ideal S4000x64 .f32) (x1 : Vec Ideal S4000x1 .f32) (x2 : Vec Ideal S4000x64 .f32)
    (x3 : Vec Ideal S4000x1 .f32) (x4 : Vec Ideal S4000x128 .f32) :
    k5_pay2 (F := Ideal) x0 x1 x2 x3 x4
      = accum x4 (meanCat (n := 4000) x0 x1 x2 x3) (Ideal.ofBits .f32 0x3EAAAAAB#32) := by
  unfold k5_pay2
  rw [pay1]
  try simp only [shapeCast_self]
  rfl

/-- The running sum commutes with cutting a block: if the accumulator's block and the output's block sit at the same
    place and the addend's block is the addend at the embedded index, the block of the running sum is the running sum
    at the embedded index. -/
theorem accum_block {s s' : Shape} (acc : s'.Idx → EReal) (x : s.Idx → EReal) (X : s'.Idx → EReal) (w : EReal)
    (e4 e6 : s.Idx → s'.Idx) (y : s.Idx) (h46 : e4 y = e6 y) (hx : x y = X (e6 y)) :
    accum (fun z => acc (e4 z)) x w y = accum acc X w (e6 y) := by
  unfold accum
  show acc (e4 y) + x y * w = acc (e6 y) + X (e6 y) * w
  rw [h46, hx]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block row `t`, block
    column `0`. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- What point `t` writes back through the new-features window is block `t` of `meanCat` of the four arrays. -/
theorem flushed5_eq (c : Dev nD) (t : Fin cfg5.N) :
    (dat5 V c).flushed 5 t = ((cfg5.win 5).blk t).view.read (Elt Ideal)
      (meanCat (n := 100000) (V c main_v196) (V c main_v26) (V c main_v207) (V c main_v35)) := by
  show (cfg5.win 5).cut (grid5.coords t) ((dat5 V c).after 5 t) = _
  rw [after5_5]
  unfold out5_5
  rw [View.canon_unit_zero hz]
  simp only [View.ld_unit_zero (S := S4000x64) hz, View.ld_unit_zero (S := S4000x1) hz]
  rw [pay1]
  obtain ⟨e00, e01, e10, e11, e20, e21, e30, e31, e40, e41, e50, e51, e60, e61⟩ := idx_facts t
  funext y
  show meanCat (n := 4000) (fun z => V c main_v196 (((cfg5.win 0).blk t).view.emb z))
      (fun z => V c main_v26 (((cfg5.win 1).blk t).view.emb z))
      (fun z => V c main_v207 (((cfg5.win 2).blk t).view.emb z))
      (fun z => V c main_v35 (((cfg5.win 3).blk t).view.emb z)) y
    = meanCat (n := 100000) (V c main_v196) (V c main_v26) (V c main_v207) (V c main_v35)
        (((cfg5.win 5).blk t).view.emb y)
  exact meanCat_block (4000 * t.val) _ _ _ _ _ _ _ _ _
    (fun z => ⟨by show win5_0.index t (0 : Fin 2) * 4000 + 1 * (z 0).val = 4000 * t.val + (z 0).val; rw [e00]; omega,
      by show win5_0.index t (1 : Fin 2) * 64 + 1 * (z 1).val = (z 1).val; rw [e01]; omega⟩)
    (fun z => ⟨by show win5_1.index t (0 : Fin 2) * 4000 + 1 * (z 0).val = 4000 * t.val + (z 0).val; rw [e10]; omega,
      by show win5_1.index t (1 : Fin 2) * 1 + 1 * (z 1).val = (z 1).val; rw [e11]; omega⟩)
    (fun z => ⟨by show win5_2.index t (0 : Fin 2) * 4000 + 1 * (z 0).val = 4000 * t.val + (z 0).val; rw [e20]; omega,
      by show win5_2.index t (1 : Fin 2) * 64 + 1 * (z 1).val = (z 1).val; rw [e21]; omega⟩)
    (fun z => ⟨by show win5_3.index t (0 : Fin 2) * 4000 + 1 * (z 0).val = 4000 * t.val + (z 0).val; rw [e30]; omega,
      by show win5_3.index t (1 : Fin 2) * 1 + 1 * (z 1).val = (z 1).val; rw [e31]; omega⟩)
    (fun z => ⟨by show win5_5.index t (0 : Fin 2) * 4000 + 1 * (z 0).val = 4000 * t.val + (z 0).val; rw [e50]; omega,
      by show win5_5.index t (1 : Fin 2) * 128 + 1 * (z 1).val = (z 1).val; rw [e51]; omega⟩)
    y

/-- What point `t` writes back through the running-sum window is block `t` of `accum` of the accumulator array
    and `meanCat` of the four arrays. -/
theorem flushed6_eq (c : Dev nD) (t : Fin cfg5.N) :
    (dat5 V c).flushed 6 t = ((cfg5.win 6).blk t).view.read (Elt Ideal)
      (accum (V c main_v161_1) (meanCat (n := 100000) (V c main_v196) (V c main_v26) (V c main_v207) (V c main_v35))
        (Ideal.ofBits .f32 0x3EAAAAAB#32)) := by
  show (cfg5.win 6).cut (grid5.coords t) ((dat5 V c).after 6 t) = _
  rw [after5_6]
  unfold out5_6
  rw [View.canon_unit_zero hz]
  simp only [View.ld_unit_zero (S := S4000x64) hz, View.ld_unit_zero (S := S4000x1) hz,
    View.ld_unit_zero (S := S4000x128) hz]
  rw [pay2]
  obtain ⟨e00, e01, e10, e11, e20, e21, e30, e31, e40, e41, e50, e51, e60, e61⟩ := idx_facts t
  funext y
  show accum (s := S4000x128) (fun z => V c main_v161_1 (((cfg5.win 4).blk t).view.emb z))
      (meanCat (n := 4000) (fun z => V c main_v196 (((cfg5.win 0).blk t).view.emb z))
          (fun z => V c main_v26 (((cfg5.win 1).blk t).view.emb z))
          (fun z => V c main_v207 (((cfg5.win 2).blk t).view.emb z))
          (fun z => V c main_v35 (((cfg5.win 3).blk t).view.emb z))) (Ideal.ofBits .f32 0x3EAAAAAB#32) y
    = accum (s := S100000x128) (V c main_v161_1)
        (meanCat (n := 100000) (V c main_v196) (V c main_v26) (V c main_v207) (V c main_v35))
        (Ideal.ofBits .f32 0x3EAAAAAB#32) (((cfg5.win 6).blk t).view.emb y)
  refine accum_block _ _ _ _ _ _ y ?_ ?_
  · funext a; apply Fin.ext
    match a with
    | ⟨0, _⟩ => show win5_4.index t (0 : Fin 2) * 4000 + 1 * (y 0).val = win5_6.index t (0 : Fin 2) * 4000 + 1 * (y 0).val; rw [e40, e60]
    | ⟨1, _⟩ => show win5_4.index t (1 : Fin 2) * 128 + 1 * (y 1).val = win5_6.index t (1 : Fin 2) * 128 + 1 * (y 1).val; rw [e41, e61]
  exact meanCat_block (4000 * t.val) _ _ _ _ _ _ _ _ _
    (fun z => ⟨by show win5_0.index t (0 : Fin 2) * 4000 + 1 * (z 0).val = 4000 * t.val + (z 0).val; rw [e00]; omega,
      by show win5_0.index t (1 : Fin 2) * 64 + 1 * (z 1).val = (z 1).val; rw [e01]; omega⟩)
    (fun z => ⟨by show win5_1.index t (0 : Fin 2) * 4000 + 1 * (z 0).val = 4000 * t.val + (z 0).val; rw [e10]; omega,
      by show win5_1.index t (1 : Fin 2) * 1 + 1 * (z 1).val = (z 1).val; rw [e11]; omega⟩)
    (fun z => ⟨by show win5_2.index t (0 : Fin 2) * 4000 + 1 * (z 0).val = 4000 * t.val + (z 0).val; rw [e20]; omega,
      by show win5_2.index t (1 : Fin 2) * 64 + 1 * (z 1).val = (z 1).val; rw [e21]; omega⟩)
    (fun z => ⟨by show win5_3.index t (0 : Fin 2) * 4000 + 1 * (z 0).val = 4000 * t.val + (z 0).val; rw [e30]; omega,
      by show win5_3.index t (1 : Fin 2) * 1 + 1 * (z 1).val = (z 1).val; rw [e31]; omega⟩)
    (fun z => ⟨by show win5_6.index t (0 : Fin 2) * 4000 + 1 * (z 0).val = 4000 * t.val + (z 0).val; rw [e60]; omega,
      by show win5_6.index t (1 : Fin 2) * 128 + 1 * (z 1).val = (z 1).val; rw [e61]; omega⟩)
    y

/-- An index of the new-features array is in point `t`'s block iff each coordinate is in the block's range. -/
theorem mem_blk5 (t : Fin cfg5.N) (i : S100000x128.Idx) :
    i ∈ ((cfg5.win 5).blk t).view.set ↔ ∀ a : Fin 2, win5_5.index t a * S4000x128.size a ≤ (i a).val
      ∧ (i a).val < win5_5.index t a * S4000x128.size a + S4000x128.size a := by
  show i ∈ ((View.whole main_v253_0).slice (win5_5.rect t)).set ↔ _
  rw [View.set_slice_whole, Rect.mem_set_unit]
  exact Iff.rfl

theorem mem_blk6 (t : Fin cfg5.N) (i : S100000x128.Idx) :
    i ∈ ((cfg5.win 6).blk t).view.set ↔ ∀ a : Fin 2, win5_6.index t a * S4000x128.size a ≤ (i a).val
      ∧ (i a).val < win5_6.index t a * S4000x128.size a + S4000x128.size a := by
  show i ∈ ((View.whole main_v253_1).slice (win5_6.rect t)).set ↔ _
  rw [View.set_slice_whole, Rect.mem_set_unit]
  exact Iff.rfl

/-- The 25 blocks of 4000 rows tile the 100000 rows: row `r` is in block `r / 4000`. -/
theorem cover5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : (i 0).val / 4000 < cfg5.N := by show (i 0).val / 4000 < 25; omega
  obtain ⟨e00, e01, e10, e11, e20, e21, e30, e31, e40, e41, e50, e51, e60, e61⟩ := idx_facts ⟨(i 0).val / 4000, hN⟩
  refine ⟨⟨(i 0).val / 4000, hN⟩, flush5_5 _, ?_⟩
  rw [mem_blk5]
  intro a
  match a with
  | ⟨0, _⟩ =>
    show win5_5.index ⟨(i 0).val / 4000, hN⟩ (0 : Fin 2) * 4000 ≤ (i 0).val
      ∧ (i 0).val < win5_5.index ⟨(i 0).val / 4000, hN⟩ (0 : Fin 2) * 4000 + 4000
    rw [e50]; show (i 0).val / 4000 * 4000 ≤ (i 0).val ∧ (i 0).val < (i 0).val / 4000 * 4000 + 4000; omega
  | ⟨1, _⟩ =>
    show win5_5.index ⟨(i 0).val / 4000, hN⟩ (1 : Fin 2) * 128 ≤ (i 1).val
      ∧ (i 1).val < win5_5.index ⟨(i 0).val / 4000, hN⟩ (1 : Fin 2) * 128 + 128
    rw [e51]; omega

theorem cover6 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : (i 0).val / 4000 < cfg5.N := by show (i 0).val / 4000 < 25; omega
  obtain ⟨e00, e01, e10, e11, e20, e21, e30, e31, e40, e41, e50, e51, e60, e61⟩ := idx_facts ⟨(i 0).val / 4000, hN⟩
  refine ⟨⟨(i 0).val / 4000, hN⟩, flush5_6 _, ?_⟩
  rw [mem_blk6]
  intro a
  match a with
  | ⟨0, _⟩ =>
    show win5_6.index ⟨(i 0).val / 4000, hN⟩ (0 : Fin 2) * 4000 ≤ (i 0).val
      ∧ (i 0).val < win5_6.index ⟨(i 0).val / 4000, hN⟩ (0 : Fin 2) * 4000 + 4000
    rw [e60]; show (i 0).val / 4000 * 4000 ≤ (i 0).val ∧ (i 0).val < (i 0).val / 4000 * 4000 + 4000; omega
  | ⟨1, _⟩ =>
    show win5_6.index ⟨(i 0).val / 4000, hN⟩ (1 : Fin 2) * 128 ≤ (i 1).val
      ∧ (i 1).val < win5_6.index ⟨(i 0).val / 4000, hN⟩ (1 : Fin 2) * 128 + 128
    rw [e61]; omega

/-- After the call the new-features array is `meanCat` of the four arrays the call found. -/
theorem newx (c : Dev nD) :
    (dat5 V c).arrAt 5 cfg5.N
      = meanCat (n := 100000) (V c main_v196) (V c main_v26) (V c main_v207) (V c main_v35) :=
  (dat5 V c).arrAt_eq_of_cover 5 _ (fun t _ => flushed5_eq V c t) cover5

/-- After the call the running-sum array is `accum` of the accumulator the call found and the new features. -/
theorem accout (c : Dev nD) :
    (dat5 V c).arrAt 6 cfg5.N
      = accum (V c main_v161_1) (meanCat (n := 100000) (V c main_v196) (V c main_v26) (V c main_v207) (V c main_v35))
          (Ideal.ofBits .f32 0x3EAAAAAB#32) :=
  (dat5 V c).arrAt_eq_of_cover 6 _ (fun t _ => flushed6_eq V c t) cover6

end Cert.KernelIdeal.Region5

end
-- ==== Proof.Region6.lean ====
/-
  Region 6 of the kernel's program (a combine call on the publisher table: 5 blocks of 4000 rows over 20000 rows), read as
  whole-array functions: the argument is Region 0's, with this call's buffers, extents and layer weight.
-/
import proofs.«179549_j31344671326263_2_alg».proof.Proof.Gen.KernelIdeal.Frame
import proofs.«179549_j31344671326263_2_alg».proof.Proof.LibSegMean

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegMean

/-- The first payload: the two halves, each scaled row by row by its column, joined along the features. -/
theorem pay1 (x0 : Vec Ideal S4000x64 .f32) (x1 : Vec Ideal S4000x1 .f32) (x2 : Vec Ideal S4000x64 .f32)
    (x3 : Vec Ideal S4000x1 .f32) :
    k6_pay1 (F := Ideal) x0 x1 x2 x3 = meanCat (n := 4000) x0 x1 x2 x3 := by
  funext j
  obtain ⟨r, f, rfl⟩ : ∃ (r : Fin 4000) (f : Fin 128), j = ix2 r f := ⟨j 0, j 1, eq_ix2 j⟩
  unfold k6_pay1
  simp only [shapeCast_self]
  by_cases h : f.val < 64
  · rw [meanCat_left _ _ _ _ r f h]
    refine (concatenate_pair_apply_left (t := S4000x128) (s₁ := S4000x64) (s₂ := S4000x64) (1 : Fin 2) _ _ _
      (ix2 r f) rfl (ix2 (n0 := 4000) (n1 := 64) r ⟨f.val, h⟩)
      (fun b => by match b with | ⟨0, _⟩ => rfl | ⟨1, _⟩ => rfl)).trans ?_
    show x0 _ * broadcastTo S4000x64 x1 _ (ix2 r ⟨f.val, h⟩) = _
    rw [broadcastTo_apply x1 _ (ix2 r ⟨f.val, h⟩) (ix2 (n0 := 4000) (n1 := 1) r ⟨0, Nat.one_pos⟩)
      (fun a => by match a with | ⟨0, _⟩ => rfl | ⟨1, _⟩ => rfl)]
  · rw [meanCat_right _ _ _ _ r f h]
    have h128 := f.isLt
    refine (concatenate_pair_apply_right (t := S4000x128) (s₁ := S4000x64) (s₂ := S4000x64) (1 : Fin 2) _ _ _
      (ix2 r f) rfl rfl (ix2 (n0 := 4000) (n1 := 64) r ⟨f.val - 64, by omega⟩)
      (fun b hb => by match b with | ⟨0, _⟩ => rfl | ⟨1, _⟩ => exact absurd rfl hb)
      (by show f.val - 64 + 64 = f.val; omega)).trans ?_
    show x2 _ * broadcastTo S4000x64 x3 _ (ix2 r ⟨f.val - 64, _⟩) = _
    rw [broadcastTo_apply x3 _ (ix2 r ⟨f.val - 64, by omega⟩) (ix2 (n0 := 4000) (n1 := 1) r ⟨0, Nat.one_pos⟩)
      (fun a => by match a with | ⟨0, _⟩ => rfl | ⟨1, _⟩ => rfl)]

/-- The second payload: the running sum of the accumulator block and the first payload times the layer weight. -/
theorem pay2 (x0 : Vec Ideal S4000x64 .f32) (x1 : Vec Ideal S4000x1 .f32) (x2 : Vec Ideal S4000x64 .f32)
    (x3 : Vec Ideal S4000x1 .f32) (x4 : Vec Ideal S4000x128 .f32) :
    k6_pay2 (F := Ideal) x0 x1 x2 x3 x4
      = accum x4 (meanCat (n := 4000) x0 x1 x2 x3) (Ideal.ofBits .f32 0x3EAAAAAB#32) := by
  unfold k6_pay2
  rw [pay1]
  try simp only [shapeCast_self]
  rfl

/-- The running sum commutes with cutting a block: if the accumulator's block and the output's block sit at the same
    place and the addend's block is the addend at the embedded index, the block of the running sum is the running sum
    at the embedded index. -/
theorem accum_block {s s' : Shape} (acc : s'.Idx → EReal) (x : s.Idx → EReal) (X : s'.Idx → EReal) (w : EReal)
    (e4 e6 : s.Idx → s'.Idx) (y : s.Idx) (h46 : e4 y = e6 y) (hx : x y = X (e6 y)) :
    accum (fun z => acc (e4 z)) x w y = accum acc X w (e6 y) := by
  unfold accum
  show acc (e4 y) + x y * w = acc (e6 y) + X (e6 y) * w
  rw [h46, hx]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block row `t`, block
    column `0`. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- What point `t` writes back through the new-features window is block `t` of `meanCat` of the four arrays. -/
theorem flushed5_eq (c : Dev nD) (t : Fin cfg6.N) :
    (dat6 V c).flushed 5 t = ((cfg6.win 5).blk t).view.read (Elt Ideal)
      (meanCat (n := 20000) (V c main_v218) (V c main_v44) (V c main_v229) (V c main_v53)) := by
  show (cfg6.win 5).cut (grid6.coords t) ((dat6 V c).after 5 t) = _
  rw [after6_5]
  unfold out6_5
  rw [View.canon_unit_zero hz]
  simp only [View.ld_unit_zero (S := S4000x64) hz, View.ld_unit_zero (S := S4000x1) hz]
  rw [pay1]
  obtain ⟨e00, e01, e10, e11, e20, e21, e30, e31, e40, e41, e50, e51, e60, e61⟩ := idx_facts t
  funext y
  show meanCat (n := 4000) (fun z => V c main_v218 (((cfg6.win 0).blk t).view.emb z))
      (fun z => V c main_v44 (((cfg6.win 1).blk t).view.emb z))
      (fun z => V c main_v229 (((cfg6.win 2).blk t).view.emb z))
      (fun z => V c main_v53 (((cfg6.win 3).blk t).view.emb z)) y
    = meanCat (n := 20000) (V c main_v218) (V c main_v44) (V c main_v229) (V c main_v53)
        (((cfg6.win 5).blk t).view.emb y)
  exact meanCat_block (4000 * t.val) _ _ _ _ _ _ _ _ _
    (fun z => ⟨by show win6_0.index t (0 : Fin 2) * 4000 + 1 * (z 0).val = 4000 * t.val + (z 0).val; rw [e00]; omega,
      by show win6_0.index t (1 : Fin 2) * 64 + 1 * (z 1).val = (z 1).val; rw [e01]; omega⟩)
    (fun z => ⟨by show win6_1.index t (0 : Fin 2) * 4000 + 1 * (z 0).val = 4000 * t.val + (z 0).val; rw [e10]; omega,
      by show win6_1.index t (1 : Fin 2) * 1 + 1 * (z 1).val = (z 1).val; rw [e11]; omega⟩)
    (fun z => ⟨by show win6_2.index t (0 : Fin 2) * 4000 + 1 * (z 0).val = 4000 * t.val + (z 0).val; rw [e20]; omega,
      by show win6_2.index t (1 : Fin 2) * 64 + 1 * (z 1).val = (z 1).val; rw [e21]; omega⟩)
    (fun z => ⟨by show win6_3.index t (0 : Fin 2) * 4000 + 1 * (z 0).val = 4000 * t.val + (z 0).val; rw [e30]; omega,
      by show win6_3.index t (1 : Fin 2) * 1 + 1 * (z 1).val = (z 1).val; rw [e31]; omega⟩)
    (fun z => ⟨by show win6_5.index t (0 : Fin 2) * 4000 + 1 * (z 0).val = 4000 * t.val + (z 0).val; rw [e50]; omega,
      by show win6_5.index t (1 : Fin 2) * 128 + 1 * (z 1).val = (z 1).val; rw [e51]; omega⟩)
    y

/-- What point `t` writes back through the running-sum window is block `t` of `accum` of the accumulator array
    and `meanCat` of the four arrays. -/
theorem flushed6_eq (c : Dev nD) (t : Fin cfg6.N) :
    (dat6 V c).flushed 6 t = ((cfg6.win 6).blk t).view.read (Elt Ideal)
      (accum (V c main_v162_1) (meanCat (n := 20000) (V c main_v218) (V c main_v44) (V c main_v229) (V c main_v53))
        (Ideal.ofBits .f32 0x3EAAAAAB#32)) := by
  show (cfg6.win 6).cut (grid6.coords t) ((dat6 V c).after 6 t) = _
  rw [after6_6]
  unfold out6_6
  rw [View.canon_unit_zero hz]
  simp only [View.ld_unit_zero (S := S4000x64) hz, View.ld_unit_zero (S := S4000x1) hz,
    View.ld_unit_zero (S := S4000x128) hz]
  rw [pay2]
  obtain ⟨e00, e01, e10, e11, e20, e21, e30, e31, e40, e41, e50, e51, e60, e61⟩ := idx_facts t
  funext y
  show accum (s := S4000x128) (fun z => V c main_v162_1 (((cfg6.win 4).blk t).view.emb z))
      (meanCat (n := 4000) (fun z => V c main_v218 (((cfg6.win 0).blk t).view.emb z))
          (fun z => V c main_v44 (((cfg6.win 1).blk t).view.emb z))
          (fun z => V c main_v229 (((cfg6.win 2).blk t).view.emb z))
          (fun z => V c main_v53 (((cfg6.win 3).blk t).view.emb z))) (Ideal.ofBits .f32 0x3EAAAAAB#32) y
    = accum (s := S20000x128) (V c main_v162_1)
        (meanCat (n := 20000) (V c main_v218) (V c main_v44) (V c main_v229) (V c main_v53))
        (Ideal.ofBits .f32 0x3EAAAAAB#32) (((cfg6.win 6).blk t).view.emb y)
  refine accum_block _ _ _ _ _ _ y ?_ ?_
  · funext a; apply Fin.ext
    match a with
    | ⟨0, _⟩ => show win6_4.index t (0 : Fin 2) * 4000 + 1 * (y 0).val = win6_6.index t (0 : Fin 2) * 4000 + 1 * (y 0).val; rw [e40, e60]
    | ⟨1, _⟩ => show win6_4.index t (1 : Fin 2) * 128 + 1 * (y 1).val = win6_6.index t (1 : Fin 2) * 128 + 1 * (y 1).val; rw [e41, e61]
  exact meanCat_block (4000 * t.val) _ _ _ _ _ _ _ _ _
    (fun z => ⟨by show win6_0.index t (0 : Fin 2) * 4000 + 1 * (z 0).val = 4000 * t.val + (z 0).val; rw [e00]; omega,
      by show win6_0.index t (1 : Fin 2) * 64 + 1 * (z 1).val = (z 1).val; rw [e01]; omega⟩)
    (fun z => ⟨by show win6_1.index t (0 : Fin 2) * 4000 + 1 * (z 0).val = 4000 * t.val + (z 0).val; rw [e10]; omega,
      by show win6_1.index t (1 : Fin 2) * 1 + 1 * (z 1).val = (z 1).val; rw [e11]; omega⟩)
    (fun z => ⟨by show win6_2.index t (0 : Fin 2) * 4000 + 1 * (z 0).val = 4000 * t.val + (z 0).val; rw [e20]; omega,
      by show win6_2.index t (1 : Fin 2) * 64 + 1 * (z 1).val = (z 1).val; rw [e21]; omega⟩)
    (fun z => ⟨by show win6_3.index t (0 : Fin 2) * 4000 + 1 * (z 0).val = 4000 * t.val + (z 0).val; rw [e30]; omega,
      by show win6_3.index t (1 : Fin 2) * 1 + 1 * (z 1).val = (z 1).val; rw [e31]; omega⟩)
    (fun z => ⟨by show win6_6.index t (0 : Fin 2) * 4000 + 1 * (z 0).val = 4000 * t.val + (z 0).val; rw [e60]; omega,
      by show win6_6.index t (1 : Fin 2) * 128 + 1 * (z 1).val = (z 1).val; rw [e61]; omega⟩)
    y

/-- An index of the new-features array is in point `t`'s block iff each coordinate is in the block's range. -/
theorem mem_blk5 (t : Fin cfg6.N) (i : S20000x128.Idx) :
    i ∈ ((cfg6.win 5).blk t).view.set ↔ ∀ a : Fin 2, win6_5.index t a * S4000x128.size a ≤ (i a).val
      ∧ (i a).val < win6_5.index t a * S4000x128.size a + S4000x128.size a := by
  show i ∈ ((View.whole main_v254_0).slice (win6_5.rect t)).set ↔ _
  rw [View.set_slice_whole, Rect.mem_set_unit]
  exact Iff.rfl

theorem mem_blk6 (t : Fin cfg6.N) (i : S20000x128.Idx) :
    i ∈ ((cfg6.win 6).blk t).view.set ↔ ∀ a : Fin 2, win6_6.index t a * S4000x128.size a ≤ (i a).val
      ∧ (i a).val < win6_6.index t a * S4000x128.size a + S4000x128.size a := by
  show i ∈ ((View.whole main_v254_1).slice (win6_6.rect t)).set ↔ _
  rw [View.set_slice_whole, Rect.mem_set_unit]
  exact Iff.rfl

/-- The 5 blocks of 4000 rows tile the 20000 rows: row `r` is in block `r / 4000`. -/
theorem cover5 (i : S20000x128.Idx) :
    ∃ t : Fin cfg6.N, (cfg6.win 5).flush t = true ∧ i ∈ ((cfg6.win 5).blk t).view.set := by
  have hi0 : (i 0).val < 20000 := (i 0).isLt
  have hi1 : (i 1).val < 128 := (i 1).isLt
  have hN : (i 0).val / 4000 < cfg6.N := by show (i 0).val / 4000 < 5; omega
  obtain ⟨e00, e01, e10, e11, e20, e21, e30, e31, e40, e41, e50, e51, e60, e61⟩ := idx_facts ⟨(i 0).val / 4000, hN⟩
  refine ⟨⟨(i 0).val / 4000, hN⟩, flush6_5 _, ?_⟩
  rw [mem_blk5]
  intro a
  match a with
  | ⟨0, _⟩ =>
    show win6_5.index ⟨(i 0).val / 4000, hN⟩ (0 : Fin 2) * 4000 ≤ (i 0).val
      ∧ (i 0).val < win6_5.index ⟨(i 0).val / 4000, hN⟩ (0 : Fin 2) * 4000 + 4000
    rw [e50]; show (i 0).val / 4000 * 4000 ≤ (i 0).val ∧ (i 0).val < (i 0).val / 4000 * 4000 + 4000; omega
  | ⟨1, _⟩ =>
    show win6_5.index ⟨(i 0).val / 4000, hN⟩ (1 : Fin 2) * 128 ≤ (i 1).val
      ∧ (i 1).val < win6_5.index ⟨(i 0).val / 4000, hN⟩ (1 : Fin 2) * 128 + 128
    rw [e51]; omega

theorem cover6 (i : S20000x128.Idx) :
    ∃ t : Fin cfg6.N, (cfg6.win 6).flush t = true ∧ i ∈ ((cfg6.win 6).blk t).view.set := by
  have hi0 : (i 0).val < 20000 := (i 0).isLt
  have hi1 : (i 1).val < 128 := (i 1).isLt
  have hN : (i 0).val / 4000 < cfg6.N := by show (i 0).val / 4000 < 5; omega
  obtain ⟨e00, e01, e10, e11, e20, e21, e30, e31, e40, e41, e50, e51, e60, e61⟩ := idx_facts ⟨(i 0).val / 4000, hN⟩
  refine ⟨⟨(i 0).val / 4000, hN⟩, flush6_6 _, ?_⟩
  rw [mem_blk6]
  intro a
  match a with
  | ⟨0, _⟩ =>
    show win6_6.index ⟨(i 0).val / 4000, hN⟩ (0 : Fin 2) * 4000 ≤ (i 0).val
      ∧ (i 0).val < win6_6.index ⟨(i 0).val / 4000, hN⟩ (0 : Fin 2) * 4000 + 4000
    rw [e60]; show (i 0).val / 4000 * 4000 ≤ (i 0).val ∧ (i 0).val < (i 0).val / 4000 * 4000 + 4000; omega
  | ⟨1, _⟩ =>
    show win6_6.index ⟨(i 0).val / 4000, hN⟩ (1 : Fin 2) * 128 ≤ (i 1).val
      ∧ (i 1).val < win6_6.index ⟨(i 0).val / 4000, hN⟩ (1 : Fin 2) * 128 + 128
    rw [e61]; omega

/-- After the call the new-features array is `meanCat` of the four arrays the call found. -/
theorem newx (c : Dev nD) :
    (dat6 V c).arrAt 5 cfg6.N
      = meanCat (n := 20000) (V c main_v218) (V c main_v44) (V c main_v229) (V c main_v53) :=
  (dat6 V c).arrAt_eq_of_cover 5 _ (fun t _ => flushed5_eq V c t) cover5

/-- After the call the running-sum array is `accum` of the accumulator the call found and the new features. -/
theorem accout (c : Dev nD) :
    (dat6 V c).arrAt 6 cfg6.N
      = accum (V c main_v162_1) (meanCat (n := 20000) (V c main_v218) (V c main_v44) (V c main_v229) (V c main_v53))
          (Ideal.ofBits .f32 0x3EAAAAAB#32) :=
  (dat6 V c).arrAt_eq_of_cover 6 _ (fun t _ => flushed6_eq V c t) cover6

end Cert.KernelIdeal.Region6

end
-- ==== Proof.Region7.lean ====
/-
  Region 7 of the kernel's program (a combine call on the tag table: 5 blocks of 1000 rows over 5000 rows), read as
  whole-array functions: the argument is Region 0's, with this call's buffers, extents and layer weight.
-/
import proofs.«179549_j31344671326263_2_alg».proof.Proof.Gen.KernelIdeal.Frame
import proofs.«179549_j31344671326263_2_alg».proof.Proof.LibSegMean

set_option maxRecDepth 16384

noncomputable section

namespace Cert.KernelIdeal.Region7

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegMean

/-- The first payload: the two halves, each scaled row by row by its column, joined along the features. -/
theorem pay1 (x0 : Vec Ideal S1000x64 .f32) (x1 : Vec Ideal S1000x1 .f32) (x2 : Vec Ideal S1000x64 .f32)
    (x3 : Vec Ideal S1000x1 .f32) :
    k7_pay1 (F := Ideal) x0 x1 x2 x3 = meanCat (n := 1000) x0 x1 x2 x3 := by
  funext j
  obtain ⟨r, f, rfl⟩ : ∃ (r : Fin 1000) (f : Fin 128), j = ix2 r f := ⟨j 0, j 1, eq_ix2 j⟩
  unfold k7_pay1
  simp only [shapeCast_self]
  by_cases h : f.val < 64
  · rw [meanCat_left _ _ _ _ r f h]
    refine (concatenate_pair_apply_left (t := S1000x128) (s₁ := S1000x64) (s₂ := S1000x64) (1 : Fin 2) _ _ _
      (ix2 r f) rfl (ix2 (n0 := 1000) (n1 := 64) r ⟨f.val, h⟩)
      (fun b => by match b with | ⟨0, _⟩ => rfl | ⟨1, _⟩ => rfl)).trans ?_
    show x0 _ * broadcastTo S1000x64 x1 _ (ix2 r ⟨f.val, h⟩) = _
    rw [broadcastTo_apply x1 _ (ix2 r ⟨f.val, h⟩) (ix2 (n0 := 1000) (n1 := 1) r ⟨0, Nat.one_pos⟩)
      (fun a => by match a with | ⟨0, _⟩ => rfl | ⟨1, _⟩ => rfl)]
  · rw [meanCat_right _ _ _ _ r f h]
    have h128 := f.isLt
    refine (concatenate_pair_apply_right (t := S1000x128) (s₁ := S1000x64) (s₂ := S1000x64) (1 : Fin 2) _ _ _
      (ix2 r f) rfl rfl (ix2 (n0 := 1000) (n1 := 64) r ⟨f.val - 64, by omega⟩)
      (fun b hb => by match b with | ⟨0, _⟩ => rfl | ⟨1, _⟩ => exact absurd rfl hb)
      (by show f.val - 64 + 64 = f.val; omega)).trans ?_
    show x2 _ * broadcastTo S1000x64 x3 _ (ix2 r ⟨f.val - 64, _⟩) = _
    rw [broadcastTo_apply x3 _ (ix2 r ⟨f.val - 64, by omega⟩) (ix2 (n0 := 1000) (n1 := 1) r ⟨0, Nat.one_pos⟩)
      (fun a => by match a with | ⟨0, _⟩ => rfl | ⟨1, _⟩ => rfl)]

/-- The second payload: the running sum of the accumulator block and the first payload times the layer weight. -/
theorem pay2 (x0 : Vec Ideal S1000x64 .f32) (x1 : Vec Ideal S1000x1 .f32) (x2 : Vec Ideal S1000x64 .f32)
    (x3 : Vec Ideal S1000x1 .f32) (x4 : Vec Ideal S1000x128 .f32) :
    k7_pay2 (F := Ideal) x0 x1 x2 x3 x4
      = accum x4 (meanCat (n := 1000) x0 x1 x2 x3) (Ideal.ofBits .f32 0x3EAAAAAB#32) := by
  unfold k7_pay2
  rw [pay1]
  try simp only [shapeCast_self]
  rfl

/-- The running sum commutes with cutting a block: if the accumulator's block and the output's block sit at the same
    place and the addend's block is the addend at the embedded index, the block of the running sum is the running sum
    at the embedded index. -/
theorem accum_block {s s' : Shape} (acc : s'.Idx → EReal) (x : s.Idx → EReal) (X : s'.Idx → EReal) (w : EReal)
    (e4 e6 : s.Idx → s'.Idx) (y : s.Idx) (h46 : e4 y = e6 y) (hx : x y = X (e6 y)) :
    accum (fun z => acc (e4 z)) x w y = accum acc X w (e6 y) := by
  unfold accum
  show acc (e4 y) + x y * w = acc (e6 y) + X (e6 y) * w
  rw [h46, hx]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block row `t`, block
    column `0`. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0 :=
  (by decide +kernel : ∀ t : Fin grid7.N, _)

/-- What point `t` writes back through the new-features window is block `t` of `meanCat` of the four arrays. -/
theorem flushed5_eq (c : Dev nD) (t : Fin cfg7.N) :
    (dat7 V c).flushed 5 t = ((cfg7.win 5).blk t).view.read (Elt Ideal)
      (meanCat (n := 5000) (V c main_v240) (V c main_v62) (V c main_v251) (V c main_v71)) := by
  show (cfg7.win 5).cut (grid7.coords t) ((dat7 V c).after 5 t) = _
  rw [after7_5]
  unfold out7_5
  rw [View.canon_unit_zero hz]
  simp only [View.ld_unit_zero (S := S1000x64) hz, View.ld_unit_zero (S := S1000x1) hz]
  rw [pay1]
  obtain ⟨e00, e01, e10, e11, e20, e21, e30, e31, e40, e41, e50, e51, e60, e61⟩ := idx_facts t
  funext y
  show meanCat (n := 1000) (fun z => V c main_v240 (((cfg7.win 0).blk t).view.emb z))
      (fun z => V c main_v62 (((cfg7.win 1).blk t).view.emb z))
      (fun z => V c main_v251 (((cfg7.win 2).blk t).view.emb z))
      (fun z => V c main_v71 (((cfg7.win 3).blk t).view.emb z)) y
    = meanCat (n := 5000) (V c main_v240) (V c main_v62) (V c main_v251) (V c main_v71)
        (((cfg7.win 5).blk t).view.emb y)
  exact meanCat_block (1000 * t.val) _ _ _ _ _ _ _ _ _
    (fun z => ⟨by show win7_0.index t (0 : Fin 2) * 1000 + 1 * (z 0).val = 1000 * t.val + (z 0).val; rw [e00]; omega,
      by show win7_0.index t (1 : Fin 2) * 64 + 1 * (z 1).val = (z 1).val; rw [e01]; omega⟩)
    (fun z => ⟨by show win7_1.index t (0 : Fin 2) * 1000 + 1 * (z 0).val = 1000 * t.val + (z 0).val; rw [e10]; omega,
      by show win7_1.index t (1 : Fin 2) * 1 + 1 * (z 1).val = (z 1).val; rw [e11]; omega⟩)
    (fun z => ⟨by show win7_2.index t (0 : Fin 2) * 1000 + 1 * (z 0).val = 1000 * t.val + (z 0).val; rw [e20]; omega,
      by show win7_2.index t (1 : Fin 2) * 64 + 1 * (z 1).val = (z 1).val; rw [e21]; omega⟩)
    (fun z => ⟨by show win7_3.index t (0 : Fin 2) * 1000 + 1 * (z 0).val = 1000 * t.val + (z 0).val; rw [e30]; omega,
      by show win7_3.index t (1 : Fin 2) * 1 + 1 * (z 1).val = (z 1).val; rw [e31]; omega⟩)
    (fun z => ⟨by show win7_5.index t (0 : Fin 2) * 1000 + 1 * (z 0).val = 1000 * t.val + (z 0).val; rw [e50]; omega,
      by show win7_5.index t (1 : Fin 2) * 128 + 1 * (z 1).val = (z 1).val; rw [e51]; omega⟩)
    y

/-- What point `t` writes back through the running-sum window is block `t` of `accum` of the accumulator array
    and `meanCat` of the four arrays. -/
theorem flushed6_eq (c : Dev nD) (t : Fin cfg7.N) :
    (dat7 V c).flushed 6 t = ((cfg7.win 6).blk t).view.read (Elt Ideal)
      (accum (V c main_v163_1) (meanCat (n := 5000) (V c main_v240) (V c main_v62) (V c main_v251) (V c main_v71))
        (Ideal.ofBits .f32 0x3EAAAAAB#32)) := by
  show (cfg7.win 6).cut (grid7.coords t) ((dat7 V c).after 6 t) = _
  rw [after7_6]
  unfold out7_6
  rw [View.canon_unit_zero hz]
  simp only [View.ld_unit_zero (S := S1000x64) hz, View.ld_unit_zero (S := S1000x1) hz,
    View.ld_unit_zero (S := S1000x128) hz]
  rw [pay2]
  obtain ⟨e00, e01, e10, e11, e20, e21, e30, e31, e40, e41, e50, e51, e60, e61⟩ := idx_facts t
  funext y
  show accum (s := S1000x128) (fun z => V c main_v163_1 (((cfg7.win 4).blk t).view.emb z))
      (meanCat (n := 1000) (fun z => V c main_v240 (((cfg7.win 0).blk t).view.emb z))
          (fun z => V c main_v62 (((cfg7.win 1).blk t).view.emb z))
          (fun z => V c main_v251 (((cfg7.win 2).blk t).view.emb z))
          (fun z => V c main_v71 (((cfg7.win 3).blk t).view.emb z))) (Ideal.ofBits .f32 0x3EAAAAAB#32) y
    = accum (s := S5000x128) (V c main_v163_1)
        (meanCat (n := 5000) (V c main_v240) (V c main_v62) (V c main_v251) (V c main_v71))
        (Ideal.ofBits .f32 0x3EAAAAAB#32) (((cfg7.win 6).blk t).view.emb y)
  refine accum_block _ _ _ _ _ _ y ?_ ?_
  · funext a; apply Fin.ext
    match a with
    | ⟨0, _⟩ => show win7_4.index t (0 : Fin 2) * 1000 + 1 * (y 0).val = win7_6.index t (0 : Fin 2) * 1000 + 1 * (y 0).val; rw [e40, e60]
    | ⟨1, _⟩ => show win7_4.index t (1 : Fin 2) * 128 + 1 * (y 1).val = win7_6.index t (1 : Fin 2) * 128 + 1 * (y 1).val; rw [e41, e61]
  exact meanCat_block (1000 * t.val) _ _ _ _ _ _ _ _ _
    (fun z => ⟨by show win7_0.index t (0 : Fin 2) * 1000 + 1 * (z 0).val = 1000 * t.val + (z 0).val; rw [e00]; omega,
      by show win7_0.index t (1 : Fin 2) * 64 + 1 * (z 1).val = (z 1).val; rw [e01]; omega⟩)
    (fun z => ⟨by show win7_1.index t (0 : Fin 2) * 1000 + 1 * (z 0).val = 1000 * t.val + (z 0).val; rw [e10]; omega,
      by show win7_1.index t (1 : Fin 2) * 1 + 1 * (z 1).val = (z 1).val; rw [e11]; omega⟩)
    (fun z => ⟨by show win7_2.index t (0 : Fin 2) * 1000 + 1 * (z 0).val = 1000 * t.val + (z 0).val; rw [e20]; omega,
      by show win7_2.index t (1 : Fin 2) * 64 + 1 * (z 1).val = (z 1).val; rw [e21]; omega⟩)
    (fun z => ⟨by show win7_3.index t (0 : Fin 2) * 1000 + 1 * (z 0).val = 1000 * t.val + (z 0).val; rw [e30]; omega,
      by show win7_3.index t (1 : Fin 2) * 1 + 1 * (z 1).val = (z 1).val; rw [e31]; omega⟩)
    (fun z => ⟨by show win7_6.index t (0 : Fin 2) * 1000 + 1 * (z 0).val = 1000 * t.val + (z 0).val; rw [e60]; omega,
      by show win7_6.index t (1 : Fin 2) * 128 + 1 * (z 1).val = (z 1).val; rw [e61]; omega⟩)
    y

/-- An index of the new-features array is in point `t`'s block iff each coordinate is in the block's range. -/
theorem mem_blk5 (t : Fin cfg7.N) (i : S5000x128.Idx) :
    i ∈ ((cfg7.win 5).blk t).view.set ↔ ∀ a : Fin 2, win7_5.index t a * S1000x128.size a ≤ (i a).val
      ∧ (i a).val < win7_5.index t a * S1000x128.size a + S1000x128.size a := by
  show i ∈ ((View.whole main_v255_0).slice (win7_5.rect t)).set ↔ _
  rw [View.set_slice_whole, Rect.mem_set_unit]
  exact Iff.rfl

theorem mem_blk6 (t : Fin cfg7.N) (i : S5000x128.Idx) :
    i ∈ ((cfg7.win 6).blk t).view.set ↔ ∀ a : Fin 2, win7_6.index t a * S1000x128.size a ≤ (i a).val
      ∧ (i a).val < win7_6.index t a * S1000x128.size a + S1000x128.size a := by
  show i ∈ ((View.whole main_v255_1).slice (win7_6.rect t)).set ↔ _
  rw [View.set_slice_whole, Rect.mem_set_unit]
  exact Iff.rfl

/-- The 5 blocks of 1000 rows tile the 5000 rows: row `r` is in block `r / 1000`. -/
theorem cover5 (i : S5000x128.Idx) :
    ∃ t : Fin cfg7.N, (cfg7.win 5).flush t = true ∧ i ∈ ((cfg7.win 5).blk t).view.set := by
  have hi0 : (i 0).val < 5000 := (i 0).isLt
  have hi1 : (i 1).val < 128 := (i 1).isLt
  have hN : (i 0).val / 1000 < cfg7.N := by show (i 0).val / 1000 < 5; omega
  obtain ⟨e00, e01, e10, e11, e20, e21, e30, e31, e40, e41, e50, e51, e60, e61⟩ := idx_facts ⟨(i 0).val / 1000, hN⟩
  refine ⟨⟨(i 0).val / 1000, hN⟩, flush7_5 _, ?_⟩
  rw [mem_blk5]
  intro a
  match a with
  | ⟨0, _⟩ =>
    show win7_5.index ⟨(i 0).val / 1000, hN⟩ (0 : Fin 2) * 1000 ≤ (i 0).val
      ∧ (i 0).val < win7_5.index ⟨(i 0).val / 1000, hN⟩ (0 : Fin 2) * 1000 + 1000
    rw [e50]; show (i 0).val / 1000 * 1000 ≤ (i 0).val ∧ (i 0).val < (i 0).val / 1000 * 1000 + 1000; omega
  | ⟨1, _⟩ =>
    show win7_5.index ⟨(i 0).val / 1000, hN⟩ (1 : Fin 2) * 128 ≤ (i 1).val
      ∧ (i 1).val < win7_5.index ⟨(i 0).val / 1000, hN⟩ (1 : Fin 2) * 128 + 128
    rw [e51]; omega

theorem cover6 (i : S5000x128.Idx) :
    ∃ t : Fin cfg7.N, (cfg7.win 6).flush t = true ∧ i ∈ ((cfg7.win 6).blk t).view.set := by
  have hi0 : (i 0).val < 5000 := (i 0).isLt
  have hi1 : (i 1).val < 128 := (i 1).isLt
  have hN : (i 0).val / 1000 < cfg7.N := by show (i 0).val / 1000 < 5; omega
  obtain ⟨e00, e01, e10, e11, e20, e21, e30, e31, e40, e41, e50, e51, e60, e61⟩ := idx_facts ⟨(i 0).val / 1000, hN⟩
  refine ⟨⟨(i 0).val / 1000, hN⟩, flush7_6 _, ?_⟩
  rw [mem_blk6]
  intro a
  match a with
  | ⟨0, _⟩ =>
    show win7_6.index ⟨(i 0).val / 1000, hN⟩ (0 : Fin 2) * 1000 ≤ (i 0).val
      ∧ (i 0).val < win7_6.index ⟨(i 0).val / 1000, hN⟩ (0 : Fin 2) * 1000 + 1000
    rw [e60]; show (i 0).val / 1000 * 1000 ≤ (i 0).val ∧ (i 0).val < (i 0).val / 1000 * 1000 + 1000; omega
  | ⟨1, _⟩ =>
    show win7_6.index ⟨(i 0).val / 1000, hN⟩ (1 : Fin 2) * 128 ≤ (i 1).val
      ∧ (i 1).val < win7_6.index ⟨(i 0).val / 1000, hN⟩ (1 : Fin 2) * 128 + 128
    rw [e61]; omega

/-- After the call the new-features array is `meanCat` of the four arrays the call found. -/
theorem newx (c : Dev nD) :
    (dat7 V c).arrAt 5 cfg7.N
      = meanCat (n := 5000) (V c main_v240) (V c main_v62) (V c main_v251) (V c main_v71) :=
  (dat7 V c).arrAt_eq_of_cover 5 _ (fun t _ => flushed5_eq V c t) cover5

/-- After the call the running-sum array is `accum` of the accumulator the call found and the new features. -/
theorem accout (c : Dev nD) :
    (dat7 V c).arrAt 6 cfg7.N
      = accum (V c main_v163_1) (meanCat (n := 5000) (V c main_v240) (V c main_v62) (V c main_v251) (V c main_v71))
          (Ideal.ofBits .f32 0x3EAAAAAB#32) :=
  (dat7 V c).arrAt_eq_of_cover 6 _ (fun t _ => flushed6_eq V c t) cover6

end Cert.KernelIdeal.Region7

end
-- ==== Proof.Region8.lean ====
/-
  Region 8 of the kernel's program (a combine call on the user table: 50 blocks of 4000 rows over 200000 rows), read as
  whole-array functions: the argument is Region 0's, with this call's buffers, extents and layer weight.
-/
import proofs.«179549_j31344671326263_2_alg».proof.Proof.Gen.KernelIdeal.Frame
import proofs.«179549_j31344671326263_2_alg».proof.Proof.LibSegMean

set_option maxRecDepth 16384

noncomputable section

namespace Cert.KernelIdeal.Region8

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegMean

/-- The first payload: the two halves, each scaled row by row by its column, joined along the features. -/
theorem pay1 (x0 : Vec Ideal S4000x64 .f32) (x1 : Vec Ideal S4000x1 .f32) (x2 : Vec Ideal S4000x64 .f32)
    (x3 : Vec Ideal S4000x1 .f32) :
    k8_pay1 (F := Ideal) x0 x1 x2 x3 = meanCat (n := 4000) x0 x1 x2 x3 := by
  funext j
  obtain ⟨r, f, rfl⟩ : ∃ (r : Fin 4000) (f : Fin 128), j = ix2 r f := ⟨j 0, j 1, eq_ix2 j⟩
  unfold k8_pay1
  simp only [shapeCast_self]
  by_cases h : f.val < 64
  · rw [meanCat_left _ _ _ _ r f h]
    refine (concatenate_pair_apply_left (t := S4000x128) (s₁ := S4000x64) (s₂ := S4000x64) (1 : Fin 2) _ _ _
      (ix2 r f) rfl (ix2 (n0 := 4000) (n1 := 64) r ⟨f.val, h⟩)
      (fun b => by match b with | ⟨0, _⟩ => rfl | ⟨1, _⟩ => rfl)).trans ?_
    show x0 _ * broadcastTo S4000x64 x1 _ (ix2 r ⟨f.val, h⟩) = _
    rw [broadcastTo_apply x1 _ (ix2 r ⟨f.val, h⟩) (ix2 (n0 := 4000) (n1 := 1) r ⟨0, Nat.one_pos⟩)
      (fun a => by match a with | ⟨0, _⟩ => rfl | ⟨1, _⟩ => rfl)]
  · rw [meanCat_right _ _ _ _ r f h]
    have h128 := f.isLt
    refine (concatenate_pair_apply_right (t := S4000x128) (s₁ := S4000x64) (s₂ := S4000x64) (1 : Fin 2) _ _ _
      (ix2 r f) rfl rfl (ix2 (n0 := 4000) (n1 := 64) r ⟨f.val - 64, by omega⟩)
      (fun b hb => by match b with | ⟨0, _⟩ => rfl | ⟨1, _⟩ => exact absurd rfl hb)
      (by show f.val - 64 + 64 = f.val; omega)).trans ?_
    show x2 _ * broadcastTo S4000x64 x3 _ (ix2 r ⟨f.val - 64, _⟩) = _
    rw [broadcastTo_apply x3 _ (ix2 r ⟨f.val - 64, by omega⟩) (ix2 (n0 := 4000) (n1 := 1) r ⟨0, Nat.one_pos⟩)
      (fun a => by match a with | ⟨0, _⟩ => rfl | ⟨1, _⟩ => rfl)]

/-- The second payload: the running sum of the accumulator block and the first payload times the layer weight. -/
theorem pay2 (x0 : Vec Ideal S4000x64 .f32) (x1 : Vec Ideal S4000x1 .f32) (x2 : Vec Ideal S4000x64 .f32)
    (x3 : Vec Ideal S4000x1 .f32) (x4 : Vec Ideal S4000x128 .f32) :
    k8_pay2 (F := Ideal) x0 x1 x2 x3 x4
      = accum x4 (meanCat (n := 4000) x0 x1 x2 x3) (Ideal.ofBits .f32 0x3E800000#32) := by
  unfold k8_pay2
  rw [pay1]
  try simp only [shapeCast_self]
  rfl

/-- The running sum commutes with cutting a block: if the accumulator's block and the output's block sit at the same
    place and the addend's block is the addend at the embedded index, the block of the running sum is the running sum
    at the embedded index. -/
theorem accum_block {s s' : Shape} (acc : s'.Idx → EReal) (x : s.Idx → EReal) (X : s'.Idx → EReal) (w : EReal)
    (e4 e6 : s.Idx → s'.Idx) (y : s.Idx) (h46 : e4 y = e6 y) (hx : x y = X (e6 y)) :
    accum (fun z => acc (e4 z)) x w y = accum acc X w (e6 y) := by
  unfold accum
  show acc (e4 y) + x y * w = acc (e6 y) + X (e6 y) * w
  rw [h46, hx]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block row `t`, block
    column `0`. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0
    ∧ win8_6.index t (0 : Fin 2) = t.val ∧ win8_6.index t (1 : Fin 2) = 0 :=
  (by decide +kernel : ∀ t : Fin grid8.N, _)

/-- What point `t` writes back through the new-features window is block `t` of `meanCat` of the four arrays. -/
theorem flushed5_eq (c : Dev nD) (t : Fin cfg8.N) :
    (dat8 V c).flushed 5 t = ((cfg8.win 5).blk t).view.read (Elt Ideal)
      (meanCat (n := 200000) (V c main_v266) (V c main_v8) (V c main_v277) (V c main_v17)) := by
  show (cfg8.win 5).cut (grid8.coords t) ((dat8 V c).after 5 t) = _
  rw [after8_5]
  unfold out8_5
  rw [View.canon_unit_zero hz]
  simp only [View.ld_unit_zero (S := S4000x64) hz, View.ld_unit_zero (S := S4000x1) hz]
  rw [pay1]
  obtain ⟨e00, e01, e10, e11, e20, e21, e30, e31, e40, e41, e50, e51, e60, e61⟩ := idx_facts t
  funext y
  show meanCat (n := 4000) (fun z => V c main_v266 (((cfg8.win 0).blk t).view.emb z))
      (fun z => V c main_v8 (((cfg8.win 1).blk t).view.emb z))
      (fun z => V c main_v277 (((cfg8.win 2).blk t).view.emb z))
      (fun z => V c main_v17 (((cfg8.win 3).blk t).view.emb z)) y
    = meanCat (n := 200000) (V c main_v266) (V c main_v8) (V c main_v277) (V c main_v17)
        (((cfg8.win 5).blk t).view.emb y)
  exact meanCat_block (4000 * t.val) _ _ _ _ _ _ _ _ _
    (fun z => ⟨by show win8_0.index t (0 : Fin 2) * 4000 + 1 * (z 0).val = 4000 * t.val + (z 0).val; rw [e00]; omega,
      by show win8_0.index t (1 : Fin 2) * 64 + 1 * (z 1).val = (z 1).val; rw [e01]; omega⟩)
    (fun z => ⟨by show win8_1.index t (0 : Fin 2) * 4000 + 1 * (z 0).val = 4000 * t.val + (z 0).val; rw [e10]; omega,
      by show win8_1.index t (1 : Fin 2) * 1 + 1 * (z 1).val = (z 1).val; rw [e11]; omega⟩)
    (fun z => ⟨by show win8_2.index t (0 : Fin 2) * 4000 + 1 * (z 0).val = 4000 * t.val + (z 0).val; rw [e20]; omega,
      by show win8_2.index t (1 : Fin 2) * 64 + 1 * (z 1).val = (z 1).val; rw [e21]; omega⟩)
    (fun z => ⟨by show win8_3.index t (0 : Fin 2) * 4000 + 1 * (z 0).val = 4000 * t.val + (z 0).val; rw [e30]; omega,
      by show win8_3.index t (1 : Fin 2) * 1 + 1 * (z 1).val = (z 1).val; rw [e31]; omega⟩)
    (fun z => ⟨by show win8_5.index t (0 : Fin 2) * 4000 + 1 * (z 0).val = 4000 * t.val + (z 0).val; rw [e50]; omega,
      by show win8_5.index t (1 : Fin 2) * 128 + 1 * (z 1).val = (z 1).val; rw [e51]; omega⟩)
    y

/-- What point `t` writes back through the running-sum window is block `t` of `accum` of the accumulator array
    and `meanCat` of the four arrays. -/
theorem flushed6_eq (c : Dev nD) (t : Fin cfg8.N) :
    (dat8 V c).flushed 6 t = ((cfg8.win 6).blk t).view.read (Elt Ideal)
      (accum (V c main_v252_1) (meanCat (n := 200000) (V c main_v266) (V c main_v8) (V c main_v277) (V c main_v17))
        (Ideal.ofBits .f32 0x3E800000#32)) := by
  show (cfg8.win 6).cut (grid8.coords t) ((dat8 V c).after 6 t) = _
  rw [after8_6]
  unfold out8_6
  rw [View.canon_unit_zero hz]
  simp only [View.ld_unit_zero (S := S4000x64) hz, View.ld_unit_zero (S := S4000x1) hz,
    View.ld_unit_zero (S := S4000x128) hz]
  rw [pay2]
  obtain ⟨e00, e01, e10, e11, e20, e21, e30, e31, e40, e41, e50, e51, e60, e61⟩ := idx_facts t
  funext y
  show accum (s := S4000x128) (fun z => V c main_v252_1 (((cfg8.win 4).blk t).view.emb z))
      (meanCat (n := 4000) (fun z => V c main_v266 (((cfg8.win 0).blk t).view.emb z))
          (fun z => V c main_v8 (((cfg8.win 1).blk t).view.emb z))
          (fun z => V c main_v277 (((cfg8.win 2).blk t).view.emb z))
          (fun z => V c main_v17 (((cfg8.win 3).blk t).view.emb z))) (Ideal.ofBits .f32 0x3E800000#32) y
    = accum (s := S200000x128) (V c main_v252_1)
        (meanCat (n := 200000) (V c main_v266) (V c main_v8) (V c main_v277) (V c main_v17))
        (Ideal.ofBits .f32 0x3E800000#32) (((cfg8.win 6).blk t).view.emb y)
  refine accum_block _ _ _ _ _ _ y ?_ ?_
  · funext a; apply Fin.ext
    match a with
    | ⟨0, _⟩ => show win8_4.index t (0 : Fin 2) * 4000 + 1 * (y 0).val = win8_6.index t (0 : Fin 2) * 4000 + 1 * (y 0).val; rw [e40, e60]
    | ⟨1, _⟩ => show win8_4.index t (1 : Fin 2) * 128 + 1 * (y 1).val = win8_6.index t (1 : Fin 2) * 128 + 1 * (y 1).val; rw [e41, e61]
  exact meanCat_block (4000 * t.val) _ _ _ _ _ _ _ _ _
    (fun z => ⟨by show win8_0.index t (0 : Fin 2) * 4000 + 1 * (z 0).val = 4000 * t.val + (z 0).val; rw [e00]; omega,
      by show win8_0.index t (1 : Fin 2) * 64 + 1 * (z 1).val = (z 1).val; rw [e01]; omega⟩)
    (fun z => ⟨by show win8_1.index t (0 : Fin 2) * 4000 + 1 * (z 0).val = 4000 * t.val + (z 0).val; rw [e10]; omega,
      by show win8_1.index t (1 : Fin 2) * 1 + 1 * (z 1).val = (z 1).val; rw [e11]; omega⟩)
    (fun z => ⟨by show win8_2.index t (0 : Fin 2) * 4000 + 1 * (z 0).val = 4000 * t.val + (z 0).val; rw [e20]; omega,
      by show win8_2.index t (1 : Fin 2) * 64 + 1 * (z 1).val = (z 1).val; rw [e21]; omega⟩)
    (fun z => ⟨by show win8_3.index t (0 : Fin 2) * 4000 + 1 * (z 0).val = 4000 * t.val + (z 0).val; rw [e30]; omega,
      by show win8_3.index t (1 : Fin 2) * 1 + 1 * (z 1).val = (z 1).val; rw [e31]; omega⟩)
    (fun z => ⟨by show win8_6.index t (0 : Fin 2) * 4000 + 1 * (z 0).val = 4000 * t.val + (z 0).val; rw [e60]; omega,
      by show win8_6.index t (1 : Fin 2) * 128 + 1 * (z 1).val = (z 1).val; rw [e61]; omega⟩)
    y

/-- An index of the new-features array is in point `t`'s block iff each coordinate is in the block's range. -/
theorem mem_blk5 (t : Fin cfg8.N) (i : S200000x128.Idx) :
    i ∈ ((cfg8.win 5).blk t).view.set ↔ ∀ a : Fin 2, win8_5.index t a * S4000x128.size a ≤ (i a).val
      ∧ (i a).val < win8_5.index t a * S4000x128.size a + S4000x128.size a := by
  show i ∈ ((View.whole main_v344_0).slice (win8_5.rect t)).set ↔ _
  rw [View.set_slice_whole, Rect.mem_set_unit]
  exact Iff.rfl

theorem mem_blk6 (t : Fin cfg8.N) (i : S200000x128.Idx) :
    i ∈ ((cfg8.win 6).blk t).view.set ↔ ∀ a : Fin 2, win8_6.index t a * S4000x128.size a ≤ (i a).val
      ∧ (i a).val < win8_6.index t a * S4000x128.size a + S4000x128.size a := by
  show i ∈ ((View.whole main_v344_1).slice (win8_6.rect t)).set ↔ _
  rw [View.set_slice_whole, Rect.mem_set_unit]
  exact Iff.rfl

/-- The 50 blocks of 4000 rows tile the 200000 rows: row `r` is in block `r / 4000`. -/
theorem cover5 (i : S200000x128.Idx) :
    ∃ t : Fin cfg8.N, (cfg8.win 5).flush t = true ∧ i ∈ ((cfg8.win 5).blk t).view.set := by
  have hi0 : (i 0).val < 200000 := (i 0).isLt
  have hi1 : (i 1).val < 128 := (i 1).isLt
  have hN : (i 0).val / 4000 < cfg8.N := by show (i 0).val / 4000 < 50; omega
  obtain ⟨e00, e01, e10, e11, e20, e21, e30, e31, e40, e41, e50, e51, e60, e61⟩ := idx_facts ⟨(i 0).val / 4000, hN⟩
  refine ⟨⟨(i 0).val / 4000, hN⟩, flush8_5 _, ?_⟩
  rw [mem_blk5]
  intro a
  match a with
  | ⟨0, _⟩ =>
    show win8_5.index ⟨(i 0).val / 4000, hN⟩ (0 : Fin 2) * 4000 ≤ (i 0).val
      ∧ (i 0).val < win8_5.index ⟨(i 0).val / 4000, hN⟩ (0 : Fin 2) * 4000 + 4000
    rw [e50]; show (i 0).val / 4000 * 4000 ≤ (i 0).val ∧ (i 0).val < (i 0).val / 4000 * 4000 + 4000; omega
  | ⟨1, _⟩ =>
    show win8_5.index ⟨(i 0).val / 4000, hN⟩ (1 : Fin 2) * 128 ≤ (i 1).val
      ∧ (i 1).val < win8_5.index ⟨(i 0).val / 4000, hN⟩ (1 : Fin 2) * 128 + 128
    rw [e51]; omega

theorem cover6 (i : S200000x128.Idx) :
    ∃ t : Fin cfg8.N, (cfg8.win 6).flush t = true ∧ i ∈ ((cfg8.win 6).blk t).view.set := by
  have hi0 : (i 0).val < 200000 := (i 0).isLt
  have hi1 : (i 1).val < 128 := (i 1).isLt
  have hN : (i 0).val / 4000 < cfg8.N := by show (i 0).val / 4000 < 50; omega
  obtain ⟨e00, e01, e10, e11, e20, e21, e30, e31, e40, e41, e50, e51, e60, e61⟩ := idx_facts ⟨(i 0).val / 4000, hN⟩
  refine ⟨⟨(i 0).val / 4000, hN⟩, flush8_6 _, ?_⟩
  rw [mem_blk6]
  intro a
  match a with
  | ⟨0, _⟩ =>
    show win8_6.index ⟨(i 0).val / 4000, hN⟩ (0 : Fin 2) * 4000 ≤ (i 0).val
      ∧ (i 0).val < win8_6.index ⟨(i 0).val / 4000, hN⟩ (0 : Fin 2) * 4000 + 4000
    rw [e60]; show (i 0).val / 4000 * 4000 ≤ (i 0).val ∧ (i 0).val < (i 0).val / 4000 * 4000 + 4000; omega
  | ⟨1, _⟩ =>
    show win8_6.index ⟨(i 0).val / 4000, hN⟩ (1 : Fin 2) * 128 ≤ (i 1).val
      ∧ (i 1).val < win8_6.index ⟨(i 0).val / 4000, hN⟩ (1 : Fin 2) * 128 + 128
    rw [e61]; omega

/-- After the call the new-features array is `meanCat` of the four arrays the call found. -/
theorem newx (c : Dev nD) :
    (dat8 V c).arrAt 5 cfg8.N
      = meanCat (n := 200000) (V c main_v266) (V c main_v8) (V c main_v277) (V c main_v17) :=
  (dat8 V c).arrAt_eq_of_cover 5 _ (fun t _ => flushed5_eq V c t) cover5

/-- After the call the running-sum array is `accum` of the accumulator the call found and the new features. -/
theorem accout (c : Dev nD) :
    (dat8 V c).arrAt 6 cfg8.N
      = accum (V c main_v252_1) (meanCat (n := 200000) (V c main_v266) (V c main_v8) (V c main_v277) (V c main_v17))
          (Ideal.ofBits .f32 0x3E800000#32) :=
  (dat8 V c).arrAt_eq_of_cover 6 _ (fun t _ => flushed6_eq V c t) cover6

end Cert.KernelIdeal.Region8

end
-- ==== Proof.Region9.lean ====
/-
  Region 9 of the kernel's program (a combine call on the video table: 25 blocks of 4000 rows over 100000 rows), read as
  whole-array functions: the argument is Region 0's, with this call's buffers, extents and layer weight.
-/
import proofs.«179549_j31344671326263_2_alg».proof.Proof.Gen.KernelIdeal.Frame
import proofs.«179549_j31344671326263_2_alg».proof.Proof.LibSegMean

set_option maxRecDepth 16384

noncomputable section

namespace Cert.KernelIdeal.Region9

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegMean

/-- The first payload: the two halves, each scaled row by row by its column, joined along the features. -/
theorem pay1 (x0 : Vec Ideal S4000x64 .f32) (x1 : Vec Ideal S4000x1 .f32) (x2 : Vec Ideal S4000x64 .f32)
    (x3 : Vec Ideal S4000x1 .f32) :
    k9_pay1 (F := Ideal) x0 x1 x2 x3 = meanCat (n := 4000) x0 x1 x2 x3 := by
  funext j
  obtain ⟨r, f, rfl⟩ : ∃ (r : Fin 4000) (f : Fin 128), j = ix2 r f := ⟨j 0, j 1, eq_ix2 j⟩
  unfold k9_pay1
  simp only [shapeCast_self]
  by_cases h : f.val < 64
  · rw [meanCat_left _ _ _ _ r f h]
    refine (concatenate_pair_apply_left (t := S4000x128) (s₁ := S4000x64) (s₂ := S4000x64) (1 : Fin 2) _ _ _
      (ix2 r f) rfl (ix2 (n0 := 4000) (n1 := 64) r ⟨f.val, h⟩)
      (fun b => by match b with | ⟨0, _⟩ => rfl | ⟨1, _⟩ => rfl)).trans ?_
    show x0 _ * broadcastTo S4000x64 x1 _ (ix2 r ⟨f.val, h⟩) = _
    rw [broadcastTo_apply x1 _ (ix2 r ⟨f.val, h⟩) (ix2 (n0 := 4000) (n1 := 1) r ⟨0, Nat.one_pos⟩)
      (fun a => by match a with | ⟨0, _⟩ => rfl | ⟨1, _⟩ => rfl)]
  · rw [meanCat_right _ _ _ _ r f h]
    have h128 := f.isLt
    refine (concatenate_pair_apply_right (t := S4000x128) (s₁ := S4000x64) (s₂ := S4000x64) (1 : Fin 2) _ _ _
      (ix2 r f) rfl rfl (ix2 (n0 := 4000) (n1 := 64) r ⟨f.val - 64, by omega⟩)
      (fun b hb => by match b with | ⟨0, _⟩ => rfl | ⟨1, _⟩ => exact absurd rfl hb)
      (by show f.val - 64 + 64 = f.val; omega)).trans ?_
    show x2 _ * broadcastTo S4000x64 x3 _ (ix2 r ⟨f.val - 64, _⟩) = _
    rw [broadcastTo_apply x3 _ (ix2 r ⟨f.val - 64, by omega⟩) (ix2 (n0 := 4000) (n1 := 1) r ⟨0, Nat.one_pos⟩)
      (fun a => by match a with | ⟨0, _⟩ => rfl | ⟨1, _⟩ => rfl)]

/-- The second payload: the running sum of the accumulator block and the first payload times the layer weight. -/
theorem pay2 (x0 : Vec Ideal S4000x64 .f32) (x1 : Vec Ideal S4000x1 .f32) (x2 : Vec Ideal S4000x64 .f32)
    (x3 : Vec Ideal S4000x1 .f32) (x4 : Vec Ideal S4000x128 .f32) :
    k9_pay2 (F := Ideal) x0 x1 x2 x3 x4
      = accum x4 (meanCat (n := 4000) x0 x1 x2 x3) (Ideal.ofBits .f32 0x3E800000#32) := by
  unfold k9_pay2
  rw [pay1]
  try simp only [shapeCast_self]
  rfl

/-- The running sum commutes with cutting a block: if the accumulator's block and the output's block sit at the same
    place and the addend's block is the addend at the embedded index, the block of the running sum is the running sum
    at the embedded index. -/
theorem accum_block {s s' : Shape} (acc : s'.Idx → EReal) (x : s.Idx → EReal) (X : s'.Idx → EReal) (w : EReal)
    (e4 e6 : s.Idx → s'.Idx) (y : s.Idx) (h46 : e4 y = e6 y) (hx : x y = X (e6 y)) :
    accum (fun z => acc (e4 z)) x w y = accum acc X w (e6 y) := by
  unfold accum
  show acc (e4 y) + x y * w = acc (e6 y) + X (e6 y) * w
  rw [h46, hx]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block row `t`, block
    column `0`. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0
    ∧ win9_6.index t (0 : Fin 2) = t.val ∧ win9_6.index t (1 : Fin 2) = 0 :=
  (by decide +kernel : ∀ t : Fin grid9.N, _)

/-- What point `t` writes back through the new-features window is block `t` of `meanCat` of the four arrays. -/
theorem flushed5_eq (c : Dev nD) (t : Fin cfg9.N) :
    (dat9 V c).flushed 5 t = ((cfg9.win 5).blk t).view.read (Elt Ideal)
      (meanCat (n := 100000) (V c main_v288) (V c main_v26) (V c main_v299) (V c main_v35)) := by
  show (cfg9.win 5).cut (grid9.coords t) ((dat9 V c).after 5 t) = _
  rw [after9_5]
  unfold out9_5
  rw [View.canon_unit_zero hz]
  simp only [View.ld_unit_zero (S := S4000x64) hz, View.ld_unit_zero (S := S4000x1) hz]
  rw [pay1]
  obtain ⟨e00, e01, e10, e11, e20, e21, e30, e31, e40, e41, e50, e51, e60, e61⟩ := idx_facts t
  funext y
  show meanCat (n := 4000) (fun z => V c main_v288 (((cfg9.win 0).blk t).view.emb z))
      (fun z => V c main_v26 (((cfg9.win 1).blk t).view.emb z))
      (fun z => V c main_v299 (((cfg9.win 2).blk t).view.emb z))
      (fun z => V c main_v35 (((cfg9.win 3).blk t).view.emb z)) y
    = meanCat (n := 100000) (V c main_v288) (V c main_v26) (V c main_v299) (V c main_v35)
        (((cfg9.win 5).blk t).view.emb y)
  exact meanCat_block (4000 * t.val) _ _ _ _ _ _ _ _ _
    (fun z => ⟨by show win9_0.index t (0 : Fin 2) * 4000 + 1 * (z 0).val = 4000 * t.val + (z 0).val; rw [e00]; omega,
      by show win9_0.index t (1 : Fin 2) * 64 + 1 * (z 1).val = (z 1).val; rw [e01]; omega⟩)
    (fun z => ⟨by show win9_1.index t (0 : Fin 2) * 4000 + 1 * (z 0).val = 4000 * t.val + (z 0).val; rw [e10]; omega,
      by show win9_1.index t (1 : Fin 2) * 1 + 1 * (z 1).val = (z 1).val; rw [e11]; omega⟩)
    (fun z => ⟨by show win9_2.index t (0 : Fin 2) * 4000 + 1 * (z 0).val = 4000 * t.val + (z 0).val; rw [e20]; omega,
      by show win9_2.index t (1 : Fin 2) * 64 + 1 * (z 1).val = (z 1).val; rw [e21]; omega⟩)
    (fun z => ⟨by show win9_3.index t (0 : Fin 2) * 4000 + 1 * (z 0).val = 4000 * t.val + (z 0).val; rw [e30]; omega,
      by show win9_3.index t (1 : Fin 2) * 1 + 1 * (z 1).val = (z 1).val; rw [e31]; omega⟩)
    (fun z => ⟨by show win9_5.index t (0 : Fin 2) * 4000 + 1 * (z 0).val = 4000 * t.val + (z 0).val; rw [e50]; omega,
      by show win9_5.index t (1 : Fin 2) * 128 + 1 * (z 1).val = (z 1).val; rw [e51]; omega⟩)
    y

/-- What point `t` writes back through the running-sum window is block `t` of `accum` of the accumulator array
    and `meanCat` of the four arrays. -/
theorem flushed6_eq (c : Dev nD) (t : Fin cfg9.N) :
    (dat9 V c).flushed 6 t = ((cfg9.win 6).blk t).view.read (Elt Ideal)
      (accum (V c main_v253_1) (meanCat (n := 100000) (V c main_v288) (V c main_v26) (V c main_v299) (V c main_v35))
        (Ideal.ofBits .f32 0x3E800000#32)) := by
  show (cfg9.win 6).cut (grid9.coords t) ((dat9 V c).after 6 t) = _
  rw [after9_6]
  unfold out9_6
  rw [View.canon_unit_zero hz]
  simp only [View.ld_unit_zero (S := S4000x64) hz, View.ld_unit_zero (S := S4000x1) hz,
    View.ld_unit_zero (S := S4000x128) hz]
  rw [pay2]
  obtain ⟨e00, e01, e10, e11, e20, e21, e30, e31, e40, e41, e50, e51, e60, e61⟩ := idx_facts t
  funext y
  show accum (s := S4000x128) (fun z => V c main_v253_1 (((cfg9.win 4).blk t).view.emb z))
      (meanCat (n := 4000) (fun z => V c main_v288 (((cfg9.win 0).blk t).view.emb z))
          (fun z => V c main_v26 (((cfg9.win 1).blk t).view.emb z))
          (fun z => V c main_v299 (((cfg9.win 2).blk t).view.emb z))
          (fun z => V c main_v35 (((cfg9.win 3).blk t).view.emb z))) (Ideal.ofBits .f32 0x3E800000#32) y
    = accum (s := S100000x128) (V c main_v253_1)
        (meanCat (n := 100000) (V c main_v288) (V c main_v26) (V c main_v299) (V c main_v35))
        (Ideal.ofBits .f32 0x3E800000#32) (((cfg9.win 6).blk t).view.emb y)
  refine accum_block _ _ _ _ _ _ y ?_ ?_
  · funext a; apply Fin.ext
    match a with
    | ⟨0, _⟩ => show win9_4.index t (0 : Fin 2) * 4000 + 1 * (y 0).val = win9_6.index t (0 : Fin 2) * 4000 + 1 * (y 0).val; rw [e40, e60]
    | ⟨1, _⟩ => show win9_4.index t (1 : Fin 2) * 128 + 1 * (y 1).val = win9_6.index t (1 : Fin 2) * 128 + 1 * (y 1).val; rw [e41, e61]
  exact meanCat_block (4000 * t.val) _ _ _ _ _ _ _ _ _
    (fun z => ⟨by show win9_0.index t (0 : Fin 2) * 4000 + 1 * (z 0).val = 4000 * t.val + (z 0).val; rw [e00]; omega,
      by show win9_0.index t (1 : Fin 2) * 64 + 1 * (z 1).val = (z 1).val; rw [e01]; omega⟩)
    (fun z => ⟨by show win9_1.index t (0 : Fin 2) * 4000 + 1 * (z 0).val = 4000 * t.val + (z 0).val; rw [e10]; omega,
      by show win9_1.index t (1 : Fin 2) * 1 + 1 * (z 1).val = (z 1).val; rw [e11]; omega⟩)
    (fun z => ⟨by show win9_2.index t (0 : Fin 2) * 4000 + 1 * (z 0).val = 4000 * t.val + (z 0).val; rw [e20]; omega,
      by show win9_2.index t (1 : Fin 2) * 64 + 1 * (z 1).val = (z 1).val; rw [e21]; omega⟩)
    (fun z => ⟨by show win9_3.index t (0 : Fin 2) * 4000 + 1 * (z 0).val = 4000 * t.val + (z 0).val; rw [e30]; omega,
      by show win9_3.index t (1 : Fin 2) * 1 + 1 * (z 1).val = (z 1).val; rw [e31]; omega⟩)
    (fun z => ⟨by show win9_6.index t (0 : Fin 2) * 4000 + 1 * (z 0).val = 4000 * t.val + (z 0).val; rw [e60]; omega,
      by show win9_6.index t (1 : Fin 2) * 128 + 1 * (z 1).val = (z 1).val; rw [e61]; omega⟩)
    y

/-- An index of the new-features array is in point `t`'s block iff each coordinate is in the block's range. -/
theorem mem_blk5 (t : Fin cfg9.N) (i : S100000x128.Idx) :
    i ∈ ((cfg9.win 5).blk t).view.set ↔ ∀ a : Fin 2, win9_5.index t a * S4000x128.size a ≤ (i a).val
      ∧ (i a).val < win9_5.index t a * S4000x128.size a + S4000x128.size a := by
  show i ∈ ((View.whole main_v345_0).slice (win9_5.rect t)).set ↔ _
  rw [View.set_slice_whole, Rect.mem_set_unit]
  exact Iff.rfl

theorem mem_blk6 (t : Fin cfg9.N) (i : S100000x128.Idx) :
    i ∈ ((cfg9.win 6).blk t).view.set ↔ ∀ a : Fin 2, win9_6.index t a * S4000x128.size a ≤ (i a).val
      ∧ (i a).val < win9_6.index t a * S4000x128.size a + S4000x128.size a := by
  show i ∈ ((View.whole main_v345_1).slice (win9_6.rect t)).set ↔ _
  rw [View.set_slice_whole, Rect.mem_set_unit]
  exact Iff.rfl

/-- The 25 blocks of 4000 rows tile the 100000 rows: row `r` is in block `r / 4000`. -/
theorem cover5 (i : S100000x128.Idx) :
    ∃ t : Fin cfg9.N, (cfg9.win 5).flush t = true ∧ i ∈ ((cfg9.win 5).blk t).view.set := by
  have hi0 : (i 0).val < 100000 := (i 0).isLt
  have hi1 : (i 1).val < 128 := (i 1).isLt
  have hN : (i 0).val / 4000 < cfg9.N := by show (i 0).val / 4000 < 25; omega
  obtain ⟨e00, e01, e10, e11, e20, e21, e30, e31, e40, e41, e50, e51, e60, e61⟩ := idx_facts ⟨(i 0).val / 4000, hN⟩
  refine ⟨⟨(i 0).val / 4000, hN⟩, flush9_5 _, ?_⟩
  rw [mem_blk5]
  intro a
  match a with
  | ⟨0, _⟩ =>
    show win9_5.index ⟨(i 0).val / 4000, hN⟩ (0 : Fin 2) * 4000 ≤ (i 0).val
      ∧ (i 0).val < win9_5.index ⟨(i 0).val / 4000, hN⟩ (0 : Fin 2) * 4000 + 4000
    rw [e50]; show (i 0).val / 4000 * 4000 ≤ (i 0).val ∧ (i 0).val < (i 0).val / 4000 * 4000 + 4000; omega
  | ⟨1, _⟩ =>
    show win9_5.index ⟨(i 0).val / 4000, hN⟩ (1 : Fin 2) * 128 ≤ (i 1).val
      ∧ (i 1).val < win9_5.index ⟨(i 0).val / 4000, hN⟩ (1 : Fin 2) * 128 + 128
    rw [e51]; omega

theorem cover6 (i : S100000x128.Idx) :
    ∃ t : Fin cfg9.N, (cfg9.win 6).flush t = true ∧ i ∈ ((cfg9.win 6).blk t).view.set := by
  have hi0 : (i 0).val < 100000 := (i 0).isLt
  have hi1 : (i 1).val < 128 := (i 1).isLt
  have hN : (i 0).val / 4000 < cfg9.N := by show (i 0).val / 4000 < 25; omega
  obtain ⟨e00, e01, e10, e11, e20, e21, e30, e31, e40, e41, e50, e51, e60, e61⟩ := idx_facts ⟨(i 0).val / 4000, hN⟩
  refine ⟨⟨(i 0).val / 4000, hN⟩, flush9_6 _, ?_⟩
  rw [mem_blk6]
  intro a
  match a with
  | ⟨0, _⟩ =>
    show win9_6.index ⟨(i 0).val / 4000, hN⟩ (0 : Fin 2) * 4000 ≤ (i 0).val
      ∧ (i 0).val < win9_6.index ⟨(i 0).val / 4000, hN⟩ (0 : Fin 2) * 4000 + 4000
    rw [e60]; show (i 0).val / 4000 * 4000 ≤ (i 0).val ∧ (i 0).val < (i 0).val / 4000 * 4000 + 4000; omega
  | ⟨1, _⟩ =>
    show win9_6.index ⟨(i 0).val / 4000, hN⟩ (1 : Fin 2) * 128 ≤ (i 1).val
      ∧ (i 1).val < win9_6.index ⟨(i 0).val / 4000, hN⟩ (1 : Fin 2) * 128 + 128
    rw [e61]; omega

/-- After the call the new-features array is `meanCat` of the four arrays the call found. -/
theorem newx (c : Dev nD) :
    (dat9 V c).arrAt 5 cfg9.N
      = meanCat (n := 100000) (V c main_v288) (V c main_v26) (V c main_v299) (V c main_v35) :=
  (dat9 V c).arrAt_eq_of_cover 5 _ (fun t _ => flushed5_eq V c t) cover5

/-- After the call the running-sum array is `accum` of the accumulator the call found and the new features. -/
theorem accout (c : Dev nD) :
    (dat9 V c).arrAt 6 cfg9.N
      = accum (V c main_v253_1) (meanCat (n := 100000) (V c main_v288) (V c main_v26) (V c main_v299) (V c main_v35))
          (Ideal.ofBits .f32 0x3E800000#32) :=
  (dat9 V c).arrAt_eq_of_cover 6 _ (fun t _ => flushed6_eq V c t) cover6

end Cert.KernelIdeal.Region9

end
-- ==== Proof.Region10.lean ====
/-
  Region 10 of the kernel's program (a combine call on the publisher table: 5 blocks of 4000 rows over 20000 rows), read as
  whole-array functions: the argument is Region 0's, with this call's buffers, extents and layer weight.
-/
import proofs.«179549_j31344671326263_2_alg».proof.Proof.Gen.KernelIdeal.Frame
import proofs.«179549_j31344671326263_2_alg».proof.Proof.LibSegMean

set_option maxRecDepth 16384

noncomputable section

namespace Cert.KernelIdeal.Region10

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegMean

/-- The first payload: the two halves, each scaled row by row by its column, joined along the features. -/
theorem pay1 (x0 : Vec Ideal S4000x64 .f32) (x1 : Vec Ideal S4000x1 .f32) (x2 : Vec Ideal S4000x64 .f32)
    (x3 : Vec Ideal S4000x1 .f32) :
    k10_pay1 (F := Ideal) x0 x1 x2 x3 = meanCat (n := 4000) x0 x1 x2 x3 := by
  funext j
  obtain ⟨r, f, rfl⟩ : ∃ (r : Fin 4000) (f : Fin 128), j = ix2 r f := ⟨j 0, j 1, eq_ix2 j⟩
  unfold k10_pay1
  simp only [shapeCast_self]
  by_cases h : f.val < 64
  · rw [meanCat_left _ _ _ _ r f h]
    refine (concatenate_pair_apply_left (t := S4000x128) (s₁ := S4000x64) (s₂ := S4000x64) (1 : Fin 2) _ _ _
      (ix2 r f) rfl (ix2 (n0 := 4000) (n1 := 64) r ⟨f.val, h⟩)
      (fun b => by match b with | ⟨0, _⟩ => rfl | ⟨1, _⟩ => rfl)).trans ?_
    show x0 _ * broadcastTo S4000x64 x1 _ (ix2 r ⟨f.val, h⟩) = _
    rw [broadcastTo_apply x1 _ (ix2 r ⟨f.val, h⟩) (ix2 (n0 := 4000) (n1 := 1) r ⟨0, Nat.one_pos⟩)
      (fun a => by match a with | ⟨0, _⟩ => rfl | ⟨1, _⟩ => rfl)]
  · rw [meanCat_right _ _ _ _ r f h]
    have h128 := f.isLt
    refine (concatenate_pair_apply_right (t := S4000x128) (s₁ := S4000x64) (s₂ := S4000x64) (1 : Fin 2) _ _ _
      (ix2 r f) rfl rfl (ix2 (n0 := 4000) (n1 := 64) r ⟨f.val - 64, by omega⟩)
      (fun b hb => by match b with | ⟨0, _⟩ => rfl | ⟨1, _⟩ => exact absurd rfl hb)
      (by show f.val - 64 + 64 = f.val; omega)).trans ?_
    show x2 _ * broadcastTo S4000x64 x3 _ (ix2 r ⟨f.val - 64, _⟩) = _
    rw [broadcastTo_apply x3 _ (ix2 r ⟨f.val - 64, by omega⟩) (ix2 (n0 := 4000) (n1 := 1) r ⟨0, Nat.one_pos⟩)
      (fun a => by match a with | ⟨0, _⟩ => rfl | ⟨1, _⟩ => rfl)]

/-- The second payload: the running sum of the accumulator block and the first payload times the layer weight. -/
theorem pay2 (x0 : Vec Ideal S4000x64 .f32) (x1 : Vec Ideal S4000x1 .f32) (x2 : Vec Ideal S4000x64 .f32)
    (x3 : Vec Ideal S4000x1 .f32) (x4 : Vec Ideal S4000x128 .f32) :
    k10_pay2 (F := Ideal) x0 x1 x2 x3 x4
      = accum x4 (meanCat (n := 4000) x0 x1 x2 x3) (Ideal.ofBits .f32 0x3E800000#32) := by
  unfold k10_pay2
  rw [pay1]
  try simp only [shapeCast_self]
  rfl

/-- The running sum commutes with cutting a block: if the accumulator's block and the output's block sit at the same
    place and the addend's block is the addend at the embedded index, the block of the running sum is the running sum
    at the embedded index. -/
theorem accum_block {s s' : Shape} (acc : s'.Idx → EReal) (x : s.Idx → EReal) (X : s'.Idx → EReal) (w : EReal)
    (e4 e6 : s.Idx → s'.Idx) (y : s.Idx) (h46 : e4 y = e6 y) (hx : x y = X (e6 y)) :
    accum (fun z => acc (e4 z)) x w y = accum acc X w (e6 y) := by
  unfold accum
  show acc (e4 y) + x y * w = acc (e6 y) + X (e6 y) * w
  rw [h46, hx]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block row `t`, block
    column `0`. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0
    ∧ win10_5.index t (0 : Fin 2) = t.val ∧ win10_5.index t (1 : Fin 2) = 0
    ∧ win10_6.index t (0 : Fin 2) = t.val ∧ win10_6.index t (1 : Fin 2) = 0 :=
  (by decide +kernel : ∀ t : Fin grid10.N, _)

/-- What point `t` writes back through the new-features window is block `t` of `meanCat` of the four arrays. -/
theorem flushed5_eq (c : Dev nD) (t : Fin cfg10.N) :
    (dat10 V c).flushed 5 t = ((cfg10.win 5).blk t).view.read (Elt Ideal)
      (meanCat (n := 20000) (V c main_v310) (V c main_v44) (V c main_v321) (V c main_v53)) := by
  show (cfg10.win 5).cut (grid10.coords t) ((dat10 V c).after 5 t) = _
  rw [after10_5]
  unfold out10_5
  rw [View.canon_unit_zero hz]
  simp only [View.ld_unit_zero (S := S4000x64) hz, View.ld_unit_zero (S := S4000x1) hz]
  rw [pay1]
  obtain ⟨e00, e01, e10, e11, e20, e21, e30, e31, e40, e41, e50, e51, e60, e61⟩ := idx_facts t
  funext y
  show meanCat (n := 4000) (fun z => V c main_v310 (((cfg10.win 0).blk t).view.emb z))
      (fun z => V c main_v44 (((cfg10.win 1).blk t).view.emb z))
      (fun z => V c main_v321 (((cfg10.win 2).blk t).view.emb z))
      (fun z => V c main_v53 (((cfg10.win 3).blk t).view.emb z)) y
    = meanCat (n := 20000) (V c main_v310) (V c main_v44) (V c main_v321) (V c main_v53)
        (((cfg10.win 5).blk t).view.emb y)
  exact meanCat_block (4000 * t.val) _ _ _ _ _ _ _ _ _
    (fun z => ⟨by show win10_0.index t (0 : Fin 2) * 4000 + 1 * (z 0).val = 4000 * t.val + (z 0).val; rw [e00]; omega,
      by show win10_0.index t (1 : Fin 2) * 64 + 1 * (z 1).val = (z 1).val; rw [e01]; omega⟩)
    (fun z => ⟨by show win10_1.index t (0 : Fin 2) * 4000 + 1 * (z 0).val = 4000 * t.val + (z 0).val; rw [e10]; omega,
      by show win10_1.index t (1 : Fin 2) * 1 + 1 * (z 1).val = (z 1).val; rw [e11]; omega⟩)
    (fun z => ⟨by show win10_2.index t (0 : Fin 2) * 4000 + 1 * (z 0).val = 4000 * t.val + (z 0).val; rw [e20]; omega,
      by show win10_2.index t (1 : Fin 2) * 64 + 1 * (z 1).val = (z 1).val; rw [e21]; omega⟩)
    (fun z => ⟨by show win10_3.index t (0 : Fin 2) * 4000 + 1 * (z 0).val = 4000 * t.val + (z 0).val; rw [e30]; omega,
      by show win10_3.index t (1 : Fin 2) * 1 + 1 * (z 1).val = (z 1).val; rw [e31]; omega⟩)
    (fun z => ⟨by show win10_5.index t (0 : Fin 2) * 4000 + 1 * (z 0).val = 4000 * t.val + (z 0).val; rw [e50]; omega,
      by show win10_5.index t (1 : Fin 2) * 128 + 1 * (z 1).val = (z 1).val; rw [e51]; omega⟩)
    y

/-- What point `t` writes back through the running-sum window is block `t` of `accum` of the accumulator array
    and `meanCat` of the four arrays. -/
theorem flushed6_eq (c : Dev nD) (t : Fin cfg10.N) :
    (dat10 V c).flushed 6 t = ((cfg10.win 6).blk t).view.read (Elt Ideal)
      (accum (V c main_v254_1) (meanCat (n := 20000) (V c main_v310) (V c main_v44) (V c main_v321) (V c main_v53))
        (Ideal.ofBits .f32 0x3E800000#32)) := by
  show (cfg10.win 6).cut (grid10.coords t) ((dat10 V c).after 6 t) = _
  rw [after10_6]
  unfold out10_6
  rw [View.canon_unit_zero hz]
  simp only [View.ld_unit_zero (S := S4000x64) hz, View.ld_unit_zero (S := S4000x1) hz,
    View.ld_unit_zero (S := S4000x128) hz]
  rw [pay2]
  obtain ⟨e00, e01, e10, e11, e20, e21, e30, e31, e40, e41, e50, e51, e60, e61⟩ := idx_facts t
  funext y
  show accum (s := S4000x128) (fun z => V c main_v254_1 (((cfg10.win 4).blk t).view.emb z))
      (meanCat (n := 4000) (fun z => V c main_v310 (((cfg10.win 0).blk t).view.emb z))
          (fun z => V c main_v44 (((cfg10.win 1).blk t).view.emb z))
          (fun z => V c main_v321 (((cfg10.win 2).blk t).view.emb z))
          (fun z => V c main_v53 (((cfg10.win 3).blk t).view.emb z))) (Ideal.ofBits .f32 0x3E800000#32) y
    = accum (s := S20000x128) (V c main_v254_1)
        (meanCat (n := 20000) (V c main_v310) (V c main_v44) (V c main_v321) (V c main_v53))
        (Ideal.ofBits .f32 0x3E800000#32) (((cfg10.win 6).blk t).view.emb y)
  refine accum_block _ _ _ _ _ _ y ?_ ?_
  · funext a; apply Fin.ext
    match a with
    | ⟨0, _⟩ => show win10_4.index t (0 : Fin 2) * 4000 + 1 * (y 0).val = win10_6.index t (0 : Fin 2) * 4000 + 1 * (y 0).val; rw [e40, e60]
    | ⟨1, _⟩ => show win10_4.index t (1 : Fin 2) * 128 + 1 * (y 1).val = win10_6.index t (1 : Fin 2) * 128 + 1 * (y 1).val; rw [e41, e61]
  exact meanCat_block (4000 * t.val) _ _ _ _ _ _ _ _ _
    (fun z => ⟨by show win10_0.index t (0 : Fin 2) * 4000 + 1 * (z 0).val = 4000 * t.val + (z 0).val; rw [e00]; omega,
      by show win10_0.index t (1 : Fin 2) * 64 + 1 * (z 1).val = (z 1).val; rw [e01]; omega⟩)
    (fun z => ⟨by show win10_1.index t (0 : Fin 2) * 4000 + 1 * (z 0).val = 4000 * t.val + (z 0).val; rw [e10]; omega,
      by show win10_1.index t (1 : Fin 2) * 1 + 1 * (z 1).val = (z 1).val; rw [e11]; omega⟩)
    (fun z => ⟨by show win10_2.index t (0 : Fin 2) * 4000 + 1 * (z 0).val = 4000 * t.val + (z 0).val; rw [e20]; omega,
      by show win10_2.index t (1 : Fin 2) * 64 + 1 * (z 1).val = (z 1).val; rw [e21]; omega⟩)
    (fun z => ⟨by show win10_3.index t (0 : Fin 2) * 4000 + 1 * (z 0).val = 4000 * t.val + (z 0).val; rw [e30]; omega,
      by show win10_3.index t (1 : Fin 2) * 1 + 1 * (z 1).val = (z 1).val; rw [e31]; omega⟩)
    (fun z => ⟨by show win10_6.index t (0 : Fin 2) * 4000 + 1 * (z 0).val = 4000 * t.val + (z 0).val; rw [e60]; omega,
      by show win10_6.index t (1 : Fin 2) * 128 + 1 * (z 1).val = (z 1).val; rw [e61]; omega⟩)
    y

/-- An index of the new-features array is in point `t`'s block iff each coordinate is in the block's range. -/
theorem mem_blk5 (t : Fin cfg10.N) (i : S20000x128.Idx) :
    i ∈ ((cfg10.win 5).blk t).view.set ↔ ∀ a : Fin 2, win10_5.index t a * S4000x128.size a ≤ (i a).val
      ∧ (i a).val < win10_5.index t a * S4000x128.size a + S4000x128.size a := by
  show i ∈ ((View.whole main_v346_0).slice (win10_5.rect t)).set ↔ _
  rw [View.set_slice_whole, Rect.mem_set_unit]
  exact Iff.rfl

theorem mem_blk6 (t : Fin cfg10.N) (i : S20000x128.Idx) :
    i ∈ ((cfg10.win 6).blk t).view.set ↔ ∀ a : Fin 2, win10_6.index t a * S4000x128.size a ≤ (i a).val
      ∧ (i a).val < win10_6.index t a * S4000x128.size a + S4000x128.size a := by
  show i ∈ ((View.whole main_v346_1).slice (win10_6.rect t)).set ↔ _
  rw [View.set_slice_whole, Rect.mem_set_unit]
  exact Iff.rfl

/-- The 5 blocks of 4000 rows tile the 20000 rows: row `r` is in block `r / 4000`. -/
theorem cover5 (i : S20000x128.Idx) :
    ∃ t : Fin cfg10.N, (cfg10.win 5).flush t = true ∧ i ∈ ((cfg10.win 5).blk t).view.set := by
  have hi0 : (i 0).val < 20000 := (i 0).isLt
  have hi1 : (i 1).val < 128 := (i 1).isLt
  have hN : (i 0).val / 4000 < cfg10.N := by show (i 0).val / 4000 < 5; omega
  obtain ⟨e00, e01, e10, e11, e20, e21, e30, e31, e40, e41, e50, e51, e60, e61⟩ := idx_facts ⟨(i 0).val / 4000, hN⟩
  refine ⟨⟨(i 0).val / 4000, hN⟩, flush10_5 _, ?_⟩
  rw [mem_blk5]
  intro a
  match a with
  | ⟨0, _⟩ =>
    show win10_5.index ⟨(i 0).val / 4000, hN⟩ (0 : Fin 2) * 4000 ≤ (i 0).val
      ∧ (i 0).val < win10_5.index ⟨(i 0).val / 4000, hN⟩ (0 : Fin 2) * 4000 + 4000
    rw [e50]; show (i 0).val / 4000 * 4000 ≤ (i 0).val ∧ (i 0).val < (i 0).val / 4000 * 4000 + 4000; omega
  | ⟨1, _⟩ =>
    show win10_5.index ⟨(i 0).val / 4000, hN⟩ (1 : Fin 2) * 128 ≤ (i 1).val
      ∧ (i 1).val < win10_5.index ⟨(i 0).val / 4000, hN⟩ (1 : Fin 2) * 128 + 128
    rw [e51]; omega

theorem cover6 (i : S20000x128.Idx) :
    ∃ t : Fin cfg10.N, (cfg10.win 6).flush t = true ∧ i ∈ ((cfg10.win 6).blk t).view.set := by
  have hi0 : (i 0).val < 20000 := (i 0).isLt
  have hi1 : (i 1).val < 128 := (i 1).isLt
  have hN : (i 0).val / 4000 < cfg10.N := by show (i 0).val / 4000 < 5; omega
  obtain ⟨e00, e01, e10, e11, e20, e21, e30, e31, e40, e41, e50, e51, e60, e61⟩ := idx_facts ⟨(i 0).val / 4000, hN⟩
  refine ⟨⟨(i 0).val / 4000, hN⟩, flush10_6 _, ?_⟩
  rw [mem_blk6]
  intro a
  match a with
  | ⟨0, _⟩ =>
    show win10_6.index ⟨(i 0).val / 4000, hN⟩ (0 : Fin 2) * 4000 ≤ (i 0).val
      ∧ (i 0).val < win10_6.index ⟨(i 0).val / 4000, hN⟩ (0 : Fin 2) * 4000 + 4000
    rw [e60]; show (i 0).val / 4000 * 4000 ≤ (i 0).val ∧ (i 0).val < (i 0).val / 4000 * 4000 + 4000; omega
  | ⟨1, _⟩ =>
    show win10_6.index ⟨(i 0).val / 4000, hN⟩ (1 : Fin 2) * 128 ≤ (i 1).val
      ∧ (i 1).val < win10_6.index ⟨(i 0).val / 4000, hN⟩ (1 : Fin 2) * 128 + 128
    rw [e61]; omega

/-- After the call the new-features array is `meanCat` of the four arrays the call found. -/
theorem newx (c : Dev nD) :
    (dat10 V c).arrAt 5 cfg10.N
      = meanCat (n := 20000) (V c main_v310) (V c main_v44) (V c main_v321) (V c main_v53) :=
  (dat10 V c).arrAt_eq_of_cover 5 _ (fun t _ => flushed5_eq V c t) cover5

/-- After the call the running-sum array is `accum` of the accumulator the call found and the new features. -/
theorem accout (c : Dev nD) :
    (dat10 V c).arrAt 6 cfg10.N
      = accum (V c main_v254_1) (meanCat (n := 20000) (V c main_v310) (V c main_v44) (V c main_v321) (V c main_v53))
          (Ideal.ofBits .f32 0x3E800000#32) :=
  (dat10 V c).arrAt_eq_of_cover 6 _ (fun t _ => flushed6_eq V c t) cover6

end Cert.KernelIdeal.Region10

end
-- ==== Proof.Region11.lean ====
/-
  Region 11 of the kernel's program (a combine call on the tag table: 5 blocks of 1000 rows over 5000 rows), read as
  whole-array functions: the argument is Region 0's, with this call's buffers, extents and layer weight.
-/
import proofs.«179549_j31344671326263_2_alg».proof.Proof.Gen.KernelIdeal.Frame
import proofs.«179549_j31344671326263_2_alg».proof.Proof.LibSegMean

set_option maxRecDepth 16384

noncomputable section

namespace Cert.KernelIdeal.Region11

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SegMean

/-- The first payload: the two halves, each scaled row by row by its column, joined along the features. -/
theorem pay1 (x0 : Vec Ideal S1000x64 .f32) (x1 : Vec Ideal S1000x1 .f32) (x2 : Vec Ideal S1000x64 .f32)
    (x3 : Vec Ideal S1000x1 .f32) :
    k11_pay1 (F := Ideal) x0 x1 x2 x3 = meanCat (n := 1000) x0 x1 x2 x3 := by
  funext j
  obtain ⟨r, f, rfl⟩ : ∃ (r : Fin 1000) (f : Fin 128), j = ix2 r f := ⟨j 0, j 1, eq_ix2 j⟩
  unfold k11_pay1
  simp only [shapeCast_self]
  by_cases h : f.val < 64
  · rw [meanCat_left _ _ _ _ r f h]
    refine (concatenate_pair_apply_left (t := S1000x128) (s₁ := S1000x64) (s₂ := S1000x64) (1 : Fin 2) _ _ _
      (ix2 r f) rfl (ix2 (n0 := 1000) (n1 := 64) r ⟨f.val, h⟩)
      (fun b => by match b with | ⟨0, _⟩ => rfl | ⟨1, _⟩ => rfl)).trans ?_
    show x0 _ * broadcastTo S1000x64 x1 _ (ix2 r ⟨f.val, h⟩) = _
    rw [broadcastTo_apply x1 _ (ix2 r ⟨f.val, h⟩) (ix2 (n0 := 1000) (n1 := 1) r ⟨0, Nat.one_pos⟩)
      (fun a => by match a with | ⟨0, _⟩ => rfl | ⟨1, _⟩ => rfl)]
  · rw [meanCat_right _ _ _ _ r f h]
    have h128 := f.isLt
    refine (concatenate_pair_apply_right (t := S1000x128) (s₁ := S1000x64) (s₂ := S1000x64) (1 : Fin 2) _ _ _
      (ix2 r f) rfl rfl (ix2 (n0 := 1000) (n1 := 64) r ⟨f.val - 64, by omega⟩)
      (fun b hb => by match b with | ⟨0, _⟩ => rfl | ⟨1, _⟩ => exact absurd rfl hb)
      (by show f.val - 64 + 64 = f.val; omega)).trans ?_
    show x2 _ * broadcastTo S1000x64 x3 _ (ix2 r ⟨f.val - 64, _⟩) = _
    rw [broadcastTo_apply x3 _ (ix2 r ⟨f.val - 64, by omega⟩) (ix2 (n0 := 1000) (n1 := 1) r ⟨0, Nat.one_pos⟩)
      (fun a => by match a with | ⟨0, _⟩ => rfl | ⟨1, _⟩ => rfl)]

/-- The second payload: the running sum of the accumulator block and the first payload times the layer weight. -/
theorem pay2 (x0 : Vec Ideal S1000x64 .f32) (x1 : Vec Ideal S1000x1 .f32) (x2 : Vec Ideal S1000x64 .f32)
    (x3 : Vec Ideal S1000x1 .f32) (x4 : Vec Ideal S1000x128 .f32) :
    k11_pay2 (F := Ideal) x0 x1 x2 x3 x4
      = accum x4 (meanCat (n := 1000) x0 x1 x2 x3) (Ideal.ofBits .f32 0x3E800000#32) := by
  unfold k11_pay2
  rw [pay1]
  try simp only [shapeCast_self]
  rfl

/-- The running sum commutes with cutting a block: if the accumulator's block and the output's block sit at the same
    place and the addend's block is the addend at the embedded index, the block of the running sum is the running sum
    at the embedded index. -/
theorem accum_block {s s' : Shape} (acc : s'.Idx → EReal) (x : s.Idx → EReal) (X : s'.Idx → EReal) (w : EReal)
    (e4 e6 : s.Idx → s'.Idx) (y : s.Idx) (h46 : e4 y = e6 y) (hx : x y = X (e6 y)) :
    accum (fun z => acc (e4 z)) x w y = accum acc X w (e6 y) := by
  unfold accum
  show acc (e4 y) + x y * w = acc (e6 y) + X (e6 y) * w
  rw [h46, hx]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block row `t`, block
    column `0`. -/
theorem idx_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0
    ∧ win11_5.index t (0 : Fin 2) = t.val ∧ win11_5.index t (1 : Fin 2) = 0
    ∧ win11_6.index t (0 : Fin 2) = t.val ∧ win11_6.index t (1 : Fin 2) = 0 :=
  (by decide +kernel : ∀ t : Fin grid11.N, _)

/-- What point `t` writes back through the new-features window is block `t` of `meanCat` of the four arrays. -/
theorem flushed5_eq (c : Dev nD) (t : Fin cfg11.N) :
    (dat11 V c).flushed 5 t = ((cfg11.win 5).blk t).view.read (Elt Ideal)
      (meanCat (n := 5000) (V c main_v332) (V c main_v62) (V c main_v343) (V c main_v71)) := by
  show (cfg11.win 5).cut (grid11.coords t) ((dat11 V c).after 5 t) = _
  rw [after11_5]
  unfold out11_5
  rw [View.canon_unit_zero hz]
  simp only [View.ld_unit_zero (S := S1000x64) hz, View.ld_unit_zero (S := S1000x1) hz]
  rw [pay1]
  obtain ⟨e00, e01, e10, e11, e20, e21, e30, e31, e40, e41, e50, e51, e60, e61⟩ := idx_facts t
  funext y
  show meanCat (n := 1000) (fun z => V c main_v332 (((cfg11.win 0).blk t).view.emb z))
      (fun z => V c main_v62 (((cfg11.win 1).blk t).view.emb z))
      (fun z => V c main_v343 (((cfg11.win 2).blk t).view.emb z))
      (fun z => V c main_v71 (((cfg11.win 3).blk t).view.emb z)) y
    = meanCat (n := 5000) (V c main_v332) (V c main_v62) (V c main_v343) (V c main_v71)
        (((cfg11.win 5).blk t).view.emb y)
  exact meanCat_block (1000 * t.val) _ _ _ _ _ _ _ _ _
    (fun z => ⟨by show win11_0.index t (0 : Fin 2) * 1000 + 1 * (z 0).val = 1000 * t.val + (z 0).val; rw [e00]; omega,
      by show win11_0.index t (1 : Fin 2) * 64 + 1 * (z 1).val = (z 1).val; rw [e01]; omega⟩)
    (fun z => ⟨by show win11_1.index t (0 : Fin 2) * 1000 + 1 * (z 0).val = 1000 * t.val + (z 0).val; rw [e10]; omega,
      by show win11_1.index t (1 : Fin 2) * 1 + 1 * (z 1).val = (z 1).val; rw [e11]; omega⟩)
    (fun z => ⟨by show win11_2.index t (0 : Fin 2) * 1000 + 1 * (z 0).val = 1000 * t.val + (z 0).val; rw [e20]; omega,
      by show win11_2.index t (1 : Fin 2) * 64 + 1 * (z 1).val = (z 1).val; rw [e21]; omega⟩)
    (fun z => ⟨by show win11_3.index t (0 : Fin 2) * 1000 + 1 * (z 0).val = 1000 * t.val + (z 0).val; rw [e30]; omega,
      by show win11_3.index t (1 : Fin 2) * 1 + 1 * (z 1).val = (z 1).val; rw [e31]; omega⟩)
    (fun z => ⟨by show win11_5.index t (0 : Fin 2) * 1000 + 1 * (z 0).val = 1000 * t.val + (z 0).val; rw [e50]; omega,
      by show win11_5.index t (1 : Fin 2) * 128 + 1 * (z 1).val = (z 1).val; rw [e51]; omega⟩)
    y

/-- What point `t` writes back through the running-sum window is block `t` of `accum` of the accumulator array
    and `meanCat` of the four arrays. -/
theorem flushed6_eq (c : Dev nD) (t : Fin cfg11.N) :
    (dat11 V c).flushed 6 t = ((cfg11.win 6).blk t).view.read (Elt Ideal)
      (accum (V c main_v255_1) (meanCat (n := 5000) (V c main_v332) (V c main_v62) (V c main_v343) (V c main_v71))
        (Ideal.ofBits .f32 0x3E800000#32)) := by
  show (cfg11.win 6).cut (grid11.coords t) ((dat11 V c).after 6 t) = _
  rw [after11_6]
  unfold out11_6
  rw [View.canon_unit_zero hz]
  simp only [View.ld_unit_zero (S := S1000x64) hz, View.ld_unit_zero (S := S1000x1) hz,
    View.ld_unit_zero (S := S1000x128) hz]
  rw [pay2]
  obtain ⟨e00, e01, e10, e11, e20, e21, e30, e31, e40, e41, e50, e51, e60, e61⟩ := idx_facts t
  funext y
  show accum (s := S1000x128) (fun z => V c main_v255_1 (((cfg11.win 4).blk t).view.emb z))
      (meanCat (n := 1000) (fun z => V c main_v332 (((cfg11.win 0).blk t).view.emb z))
          (fun z => V c main_v62 (((cfg11.win 1).blk t).view.emb z))
          (fun z => V c main_v343 (((cfg11.win 2).blk t).view.emb z))
          (fun z => V c main_v71 (((cfg11.win 3).blk t).view.emb z))) (Ideal.ofBits .f32 0x3E800000#32) y
    = accum (s := S5000x128) (V c main_v255_1)
        (meanCat (n := 5000) (V c main_v332) (V c main_v62) (V c main_v343) (V c main_v71))
        (Ideal.ofBits .f32 0x3E800000#32) (((cfg11.win 6).blk t).view.emb y)
  refine accum_block _ _ _ _ _ _ y ?_ ?_
  · funext a; apply Fin.ext
    match a with
    | ⟨0, _⟩ => show win11_4.index t (0 : Fin 2) * 1000 + 1 * (y 0).val = win11_6.index t (0 : Fin 2) * 1000 + 1 * (y 0).val; rw [e40, e60]
    | ⟨1, _⟩ => show win11_4.index t (1 : Fin 2) * 128 + 1 * (y 1).val = win11_6.index t (1 : Fin 2) * 128 + 1 * (y 1).val; rw [e41, e61]
  exact meanCat_block (1000 * t.val) _ _ _ _ _ _ _ _ _
    (fun z => ⟨by show win11_0.index t (0 : Fin 2) * 1000 + 1 * (z 0).val = 1000 * t.val + (z 0).val; rw [e00]; omega,
      by show win11_0.index t (1 : Fin 2) * 64 + 1 * (z 1).val = (z 1).val; rw [e01]; omega⟩)
    (fun z => ⟨by show win11_1.index t (0 : Fin 2) * 1000 + 1 * (z 0).val = 1000 * t.val + (z 0).val; rw [e10]; omega,
      by show win11_1.index t (1 : Fin 2) * 1 + 1 * (z 1).val = (z 1).val; rw [e11]; omega⟩)
    (fun z => ⟨by show win11_2.index t (0 : Fin 2) * 1000 + 1 * (z 0).val = 1000 * t.val + (z 0).val; rw [e20]; omega,
      by show win11_2.index t (1 : Fin 2) * 64 + 1 * (z 1).val = (z 1).val; rw [e21]; omega⟩)
    (fun z => ⟨by show win11_3.index t (0 : Fin 2) * 1000 + 1 * (z 0).val = 1000 * t.val + (z 0).val; rw [e30]; omega,
      by show win11_3.index t (1 : Fin 2) * 1 + 1 * (z 1).val = (z 1).val; rw [e31]; omega⟩)
    (fun z => ⟨by show win11_6.index t (0 : Fin 2) * 1000 + 1 * (z 0).val = 1000 * t.val + (z 0).val; rw [e60]; omega,
      by show win11_6.index t (1 : Fin 2) * 128 + 1 * (z 1).val = (z 1).val; rw [e61]; omega⟩)
    y

/-- An index of the new-features array is in point `t`'s block iff each coordinate is in the block's range. -/
theorem mem_blk5 (t : Fin cfg11.N) (i : S5000x128.Idx) :
    i ∈ ((cfg11.win 5).blk t).view.set ↔ ∀ a : Fin 2, win11_5.index t a * S1000x128.size a ≤ (i a).val
      ∧ (i a).val < win11_5.index t a * S1000x128.size a + S1000x128.size a := by
  show i ∈ ((View.whole main_v347_0).slice (win11_5.rect t)).set ↔ _
  rw [View.set_slice_whole, Rect.mem_set_unit]
  exact Iff.rfl

theorem mem_blk6 (t : Fin cfg11.N) (i : S5000x128.Idx) :
    i ∈ ((cfg11.win 6).blk t).view.set ↔ ∀ a : Fin 2, win11_6.index t a * S1000x128.size a ≤ (i a).val
      ∧ (i a).val < win11_6.index t a * S1000x128.size a + S1000x128.size a := by
  show i ∈ ((View.whole main_v347_1).slice (win11_6.rect t)).set ↔ _
  rw [View.set_slice_whole, Rect.mem_set_unit]
  exact Iff.rfl

/-- The 5 blocks of 1000 rows tile the 5000 rows: row `r` is in block `r / 1000`. -/
theorem cover5 (i : S5000x128.Idx) :
    ∃ t : Fin cfg11.N, (cfg11.win 5).flush t = true ∧ i ∈ ((cfg11.win 5).blk t).view.set := by
  have hi0 : (i 0).val < 5000 := (i 0).isLt
  have hi1 : (i 1).val < 128 := (i 1).isLt
  have hN : (i 0).val / 1000 < cfg11.N := by show (i 0).val / 1000 < 5; omega
  obtain ⟨e00, e01, e10, e11, e20, e21, e30, e31, e40, e41, e50, e51, e60, e61⟩ := idx_facts ⟨(i 0).val / 1000, hN⟩
  refine ⟨⟨(i 0).val / 1000, hN⟩, flush11_5 _, ?_⟩
  rw [mem_blk5]
  intro a
  match a with
  | ⟨0, _⟩ =>
    show win11_5.index ⟨(i 0).val / 1000, hN⟩ (0 : Fin 2) * 1000 ≤ (i 0).val
      ∧ (i 0).val < win11_5.index ⟨(i 0).val / 1000, hN⟩ (0 : Fin 2) * 1000 + 1000
    rw [e50]; show (i 0).val / 1000 * 1000 ≤ (i 0).val ∧ (i 0).val < (i 0).val / 1000 * 1000 + 1000; omega
  | ⟨1, _⟩ =>
    show win11_5.index ⟨(i 0).val / 1000, hN⟩ (1 : Fin 2) * 128 ≤ (i 1).val
      ∧ (i 1).val < win11_5.index ⟨(i 0).val / 1000, hN⟩ (1 : Fin 2) * 128 + 128
    rw [e51]; omega

theorem cover6 (i : S5000x128.Idx) :
    ∃ t : Fin cfg11.N, (cfg11.win 6).flush t = true ∧ i ∈ ((cfg11.win 6).blk t).view.set := by
  have hi0 : (i 0).val < 5000 := (i 0).isLt
  have hi1 : (i 1).val < 128 := (i 1).isLt
  have hN : (i 0).val / 1000 < cfg11.N := by show (i 0).val / 1000 < 5; omega
  obtain ⟨e00, e01, e10, e11, e20, e21, e30, e31, e40, e41, e50, e51, e60, e61⟩ := idx_facts ⟨(i 0).val / 1000, hN⟩
  refine ⟨⟨(i 0).val / 1000, hN⟩, flush11_6 _, ?_⟩
  rw [mem_blk6]
  intro a
  match a with
  | ⟨0, _⟩ =>
    show win11_6.index ⟨(i 0).val / 1000, hN⟩ (0 : Fin 2) * 1000 ≤ (i 0).val
      ∧ (i 0).val < win11_6.index ⟨(i 0).val / 1000, hN⟩ (0 : Fin 2) * 1000 + 1000
    rw [e60]; show (i 0).val / 1000 * 1000 ≤ (i 0).val ∧ (i 0).val < (i 0).val / 1000 * 1000 + 1000; omega
  | ⟨1, _⟩ =>
    show win11_6.index ⟨(i 0).val / 1000, hN⟩ (1 : Fin 2) * 128 ≤ (i 1).val
      ∧ (i 1).val < win11_6.index ⟨(i 0).val / 1000, hN⟩ (1 : Fin 2) * 128 + 128
    rw [e61]; omega

/-- After the call the new-features array is `meanCat` of the four arrays the call found. -/
theorem newx (c : Dev nD) :
    (dat11 V c).arrAt 5 cfg11.N
      = meanCat (n := 5000) (V c main_v332) (V c main_v62) (V c main_v343) (V c main_v71) :=
  (dat11 V c).arrAt_eq_of_cover 5 _ (fun t _ => flushed5_eq V c t) cover5

/-- After the call the running-sum array is `accum` of the accumulator the call found and the new features. -/
theorem accout (c : Dev nD) :
    (dat11 V c).arrAt 6 cfg11.N
      = accum (V c main_v255_1) (meanCat (n := 5000) (V c main_v332) (V c main_v62) (V c main_v343) (V c main_v71))
          (Ideal.ofBits .f32 0x3E800000#32) :=
  (dat11 V c).arrAt_eq_of_cover 6 _ (fun t _ => flushed6_eq V c t) cover6

end Cert.KernelIdeal.Region11

end
-- ==== Proof.KFold.lean ====
/-
  The kernel program's four result buffers at the last boundary are the specification's result: the running sums after
  the third layer, table by table.
-/
import proofs.«179549_j31344671326263_2_alg».proof.Proof.KFoldChain
import proofs.«179549_j31344671326263_2_alg».proof.Proof.Region0
import proofs.«179549_j31344671326263_2_alg».proof.Proof.Region1
import proofs.«179549_j31344671326263_2_alg».proof.Proof.Region2
import proofs.«179549_j31344671326263_2_alg».proof.Proof.Region3
import proofs.«179549_j31344671326263_2_alg».proof.Proof.Region4
import proofs.«179549_j31344671326263_2_alg».proof.Proof.Region5
import proofs.«179549_j31344671326263_2_alg».proof.Proof.Region6
import proofs.«179549_j31344671326263_2_alg».proof.Proof.Region7
import proofs.«179549_j31344671326263_2_alg».proof.Proof.Region8
import proofs.«179549_j31344671326263_2_alg».proof.Proof.Region9
import proofs.«179549_j31344671326263_2_alg».proof.Proof.Region10
import proofs.«179549_j31344671326263_2_alg».proof.Proof.Region11

set_option maxRecDepth 16384

noncomputable section

namespace Cert.KernelIdeal.KFold

open Idealize.ShloMosaic Idealize.ShloMosaic.TcCoe Idealize.SL.Sem
open Cert.KernelIdeal Cert.KernelIdeal.Gen

/-- The twelve combine calls' whole-array readings. -/
theorem regionFacts : RegionFacts :=
  ⟨Region0.newx, Region0.accout,
   Region1.newx, Region1.accout,
   Region2.newx, Region2.accout,
   Region3.newx, Region3.accout,
   Region4.newx, Region4.accout,
   Region5.newx, Region5.accout,
   Region6.newx, Region6.accout,
   Region7.newx, Region7.accout,
   Region8.newx, Region8.accout,
   Region9.newx, Region9.accout,
   Region10.newx, Region10.accout,
   Region11.newx, Region11.accout⟩

variable (m : (ℓ : Loc nD τ sig) → Buf (Elt Ideal) ℓ) (ρ : Dev nD → PrngReg) (c : Dev nD)

/-- The user table's result buffer. -/
theorem result_u : W15 (F := Ideal) m ρ c (Proc.devRef .tc main_v344_1) = (Cert.Spec.result (edges m c) (tabs m c)).u :=
  W15_main_v344_1 regionFacts m ρ c

/-- The video table's result buffer. -/
theorem result_v : W15 (F := Ideal) m ρ c (Proc.devRef .tc main_v345_1) = (Cert.Spec.result (edges m c) (tabs m c)).v :=
  W15_main_v345_1 regionFacts m ρ c

/-- The publisher table's result buffer. -/
theorem result_p : W15 (F := Ideal) m ρ c (Proc.devRef .tc main_v346_1) = (Cert.Spec.result (edges m c) (tabs m c)).p :=
  W15_main_v346_1 regionFacts m ρ c

/-- The tag table's result buffer. -/
theorem result_t : W15 (F := Ideal) m ρ c (Proc.devRef .tc main_v347_1) = (Cert.Spec.result (edges m c) (tabs m c)).t :=
  W15_main_v347_1 regionFacts m ρ c

end Cert.KernelIdeal.KFold

end
-- ==== Proof.RefCat.lean ====
/-
  The reference program's per-table layer step, restated.

  For each of the four node tables the reference joins two quotients: a segment sum of one 64-feature half of a
  source table (gather along the edges, a negative index wrapped once, added into the destination rows) divided
  row by row by `max (deg, 1)`, the in-degree counted by adding ones along the same destination indices. Dividing
  by `max (deg, 1)` is multiplying by `1 / max (deg, 1)` on the extended reals, so each joined pair of quotients is
  the array `meanCat` of the two segment sums and the two inverse-degree columns — with the source tables and the
  edge endpoints arbitrary, so the same four statements serve every layer.
-/
import proofs.«179549_j31344671326263_2_alg».proof.Proof.Gen.ReferenceIdeal
import proofs.«179549_j31344671326263_2_alg».proof.Proof.Spec

noncomputable section

namespace Cert.ReferenceIdeal.RefValue

open Idealize.ShloMosaic Idealize.ShloMosaic.ValueIdx Cert.ReferenceIdeal Cert.ReferenceIdeal.Gen Cert.SegMean

/-- The splat of the f32 word of one is one at every index. -/
theorem one_apply {s : Shape} (hb : (⟨0, ![]⟩ : Shape).BroadcastsInDim s (![] : Fin 0 → Fin s.rank)) (i : s.Idx) :
    broadcastInDim s ![] hb (constant (F := Ideal) ⟨0, ![]⟩ .f32 0x3F800000#32) i = 1 :=
  (broadcastInDim_apply ![] hb _ i ix0 (fun a => a.elim0)).trans Ideal.ofBits_one_f32

/-- Users: the videos' first halves summed along the video→user edges and the publishers' first halves along the publisher→user edges, each divided by its in-degree (at least one) and joined, is the joined means `meanCat` of the two segment sums and inverse-degree columns. -/
theorem catU (v : FVec Ideal S100000x128 .f32) (p : FVec Ideal S20000x128 .f32) (a6 a7 : IVec S1500000 32) (a10 a11 : IVec S800000 32) :
    concatenate S200000x128 1 [⟨S200000x64, (Host.divf (F := Ideal) (Host.scatterAdd (F := Ideal) scatter_S200000x64_S1500000x1_S1500000x64_1_0_0_1 (broadcastInDim S200000x64 ![] bcast_S_S200000x64 (constant (F := Ideal) S_ .f32 0x00000000#32)) (broadcastInDim S1500000x1 ![0] bcast_S1500000_S1500000x1_0 a7) (Host.gather gather_S100000x64_S1500000x1_S1500000x64_1_0_n_n_0_1_164 (extractStridedSlice S100000x64 ![0, 0] v slices_S100000x128_S100000x64_0_0) (broadcastInDim S1500000x1 ![0] bcast_S1500000_S1500000x1_0 (select (cmpi .slt a6 (broadcastInDim S1500000 ![] bcast_S_S1500000 (constantI S_ 32 0#32))) (addi a6 (broadcastInDim S1500000 ![] bcast_S_S1500000 (constantI S_ 32 100000#32))) a6)))) (broadcastInDim S200000x64 ![0, 1] bcast_S200000x1_S200000x64_0_1 (broadcastInDim S200000x1 ![0] bcast_S200000_S200000x1_0 (maximumf (F := Ideal) (Host.scatterAdd (F := Ideal) scatter_S200000_S1500000x1_S1500000_n_0_0_1 (broadcastInDim S200000 ![] bcast_S_S200000 (constant (F := Ideal) S_ .f32 0x00000000#32)) (broadcastInDim S1500000x1 ![0] bcast_S1500000_S1500000x1_0 a7) (broadcastInDim S1500000 ![] bcast_S_S1500000 (constant (F := Ideal) S_ .f32 0x3F800000#32))) (broadcastInDim S200000 ![] bcast_S_S200000 (constant (F := Ideal) S_ .f32 0x3F800000#32))))))⟩, ⟨S200000x64, (Host.divf (F := Ideal) (Host.scatterAdd (F := Ideal) scatter_S200000x64_S800000x1_S800000x64_1_0_0_1 (broadcastInDim S200000x64 ![] bcast_S_S200000x64 (constant (F := Ideal) S_ .f32 0x00000000#32)) (broadcastInDim S800000x1 ![0] bcast_S800000_S800000x1_0 a11) (Host.gather gather_S20000x64_S800000x1_S800000x64_1_0_n_n_0_1_164 (extractStridedSlice S20000x64 ![0, 0] p slices_S20000x128_S20000x64_0_0) (broadcastInDim S800000x1 ![0] bcast_S800000_S800000x1_0 (select (cmpi .slt a10 (broadcastInDim S800000 ![] bcast_S_S800000 (constantI S_ 32 0#32))) (addi a10 (broadcastInDim S800000 ![] bcast_S_S800000 (constantI S_ 32 20000#32))) a10)))) (broadcastInDim S200000x64 ![0, 1] bcast_S200000x1_S200000x64_0_1 (broadcastInDim S200000x1 ![0] bcast_S200000_S200000x1_0 (maximumf (F := Ideal) (Host.scatterAdd (F := Ideal) scatter_S200000_S800000x1_S800000_n_0_0_1 (broadcastInDim S200000 ![] bcast_S_S200000 (constant (F := Ideal) S_ .f32 0x00000000#32)) (broadcastInDim S800000x1 ![0] bcast_S800000_S800000x1_0 a11) (broadcastInDim S800000 ![] bcast_S_S800000 (constant (F := Ideal) S_ .f32 0x3F800000#32))) (broadcastInDim S200000 ![] bcast_S_S200000 (constant (F := Ideal) S_ .f32 0x3F800000#32))))))⟩] concatenates_S200000x64_S200000x64_S200000x128_d1
      = meanCat (n := 200000) (Cert.Spec.sVU v a6 a7) (Cert.Spec.iVU a7) (Cert.Spec.sPU p a10 a11) (Cert.Spec.iPU a11) :=
  (concat_div_eq_meanCat (n := 200000) concatenates_S200000x64_S200000x64_S200000x128_d1 bcast_S200000_S200000x1_0 bcast_S200000x1_S200000x64_0_1
    _ _ _ _ _ (fun i => one_apply _ i)).trans rfl

/-- Videos: the users' and the tags' first halves, summed along their edges into the video rows, divided by the in-degrees and joined, is `meanCat` of the two segment sums and inverse-degree columns. -/
theorem catV (u : FVec Ideal S200000x128 .f32) (t : FVec Ideal S5000x128 .f32) (a4 a5 : IVec S1500000 32) (a14 a15 : IVec S800000 32) :
    concatenate S100000x128 1 [⟨S100000x64, (Host.divf (F := Ideal) (Host.scatterAdd (F := Ideal) scatter_S100000x64_S1500000x1_S1500000x64_1_0_0_1 (broadcastInDim S100000x64 ![] bcast_S_S100000x64 (constant (F := Ideal) S_ .f32 0x00000000#32)) (broadcastInDim S1500000x1 ![0] bcast_S1500000_S1500000x1_0 a5) (Host.gather gather_S200000x64_S1500000x1_S1500000x64_1_0_n_n_0_1_164 (extractStridedSlice S200000x64 ![0, 0] u slices_S200000x128_S200000x64_0_0) (broadcastInDim S1500000x1 ![0] bcast_S1500000_S1500000x1_0 (select (cmpi .slt a4 (broadcastInDim S1500000 ![] bcast_S_S1500000 (constantI S_ 32 0#32))) (addi a4 (broadcastInDim S1500000 ![] bcast_S_S1500000 (constantI S_ 32 200000#32))) a4)))) (broadcastInDim S100000x64 ![0, 1] bcast_S100000x1_S100000x64_0_1 (broadcastInDim S100000x1 ![0] bcast_S100000_S100000x1_0 (maximumf (F := Ideal) (Host.scatterAdd (F := Ideal) scatter_S100000_S1500000x1_S1500000_n_0_0_1 (broadcastInDim S100000 ![] bcast_S_S100000 (constant (F := Ideal) S_ .f32 0x00000000#32)) (broadcastInDim S1500000x1 ![0] bcast_S1500000_S1500000x1_0 a5) (broadcastInDim S1500000 ![] bcast_S_S1500000 (constant (F := Ideal) S_ .f32 0x3F800000#32))) (broadcastInDim S100000 ![] bcast_S_S100000 (constant (F := Ideal) S_ .f32 0x3F800000#32))))))⟩, ⟨S100000x64, (Host.divf (F := Ideal) (Host.scatterAdd (F := Ideal) scatter_S100000x64_S800000x1_S800000x64_1_0_0_1 (broadcastInDim S100000x64 ![] bcast_S_S100000x64 (constant (F := Ideal) S_ .f32 0x00000000#32)) (broadcastInDim S800000x1 ![0] bcast_S800000_S800000x1_0 a15) (Host.gather gather_S5000x64_S800000x1_S800000x64_1_0_n_n_0_1_164 (extractStridedSlice S5000x64 ![0, 0] t slices_S5000x128_S5000x64_0_0) (broadcastInDim S800000x1 ![0] bcast_S800000_S800000x1_0 (select (cmpi .slt a14 (broadcastInDim S800000 ![] bcast_S_S800000 (constantI S_ 32 0#32))) (addi a14 (broadcastInDim S800000 ![] bcast_S_S800000 (constantI S_ 32 5000#32))) a14)))) (broadcastInDim S100000x64 ![0, 1] bcast_S100000x1_S100000x64_0_1 (broadcastInDim S100000x1 ![0] bcast_S100000_S100000x1_0 (maximumf (F := Ideal) (Host.scatterAdd (F := Ideal) scatter_S100000_S800000x1_S800000_n_0_0_1 (broadcastInDim S100000 ![] bcast_S_S100000 (constant (F := Ideal) S_ .f32 0x00000000#32)) (broadcastInDim S800000x1 ![0] bcast_S800000_S800000x1_0 a15) (broadcastInDim S800000 ![] bcast_S_S800000 (constant (F := Ideal) S_ .f32 0x3F800000#32))) (broadcastInDim S100000 ![] bcast_S_S100000 (constant (F := Ideal) S_ .f32 0x3F800000#32))))))⟩] concatenates_S100000x64_S100000x64_S100000x128_d1
      = meanCat (n := 100000) (Cert.Spec.sUV u a4 a5) (Cert.Spec.iUV a5) (Cert.Spec.sTV t a14 a15) (Cert.Spec.iTV a15) :=
  (concat_div_eq_meanCat (n := 100000) concatenates_S100000x64_S100000x64_S100000x128_d1 bcast_S100000_S100000x1_0 bcast_S100000x1_S100000x64_0_1
    _ _ _ _ _ (fun i => one_apply _ i)).trans rfl

/-- Publishers: the users' and the tags' second halves, summed along their edges into the publisher rows, divided by the in-degrees and joined, is `meanCat` of the two segment sums and inverse-degree columns. -/
theorem catP (u : FVec Ideal S200000x128 .f32) (t : FVec Ideal S5000x128 .f32) (a8 a9 : IVec S800000 32) (a18 a19 : IVec S400000 32) :
    concatenate S20000x128 1 [⟨S20000x64, (Host.divf (F := Ideal) (Host.scatterAdd (F := Ideal) scatter_S20000x64_S800000x1_S800000x64_1_0_0_1 (broadcastInDim S20000x64 ![] bcast_S_S20000x64 (constant (F := Ideal) S_ .f32 0x00000000#32)) (broadcastInDim S800000x1 ![0] bcast_S800000_S800000x1_0 a9) (Host.gather gather_S200000x64_S800000x1_S800000x64_1_0_n_n_0_1_164 (extractStridedSlice S200000x64 ![0, 64] u slices_S200000x128_S200000x64_0_64) (broadcastInDim S800000x1 ![0] bcast_S800000_S800000x1_0 (select (cmpi .slt a8 (broadcastInDim S800000 ![] bcast_S_S800000 (constantI S_ 32 0#32))) (addi a8 (broadcastInDim S800000 ![] bcast_S_S800000 (constantI S_ 32 200000#32))) a8)))) (broadcastInDim S20000x64 ![0, 1] bcast_S20000x1_S20000x64_0_1 (broadcastInDim S20000x1 ![0] bcast_S20000_S20000x1_0 (maximumf (F := Ideal) (Host.scatterAdd (F := Ideal) scatter_S20000_S800000x1_S800000_n_0_0_1 (broadcastInDim S20000 ![] bcast_S_S20000 (constant (F := Ideal) S_ .f32 0x00000000#32)) (broadcastInDim S800000x1 ![0] bcast_S800000_S800000x1_0 a9) (broadcastInDim S800000 ![] bcast_S_S800000 (constant (F := Ideal) S_ .f32 0x3F800000#32))) (broadcastInDim S20000 ![] bcast_S_S20000 (constant (F := Ideal) S_ .f32 0x3F800000#32))))))⟩, ⟨S20000x64, (Host.divf (F := Ideal) (Host.scatterAdd (F := Ideal) scatter_S20000x64_S400000x1_S400000x64_1_0_0_1 (broadcastInDim S20000x64 ![] bcast_S_S20000x64 (constant (F := Ideal) S_ .f32 0x00000000#32)) (broadcastInDim S400000x1 ![0] bcast_S400000_S400000x1_0 a19) (Host.gather gather_S5000x64_S400000x1_S400000x64_1_0_n_n_0_1_164 (extractStridedSlice S5000x64 ![0, 64] t slices_S5000x128_S5000x64_0_64) (broadcastInDim S400000x1 ![0] bcast_S400000_S400000x1_0 (select (cmpi .slt a18 (broadcastInDim S400000 ![] bcast_S_S400000 (constantI S_ 32 0#32))) (addi a18 (broadcastInDim S400000 ![] bcast_S_S400000 (constantI S_ 32 5000#32))) a18)))) (broadcastInDim S20000x64 ![0, 1] bcast_S20000x1_S20000x64_0_1 (broadcastInDim S20000x1 ![0] bcast_S20000_S20000x1_0 (maximumf (F := Ideal) (Host.scatterAdd (F := Ideal) scatter_S20000_S400000x1_S400000_n_0_0_1 (broadcastInDim S20000 ![] bcast_S_S20000 (constant (F := Ideal) S_ .f32 0x00000000#32)) (broadcastInDim S400000x1 ![0] bcast_S400000_S400000x1_0 a19) (broadcastInDim S400000 ![] bcast_S_S400000 (constant (F := Ideal) S_ .f32 0x3F800000#32))) (broadcastInDim S20000 ![] bcast_S_S20000 (constant (F := Ideal) S_ .f32 0x3F800000#32))))))⟩] concatenates_S20000x64_S20000x64_S20000x128_d1
      = meanCat (n := 20000) (Cert.Spec.sUP u a8 a9) (Cert.Spec.iUP a9) (Cert.Spec.sTP t a18 a19) (Cert.Spec.iTP a19) :=
  (concat_div_eq_meanCat (n := 20000) concatenates_S20000x64_S20000x64_S20000x128_d1 bcast_S20000_S20000x1_0 bcast_S20000x1_S20000x64_0_1
    _ _ _ _ _ (fun i => one_apply _ i)).trans rfl

/-- Tags: the videos' and the publishers' second halves, summed along their edges into the tag rows, divided by the in-degrees and joined, is `meanCat` of the two segment sums and inverse-degree columns. -/
theorem catT (v : FVec Ideal S100000x128 .f32) (p : FVec Ideal S20000x128 .f32) (a12 a13 : IVec S800000 32) (a16 a17 : IVec S400000 32) :
    concatenate S5000x128 1 [⟨S5000x64, (Host.divf (F := Ideal) (Host.scatterAdd (F := Ideal) scatter_S5000x64_S800000x1_S800000x64_1_0_0_1 (broadcastInDim S5000x64 ![] bcast_S_S5000x64 (constant (F := Ideal) S_ .f32 0x00000000#32)) (broadcastInDim S800000x1 ![0] bcast_S800000_S800000x1_0 a13) (Host.gather gather_S100000x64_S800000x1_S800000x64_1_0_n_n_0_1_164 (extractStridedSlice S100000x64 ![0, 64] v slices_S100000x128_S100000x64_0_64) (broadcastInDim S800000x1 ![0] bcast_S800000_S800000x1_0 (select (cmpi .slt a12 (broadcastInDim S800000 ![] bcast_S_S800000 (constantI S_ 32 0#32))) (addi a12 (broadcastInDim S800000 ![] bcast_S_S800000 (constantI S_ 32 100000#32))) a12)))) (broadcastInDim S5000x64 ![0, 1] bcast_S5000x1_S5000x64_0_1 (broadcastInDim S5000x1 ![0] bcast_S5000_S5000x1_0 (maximumf (F := Ideal) (Host.scatterAdd (F := Ideal) scatter_S5000_S800000x1_S800000_n_0_0_1 (broadcastInDim S5000 ![] bcast_S_S5000 (constant (F := Ideal) S_ .f32 0x00000000#32)) (broadcastInDim S800000x1 ![0] bcast_S800000_S800000x1_0 a13) (broadcastInDim S800000 ![] bcast_S_S800000 (constant (F := Ideal) S_ .f32 0x3F800000#32))) (broadcastInDim S5000 ![] bcast_S_S5000 (constant (F := Ideal) S_ .f32 0x3F800000#32))))))⟩, ⟨S5000x64, (Host.divf (F := Ideal) (Host.scatterAdd (F := Ideal) scatter_S5000x64_S400000x1_S400000x64_1_0_0_1 (broadcastInDim S5000x64 ![] bcast_S_S5000x64 (constant (F := Ideal) S_ .f32 0x00000000#32)) (broadcastInDim S400000x1 ![0] bcast_S400000_S400000x1_0 a17) (Host.gather gather_S20000x64_S400000x1_S400000x64_1_0_n_n_0_1_164 (extractStridedSlice S20000x64 ![0, 64] p slices_S20000x128_S20000x64_0_64) (broadcastInDim S400000x1 ![0] bcast_S400000_S400000x1_0 (select (cmpi .slt a16 (broadcastInDim S400000 ![] bcast_S_S400000 (constantI S_ 32 0#32))) (addi a16 (broadcastInDim S400000 ![] bcast_S_S400000 (constantI S_ 32 20000#32))) a16)))) (broadcastInDim S5000x64 ![0, 1] bcast_S5000x1_S5000x64_0_1 (broadcastInDim S5000x1 ![0] bcast_S5000_S5000x1_0 (maximumf (F := Ideal) (Host.scatterAdd (F := Ideal) scatter_S5000_S400000x1_S400000_n_0_0_1 (broadcastInDim S5000 ![] bcast_S_S5000 (constant (F := Ideal) S_ .f32 0x00000000#32)) (broadcastInDim S400000x1 ![0] bcast_S400000_S400000x1_0 a17) (broadcastInDim S400000 ![] bcast_S_S400000 (constant (F := Ideal) S_ .f32 0x3F800000#32))) (broadcastInDim S5000 ![] bcast_S_S5000 (constant (F := Ideal) S_ .f32 0x3F800000#32))))))⟩] concatenates_S5000x64_S5000x64_S5000x128_d1
      = meanCat (n := 5000) (Cert.Spec.sVT v a12 a13) (Cert.Spec.iVT a13) (Cert.Spec.sPT p a16 a17) (Cert.Spec.iPT a17) :=
  (concat_div_eq_meanCat (n := 5000) concatenates_S5000x64_S5000x64_S5000x128_d1 bcast_S5000_S5000x1_0 bcast_S5000x1_S5000x64_0_1
    _ _ _ _ _ (fun i => one_apply _ i)).trans rfl

end Cert.ReferenceIdeal.RefValue

end
-- ==== Proof.RefValue.lean ====
/-
  The reference program's run, restated over the shared specification.

  The reference computes three layers of the heterogeneous mean aggregation on the host: per layer and node table
  it joins two quotients `segment sum / max (deg, 1)`, and it adds the layers' outputs to the argument tables with
  the weights 1/2, 1/3, 1/4. Each joined pair is `meanCat` of the segment sums and inverse-degree columns (the four
  statements of the per-table step, applied to the arguments, to the first layer's outputs and to the second's),
  and each `acc + x * w` with `w` a splat word is the running sum `accum`. So the four result buffers hold the four
  tables of `Cert.Spec.result` of the argument tables and edge lists, and the arguments are as launched.
-/
import proofs.«179549_j31344671326263_2_alg».proof.Proof.RunP
import proofs.«179549_j31344671326263_2_alg».proof.Proof.RefCat

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.SegMean

/-- Three weighted additions with splat weights are three running sums. -/
theorem acc3 {s : Shape} (hb : (⟨0, ![]⟩ : Shape).BroadcastsInDim s (![] : Fin 0 → Fin s.rank))
    (a r1 r2 r3 : FVec Ideal s .f32) (w2 w3 w4 : BitVec 32) :
    addf (addf (addf a (mulf r1 (broadcastInDim s ![] hb (constant (F := Ideal) ⟨0, ![]⟩ .f32 w2))))
        (mulf r2 (broadcastInDim s ![] hb (constant (F := Ideal) ⟨0, ![]⟩ .f32 w3))))
      (mulf r3 (broadcastInDim s ![] hb (constant (F := Ideal) ⟨0, ![]⟩ .f32 w4)))
    = accum (accum (accum a r1 (Ideal.ofBits .f32 w2)) r2 (Ideal.ofBits .f32 w3)) r3 (Ideal.ofBits .f32 w4) :=
  (host_accum hb _ r3 w4).trans
    (congrArg (fun z => accum z r3 (Ideal.ofBits .f32 w4))
      ((host_accum hb _ r2 w3).trans (congrArg (fun z => accum z r2 (Ideal.ofBits .f32 w3)) (host_accum hb a r1 w2))))

/-- Running sums of equal arrays are equal. -/
theorem accum_congr {s : Shape} {a A x Y : s.Idx → EReal} (w : EReal) (ha : a = A) (hx : x = Y) :
    accum a x w = accum A Y w := by rw [ha, hx]

/-- A device's buffer contents. -/
abbrev Val : Type := Valuation τ sig (Elt Ideal)

/-- The sixteen edge-endpoint vectors of a valuation: arguments 4 … 19. -/
def edgesV (V0 : Val) : Cert.Spec.Edges :=
  ⟨V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13), V0 (Proc.devRef .tc main_arg14), V0 (Proc.devRef .tc main_arg15), V0 (Proc.devRef .tc main_arg16), V0 (Proc.devRef .tc main_arg17), V0 (Proc.devRef .tc main_arg18), V0 (Proc.devRef .tc main_arg19)⟩

/-- The four node tables of a valuation: arguments 0 … 3. -/
def tabsV (V0 : Val) : Cert.Spec.Tabs :=
  ⟨V0 (Proc.devRef .tc main_arg0), V0 (Proc.devRef .tc main_arg1), V0 (Proc.devRef .tc main_arg2), V0 (Proc.devRef .tc main_arg3)⟩

/-! ## The first layer: the per-table step on the argument tables -/

theorem l1U (V0 : Val) : ValueP.res_main_v160 (F := Ideal) V0 = (Cert.Spec.layer (edgesV V0) (tabsV V0)).u := by
  unfold ValueP.res_main_v160
  exact catU _ _ _ _ _ _

theorem l1V (V0 : Val) : ValueP.res_main_v161 (F := Ideal) V0 = (Cert.Spec.layer (edgesV V0) (tabsV V0)).v := by
  unfold ValueP.res_main_v161
  exact catV _ _ _ _ _ _

theorem l1P (V0 : Val) : ValueP.res_main_v162 (F := Ideal) V0 = (Cert.Spec.layer (edgesV V0) (tabsV V0)).p := by
  unfold ValueP.res_main_v162
  exact catP _ _ _ _ _ _

theorem l1T (V0 : Val) : ValueP.res_main_v163 (F := Ideal) V0 = (Cert.Spec.layer (edgesV V0) (tabsV V0)).t := by
  unfold ValueP.res_main_v163
  exact catT _ _ _ _ _ _

/-! ## The second layer: the per-table step on the first layer's tables -/

theorem l2U (V0 : Val) : ValueP.res_main_v336 (F := Ideal) V0 = (Cert.Spec.layer (edgesV V0) (Cert.Spec.layer (edgesV V0) (tabsV V0))).u := by
  unfold ValueP.res_main_v336
  exact (catU _ _ _ _ _ _).trans (congrArg₂ (Cert.Spec.newU (edgesV V0)) (l1V V0) (l1P V0))

theorem l2V (V0 : Val) : ValueP.res_main_v337 (F := Ideal) V0 = (Cert.Spec.layer (edgesV V0) (Cert.Spec.layer (edgesV V0) (tabsV V0))).v := by
  unfold ValueP.res_main_v337
  exact (catV _ _ _ _ _ _).trans (congrArg₂ (Cert.Spec.newV (edgesV V0)) (l1U V0) (l1T V0))

theorem l2P (V0 : Val) : ValueP.res_main_v338 (F := Ideal) V0 = (Cert.Spec.layer (edgesV V0) (Cert.Spec.layer (edgesV V0) (tabsV V0))).p := by
  unfold ValueP.res_main_v338
  exact (catP _ _ _ _ _ _).trans (congrArg₂ (Cert.Spec.newP (edgesV V0)) (l1U V0) (l1T V0))

theorem l2T (V0 : Val) : ValueP.res_main_v339 (F := Ideal) V0 = (Cert.Spec.layer (edgesV V0) (Cert.Spec.layer (edgesV V0) (tabsV V0))).t := by
  unfold ValueP.res_main_v339
  exact (catT _ _ _ _ _ _).trans (congrArg₂ (Cert.Spec.newT (edgesV V0)) (l1V V0) (l1P V0))

/-! ## The third layer: the per-table step on the second layer's tables -/

theorem l3U (V0 : Val) :
    concatenate S200000x128 1 [⟨S200000x64, (Host.divf (F := Ideal) (Host.scatterAdd (F := Ideal) scatter_S200000x64_S1500000x1_S1500000x64_1_0_0_1 (broadcastInDim S200000x64 ![] bcast_S_S200000x64 (constant (F := Ideal) S_ .f32 0x00000000#32)) (broadcastInDim S1500000x1 ![0] bcast_S1500000_S1500000x1_0 (V0 (Proc.devRef .tc main_arg7))) (Host.gather gather_S100000x64_S1500000x1_S1500000x64_1_0_n_n_0_1_164 (extractStridedSlice S100000x64 ![0, 0] (ValueP.res_main_v337 (F := Ideal) V0) slices_S100000x128_S100000x64_0_0) (broadcastInDim S1500000x1 ![0] bcast_S1500000_S1500000x1_0 (select (cmpi .slt (V0 (Proc.devRef .tc main_arg6)) (broadcastInDim S1500000 ![] bcast_S_S1500000 (constantI S_ 32 0#32))) (addi (V0 (Proc.devRef .tc main_arg6)) (broadcastInDim S1500000 ![] bcast_S_S1500000 (constantI S_ 32 100000#32))) (V0 (Proc.devRef .tc main_arg6)))))) (broadcastInDim S200000x64 ![0, 1] bcast_S200000x1_S200000x64_0_1 (broadcastInDim S200000x1 ![0] bcast_S200000_S200000x1_0 (maximumf (F := Ideal) (Host.scatterAdd (F := Ideal) scatter_S200000_S1500000x1_S1500000_n_0_0_1 (broadcastInDim S200000 ![] bcast_S_S200000 (constant (F := Ideal) S_ .f32 0x00000000#32)) (broadcastInDim S1500000x1 ![0] bcast_S1500000_S1500000x1_0 (V0 (Proc.devRef .tc main_arg7))) (broadcastInDim S1500000 ![] bcast_S_S1500000 (constant (F := Ideal) S_ .f32 0x3F800000#32))) (broadcastInDim S200000 ![] bcast_S_S200000 (constant (F := Ideal) S_ .f32 0x3F800000#32))))))⟩, ⟨S200000x64, (Host.divf (F := Ideal) (Host.scatterAdd (F := Ideal) scatter_S200000x64_S800000x1_S800000x64_1_0_0_1 (broadcastInDim S200000x64 ![] bcast_S_S200000x64 (constant (F := Ideal) S_ .f32 0x00000000#32)) (broadcastInDim S800000x1 ![0] bcast_S800000_S800000x1_0 (V0 (Proc.devRef .tc main_arg11))) (Host.gather gather_S20000x64_S800000x1_S800000x64_1_0_n_n_0_1_164 (extractStridedSlice S20000x64 ![0, 0] (ValueP.res_main_v338 (F := Ideal) V0) slices_S20000x128_S20000x64_0_0) (broadcastInDim S800000x1 ![0] bcast_S800000_S800000x1_0 (select (cmpi .slt (V0 (Proc.devRef .tc main_arg10)) (broadcastInDim S800000 ![] bcast_S_S800000 (constantI S_ 32 0#32))) (addi (V0 (Proc.devRef .tc main_arg10)) (broadcastInDim S800000 ![] bcast_S_S800000 (constantI S_ 32 20000#32))) (V0 (Proc.devRef .tc main_arg10)))))) (broadcastInDim S200000x64 ![0, 1] bcast_S200000x1_S200000x64_0_1 (broadcastInDim S200000x1 ![0] bcast_S200000_S200000x1_0 (maximumf (F := Ideal) (Host.scatterAdd (F := Ideal) scatter_S200000_S800000x1_S800000_n_0_0_1 (broadcastInDim S200000 ![] bcast_S_S200000 (constant (F := Ideal) S_ .f32 0x00000000#32)) (broadcastInDim S800000x1 ![0] bcast_S800000_S800000x1_0 (V0 (Proc.devRef .tc main_arg11))) (broadcastInDim S800000 ![] bcast_S_S800000 (constant (F := Ideal) S_ .f32 0x3F800000#32))) (broadcastInDim S200000 ![] bcast_S_S200000 (constant (F := Ideal) S_ .f32 0x3F800000#32))))))⟩] concatenates_S200000x64_S200000x64_S200000x128_d1
      = (Cert.Spec.layer (edgesV V0) (Cert.Spec.layer (edgesV V0) (Cert.Spec.layer (edgesV V0) (tabsV V0)))).u :=
  (catU _ _ _ _ _ _).trans (congrArg₂ (Cert.Spec.newU (edgesV V0)) (l2V V0) (l2P V0))

theorem l3V (V0 : Val) :
    concatenate S100000x128 1 [⟨S100000x64, (Host.divf (F := Ideal) (Host.scatterAdd (F := Ideal) scatter_S100000x64_S1500000x1_S1500000x64_1_0_0_1 (broadcastInDim S100000x64 ![] bcast_S_S100000x64 (constant (F := Ideal) S_ .f32 0x00000000#32)) (broadcastInDim S1500000x1 ![0] bcast_S1500000_S1500000x1_0 (V0 (Proc.devRef .tc main_arg5))) (Host.gather gather_S200000x64_S1500000x1_S1500000x64_1_0_n_n_0_1_164 (extractStridedSlice S200000x64 ![0, 0] (ValueP.res_main_v336 (F := Ideal) V0) slices_S200000x128_S200000x64_0_0) (broadcastInDim S1500000x1 ![0] bcast_S1500000_S1500000x1_0 (select (cmpi .slt (V0 (Proc.devRef .tc main_arg4)) (broadcastInDim S1500000 ![] bcast_S_S1500000 (constantI S_ 32 0#32))) (addi (V0 (Proc.devRef .tc main_arg4)) (broadcastInDim S1500000 ![] bcast_S_S1500000 (constantI S_ 32 200000#32))) (V0 (Proc.devRef .tc main_arg4)))))) (broadcastInDim S100000x64 ![0, 1] bcast_S100000x1_S100000x64_0_1 (broadcastInDim S100000x1 ![0] bcast_S100000_S100000x1_0 (maximumf (F := Ideal) (Host.scatterAdd (F := Ideal) scatter_S100000_S1500000x1_S1500000_n_0_0_1 (broadcastInDim S100000 ![] bcast_S_S100000 (constant (F := Ideal) S_ .f32 0x00000000#32)) (broadcastInDim S1500000x1 ![0] bcast_S1500000_S1500000x1_0 (V0 (Proc.devRef .tc main_arg5))) (broadcastInDim S1500000 ![] bcast_S_S1500000 (constant (F := Ideal) S_ .f32 0x3F800000#32))) (broadcastInDim S100000 ![] bcast_S_S100000 (constant (F := Ideal) S_ .f32 0x3F800000#32))))))⟩, ⟨S100000x64, (Host.divf (F := Ideal) (Host.scatterAdd (F := Ideal) scatter_S100000x64_S800000x1_S800000x64_1_0_0_1 (broadcastInDim S100000x64 ![] bcast_S_S100000x64 (constant (F := Ideal) S_ .f32 0x00000000#32)) (broadcastInDim S800000x1 ![0] bcast_S800000_S800000x1_0 (V0 (Proc.devRef .tc main_arg15))) (Host.gather gather_S5000x64_S800000x1_S800000x64_1_0_n_n_0_1_164 (extractStridedSlice S5000x64 ![0, 0] (ValueP.res_main_v339 (F := Ideal) V0) slices_S5000x128_S5000x64_0_0) (broadcastInDim S800000x1 ![0] bcast_S800000_S800000x1_0 (select (cmpi .slt (V0 (Proc.devRef .tc main_arg14)) (broadcastInDim S800000 ![] bcast_S_S800000 (constantI S_ 32 0#32))) (addi (V0 (Proc.devRef .tc main_arg14)) (broadcastInDim S800000 ![] bcast_S_S800000 (constantI S_ 32 5000#32))) (V0 (Proc.devRef .tc main_arg14)))))) (broadcastInDim S100000x64 ![0, 1] bcast_S100000x1_S100000x64_0_1 (broadcastInDim S100000x1 ![0] bcast_S100000_S100000x1_0 (maximumf (F := Ideal) (Host.scatterAdd (F := Ideal) scatter_S100000_S800000x1_S800000_n_0_0_1 (broadcastInDim S100000 ![] bcast_S_S100000 (constant (F := Ideal) S_ .f32 0x00000000#32)) (broadcastInDim S800000x1 ![0] bcast_S800000_S800000x1_0 (V0 (Proc.devRef .tc main_arg15))) (broadcastInDim S800000 ![] bcast_S_S800000 (constant (F := Ideal) S_ .f32 0x3F800000#32))) (broadcastInDim S100000 ![] bcast_S_S100000 (constant (F := Ideal) S_ .f32 0x3F800000#32))))))⟩] concatenates_S100000x64_S100000x64_S100000x128_d1
      = (Cert.Spec.layer (edgesV V0) (Cert.Spec.layer (edgesV V0) (Cert.Spec.layer (edgesV V0) (tabsV V0)))).v :=
  (catV _ _ _ _ _ _).trans (congrArg₂ (Cert.Spec.newV (edgesV V0)) (l2U V0) (l2T V0))

theorem l3P (V0 : Val) :
    concatenate S20000x128 1 [⟨S20000x64, (Host.divf (F := Ideal) (Host.scatterAdd (F := Ideal) scatter_S20000x64_S800000x1_S800000x64_1_0_0_1 (broadcastInDim S20000x64 ![] bcast_S_S20000x64 (constant (F := Ideal) S_ .f32 0x00000000#32)) (broadcastInDim S800000x1 ![0] bcast_S800000_S800000x1_0 (V0 (Proc.devRef .tc main_arg9))) (Host.gather gather_S200000x64_S800000x1_S800000x64_1_0_n_n_0_1_164 (extractStridedSlice S200000x64 ![0, 64] (ValueP.res_main_v336 (F := Ideal) V0) slices_S200000x128_S200000x64_0_64) (broadcastInDim S800000x1 ![0] bcast_S800000_S800000x1_0 (select (cmpi .slt (V0 (Proc.devRef .tc main_arg8)) (broadcastInDim S800000 ![] bcast_S_S800000 (constantI S_ 32 0#32))) (addi (V0 (Proc.devRef .tc main_arg8)) (broadcastInDim S800000 ![] bcast_S_S800000 (constantI S_ 32 200000#32))) (V0 (Proc.devRef .tc main_arg8)))))) (broadcastInDim S20000x64 ![0, 1] bcast_S20000x1_S20000x64_0_1 (broadcastInDim S20000x1 ![0] bcast_S20000_S20000x1_0 (maximumf (F := Ideal) (Host.scatterAdd (F := Ideal) scatter_S20000_S800000x1_S800000_n_0_0_1 (broadcastInDim S20000 ![] bcast_S_S20000 (constant (F := Ideal) S_ .f32 0x00000000#32)) (broadcastInDim S800000x1 ![0] bcast_S800000_S800000x1_0 (V0 (Proc.devRef .tc main_arg9))) (broadcastInDim S800000 ![] bcast_S_S800000 (constant (F := Ideal) S_ .f32 0x3F800000#32))) (broadcastInDim S20000 ![] bcast_S_S20000 (constant (F := Ideal) S_ .f32 0x3F800000#32))))))⟩, ⟨S20000x64, (Host.divf (F := Ideal) (Host.scatterAdd (F := Ideal) scatter_S20000x64_S400000x1_S400000x64_1_0_0_1 (broadcastInDim S20000x64 ![] bcast_S_S20000x64 (constant (F := Ideal) S_ .f32 0x00000000#32)) (broadcastInDim S400000x1 ![0] bcast_S400000_S400000x1_0 (V0 (Proc.devRef .tc main_arg19))) (Host.gather gather_S5000x64_S400000x1_S400000x64_1_0_n_n_0_1_164 (extractStridedSlice S5000x64 ![0, 64] (ValueP.res_main_v339 (F := Ideal) V0) slices_S5000x128_S5000x64_0_64) (broadcastInDim S400000x1 ![0] bcast_S400000_S400000x1_0 (select (cmpi .slt (V0 (Proc.devRef .tc main_arg18)) (broadcastInDim S400000 ![] bcast_S_S400000 (constantI S_ 32 0#32))) (addi (V0 (Proc.devRef .tc main_arg18)) (broadcastInDim S400000 ![] bcast_S_S400000 (constantI S_ 32 5000#32))) (V0 (Proc.devRef .tc main_arg18)))))) (broadcastInDim S20000x64 ![0, 1] bcast_S20000x1_S20000x64_0_1 (broadcastInDim S20000x1 ![0] bcast_S20000_S20000x1_0 (maximumf (F := Ideal) (Host.scatterAdd (F := Ideal) scatter_S20000_S400000x1_S400000_n_0_0_1 (broadcastInDim S20000 ![] bcast_S_S20000 (constant (F := Ideal) S_ .f32 0x00000000#32)) (broadcastInDim S400000x1 ![0] bcast_S400000_S400000x1_0 (V0 (Proc.devRef .tc main_arg19))) (broadcastInDim S400000 ![] bcast_S_S400000 (constant (F := Ideal) S_ .f32 0x3F800000#32))) (broadcastInDim S20000 ![] bcast_S_S20000 (constant (F := Ideal) S_ .f32 0x3F800000#32))))))⟩] concatenates_S20000x64_S20000x64_S20000x128_d1
      = (Cert.Spec.layer (edgesV V0) (Cert.Spec.layer (edgesV V0) (Cert.Spec.layer (edgesV V0) (tabsV V0)))).p :=
  (catP _ _ _ _ _ _).trans (congrArg₂ (Cert.Spec.newP (edgesV V0)) (l2U V0) (l2T V0))

theorem l3T (V0 : Val) :
    concatenate S5000x128 1 [⟨S5000x64, (Host.divf (F := Ideal) (Host.scatterAdd (F := Ideal) scatter_S5000x64_S800000x1_S800000x64_1_0_0_1 (broadcastInDim S5000x64 ![] bcast_S_S5000x64 (constant (F := Ideal) S_ .f32 0x00000000#32)) (broadcastInDim S800000x1 ![0] bcast_S800000_S800000x1_0 (V0 (Proc.devRef .tc main_arg13))) (Host.gather gather_S100000x64_S800000x1_S800000x64_1_0_n_n_0_1_164 (extractStridedSlice S100000x64 ![0, 64] (ValueP.res_main_v337 (F := Ideal) V0) slices_S100000x128_S100000x64_0_64) (broadcastInDim S800000x1 ![0] bcast_S800000_S800000x1_0 (select (cmpi .slt (V0 (Proc.devRef .tc main_arg12)) (broadcastInDim S800000 ![] bcast_S_S800000 (constantI S_ 32 0#32))) (addi (V0 (Proc.devRef .tc main_arg12)) (broadcastInDim S800000 ![] bcast_S_S800000 (constantI S_ 32 100000#32))) (V0 (Proc.devRef .tc main_arg12)))))) (broadcastInDim S5000x64 ![0, 1] bcast_S5000x1_S5000x64_0_1 (broadcastInDim S5000x1 ![0] bcast_S5000_S5000x1_0 (maximumf (F := Ideal) (Host.scatterAdd (F := Ideal) scatter_S5000_S800000x1_S800000_n_0_0_1 (broadcastInDim S5000 ![] bcast_S_S5000 (constant (F := Ideal) S_ .f32 0x00000000#32)) (broadcastInDim S800000x1 ![0] bcast_S800000_S800000x1_0 (V0 (Proc.devRef .tc main_arg13))) (broadcastInDim S800000 ![] bcast_S_S800000 (constant (F := Ideal) S_ .f32 0x3F800000#32))) (broadcastInDim S5000 ![] bcast_S_S5000 (constant (F := Ideal) S_ .f32 0x3F800000#32))))))⟩, ⟨S5000x64, (Host.divf (F := Ideal) (Host.scatterAdd (F := Ideal) scatter_S5000x64_S400000x1_S400000x64_1_0_0_1 (broadcastInDim S5000x64 ![] bcast_S_S5000x64 (constant (F := Ideal) S_ .f32 0x00000000#32)) (broadcastInDim S400000x1 ![0] bcast_S400000_S400000x1_0 (V0 (Proc.devRef .tc main_arg17))) (Host.gather gather_S20000x64_S400000x1_S400000x64_1_0_n_n_0_1_164 (extractStridedSlice S20000x64 ![0, 64] (ValueP.res_main_v338 (F := Ideal) V0) slices_S20000x128_S20000x64_0_64) (broadcastInDim S400000x1 ![0] bcast_S400000_S400000x1_0 (select (cmpi .slt (V0 (Proc.devRef .tc main_arg16)) (broadcastInDim S400000 ![] bcast_S_S400000 (constantI S_ 32 0#32))) (addi (V0 (Proc.devRef .tc main_arg16)) (broadcastInDim S400000 ![] bcast_S_S400000 (constantI S_ 32 20000#32))) (V0 (Proc.devRef .tc main_arg16)))))) (broadcastInDim S5000x64 ![0, 1] bcast_S5000x1_S5000x64_0_1 (broadcastInDim S5000x1 ![0] bcast_S5000_S5000x1_0 (maximumf (F := Ideal) (Host.scatterAdd (F := Ideal) scatter_S5000_S400000x1_S400000_n_0_0_1 (broadcastInDim S5000 ![] bcast_S_S5000 (constant (F := Ideal) S_ .f32 0x00000000#32)) (broadcastInDim S400000x1 ![0] bcast_S400000_S400000x1_0 (V0 (Proc.devRef .tc main_arg17))) (broadcastInDim S400000 ![] bcast_S_S400000 (constant (F := Ideal) S_ .f32 0x3F800000#32))) (broadcastInDim S5000 ![] bcast_S_S5000 (constant (F := Ideal) S_ .f32 0x3F800000#32))))))⟩] concatenates_S5000x64_S5000x64_S5000x128_d1
      = (Cert.Spec.layer (edgesV V0) (Cert.Spec.layer (edgesV V0) (Cert.Spec.layer (edgesV V0) (tabsV V0)))).t :=
  (catT _ _ _ _ _ _).trans (congrArg₂ (Cert.Spec.newT (edgesV V0)) (l2V V0) (l2P V0))

/-! ## The results: the argument table plus the three layers' tables, weighted -/

theorem resU (V0 : Val) (r3 : FVec Ideal S200000x128 .f32) (h3 : r3 = (Cert.Spec.layer (edgesV V0) (Cert.Spec.layer (edgesV V0) (Cert.Spec.layer (edgesV V0) (tabsV V0)))).u) :
    addf (addf (addf (V0 (Proc.devRef .tc main_arg0)) (mulf (ValueP.res_main_v160 (F := Ideal) V0) (broadcastInDim S200000x128 ![] bcast_S_S200000x128 (constant (F := Ideal) S_ .f32 0x3F000000#32))))
        (mulf (ValueP.res_main_v336 (F := Ideal) V0) (broadcastInDim S200000x128 ![] bcast_S_S200000x128 (constant (F := Ideal) S_ .f32 0x3EAAAAAB#32))))
      (mulf r3 (broadcastInDim S200000x128 ![] bcast_S_S200000x128 (constant (F := Ideal) S_ .f32 0x3E800000#32)))
    = (Cert.Spec.result (edgesV V0) (tabsV V0)).u :=
  (acc3 bcast_S_S200000x128 _ _ _ _ _ _ _).trans
    (accum_congr _ (accum_congr _ (accum_congr _ rfl (l1U V0)) (l2U V0)) h3)

theorem resV (V0 : Val) (r3 : FVec Ideal S100000x128 .f32) (h3 : r3 = (Cert.Spec.layer (edgesV V0) (Cert.Spec.layer (edgesV V0) (Cert.Spec.layer (edgesV V0) (tabsV V0)))).v) :
    addf (addf (addf (V0 (Proc.devRef .tc main_arg1)) (mulf (ValueP.res_main_v161 (F := Ideal) V0) (broadcastInDim S100000x128 ![] bcast_S_S100000x128 (constant (F := Ideal) S_ .f32 0x3F000000#32))))
        (mulf (ValueP.res_main_v337 (F := Ideal) V0) (broadcastInDim S100000x128 ![] bcast_S_S100000x128 (constant (F := Ideal) S_ .f32 0x3EAAAAAB#32))))
      (mulf r3 (broadcastInDim S100000x128 ![] bcast_S_S100000x128 (constant (F := Ideal) S_ .f32 0x3E800000#32)))
    = (Cert.Spec.result (edgesV V0) (tabsV V0)).v :=
  (acc3 bcast_S_S100000x128 _ _ _ _ _ _ _).trans
    (accum_congr _ (accum_congr _ (accum_congr _ rfl (l1V V0)) (l2V V0)) h3)

theorem resP (V0 : Val) (r3 : FVec Ideal S20000x128 .f32) (h3 : r3 = (Cert.Spec.layer (edgesV V0) (Cert.Spec.layer (edgesV V0) (Cert.Spec.layer (edgesV V0) (tabsV V0)))).p) :
    addf (addf (addf (V0 (Proc.devRef .tc main_arg2)) (mulf (ValueP.res_main_v162 (F := Ideal) V0) (broadcastInDim S20000x128 ![] bcast_S_S20000x128 (constant (F := Ideal) S_ .f32 0x3F000000#32))))
        (mulf (ValueP.res_main_v338 (F := Ideal) V0) (broadcastInDim S20000x128 ![] bcast_S_S20000x128 (constant (F := Ideal) S_ .f32 0x3EAAAAAB#32))))
      (mulf r3 (broadcastInDim S20000x128 ![] bcast_S_S20000x128 (constant (F := Ideal) S_ .f32 0x3E800000#32)))
    = (Cert.Spec.result (edgesV V0) (tabsV V0)).p :=
  (acc3 bcast_S_S20000x128 _ _ _ _ _ _ _).trans
    (accum_congr _ (accum_congr _ (accum_congr _ rfl (l1P V0)) (l2P V0)) h3)

theorem resT (V0 : Val) (r3 : FVec Ideal S5000x128 .f32) (h3 : r3 = (Cert.Spec.layer (edgesV V0) (Cert.Spec.layer (edgesV V0) (Cert.Spec.layer (edgesV V0) (tabsV V0)))).t) :
    addf (addf (addf (V0 (Proc.devRef .tc main_arg3)) (mulf (ValueP.res_main_v163 (F := Ideal) V0) (broadcastInDim S5000x128 ![] bcast_S_S5000x128 (constant (F := Ideal) S_ .f32 0x3F000000#32))))
        (mulf (ValueP.res_main_v339 (F := Ideal) V0) (broadcastInDim S5000x128 ![] bcast_S_S5000x128 (constant (F := Ideal) S_ .f32 0x3EAAAAAB#32))))
      (mulf r3 (broadcastInDim S5000x128 ![] bcast_S_S5000x128 (constant (F := Ideal) S_ .f32 0x3E800000#32)))
    = (Cert.Spec.result (edgesV V0) (tabsV V0)).t :=
  (acc3 bcast_S_S5000x128 _ _ _ _ _ _ _).trans
    (accum_congr _ (accum_congr _ (accum_congr _ rfl (l1T V0)) (l2T V0)) h3)

/-! ## The run -/

/-- The sixteen edge-endpoint vectors of the launch memory, on device `c`. -/
def edges' (m' : (ℓ : Loc Cert.ReferenceIdeal.nD Cert.ReferenceIdeal.τ Cert.ReferenceIdeal.sig) → Buf (Elt Ideal) ℓ)
    (c : Dev Cert.ReferenceIdeal.nD) : Cert.Spec.Edges :=
  ⟨m' ((c.tc : Thread nD τ).loc main_arg4),
   m' ((c.tc : Thread nD τ).loc main_arg5),
   m' ((c.tc : Thread nD τ).loc main_arg6),
   m' ((c.tc : Thread nD τ).loc main_arg7),
   m' ((c.tc : Thread nD τ).loc main_arg8),
   m' ((c.tc : Thread nD τ).loc main_arg9),
   m' ((c.tc : Thread nD τ).loc main_arg10),
   m' ((c.tc : Thread nD τ).loc main_arg11),
   m' ((c.tc : Thread nD τ).loc main_arg12),
   m' ((c.tc : Thread nD τ).loc main_arg13),
   m' ((c.tc : Thread nD τ).loc main_arg14),
   m' ((c.tc : Thread nD τ).loc main_arg15),
   m' ((c.tc : Thread nD τ).loc main_arg16),
   m' ((c.tc : Thread nD τ).loc main_arg17),
   m' ((c.tc : Thread nD τ).loc main_arg18),
   m' ((c.tc : Thread nD τ).loc main_arg19)⟩

/-- The four node tables of the launch memory, on device `c`. -/
def tabs' (m' : (ℓ : Loc Cert.ReferenceIdeal.nD Cert.ReferenceIdeal.τ Cert.ReferenceIdeal.sig) → Buf (Elt Ideal) ℓ)
    (c : Dev Cert.ReferenceIdeal.nD) : Cert.Spec.Tabs :=
  ⟨m' ((c.tc : Thread nD τ).loc main_arg0), m' ((c.tc : Thread nD τ).loc main_arg1), m' ((c.tc : Thread nD τ).loc main_arg2), m' ((c.tc : Thread nD τ).loc main_arg3)⟩

theorem edgesV_launch (m' : (ℓ : Loc nD τ sig) → Buf (Elt Ideal) ℓ) (c : Dev nD) :
    edgesV (launchContents m' c) = edges' m' c := rfl

theorem tabsV_launch (m' : (ℓ : Loc nD τ sig) → Buf (Elt Ideal) ℓ) (c : Dev nD) :
    tabsV (launchContents m' c) = tabs' m' c := rfl

/-- On every device, from any memory with zero counters: every weakly fair execution of the reference terminates
    with the four result buffers at the four tables of `Cert.Spec.result` of the launch's tables and edge lists,
    the arguments unchanged. -/
theorem run_spec (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v518) = (Cert.Spec.result (edges' m' c) (tabs' m' c)).u
      ∧ r.2.mem ((c.tc : Thread nD τ).loc main_v521) = (Cert.Spec.result (edges' m' c) (tabs' m' c)).v
      ∧ r.2.mem ((c.tc : Thread nD τ).loc main_v524) = (Cert.Spec.result (edges' m' c) (tabs' m' c)).p
      ∧ r.2.mem ((c.tc : Thread nD τ).loc main_v527) = (Cert.Spec.result (edges' m' c) (tabs' m' c)).t
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19) :=
  (θ_run defs _ _).mono (fun r h c =>
    ⟨(h c).1.trans ((resU (launchContents m' c) _ (l3U (launchContents m' c))).trans
        (by rw [edgesV_launch, tabsV_launch])),
     (h c).2.1.trans ((resV (launchContents m' c) _ (l3V (launchContents m' c))).trans
        (by rw [edgesV_launch, tabsV_launch])),
     (h c).2.2.1.trans ((resP (launchContents m' c) _ (l3P (launchContents m' c))).trans
        (by rw [edgesV_launch, tabsV_launch])),
     (h c).2.2.2.1.trans ((resT (launchContents m' c) _ (l3T (launchContents m' c))).trans
        (by rw [edgesV_launch, tabsV_launch])),
     (h c).2.2.2.2⟩)
    (ValueP.run (F := Ideal) m' ρ')

end Cert.ReferenceIdeal.RefValue

end
-- ==== Proof.lean ====
/-
  The certificate of the three-layer graph mean aggregation: the Pallas program against its host reference.

  Both programs compute, from four node tables and sixteen edge-endpoint vectors, the tables plus three layers of
  neighbour means weighted by 1/2, 1/3, 1/4 (`Cert.Spec.result`). The kernel program multiplies each segment sum,
  row by row, by the column `1 / max (deg, 1)` inside its combine calls; the reference divides by `max (deg, 1)`
  on the host. On the extended reals `s / y = s * (1 / y)` for every `s` as soon as `y ≠ 0`, and
  `max (deg, 1) ≥ 1`, so the two agree entry by entry with no finiteness needed (`Cert.SegMean.div_max_one`);
  sums, gathers and the layer weights are the same terms on both sides.

  * the three frames: the two kernel programs' are the generated frames; the reference's is its run with the
    results dropped;
  * `preserves`: the ideal pass rewrote nothing, the conjunct is `True`;
  * `algebraic`: the kernel program's run leaves each result buffer at the last boundary of its fold of buffer
    contents (`KRun.value_run`), which read back through the twelve calls and three host stretches is
    `Cert.Spec.result` of the arguments (`KFold.result_u` …); the reference's run read through its operations is
    the same function of its arguments (`RefValue.run_spec`); the arguments agree.
-/
import proofs.«179549_j31344671326263_2_alg».proof.Defs
import proofs.«179549_j31344671326263_2_alg».proof.Proof.Gen.Kernel
import proofs.«179549_j31344671326263_2_alg».proof.Proof.Gen.Kernel.Skeleton
import proofs.«179549_j31344671326263_2_alg».proof.Proof.Gen.Kernel.Launch
import proofs.«179549_j31344671326263_2_alg».proof.Proof.Gen.Kernel.Points
import proofs.«179549_j31344671326263_2_alg».proof.Proof.Gen.Kernel.Frame
import proofs.«179549_j31344671326263_2_alg».proof.Proof.Gen.KernelIdeal
import proofs.«179549_j31344671326263_2_alg».proof.Proof.Gen.KernelIdeal.Skeleton
import proofs.«179549_j31344671326263_2_alg».proof.Proof.Gen.KernelIdeal.Launch
import proofs.«179549_j31344671326263_2_alg».proof.Proof.Gen.KernelIdeal.Points
import proofs.«179549_j31344671326263_2_alg».proof.Proof.Gen.KernelIdeal.Frame
import proofs.«179549_j31344671326263_2_alg».proof.Proof.Gen.ReferenceIdeal
import proofs.«179549_j31344671326263_2_alg».proof.Proof.RunP
import proofs.«179549_j31344671326263_2_alg».proof.Proof.Gen.Pre_finite_inputs
import proofs.«179549_j31344671326263_2_alg».proof.Proof.KRun
import proofs.«179549_j31344671326263_2_alg».proof.Proof.KFold
import proofs.«179549_j31344671326263_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the four results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- Memories that agree on the arguments give the same edge vectors and the same tables. -/
theorem edges_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.RefValue.edges' m' c = Cert.KernelIdeal.KFold.edges m c
      ∧ Cert.ReferenceIdeal.RefValue.tabs' m' c = Cert.KernelIdeal.KFold.tabs m c := by
  obtain ⟨h0, h1, h2, h3, h4, h5, h6, h7, h8, h9, h10, h11, h12, h13, h14, h15, h16, h17, h18, h19⟩ := h
  unfold Cert.ReferenceIdeal.RefValue.edges' Cert.KernelIdeal.KFold.edges Cert.ReferenceIdeal.RefValue.tabs' Cert.KernelIdeal.KFold.tabs
  rw [h0, h1, h2, h3, h4, h5, h6, h7, h8, h9, h10, h11, h12, h13, h14, h15, h16, h17, h18, h19]
  exact ⟨rfl, rfl⟩

/-- Both programs end with `Cert.Spec.result` of the agreeing arguments in their result buffers. -/
theorem algebraic : Cert.algebraic_KernelIdeal_ReferenceIdeal := by
  intro m ρ m' ρ' _ hagree
  refine ⟨fun c => (Cert.Spec.result (Cert.KernelIdeal.KFold.edges m c) (Cert.KernelIdeal.KFold.tabs m c)).u,
    fun c => (Cert.Spec.result (Cert.KernelIdeal.KFold.edges m c) (Cert.KernelIdeal.KFold.tabs m c)).v,
    fun c => (Cert.Spec.result (Cert.KernelIdeal.KFold.edges m c) (Cert.KernelIdeal.KFold.tabs m c)).p,
    fun c => (Cert.Spec.result (Cert.KernelIdeal.KFold.edges m c) (Cert.KernelIdeal.KFold.tabs m c)).t, ?_, ?_⟩
  · exact (θ_run Cert.KernelIdeal.defs _ _).mono (fun r h c =>
      ⟨(h c).1.trans (Cert.KernelIdeal.KFold.result_u m ρ c),
       (h c).2.1.trans (Cert.KernelIdeal.KFold.result_v m ρ c),
       (h c).2.2.1.trans (Cert.KernelIdeal.KFold.result_p m ρ c),
       (h c).2.2.2.1.trans (Cert.KernelIdeal.KFold.result_t m ρ c),
       (h c).2.2.2.2⟩) (Cert.KernelIdeal.KRun.value_run (F := Ideal) m ρ)
  · refine (θ_run Cert.ReferenceIdeal.defs _ _).mono (fun r h c => ?_) (Cert.ReferenceIdeal.RefValue.run_spec m' ρ')
    obtain ⟨he, ht⟩ := edges_agree m m' c (hagree c)
    have h' := h c
    rw [he, ht] at h'
    exact h'

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
